-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v358)) (v1 : (c : Dev Cert.KernelIdeal.nD) → Buf (Elt Ideal) ((c.tc : Thread Cert.KernelIdeal.nD Cert.KernelIdeal.τ).loc Cert.KernelIdeal.main_v157)) (v2 : (c : Dev Cert.KernelIdeal.nD) → Buf (Elt Ideal) ((c.tc : Thread Cert.KernelIdeal.nD Cert.KernelIdeal.τ).loc Cert.KernelIdeal.main_v230)) (v3 : (c : Dev Cert.KernelIdeal.nD) → Buf (Elt Ideal) ((c.tc : Thread Cert.KernelIdeal.nD Cert.KernelIdeal.τ).loc Cert.KernelIdeal.main_v346)) (v4 : (c : Dev Cert.KernelIdeal.nD) → Buf (Elt Ideal) ((c.tc : Thread Cert.KernelIdeal.nD Cert.KernelIdeal.τ).loc Cert.KernelIdeal.main_v356)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v358) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v230) = v2 c
          ∧ r.2.mem ((c.tc : Thread Cert.KernelIdeal.nD Cert.KernelIdeal.τ).loc Cert.KernelIdeal.main_v346) = v3 c
          ∧ r.2.mem ((c.tc : Thread Cert.KernelIdeal.nD Cert.KernelIdeal.τ).loc Cert.KernelIdeal.main_v356) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v537) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_v309) = v2 c
          ∧ r.2.mem ((c.tc : Thread Cert.ReferenceIdeal.nD Cert.ReferenceIdeal.τ).loc Cert.ReferenceIdeal.main_v512) = v3 c
          ∧ r.2.mem ((c.tc : Thread Cert.ReferenceIdeal.nD Cert.ReferenceIdeal.τ).loc Cert.ReferenceIdeal.main_v523) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x128 : Shape := ⟨2, ![100000, 128]⟩
abbrev S5000x128 : Shape := ⟨2, ![5000, 128]⟩
abbrev S256x128 : Shape := ⟨2, ![256, 128]⟩
abbrev S128 : Shape := ⟨1, ![128]⟩
abbrev S2x4x128x128 : Shape := ⟨4, ![2, 4, 128, 128]⟩
abbrev S2x4x128 : Shape := ⟨3, ![2, 4, 128]⟩
abbrev S2x2x128x128 : Shape := ⟨4, ![2, 2, 128, 128]⟩
abbrev S2x2x128 : Shape := ⟨3, ![2, 2, 128]⟩
abbrev S3 : Shape := ⟨1, ![3]⟩
abbrev S2x1000000 : Shape := ⟨2, ![2, 1000000]⟩
abbrev S2x500000 : Shape := ⟨2, ![2, 500000]⟩
abbrev S2x250000 : Shape := ⟨2, ![2, 250000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S3 .f32) (main_v63 : IVec S_ 1) (main_v67 : IVec S_ 1) : IVec S_ 1 :=
  let main_v68 : IVec S_ 1 := andi main_v63 main_v67
  let main_v69 : FVec F S3 .f32 := Host.absf main_arg14
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg11 : FVec F S2x4x128x128 .f32) (main_arg12 : FVec F S2x4x128 .f32) (main_arg13 : FVec F S2x4x128x128 .f32) (main_arg14 : FVec F S3 .f32) (main_v48 : IVec S_ 1) (main_v49 : FVec F S2x2x128x128 .f32) (main_v50 : FVec F S2x2x128x128 .f32) : IVec S_ 1 :=
  let main_v51 : IVec S2x2x128x128 1 := cmpf .olt main_v49 main_v50
  let main_c_19 : IVec S_ 1 := constantI S_ 1 1#1
  let main_v52 : IVec S_ 1 := (fun x v => Host.reduce IntOp.andi x v reducesTo_S2x2x128x128_S_d0_1_2_3 h_S_) main_v51 main_c_19
  let main_v53 : IVec S_ 1 := andi main_v48 main_v52
  let main_v54 : FVec F S2x4x128x128 .f32 := Host.absf main_arg11
  let main_cst_20 : FVec F S_ .f32 := constant S_ .f32 0x7F800000#32
  let main_v55 : FVec F S2x4x128x128 .f32 := broadcastInDim S2x4x128x128 ![] bcast_S_S2x4x128x128 main_cst_20
  let main_v56 : IVec S2x4x128x128 1 := cmpf .olt main_v54 main_v55
  let main_c_21 : IVec S_ 1 := constantI S_ 1 1#1
  let main_v57 : IVec S_ 1 := (fun x v => Host.reduce IntOp.andi x v reducesTo_S2x4x128x128_S_d0_1_2_3 h_S_) main_v56 main_c_21
  let main_v58 : IVec S_ 1 := andi main_v53 main_v57
  let main_v59 : FVec F S2x4x128 .f32 := Host.absf main_arg12
  let main_cst_22 : FVec F S_ .f32 := constant S_ .f32 0x7F800000#32
  let main_v60 : FVec F S2x4x128 .f32 := broadcastInDim S2x4x128 ![] bcast_S_S2x4x128 main_cst_22
  let main_v61 : IVec S2x4x128 1 := cmpf .olt main_v59 main_v60
  let main_c_23 : IVec S_ 1 := constantI S_ 1 1#1
  let main_v62 : IVec S_ 1 := (fun x v => Host.reduce IntOp.andi x v reducesTo_S2x4x128_S_d0_1_2 h_S_) main_v61 main_c_23
  let main_v63 : IVec S_ 1 := andi main_v58 main_v62
  let main_v64 : FVec F S2x4x128x128 .f32 := Host.absf main_arg13
  let main_cst_24 : FVec F S_ .f32 := constant S_ .f32 0x7F800000#32
  let main_v65 : FVec F S2x4x128x128 .f32 := broadcastInDim S2x4x128x128 ![] bcast_S_S2x4x128x128 main_cst_24
  let main_v66 : IVec S2x4x128x128 1 := cmpf .olt main_v64 main_v65
  let main_c_25 : IVec S_ 1 := constantI S_ 1 1#1
  let main_v67 : IVec S_ 1 := (fun x v => Host.reduce IntOp.andi x v reducesTo_S2x4x128x128_S_d0_1_2_3 h_S_) main_v66 main_c_25
  fn_part4 (F := F) main_arg14 main_v63 main_v67

def fn_part2 {F : FTy → Type} [FloatOps F] (main_arg7 : FVec F S2x4x128x128 .f32) (main_arg8 : FVec F S2x2x128x128 .f32) (main_arg9 : FVec F S2x2x128 .f32) (main_arg10 : FVec F S2x2x128x128 .f32) (main_arg11 : FVec F S2x4x128x128 .f32) (main_arg12 : FVec F S2x4x128 .f32) (main_arg13 : FVec F S2x4x128x128 .f32) (main_arg14 : FVec F S3 .f32) (main_v33 : IVec S_ 1) : IVec S_ 1 :=
  let main_v34 : FVec F S2x4x128x128 .f32 := Host.absf main_arg7
  let main_cst_12 : FVec F S_ .f32 := constant S_ .f32 0x7F800000#32
  let main_v35 : FVec F S2x4x128x128 .f32 := broadcastInDim S2x4x128x128 ![] bcast_S_S2x4x128x128 main_cst_12
  let main_v36 : IVec S2x4x128x128 1 := cmpf .olt main_v34 main_v35
  let main_c_13 : IVec S_ 1 := constantI S_ 1 1#1
  let main_v37 : IVec S_ 1 := (fun x v => Host.reduce IntOp.andi x v reducesTo_S2x4x128x128_S_d0_1_2_3 h_S_) main_v36 main_c_13
  let main_v38 : IVec S_ 1 := andi main_v33 main_v37
  let main_v39 : FVec F S2x2x128x128 .f32 := Host.absf main_arg8
  let main_cst_14 : FVec F S_ .f32 := constant S_ .f32 0x7F800000#32
  let main_v40 : FVec F S2x2x128x128 .f32 := broadcastInDim S2x2x128x128 ![] bcast_S_S2x2x128x128 main_cst_14
  let main_v41 : IVec S2x2x128x128 1 := cmpf .olt main_v39 main_v40
  let main_c_15 : IVec S_ 1 := constantI S_ 1 1#1
  let main_v42 : IVec S_ 1 := (fun x v => Host.reduce IntOp.andi x v reducesTo_S2x2x128x128_S_d0_1_2_3 h_S_) main_v41 main_c_15
  let main_v43 : IVec S_ 1 := andi main_v38 main_v42
  let main_v44 : FVec F S2x2x128 .f32 := Host.absf main_arg9
  let main_cst_16 : FVec F S_ .f32 := constant S_ .f32 0x7F800000#32
  let main_v45 : FVec F S2x2x128 .f32 := broadcastInDim S2x2x128 ![] bcast_S_S2x2x128 main_cst_16
  let main_v46 : IVec S2x2x128 1 := cmpf .olt main_v44 main_v45
  let main_c_17 : IVec S_ 1 := constantI S_ 1 1#1
  let main_v47 : IVec S_ 1 := (fun x v => Host.reduce IntOp.andi x v reducesTo_S2x2x128_S_d0_1_2 h_S_) main_v46 main_c_17
  let main_v48 : IVec S_ 1 := andi main_v43 main_v47
  let main_v49 : FVec F S2x2x128x128 .f32 := Host.absf main_arg10
  let main_cst_18 : FVec F S_ .f32 := constant S_ .f32 0x7F800000#32
  let main_v50 : FVec F S2x2x128x128 .f32 := broadcastInDim S2x2x128x128 ![] bcast_S_S2x2x128x128 main_cst_18
  fn_part3 (F := F) main_arg11 main_arg12 main_arg13 main_arg14 main_v48 main_v49 main_v50

def fn_part1 {F : FTy → Type} [FloatOps F] (main_arg4 : FVec F S128 .f32) (main_arg5 : FVec F S2x4x128x128 .f32) (main_arg6 : FVec F S2x4x128 .f32) (main_arg7 : FVec F S2x4x128x128 .f32) (main_arg8 : FVec F S2x2x128x128 .f32) (main_arg9 : FVec F S2x2x128 .f32) (main_arg10 : FVec F S2x2x128x128 .f32) (main_arg11 : FVec F S2x4x128x128 .f32) (main_arg12 : FVec F S2x4x128 .f32) (main_arg13 : FVec F S2x4x128x128 .f32) (main_arg14 : FVec F S3 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x4x128x128 .f32 := Host.absf main_arg5
  let main_cst_8 : FVec F S_ .f32 := constant S_ .f32 0x7F800000#32
  let main_v25 : FVec F S2x4x128x128 .f32 := broadcastInDim S2x4x128x128 ![] bcast_S_S2x4x128x128 main_cst_8
  let main_v26 : IVec S2x4x128x128 1 := cmpf .olt main_v24 main_v25
  let main_c_9 : IVec S_ 1 := constantI S_ 1 1#1
  let main_v27 : IVec S_ 1 := (fun x v => Host.reduce IntOp.andi x v reducesTo_S2x4x128x128_S_d0_1_2_3 h_S_) main_v26 main_c_9
  let main_v28 : IVec S_ 1 := andi main_v23 main_v27
  let main_v29 : FVec F S2x4x128 .f32 := Host.absf main_arg6
  let main_cst_10 : FVec F S_ .f32 := constant S_ .f32 0x7F800000#32
  let main_v30 : FVec F S2x4x128 .f32 := broadcastInDim S2x4x128 ![] bcast_S_S2x4x128 main_cst_10
  let main_v31 : IVec S2x4x128 1 := cmpf .olt main_v29 main_v30
  let main_c_11 : IVec S_ 1 := constantI S_ 1 1#1
  let main_v32 : IVec S_ 1 := (fun x v => Host.reduce IntOp.andi x v reducesTo_S2x4x128_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x256 .f32) (main_arg1 : FVec F S100000x128 .f32) (main_arg2 : FVec F S5000x128 .f32) (main_arg3 : FVec F S256x128 .f32) (main_arg4 : FVec F S128 .f32) (main_arg5 : FVec F S2x4x128x128 .f32) (main_arg6 : FVec F S2x4x128 .f32) (main_arg7 : FVec F S2x4x128x128 .f32) (main_arg8 : FVec F S2x2x128x128 .f32) (main_arg9 : FVec F S2x2x128 .f32) (main_arg10 : FVec F S2x2x128x128 .f32) (main_arg11 : FVec F S2x4x128x128 .f32) (main_arg12 : FVec F S2x4x128 .f32) (main_arg13 : FVec F S2x4x128x128 .f32) (main_arg14 : FVec F S3 .f32) (main_arg15 : IVec S2x1000000 32) (main_arg16 : IVec S2x500000 32) (main_arg17 : IVec S2x250000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x256 : Shape := ⟨2, ![50000, 256]⟩
abbrev S100000x128 : Shape := ⟨2, ![100000, 128]⟩
abbrev S5000x128 : Shape := ⟨2, ![5000, 128]⟩
abbrev S256x128 : Shape := ⟨2, ![256, 128]⟩
abbrev S128 : Shape := ⟨1, ![128]⟩
abbrev S2x4x128x128 : Shape := ⟨4, ![2, 4, 128, 128]⟩
abbrev S2x4x128 : Shape := ⟨3, ![2, 4, 128]⟩
abbrev S2x2x128x128 : Shape := ⟨4, ![2, 2, 128, 128]⟩
abbrev S2x2x128 : Shape := ⟨3, ![2, 2, 128]⟩
abbrev S3 : Shape := ⟨1, ![3]⟩
abbrev S2x1000000 : Shape := ⟨2, ![2, 1000000]⟩
abbrev S2x500000 : Shape := ⟨2, ![2, 500000]⟩
abbrev S2x250000 : Shape := ⟨2, ![2, 250000]⟩
abbrev S1x128 : Shape := ⟨2, ![1, 128]⟩
abbrev S50000x128 : Shape := ⟨2, ![50000, 128]⟩
abbrev S10000x256 : Shape := ⟨2, ![10000, 256]⟩
abbrev S10000x128 : Shape := ⟨2, ![10000, 128]⟩
abbrev S1x1000000 : Shape := ⟨2, ![1, 1000000]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S100000 : Shape := ⟨1, ![100000]⟩
abbrev S100000x1 : Shape := ⟨2, ![100000, 1]⟩
abbrev S1x500000 : Shape := ⟨2, ![1, 500000]⟩
abbrev S500000 : Shape := ⟨1, ![500000]⟩
abbrev S500000x1 : Shape := ⟨2, ![500000, 1]⟩
abbrev S1x250000 : Shape := ⟨2, ![1, 250000]⟩
abbrev S250000 : Shape := ⟨1, ![250000]⟩
abbrev S5000 : Shape := ⟨1, ![5000]⟩
abbrev S250000x1 : Shape := ⟨2, ![250000, 1]⟩
abbrev S5000x1 : Shape := ⟨2, ![5000, 1]⟩
abbrev S1000000x128 : Shape := ⟨2, ![1000000, 128]⟩
abbrev S1x1x128x128 : Shape := ⟨4, ![1, 1, 128, 128]⟩
abbrev S128x128 : Shape := ⟨2, ![128, 128]⟩
abbrev S1x1x128 : Shape := ⟨3, ![1, 1, 128]⟩
abbrev S10000x1 : Shape := ⟨2, ![10000, 1]⟩
abbrev S500000x128 : Shape := ⟨2, ![500000, 128]⟩
abbrev S250000x128 : Shape := ⟨2, ![250000, 128]⟩
abbrev S1 : Shape := ⟨1, ![1]⟩
abbrev S1x3 : Shape := ⟨2, ![1, 3]⟩
abbrev S1x1 : Shape := ⟨2, ![1, 1]⟩

abbrev nBuf : Space → Nat
  | .hbm => 430
  | .vmem => 147
  | .smem => 0
  | _ => 0

abbrev hbmTy0_0 (i : Nat) : BufTy := match i % 128 with
  | 0 => ⟨S50000x256, .f32⟩
  | 1 => ⟨S100000x128, .f32⟩
  | 2 => ⟨S5000x128, .f32⟩
  | 3 => ⟨S256x128, .f32⟩
  | 4 => ⟨S128, .f32⟩
  | 5 => ⟨S2x4x128x128, .f32⟩
  | 6 => ⟨S2x4x128, .f32⟩
  | 7 => ⟨S2x4x128x128, .f32⟩
  | 8 => ⟨S2x2x128x128, .f32⟩
  | 9 => ⟨S2x2x128, .f32⟩
  | 10 => ⟨S2x2x128x128, .f32⟩
  | 11 => ⟨S2x4x128x128, .f32⟩
  | 12 => ⟨S2x4x128, .f32⟩
  | 13 => ⟨S2x4x128x128, .f32⟩
  | 14 => ⟨S3, .f32⟩
  | 15 => ⟨S2x1000000, .i32⟩
  | 16 => ⟨S2x500000, .i32⟩
  | 17 => ⟨S2x250000, .i32⟩
  | 18 => ⟨S1x128, .f32⟩
  | 19 => ⟨S50000x128, .f32⟩
  | 20 => ⟨S1x1000000, .i32⟩
  | 21 => ⟨S1000000, .i32⟩
  | 22 => ⟨S_, .f32⟩
  | 23 => ⟨S1000000, .f32⟩
  | 24 => ⟨S_, .f32⟩
  | 25 => ⟨S50000, .f32⟩
  | 26 => ⟨S1000000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S1x1000000, .i32⟩
  | 36 => ⟨S1000000, .i32⟩
  | 37 => ⟨S_, .f32⟩
  | 38 => ⟨S1000000, .f32⟩
  | 39 => ⟨S_, .f32⟩
  | 40 => ⟨S100000, .f32⟩
  | 41 => ⟨S1000000x1, .i32⟩
  | 42 => ⟨S100000, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .f32⟩
  | 49 => ⟨S100000x1, .f32⟩
  | 50 => ⟨S1x500000, .i32⟩
  | 51 => ⟨S500000, .i32⟩
  | 52 => ⟨S_, .f32⟩
  | 53 => ⟨S500000, .f32⟩
  | 54 => ⟨S_, .f32⟩
  | 55 => ⟨S50000, .f32⟩
  | 56 => ⟨S500000x1, .i32⟩
  | 57 => ⟨S50000, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .f32⟩
  | 64 => ⟨S50000x1, .f32⟩
  | 65 => ⟨S1x250000, .i32⟩
  | 66 => ⟨S250000, .i32⟩
  | 67 => ⟨S_, .f32⟩
  | 68 => ⟨S250000, .f32⟩
  | 69 => ⟨S_, .f32⟩
  | 70 => ⟨S5000, .f32⟩
  | 71 => ⟨S250000x1, .i32⟩
  | 72 => ⟨S5000, .f32⟩
  | 73 => ⟨S_, .f32⟩
  | 74 => ⟨S5000, .f32⟩
  | 75 => ⟨S5000, .f32⟩
  | 76 => ⟨S_, .f32⟩
  | 77 => ⟨S5000, .f32⟩
  | 78 => ⟨S5000, .f32⟩
  | 79 => ⟨S5000x1, .f32⟩
  | 80 => ⟨S1x250000, .i32⟩
  | 81 => ⟨S250000, .i32⟩
  | 82 => ⟨S_, .f32⟩
  | 83 => ⟨S250000, .f32⟩
  | 84 => ⟨S_, .f32⟩
  | 85 => ⟨S50000, .f32⟩
  | 86 => ⟨S250000x1, .i32⟩
  | 87 => ⟨S50000, .f32⟩
  | 88 => ⟨S_, .f32⟩
  | 89 => ⟨S50000, .f32⟩
  | 90 => ⟨S50000, .f32⟩
  | 91 => ⟨S_, .f32⟩
  | 92 => ⟨S50000, .f32⟩
  | 93 => ⟨S50000, .f32⟩
  | 94 => ⟨S50000x1, .f32⟩
  | 95 => ⟨S1x1000000, .i32⟩
  | 96 => ⟨S1000000, .i32⟩
  | 97 => ⟨S1x1000000, .i32⟩
  | 98 => ⟨S1000000, .i32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x128, .f32⟩
  | 108 => ⟨S_, .f32⟩
  | 109 => ⟨S50000x128, .f32⟩
  | 110 => ⟨S1000000x1, .i32⟩
  | 111 => ⟨S50000x128, .f32⟩
  | 112 => ⟨S1x1000000, .i32⟩
  | 113 => ⟨S1000000, .i32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x128, .f32⟩
  | 125 => ⟨S_, .f32⟩
  | 126 => ⟨S100000x128, .f32⟩
  | 127 => ⟨S1000000x1, .i32⟩
  | _ => ⟨S50000x256, .f32⟩

abbrev hbmTy0_1 (i : Nat) : BufTy := match i % 128 with
  | 0 => ⟨S100000x128, .f32⟩
  | 1 => ⟨S1x1x128x128, .f32⟩
  | 2 => ⟨S128x128, .f32⟩
  | 3 => ⟨S1x1x128, .f32⟩
  | 4 => ⟨S128, .f32⟩
  | 5 => ⟨S1x1x128x128, .f32⟩
  | 6 => ⟨S128x128, .f32⟩
  | 7 => ⟨S1x1x128x128, .f32⟩
  | 8 => ⟨S128x128, .f32⟩
  | 9 => ⟨S1x1x128, .f32⟩
  | 10 => ⟨S128, .f32⟩
  | 11 => ⟨S1x1x128x128, .f32⟩
  | 12 => ⟨S128x128, .f32⟩
  | 13 => ⟨S1x128, .f32⟩
  | 14 => ⟨S1x128, .f32⟩
  | 15 => ⟨S50000x128, .f32⟩
  | 16 => ⟨S1x1x128x128, .f32⟩
  | 17 => ⟨S128x128, .f32⟩
  | 18 => ⟨S1x1x128, .f32⟩
  | 19 => ⟨S128, .f32⟩
  | 20 => ⟨S1x1x128x128, .f32⟩
  | 21 => ⟨S128x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x128, .f32⟩
  | 29 => ⟨S1x128, .f32⟩
  | 30 => ⟨S100000x128, .f32⟩
  | 31 => ⟨S1x1000000, .i32⟩
  | 32 => ⟨S1000000, .i32⟩
  | 33 => ⟨S1x1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x128, .f32⟩
  | 44 => ⟨S_, .f32⟩
  | 45 => ⟨S50000x128, .f32⟩
  | 46 => ⟨S1000000x1, .i32⟩
  | 47 => ⟨S50000x128, .f32⟩
  | 48 => ⟨S1x1000000, .i32⟩
  | 49 => ⟨S1000000, .i32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x128, .f32⟩
  | 61 => ⟨S_, .f32⟩
  | 62 => ⟨S100000x128, .f32⟩
  | 63 => ⟨S1000000x1, .i32⟩
  | 64 => ⟨S100000x128, .f32⟩
  | 65 => ⟨S1x1x128x128, .f32⟩
  | 66 => ⟨S128x128, .f32⟩
  | 67 => ⟨S1x1x128, .f32⟩
  | 68 => ⟨S128, .f32⟩
  | 69 => ⟨S1x1x128x128, .f32⟩
  | 70 => ⟨S128x128, .f32⟩
  | 71 => ⟨S1x1x128x128, .f32⟩
  | 72 => ⟨S128x128, .f32⟩
  | 73 => ⟨S1x1x128, .f32⟩
  | 74 => ⟨S128, .f32⟩
  | 75 => ⟨S1x1x128x128, .f32⟩
  | 76 => ⟨S128x128, .f32⟩
  | 77 => ⟨S1x128, .f32⟩
  | 78 => ⟨S1x128, .f32⟩
  | 79 => ⟨S50000x128, .f32⟩
  | 80 => ⟨S1x1x128x128, .f32⟩
  | 81 => ⟨S128x128, .f32⟩
  | 82 => ⟨S1x1x128, .f32⟩
  | 83 => ⟨S128, .f32⟩
  | 84 => ⟨S1x1x128x128, .f32⟩
  | 85 => ⟨S128x128, .f32⟩
  | 86 => ⟨S1x1x128x128, .f32⟩
  | 87 => ⟨S128x128, .f32⟩
  | 88 => ⟨S1x1x128, .f32⟩
  | 89 => ⟨S128, .f32⟩
  | 90 => ⟨S1x1x128x128, .f32⟩
  | 91 => ⟨S128x128, .f32⟩
  | 92 => ⟨S1x128, .f32⟩
  | 93 => ⟨S1x128, .f32⟩
  | 94 => ⟨S100000x128, .f32⟩
  | 95 => ⟨S1x500000, .i32⟩
  | 96 => ⟨S500000, .i32⟩
  | 97 => ⟨S1x500000, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S_, .f32⟩
  | 109 => ⟨S50000x128, .f32⟩
  | 110 => ⟨S500000x1, .i32⟩
  | 111 => ⟨S50000x128, .f32⟩
  | 112 => ⟨S1x1x128x128, .f32⟩
  | 113 => ⟨S128x128, .f32⟩
  | 114 => ⟨S1x1x128, .f32⟩
  | 115 => ⟨S128, .f32⟩
  | 116 => ⟨S1x1x128x128, .f32⟩
  | 117 => ⟨S128x128, .f32⟩
  | 118 => ⟨S1x1x128x128, .f32⟩
  | 119 => ⟨S128x128, .f32⟩
  | 120 => ⟨S1x1x128, .f32⟩
  | 121 => ⟨S128, .f32⟩
  | 122 => ⟨S1x1x128x128, .f32⟩
  | 123 => ⟨S128x128, .f32⟩
  | 124 => ⟨S1x128, .f32⟩
  | 125 => ⟨S1x128, .f32⟩
  | 126 => ⟨S50000x128, .f32⟩
  | 127 => ⟨S1x500000, .i32⟩
  | _ => ⟨S50000x256, .f32⟩

abbrev hbmTy0_2 (i : Nat) : BufTy := match i % 128 with
  | 0 => ⟨S500000, .i32⟩
  | 1 => ⟨S1x500000, .i32⟩
  | 2 => ⟨S500000, .i32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x128, .f32⟩
  | 12 => ⟨S_, .f32⟩
  | 13 => ⟨S50000x128, .f32⟩
  | 14 => ⟨S500000x1, .i32⟩
  | 15 => ⟨S50000x128, .f32⟩
  | 16 => ⟨S1x1x128x128, .f32⟩
  | 17 => ⟨S128x128, .f32⟩
  | 18 => ⟨S1x1x128, .f32⟩
  | 19 => ⟨S128, .f32⟩
  | 20 => ⟨S1x1x128x128, .f32⟩
  | 21 => ⟨S128x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x128, .f32⟩
  | 29 => ⟨S1x128, .f32⟩
  | 30 => ⟨S50000x128, .f32⟩
  | 31 => ⟨S1x250000, .i32⟩
  | 32 => ⟨S250000, .i32⟩
  | 33 => ⟨S1x250000, .i32⟩
  | 34 => ⟨S250000, .i32⟩
  | 35 => ⟨S_, .i32⟩
  | 36 => ⟨S250000, .i32⟩
  | 37 => ⟨S250000, .i1⟩
  | 38 => ⟨S_, .i32⟩
  | 39 => ⟨S250000, .i32⟩
  | 40 => ⟨S250000, .i32⟩
  | 41 => ⟨S250000, .i32⟩
  | 42 => ⟨S250000x1, .i32⟩
  | 43 => ⟨S250000x128, .f32⟩
  | 44 => ⟨S_, .f32⟩
  | 45 => ⟨S5000x128, .f32⟩
  | 46 => ⟨S250000x1, .i32⟩
  | 47 => ⟨S5000x128, .f32⟩
  | 48 => ⟨S1x250000, .i32⟩
  | 49 => ⟨S250000, .i32⟩
  | 50 => ⟨S1x250000, .i32⟩
  | 51 => ⟨S250000, .i32⟩
  | 52 => ⟨S_, .i32⟩
  | 53 => ⟨S250000, .i32⟩
  | 54 => ⟨S250000, .i1⟩
  | 55 => ⟨S_, .i32⟩
  | 56 => ⟨S250000, .i32⟩
  | 57 => ⟨S250000, .i32⟩
  | 58 => ⟨S250000, .i32⟩
  | 59 => ⟨S250000x1, .i32⟩
  | 60 => ⟨S250000x128, .f32⟩
  | 61 => ⟨S_, .f32⟩
  | 62 => ⟨S50000x128, .f32⟩
  | 63 => ⟨S250000x1, .i32⟩
  | 64 => ⟨S50000x128, .f32⟩
  | 65 => ⟨S1x1x128x128, .f32⟩
  | 66 => ⟨S128x128, .f32⟩
  | 67 => ⟨S1x1x128, .f32⟩
  | 68 => ⟨S128, .f32⟩
  | 69 => ⟨S1x1x128x128, .f32⟩
  | 70 => ⟨S128x128, .f32⟩
  | 71 => ⟨S1x1x128x128, .f32⟩
  | 72 => ⟨S128x128, .f32⟩
  | 73 => ⟨S1x1x128, .f32⟩
  | 74 => ⟨S128, .f32⟩
  | 75 => ⟨S1x1x128x128, .f32⟩
  | 76 => ⟨S128x128, .f32⟩
  | 77 => ⟨S1x128, .f32⟩
  | 78 => ⟨S1x128, .f32⟩
  | 79 => ⟨S5000x128, .f32⟩
  | 80 => ⟨S1x1x128x128, .f32⟩
  | 81 => ⟨S128x128, .f32⟩
  | 82 => ⟨S1x1x128, .f32⟩
  | 83 => ⟨S128, .f32⟩
  | 84 => ⟨S1x1x128x128, .f32⟩
  | 85 => ⟨S128x128, .f32⟩
  | 86 => ⟨S1x1x128x128, .f32⟩
  | 87 => ⟨S128x128, .f32⟩
  | 88 => ⟨S1x1x128, .f32⟩
  | 89 => ⟨S128, .f32⟩
  | 90 => ⟨S1x1x128x128, .f32⟩
  | 91 => ⟨S128x128, .f32⟩
  | 92 => ⟨S1x128, .f32⟩
  | 93 => ⟨S1x128, .f32⟩
  | 94 => ⟨S50000x128, .f32⟩
  | 95 => ⟨S1x250000, .i32⟩
  | 96 => ⟨S250000, .i32⟩
  | 97 => ⟨S1x250000, .i32⟩
  | 98 => ⟨S250000, .i32⟩
  | 99 => ⟨S_, .i32⟩
  | 100 => ⟨S250000, .i32⟩
  | 101 => ⟨S250000, .i1⟩
  | 102 => ⟨S_, .i32⟩
  | 103 => ⟨S250000, .i32⟩
  | 104 => ⟨S250000, .i32⟩
  | 105 => ⟨S250000, .i32⟩
  | 106 => ⟨S250000x1, .i32⟩
  | 107 => ⟨S250000x128, .f32⟩
  | 108 => ⟨S_, .f32⟩
  | 109 => ⟨S5000x128, .f32⟩
  | 110 => ⟨S250000x1, .i32⟩
  | 111 => ⟨S5000x128, .f32⟩
  | 112 => ⟨S1x250000, .i32⟩
  | 113 => ⟨S250000, .i32⟩
  | 114 => ⟨S1x250000, .i32⟩
  | 115 => ⟨S250000, .i32⟩
  | 116 => ⟨S_, .i32⟩
  | 117 => ⟨S250000, .i32⟩
  | 118 => ⟨S250000, .i1⟩
  | 119 => ⟨S_, .i32⟩
  | 120 => ⟨S250000, .i32⟩
  | 121 => ⟨S250000, .i32⟩
  | 122 => ⟨S250000, .i32⟩
  | 123 => ⟨S250000x1, .i32⟩
  | 124 => ⟨S250000x128, .f32⟩
  | 125 => ⟨S_, .f32⟩
  | 126 => ⟨S50000x128, .f32⟩
  | 127 => ⟨S250000x1, .i32⟩
  | _ => ⟨S50000x256, .f32⟩

abbrev hbmTy0_3 (i : Nat) : BufTy := match i % 128 with
  | 0 => ⟨S50000x128, .f32⟩
  | 1 => ⟨S1x1x128x128, .f32⟩
  | 2 => ⟨S128x128, .f32⟩
  | 3 => ⟨S1x1x128, .f32⟩
  | 4 => ⟨S128, .f32⟩
  | 5 => ⟨S1x1x128x128, .f32⟩
  | 6 => ⟨S128x128, .f32⟩
  | 7 => ⟨S1x1x128x128, .f32⟩
  | 8 => ⟨S128x128, .f32⟩
  | 9 => ⟨S1x1x128, .f32⟩
  | 10 => ⟨S128, .f32⟩
  | 11 => ⟨S1x1x128x128, .f32⟩
  | 12 => ⟨S128x128, .f32⟩
  | 13 => ⟨S1x128, .f32⟩
  | 14 => ⟨S1x128, .f32⟩
  | 15 => ⟨S5000x128, .f32⟩
  | 16 => ⟨S1x1x128x128, .f32⟩
  | 17 => ⟨S128x128, .f32⟩
  | 18 => ⟨S1x1x128, .f32⟩
  | 19 => ⟨S128, .f32⟩
  | 20 => ⟨S1x1x128x128, .f32⟩
  | 21 => ⟨S128x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x128, .f32⟩
  | 29 => ⟨S1x128, .f32⟩
  | 30 => ⟨S50000x128, .f32⟩
  | 31 => ⟨S_, .f32⟩
  | 32 => ⟨S_, .f32⟩
  | 33 => ⟨S_, .f32⟩
  | 34 => ⟨S_, .f32⟩
  | 35 => ⟨S1, .f32⟩
  | 36 => ⟨S3, .f32⟩
  | 37 => ⟨S3, .f32⟩
  | 38 => ⟨S3, .f32⟩
  | 39 => ⟨S_, .f32⟩
  | 40 => ⟨S_, .f32⟩
  | 41 => ⟨S1, .f32⟩
  | 42 => ⟨S3, .f32⟩
  | 43 => ⟨S3, .f32⟩
  | 44 => ⟨S1x3, .f32⟩
  | 45 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev vmemTy0_0 (i : Nat) : BufTy := match i % 128 with
  | 0 => ⟨S10000x256, .f32⟩
  | 1 => ⟨S10000x256, .f32⟩
  | 2 => ⟨S256x128, .f32⟩
  | 3 => ⟨S1x128, .f32⟩
  | 4 => ⟨S10000x128, .f32⟩
  | 5 => ⟨S10000x128, .f32⟩
  | 6 => ⟨S10000x128, .f32⟩
  | 7 => ⟨S10000x128, .f32⟩
  | 8 => ⟨S10000x1, .f32⟩
  | 9 => ⟨S10000x1, .f32⟩
  | 10 => ⟨S10000x128, .f32⟩
  | 11 => ⟨S10000x128, .f32⟩
  | 12 => ⟨S128x128, .f32⟩
  | 13 => ⟨S1x128, .f32⟩
  | 14 => ⟨S128x128, .f32⟩
  | 15 => ⟨S128x128, .f32⟩
  | 16 => ⟨S1x128, .f32⟩
  | 17 => ⟨S128x128, .f32⟩
  | 18 => ⟨S10000x128, .f32⟩
  | 19 => ⟨S10000x128, .f32⟩
  | 20 => ⟨S10000x128, .f32⟩
  | 21 => ⟨S10000x128, .f32⟩
  | 22 => ⟨S10000x1, .f32⟩
  | 23 => ⟨S10000x1, .f32⟩
  | 24 => ⟨S10000x128, .f32⟩
  | 25 => ⟨S10000x128, .f32⟩
  | 26 => ⟨S128x128, .f32⟩
  | 27 => ⟨S1x128, .f32⟩
  | 28 => ⟨S128x128, .f32⟩
  | 29 => ⟨S128x128, .f32⟩
  | 30 => ⟨S1x128, .f32⟩
  | 31 => ⟨S128x128, .f32⟩
  | 32 => ⟨S10000x128, .f32⟩
  | 33 => ⟨S10000x128, .f32⟩
  | 34 => ⟨S10000x128, .f32⟩
  | 35 => ⟨S10000x128, .f32⟩
  | 36 => ⟨S10000x1, .f32⟩
  | 37 => ⟨S10000x1, .f32⟩
  | 38 => ⟨S10000x128, .f32⟩
  | 39 => ⟨S10000x128, .f32⟩
  | 40 => ⟨S128x128, .f32⟩
  | 41 => ⟨S1x128, .f32⟩
  | 42 => ⟨S128x128, .f32⟩
  | 43 => ⟨S128x128, .f32⟩
  | 44 => ⟨S1x128, .f32⟩
  | 45 => ⟨S128x128, .f32⟩
  | 46 => ⟨S10000x128, .f32⟩
  | 47 => ⟨S10000x128, .f32⟩
  | 48 => ⟨S10000x128, .f32⟩
  | 49 => ⟨S10000x128, .f32⟩
  | 50 => ⟨S10000x1, .f32⟩
  | 51 => ⟨S10000x1, .f32⟩
  | 52 => ⟨S10000x128, .f32⟩
  | 53 => ⟨S10000x128, .f32⟩
  | 54 => ⟨S128x128, .f32⟩
  | 55 => ⟨S1x128, .f32⟩
  | 56 => ⟨S128x128, .f32⟩
  | 57 => ⟨S128x128, .f32⟩
  | 58 => ⟨S1x128, .f32⟩
  | 59 => ⟨S128x128, .f32⟩
  | 60 => ⟨S10000x128, .f32⟩
  | 61 => ⟨S10000x128, .f32⟩
  | 62 => ⟨S10000x128, .f32⟩
  | 63 => ⟨S10000x128, .f32⟩
  | 64 => ⟨S10000x1, .f32⟩
  | 65 => ⟨S10000x1, .f32⟩
  | 66 => ⟨S10000x128, .f32⟩
  | 67 => ⟨S10000x128, .f32⟩
  | 68 => ⟨S128x128, .f32⟩
  | 69 => ⟨S1x128, .f32⟩
  | 70 => ⟨S128x128, .f32⟩
  | 71 => ⟨S128x128, .f32⟩
  | 72 => ⟨S1x128, .f32⟩
  | 73 => ⟨S128x128, .f32⟩
  | 74 => ⟨S10000x128, .f32⟩
  | 75 => ⟨S10000x128, .f32⟩
  | 76 => ⟨S10000x128, .f32⟩
  | 77 => ⟨S10000x128, .f32⟩
  | 78 => ⟨S10000x1, .f32⟩
  | 79 => ⟨S10000x1, .f32⟩
  | 80 => ⟨S10000x128, .f32⟩
  | 81 => ⟨S10000x128, .f32⟩
  | 82 => ⟨S128x128, .f32⟩
  | 83 => ⟨S1x128, .f32⟩
  | 84 => ⟨S128x128, .f32⟩
  | 85 => ⟨S128x128, .f32⟩
  | 86 => ⟨S1x128, .f32⟩
  | 87 => ⟨S128x128, .f32⟩
  | 88 => ⟨S10000x128, .f32⟩
  | 89 => ⟨S10000x128, .f32⟩
  | 90 => ⟨S5000x128, .f32⟩
  | 91 => ⟨S5000x1, .f32⟩
  | 92 => ⟨S5000x128, .f32⟩
  | 93 => ⟨S128x128, .f32⟩
  | 94 => ⟨S1x128, .f32⟩
  | 95 => ⟨S128x128, .f32⟩
  | 96 => ⟨S128x128, .f32⟩
  | 97 => ⟨S1x128, .f32⟩
  | 98 => ⟨S128x128, .f32⟩
  | 99 => ⟨S5000x128, .f32⟩
  | 100 => ⟨S10000x128, .f32⟩
  | 101 => ⟨S10000x128, .f32⟩
  | 102 => ⟨S10000x1, .f32⟩
  | 103 => ⟨S10000x1, .f32⟩
  | 104 => ⟨S10000x128, .f32⟩
  | 105 => ⟨S10000x128, .f32⟩
  | 106 => ⟨S128x128, .f32⟩
  | 107 => ⟨S1x128, .f32⟩
  | 108 => ⟨S128x128, .f32⟩
  | 109 => ⟨S128x128, .f32⟩
  | 110 => ⟨S1x128, .f32⟩
  | 111 => ⟨S128x128, .f32⟩
  | 112 => ⟨S10000x128, .f32⟩
  | 113 => ⟨S10000x128, .f32⟩
  | 114 => ⟨S5000x128, .f32⟩
  | 115 => ⟨S5000x1, .f32⟩
  | 116 => ⟨S5000x128, .f32⟩
  | 117 => ⟨S128x128, .f32⟩
  | 118 => ⟨S1x128, .f32⟩
  | 119 => ⟨S128x128, .f32⟩
  | 120 => ⟨S128x128, .f32⟩
  | 121 => ⟨S1x128, .f32⟩
  | 122 => ⟨S128x128, .f32⟩
  | 123 => ⟨S5000x128, .f32⟩
  | 124 => ⟨S10000x128, .f32⟩
  | 125 => ⟨S10000x128, .f32⟩
  | 126 => ⟨S10000x1, .f32⟩
  | 127 => ⟨S10000x1, .f32⟩
  | _ => ⟨S50000x256, .f32⟩

abbrev vmemTy0_1 (i : Nat) : BufTy := match i % 128 with
  | 0 => ⟨S10000x128, .f32⟩
  | 1 => ⟨S10000x128, .f32⟩
  | 2 => ⟨S128x128, .f32⟩
  | 3 => ⟨S1x128, .f32⟩
  | 4 => ⟨S128x128, .f32⟩
  | 5 => ⟨S128x128, .f32⟩
  | 6 => ⟨S1x128, .f32⟩
  | 7 => ⟨S128x128, .f32⟩
  | 8 => ⟨S10000x128, .f32⟩
  | 9 => ⟨S10000x128, .f32⟩
  | 10 => ⟨S1x3, .f32⟩
  | 11 => ⟨S10000x128, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S10000x128, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 147 → Bool
  | ⟨i, _⟩ => dmaSemScopedAt i

abbrev sig : RefSig :=
  ofTc nBuf bufTy 0 147 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_13 : Ref sig .tc := ⟨.hbm, 73, rfl⟩
abbrev main_v41 : Ref sig .tc := ⟨.hbm, 74, rfl⟩
abbrev main_v42 : Ref sig .tc := ⟨.hbm, 75, rfl⟩
abbrev main_cst_14 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_cst_16 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_17 : Ref sig .tc := ⟨.hbm, 88, rfl⟩
abbrev main_v52 : Ref sig .tc := ⟨.hbm, 89, rfl⟩
abbrev main_v53 : Ref sig .tc := ⟨.hbm, 90, rfl⟩
abbrev main_cst_18 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c : Ref sig .tc := ⟨.hbm, 99, rfl⟩
abbrev main_v61 : Ref sig .tc := ⟨.hbm, 100, rfl⟩
abbrev main_v62 : Ref sig .tc := ⟨.hbm, 101, rfl⟩
abbrev main_c_19 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_21 : Ref sig .tc := ⟨.hbm, 116, rfl⟩
abbrev main_v75 : Ref sig .tc := ⟨.hbm, 117, rfl⟩
abbrev main_v76 : Ref sig .tc := ⟨.hbm, 118, rfl⟩
abbrev main_c_22 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_23 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_24 : Ref sig .tc := ⟨.hbm, 163, rfl⟩
abbrev main_v119 : Ref sig .tc := ⟨.hbm, 164, rfl⟩
abbrev main_v120 : Ref sig .tc := ⟨.hbm, 165, rfl⟩
abbrev main_c_25 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_26 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_27 : Ref sig .tc := ⟨.hbm, 180, rfl⟩
abbrev main_v133 : Ref sig .tc := ⟨.hbm, 181, rfl⟩
abbrev main_v134 : Ref sig .tc := ⟨.hbm, 182, rfl⟩
abbrev main_c_28 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_29 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_c_30 : Ref sig .tc := ⟨.hbm, 227, rfl⟩
abbrev main_v177 : Ref sig .tc := ⟨.hbm, 228, rfl⟩
abbrev main_v178 : Ref sig .tc := ⟨.hbm, 229, rfl⟩
abbrev main_c_31 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_32 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_c_33 : Ref sig .tc := ⟨.hbm, 259, rfl⟩
abbrev main_v206 : Ref sig .tc := ⟨.hbm, 260, rfl⟩
abbrev main_v207 : Ref sig .tc := ⟨.hbm, 261, rfl⟩
abbrev main_c_34 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_35 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_c_36 : Ref sig .tc := ⟨.hbm, 291, rfl⟩
abbrev main_v235 : Ref sig .tc := ⟨.hbm, 292, rfl⟩
abbrev main_v236 : Ref sig .tc := ⟨.hbm, 293, rfl⟩
abbrev main_c_37 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_cst_38 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_c_39 : Ref sig .tc := ⟨.hbm, 308, rfl⟩
abbrev main_v249 : Ref sig .tc := ⟨.hbm, 309, rfl⟩
abbrev main_v250 : Ref sig .tc := ⟨.hbm, 310, rfl⟩
abbrev main_c_40 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_cst_41 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_c_42 : Ref sig .tc := ⟨.hbm, 355, rfl⟩
abbrev main_v293 : Ref sig .tc := ⟨.hbm, 356, rfl⟩
abbrev main_v294 : Ref sig .tc := ⟨.hbm, 357, rfl⟩
abbrev main_c_43 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_cst_44 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_c_45 : Ref sig .tc := ⟨.hbm, 372, rfl⟩
abbrev main_v307 : Ref sig .tc := ⟨.hbm, 373, rfl⟩
abbrev main_v308 : Ref sig .tc := ⟨.hbm, 374, rfl⟩
abbrev main_c_46 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_cst_47 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_cst_48 : Ref sig .tc := ⟨.hbm, 415, rfl⟩
abbrev main_v347 : Ref sig .tc := ⟨.hbm, 416, rfl⟩
abbrev main_cst_49 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_cst_50 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg6_0 : Ref sig .tc := ⟨.vmem, 71, rfl⟩
abbrev cc5_stg7_0 : Ref sig .tc := ⟨.vmem, 72, rfl⟩
abbrev cc5_stg8_0 : Ref sig .tc := ⟨.vmem, 73, rfl⟩
abbrev cc5_stg9_0 : Ref sig .tc := ⟨.vmem, 74, rfl⟩
abbrev cc5_stg9_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg4_0 : Ref sig .tc := ⟨.vmem, 83, rfl⟩
abbrev cc6_stg5_0 : Ref sig .tc := ⟨.vmem, 84, rfl⟩
abbrev cc6_stg6_0 : Ref sig .tc := ⟨.vmem, 85, rfl⟩
abbrev cc6_stg7_0 : Ref sig .tc := ⟨.vmem, 86, rfl⟩
abbrev cc6_stg8_0 : Ref sig .tc := ⟨.vmem, 87, rfl⟩
abbrev cc6_stg9_0 : Ref sig .tc := ⟨.vmem, 88, rfl⟩
abbrev cc6_stg9_1 : Ref sig .tc := ⟨.vmem, 89, rfl⟩
abbrev cc7_stg0_0 : Ref sig .tc := ⟨.vmem, 90, rfl⟩
abbrev cc7_stg1_0 : Ref sig .tc := ⟨.vmem, 91, rfl⟩
abbrev cc7_stg2_0 : Ref sig .tc := ⟨.vmem, 92, rfl⟩
abbrev cc7_stg3_0 : Ref sig .tc := ⟨.vmem, 93, rfl⟩
abbrev cc7_stg4_0 : Ref sig .tc := ⟨.vmem, 94, rfl⟩
abbrev cc7_stg5_0 : Ref sig .tc := ⟨.vmem, 95, rfl⟩
abbrev cc7_stg6_0 : Ref sig .tc := ⟨.vmem, 96, rfl⟩
abbrev cc7_stg7_0 : Ref sig .tc := ⟨.vmem, 97, rfl⟩
abbrev cc7_stg8_0 : Ref sig .tc := ⟨.vmem, 98, rfl⟩
abbrev cc7_stg9_0 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg2_1 : Ref sig .tc := ⟨.vmem, 105, rfl⟩
abbrev cc8_stg3_0 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg6_0 : Ref sig .tc := ⟨.vmem, 109, rfl⟩
abbrev cc8_stg7_0 : Ref sig .tc := ⟨.vmem, 110, rfl⟩
abbrev cc8_stg8_0 : Ref sig .tc := ⟨.vmem, 111, rfl⟩
abbrev cc8_stg9_0 : Ref sig .tc := ⟨.vmem, 112, rfl⟩
abbrev cc8_stg9_1 : Ref sig .tc := ⟨.vmem, 113, rfl⟩
abbrev cc9_stg0_0 : Ref sig .tc := ⟨.vmem, 114, rfl⟩
abbrev cc9_stg1_0 : Ref sig .tc := ⟨.vmem, 115, rfl⟩
abbrev cc9_stg2_0 : Ref sig .tc := ⟨.vmem, 116, rfl⟩
abbrev cc9_stg3_0 : Ref sig .tc := ⟨.vmem, 117, rfl⟩
abbrev cc9_stg4_0 : Ref sig .tc := ⟨.vmem, 118, rfl⟩
abbrev cc9_stg5_0 : Ref sig .tc := ⟨.vmem, 119, rfl⟩
abbrev cc9_stg6_0 : Ref sig .tc := ⟨.vmem, 120, rfl⟩
abbrev cc9_stg7_0 : Ref sig .tc := ⟨.vmem, 121, rfl⟩
abbrev cc9_stg8_0 : Ref sig .tc := ⟨.vmem, 122, rfl⟩
abbrev cc9_stg9_0 : Ref sig .tc := ⟨.vmem, 123, rfl⟩
abbrev cc10_stg0_0 : Ref sig .tc := ⟨.vmem, 124, rfl⟩
abbrev cc10_stg0_1 : Ref sig .tc := ⟨.vmem, 125, rfl⟩
abbrev cc10_stg1_0 : Ref sig .tc := ⟨.vmem, 126, rfl⟩
abbrev cc10_stg1_1 : Ref sig .tc := ⟨.vmem, 127, rfl⟩
abbrev cc10_stg2_0 : Ref sig .tc := ⟨.vmem, 128, rfl⟩
abbrev cc10_stg2_1 : Ref sig .tc := ⟨.vmem, 129, rfl⟩
abbrev cc10_stg3_0 : Ref sig .tc := ⟨.vmem, 130, rfl⟩
abbrev cc10_stg4_0 : Ref sig .tc := ⟨.vmem, 131, rfl⟩
abbrev cc10_stg5_0 : Ref sig .tc := ⟨.vmem, 132, rfl⟩
abbrev cc10_stg6_0 : Ref sig .tc := ⟨.vmem, 133, rfl⟩
abbrev cc10_stg7_0 : Ref sig .tc := ⟨.vmem, 134, rfl⟩
abbrev cc10_stg8_0 : Ref sig .tc := ⟨.vmem, 135, rfl⟩
abbrev cc10_stg9_0 : Ref sig .tc := ⟨.vmem, 136, rfl⟩
abbrev cc10_stg9_1 : Ref sig .tc := ⟨.vmem, 137, rfl⟩
abbrev cc11_stg0_0 : Ref sig .tc := ⟨.vmem, 138, rfl⟩
abbrev cc11_stg1_0 : Ref sig .tc := ⟨.vmem, 139, rfl⟩
abbrev cc11_stg1_1 : Ref sig .tc := ⟨.vmem, 140, rfl⟩
abbrev cc11_stg2_0 : Ref sig .tc := ⟨.vmem, 141, rfl⟩
abbrev cc11_stg2_1 : Ref sig .tc := ⟨.vmem, 142, rfl⟩
abbrev cc11_stg3_0 : Ref sig .tc := ⟨.vmem, 143, rfl⟩
abbrev cc11_stg3_1 : Ref sig .tc := ⟨.vmem, 144, rfl⟩
abbrev cc11_stg4_0 : Ref sig .tc := ⟨.vmem, 145, rfl⟩
abbrev cc11_stg4_1 : Ref sig .tc := ⟨.vmem, 146, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem4_0 : DmaSem sig := 69
abbrev cc5_sem5_0 : DmaSem sig := 70
abbrev cc5_sem6_0 : DmaSem sig := 71
abbrev cc5_sem7_0 : DmaSem sig := 72
abbrev cc5_sem8_0 : DmaSem sig := 73
abbrev cc5_sem9_0 : DmaSem sig := 74
abbrev cc5_sem9_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc6_sem3_0 : DmaSem sig := 82
abbrev cc6_sem4_0 : DmaSem sig := 83
abbrev cc6_sem5_0 : DmaSem sig := 84
abbrev cc6_sem6_0 : DmaSem sig := 85
abbrev cc6_sem7_0 : DmaSem sig := 86
abbrev cc6_sem8_0 : DmaSem sig := 87
abbrev cc6_sem9_0 : DmaSem sig := 88
abbrev cc6_sem9_1 : DmaSem sig := 89
abbrev cc7_sem0_0 : DmaSem sig := 90
abbrev cc7_sem1_0 : DmaSem sig := 91
abbrev cc7_sem2_0 : DmaSem sig := 92
abbrev cc7_sem3_0 : DmaSem sig := 93
abbrev cc7_sem4_0 : DmaSem sig := 94
abbrev cc7_sem5_0 : DmaSem sig := 95
abbrev cc7_sem6_0 : DmaSem sig := 96
abbrev cc7_sem7_0 : DmaSem sig := 97
abbrev cc7_sem8_0 : DmaSem sig := 98
abbrev cc7_sem9_0 : DmaSem sig := 99
abbrev cc8_sem0_0 : DmaSem sig := 100
abbrev cc8_sem0_1 : DmaSem sig := 101
abbrev cc8_sem1_0 : DmaSem sig := 102
abbrev cc8_sem1_1 : DmaSem sig := 103
abbrev cc8_sem2_0 : DmaSem sig := 104
abbrev cc8_sem2_1 : DmaSem sig := 105
abbrev cc8_sem3_0 : DmaSem sig := 106
abbrev cc8_sem4_0 : DmaSem sig := 107
abbrev cc8_sem5_0 : DmaSem sig := 108
abbrev cc8_sem6_0 : DmaSem sig := 109
abbrev cc8_sem7_0 : DmaSem sig := 110
abbrev cc8_sem8_0 : DmaSem sig := 111
abbrev cc8_sem9_0 : DmaSem sig := 112
abbrev cc8_sem9_1 : DmaSem sig := 113
abbrev cc9_sem0_0 : DmaSem sig := 114
abbrev cc9_sem1_0 : DmaSem sig := 115
abbrev cc9_sem2_0 : DmaSem sig := 116
abbrev cc9_sem3_0 : DmaSem sig := 117
abbrev cc9_sem4_0 : DmaSem sig := 118
abbrev cc9_sem5_0 : DmaSem sig := 119
abbrev cc9_sem6_0 : DmaSem sig := 120
abbrev cc9_sem7_0 : DmaSem sig := 121
abbrev cc9_sem8_0 : DmaSem sig := 122
abbrev cc9_sem9_0 : DmaSem sig := 123
abbrev cc10_sem0_0 : DmaSem sig := 124
abbrev cc10_sem0_1 : DmaSem sig := 125
abbrev cc10_sem1_0 : DmaSem sig := 126
abbrev cc10_sem1_1 : DmaSem sig := 127
abbrev cc10_sem2_0 : DmaSem sig := 128
abbrev cc10_sem2_1 : DmaSem sig := 129
abbrev cc10_sem3_0 : DmaSem sig := 130
abbrev cc10_sem4_0 : DmaSem sig := 131
abbrev cc10_sem5_0 : DmaSem sig := 132
abbrev cc10_sem6_0 : DmaSem sig := 133
abbrev cc10_sem7_0 : DmaSem sig := 134
abbrev cc10_sem8_0 : DmaSem sig := 135
abbrev cc10_sem9_0 : DmaSem sig := 136
abbrev cc10_sem9_1 : DmaSem sig := 137
abbrev cc11_sem0_0 : DmaSem sig := 138
abbrev cc11_sem1_0 : DmaSem sig := 139
abbrev cc11_sem1_1 : DmaSem sig := 140
abbrev cc11_sem2_0 : DmaSem sig := 141
abbrev cc11_sem2_1 : DmaSem sig := 142
abbrev cc11_sem3_0 : DmaSem sig := 143
abbrev cc11_sem3_1 : DmaSem sig := 144
abbrev cc11_sem4_0 : DmaSem sig := 145
abbrev cc11_sem4_1 : DmaSem sig := 146

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S10000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S10000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S10000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S5000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S5000x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S5000x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S5000x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S128x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S10000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S5000x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S5000x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S5000x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S128x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S5000x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S128x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S128x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S10000x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S1x3 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 2 → Memref sig .tc .vmem S10000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S10000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  shapeCasts_S128_S1x128 : S128.ShapeCasts S1x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S50000_S50000x1 : S50000.ShapeCasts S50000x1
  slices_S2x1000000_S1x1000000_0_0 : S2x1000000.Slices ![0, 0] S1x1000000
  bcast_S_S100000 : S_.BroadcastsInDim S100000 (![] : Fin 0 → Fin S100000.rank)
  shapeCasts_S100000_S100000x1 : S100000.ShapeCasts S100000x1
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x250000_S1x250000_1_0 : S2x250000.Slices ![1, 0] S1x250000
  shapeCasts_S1x250000_S250000 : S1x250000.ShapeCasts S250000
  bcast_S_S250000 : S_.BroadcastsInDim S250000 (![] : Fin 0 → Fin S250000.rank)
  bcast_S_S5000 : S_.BroadcastsInDim S5000 (![] : Fin 0 → Fin S5000.rank)
  bcast_S250000_S250000x1_0 : S250000.BroadcastsInDim S250000x1 (![0] : Fin 1 → Fin S250000x1.rank)
  shapeCasts_S5000_S5000x1 : S5000.ShapeCasts S5000x1
  slices_S2x250000_S1x250000_0_0 : S2x250000.Slices ![0, 0] S1x250000
  bcast_S_S50000x128 : S_.BroadcastsInDim S50000x128 (![] : Fin 0 → Fin S50000x128.rank)
  bcast_S_S100000x128 : S_.BroadcastsInDim S100000x128 (![] : Fin 0 → Fin S100000x128.rank)
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  slices_S2x4x128x128_S1x1x128x128_0_3_0_0 : S2x4x128x128.Slices ![0, 3, 0, 0] S1x1x128x128
  slices_S2x4x128_S1x1x128_0_3_0 : S2x4x128.Slices ![0, 3, 0] S1x1x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x4x128x128_S1x1x128x128_0_1_0_0 : S2x4x128x128.Slices ![0, 1, 0, 0] S1x1x128x128
  slices_S2x4x128_S1x1x128_0_1_0 : S2x4x128.Slices ![0, 1, 0] S1x1x128
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x500000_S1x500000_0_0 : S2x500000.Slices ![0, 0] S1x500000
  slices_S2x2x128x128_S1x1x128x128_0_0_0_0 : S2x2x128x128.Slices ![0, 0, 0, 0] S1x1x128x128
  slices_S2x2x128_S1x1x128_0_0_0 : S2x2x128.Slices ![0, 0, 0] S1x1x128
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  bcast_S_S5000x128 : S_.BroadcastsInDim S5000x128 (![] : Fin 0 → Fin S5000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  shapeCasts_S3_S1x3 : S3.ShapeCasts S1x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  slices_S1x3_o0_0_S1x1 : S1x3.Slices ![0, 0] S1x1
  inpos_S1x1_p0_0 : ∀ a, (![0, 0] : Fin 2 → Nat) a < S1x1.size a
  slices_S1x3_o0_1_S1x1 : S1x3.Slices ![0, 1] S1x1
  slices_S1x3_o0_2_S1x1 : S1x3.Slices ![0, 2] S1x1
  dot_S10000x256_S256x128_S10000x128_1_0_0_1_n_n_wf : DotDims.WF S10000x256 S256x128 S10000x128 [1] [0] [0] [1] [] []
  scatter_S50000_S1000000x1_S1000000_n_0_0_1_wf : ScatterDims.WF S50000 S1000000x1 S1000000 [] [0] [0] 1
  scatter_S100000_S1000000x1_S1000000_n_0_0_1_wf : ScatterDims.WF S100000 S1000000x1 S1000000 [] [0] [0] 1
  scatter_S50000_S500000x1_S500000_n_0_0_1_wf : ScatterDims.WF S50000 S500000x1 S500000 [] [0] [0] 1
  scatter_S5000_S250000x1_S250000_n_0_0_1_wf : ScatterDims.WF S5000 S250000x1 S250000 [] [0] [0] 1
  scatter_S50000_S250000x1_S250000_n_0_0_1_wf : ScatterDims.WF S50000 S250000x1 S250000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  gather_S50000x128_S250000x1_S250000x128_1_0_n_n_0_1_1128_wf : GatherDims.WF S50000x128 S250000x1 S250000x128 [1] [0] [] [0] [] 1 ![1, 128]
  scatter_S5000x128_S250000x1_S250000x128_1_0_0_1_wf : ScatterDims.WF S5000x128 S250000x1 S250000x128 [1] [0] [0] 1
  gather_S5000x128_S250000x1_S250000x128_1_0_n_n_0_1_1128_wf : GatherDims.WF S5000x128 S250000x1 S250000x128 [1] [0] [] [0] [] 1 ![1, 128]
  scatter_S50000x128_S250000x1_S250000x128_1_0_0_1_wf : ScatterDims.WF S50000x128 S250000x1 S250000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .f32 = 32 ∨ (Rect.block (s := S50000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S50000x128.size a
  hwx1_9 : ∀ i : grid1.Coords, EltTy.bits .f32 = 32 ∨ (Rect.block (s := S50000x128) S10000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x128.size a ≤ S100000x128.size a
  hwx2_9 : ∀ i : grid2.Coords, EltTy.bits .f32 = 32 ∨ (Rect.block (s := S100000x128) S10000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x128.size a ≤ S50000x128.size a
  hwx3_9 : ∀ i : grid3.Coords, EltTy.bits .f32 = 32 ∨ (Rect.block (s := S50000x128) S10000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S10000x128.size a ≤ S100000x128.size a
  hwx4_9 : ∀ i : grid4.Coords, EltTy.bits .f32 = 32 ∨ (Rect.block (s := S100000x128) S10000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S10000x128.size a ≤ S50000x128.size a
  hwx5_9 : ∀ i : grid5.Coords, EltTy.bits .f32 = 32 ∨ (Rect.block (s := S50000x128) S10000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S50000x1.size a
  hwx6_1 : ∀ i : grid6.Coords, EltTy.bits .f32 = 32 ∨ (Rect.block (s := S50000x1) S10000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x128.size a ≤ S128x128.size a
  hwx6_8 : ∀ i : grid6.Coords, EltTy.bits .f32 = 32 ∨ (Rect.block (s := S128x128) S128x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S10000x128.size a ≤ S50000x128.size a
  hwx6_9 : ∀ i : grid6.Coords, EltTy.bits .f32 = 32 ∨ (Rect.block (s := S50000x128) S10000x128.size (cc6_transform_9 i) (hinb6_9 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S5000x128.size a
  hwx7_0 : ∀ i : grid7.Coords, EltTy.bits .f32 = 32 ∨ (Rect.block (s := S5000x128) S5000x128.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S5000x1.size a
  hwx7_1 : ∀ i : grid7.Coords, EltTy.bits .f32 = 32 ∨ (Rect.block (s := S5000x1) S5000x1.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S5000x128.size a
  hwx7_2 : ∀ i : grid7.Coords, EltTy.bits .f32 = 32 ∨ (Rect.block (s := S5000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 false = 1
  hreads7_9 : ∀ i i' : grid7.Coords, (∀ a, reads7_9 a = true → i a = i' a) → cc7_transform_9 i = cc7_transform_9 i'
  hinb7_9 : ∀ (i : grid7.Coords) a, (cc7_transform_9 i a + 1) * S5000x128.size a ≤ S5000x128.size a
  hwx7_9 : ∀ i : grid7.Coords, EltTy.bits .f32 = 32 ∨ (Rect.block (s := S5000x128) S5000x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S50000x1.size a
  hwx8_1 : ∀ i : grid8.Coords, EltTy.bits .f32 = 32 ∨ (Rect.block (s := S50000x1) S10000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S50000x128.size a
  hwx8_2 : ∀ i : grid8.Coords, EltTy.bits .f32 = 32 ∨ (Rect.block (s := S50000x128) S10000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x128.size a ≤ S128x128.size a
  hwx8_8 : ∀ i : grid8.Coords, EltTy.bits .f32 = 32 ∨ (Rect.block (s := S128x128) S128x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S10000x128.size a ≤ S50000x128.size a
  hwx8_9 : ∀ i : grid8.Coords, EltTy.bits .f32 = 32 ∨ (Rect.block (s := S50000x128) S10000x128.size (cc8_transform_9 i) (hinb8_9 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S5000x128.size a
  hwx9_0 : ∀ i : grid9.Coords, EltTy.bits .f32 = 32 ∨ (Rect.block (s := S5000x128) S5000x128.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S5000x1.size a
  hwx9_1 : ∀ i : grid9.Coords, EltTy.bits .f32 = 32 ∨ (Rect.block (s := S5000x1) S5000x1.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S5000x128.size a
  hwx9_2 : ∀ i : grid9.Coords, EltTy.bits .f32 = 32 ∨ (Rect.block (s := S5000x128) S5000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128x128.size a ≤ S128x128.size a
  hwx9_6 : ∀ i : grid9.Coords, EltTy.bits .f32 = 32 ∨ (Rect.block (s := S128x128) S128x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S128x128.size a ≤ S128x128.size a
  hwx9_8 : ∀ i : grid9.Coords, EltTy.bits .f32 = 32 ∨ (Rect.block (s := S128x128) S128x128.size (cc9_transform_8 i) (hinb9_8 i)).WholeWords (EltTy.packing .f32)
  hstage9_9 : ∀ j, (stage9_9 j).IsWhole
  nbuf9_9 : grid9.bufCount reads9_9 false = 1
  hreads9_9 : ∀ i i' : grid9.Coords, (∀ a, reads9_9 a = true → i a = i' a) → cc9_transform_9 i = cc9_transform_9 i'
  hinb9_9 : ∀ (i : grid9.Coords) a, (cc9_transform_9 i a + 1) * S5000x128.size a ≤ S5000x128.size a
  hwx9_9 : ∀ i : grid9.Coords, EltTy.bits .f32 = 32 ∨ (Rect.block (s := S5000x128) S5000x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S50000x128.size a
  hwx10_0 : ∀ i : grid10.Coords, EltTy.bits .f32 = 32 ∨ (Rect.block (s := S50000x128) S10000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x1.size a ≤ S50000x1.size a
  hwx10_1 : ∀ i : grid10.Coords, EltTy.bits .f32 = 32 ∨ (Rect.block (s := S50000x1) S10000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x128.size a ≤ S50000x128.size a
  hwx10_2 : ∀ i : grid10.Coords, EltTy.bits .f32 = 32 ∨ (Rect.block (s := S50000x128) S10000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S128x128.size a ≤ S128x128.size a
  hwx10_6 : ∀ i : grid10.Coords, EltTy.bits .f32 = 32 ∨ (Rect.block (s := S128x128) S128x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S128x128.size a ≤ S128x128.size a
  hwx10_8 : ∀ i : grid10.Coords, EltTy.bits .f32 = 32 ∨ (Rect.block (s := S128x128) S128x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S10000x128.size a ≤ S50000x128.size a
  hwx10_9 : ∀ i : grid10.Coords, EltTy.bits .f32 = 32 ∨ (Rect.block (s := S50000x128) S10000x128.size (cc10_transform_9 i) (hinb10_9 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S1x3.size a ≤ S1x3.size a
  hwx11_0 : ∀ i : grid11.Coords, EltTy.bits .f32 = 32 ∨ (Rect.block (s := S1x3) S1x3.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S50000x128.size a
  hwx11_1 : ∀ i : grid11.Coords, EltTy.bits .f32 = 32 ∨ (Rect.block (s := S50000x128) S10000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x128.size a ≤ S50000x128.size a
  hwx11_2 : ∀ i : grid11.Coords, EltTy.bits .f32 = 32 ∨ (Rect.block (s := S50000x128) S10000x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S50000x128.size a
  hwx11_3 : ∀ i : grid11.Coords, EltTy.bits .f32 = 32 ∨ (Rect.block (s := S50000x128) S10000x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S10000x128.size a ≤ S50000x128.size a
  hwx11_4 : ∀ i : grid11.Coords, EltTy.bits .f32 = 32 ∨ (Rect.block (s := S50000x128) S10000x128.size (cc11_transform_4 i) (hinb11_4 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v70) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v90) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v92) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v98) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v96) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v99) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v84) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v101) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v112) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v105) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v107) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v113) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v111) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v114) S10000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v128) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v99) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v144) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v155) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v148) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v150) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v156) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v154) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v157) S10000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v142) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v114) S10000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v159) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v170) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v163) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v165) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v171) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v169) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v172) S10000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v186) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1) S10000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v188) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v199) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v192) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v194) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v200) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v198) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v201) S10000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v215) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v201) S10000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v217) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v228) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v221) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v223) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v229) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v227) S128x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v230) S10000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v244) S5000x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v45) S5000x1.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg2) S5000x128.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v260) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v271) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v264) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v266) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v272) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v270) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v273) S5000x128.size cc7_transform_9 reads7_9 true false 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v258) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v56) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v1) S10000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v275) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v286) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v279) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v281) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v287) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v285) S128x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v288) S10000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v302) S5000x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v45) S5000x1.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v273) S5000x128.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v318) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v329) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v322) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v324) S128x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v330) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v328) S128x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v331) S5000x128.size cc9_transform_9 reads9_9 true false 1 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v316) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v56) S10000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v288) S10000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v333) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v344) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v337) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v339) S128x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v345) S1x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v343) S128x128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v346) S10000x128.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v357) S1x3.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v157) S10000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v230) S10000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v346) S10000x128.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v358) S10000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S50000x256 : Shape := ⟨2, ![50000, 256]⟩
abbrev S100000x128 : Shape := ⟨2, ![100000, 128]⟩
abbrev S5000x128 : Shape := ⟨2, ![5000, 128]⟩
abbrev S256x128 : Shape := ⟨2, ![256, 128]⟩
abbrev S128 : Shape := ⟨1, ![128]⟩
abbrev S2x4x128x128 : Shape := ⟨4, ![2, 4, 128, 128]⟩
abbrev S2x4x128 : Shape := ⟨3, ![2, 4, 128]⟩
abbrev S2x2x128x128 : Shape := ⟨4, ![2, 2, 128, 128]⟩
abbrev S2x2x128 : Shape := ⟨3, ![2, 2, 128]⟩
abbrev S3 : Shape := ⟨1, ![3]⟩
abbrev S2x1000000 : Shape := ⟨2, ![2, 1000000]⟩
abbrev S2x500000 : Shape := ⟨2, ![2, 500000]⟩
abbrev S2x250000 : Shape := ⟨2, ![2, 250000]⟩
abbrev S50000x128 : Shape := ⟨2, ![50000, 128]⟩
abbrev S1x128 : Shape := ⟨2, ![1, 128]⟩
abbrev S1x1000000 : Shape := ⟨2, ![1, 1000000]⟩
abbrev S1000000 : Shape := ⟨1, ![1000000]⟩
abbrev S1x1x128x128 : Shape := ⟨4, ![1, 1, 128, 128]⟩
abbrev S128x128 : Shape := ⟨2, ![128, 128]⟩
abbrev S1x1x128 : Shape := ⟨3, ![1, 1, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x250000 : Shape := ⟨2, ![1, 250000]⟩
abbrev S250000 : Shape := ⟨1, ![250000]⟩
abbrev S250000x1 : Shape := ⟨2, ![250000, 1]⟩
abbrev S250000x128 : Shape := ⟨2, ![250000, 128]⟩
abbrev S5000 : Shape := ⟨1, ![5000]⟩
abbrev S5000x1 : Shape := ⟨2, ![5000, 1]⟩
abbrev S1 : Shape := ⟨1, ![1]⟩

abbrev nBuf : Space → Nat
  | .hbm => 649
  | .vmem => 0
  | .smem => 0
  | _ => 0

abbrev hbmTy0_0 (i : Nat) : BufTy := match i % 128 with
  | 0 => ⟨S50000x256, .f32⟩
  | 1 => ⟨S100000x128, .f32⟩
  | 2 => ⟨S5000x128, .f32⟩
  | 3 => ⟨S256x128, .f32⟩
  | 4 => ⟨S128, .f32⟩
  | 5 => ⟨S2x4x128x128, .f32⟩
  | 6 => ⟨S2x4x128, .f32⟩
  | 7 => ⟨S2x4x128x128, .f32⟩
  | 8 => ⟨S2x2x128x128, .f32⟩
  | 9 => ⟨S2x2x128, .f32⟩
  | 10 => ⟨S2x2x128x128, .f32⟩
  | 11 => ⟨S2x4x128x128, .f32⟩
  | 12 => ⟨S2x4x128, .f32⟩
  | 13 => ⟨S2x4x128x128, .f32⟩
  | 14 => ⟨S3, .f32⟩
  | 15 => ⟨S2x1000000, .i32⟩
  | 16 => ⟨S2x500000, .i32⟩
  | 17 => ⟨S2x250000, .i32⟩
  | 18 => ⟨S50000x128, .f32⟩
  | 19 => ⟨S1x128, .f32⟩
  | 20 => ⟨S50000x128, .f32⟩
  | 21 => ⟨S50000x128, .f32⟩
  | 22 => ⟨S1x1000000, .i32⟩
  | 23 => ⟨S1000000, .i32⟩
  | 24 => ⟨S1x1000000, .i32⟩
  | 25 => ⟨S1000000, .i32⟩
  | 26 => ⟨S1x1x128x128, .f32⟩
  | 27 => ⟨S128x128, .f32⟩
  | 28 => ⟨S1x1x128, .f32⟩
  | 29 => ⟨S128, .f32⟩
  | 30 => ⟨S1x1x128x128, .f32⟩
  | 31 => ⟨S128x128, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x128, .f32⟩
  | 41 => ⟨S_, .f32⟩
  | 42 => ⟨S50000x128, .f32⟩
  | 43 => ⟨S1000000x1, .i32⟩
  | 44 => ⟨S50000x128, .f32⟩
  | 45 => ⟨S_, .f32⟩
  | 46 => ⟨S1000000, .f32⟩
  | 47 => ⟨S_, .f32⟩
  | 48 => ⟨S50000, .f32⟩
  | 49 => ⟨S1000000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S50000x128, .f32⟩
  | 62 => ⟨S50000x128, .f32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x1000000, .i32⟩
  | 80 => ⟨S1000000, .i32⟩
  | 81 => ⟨S1x1000000, .i32⟩
  | 82 => ⟨S1000000, .i32⟩
  | 83 => ⟨S1x1x128x128, .f32⟩
  | 84 => ⟨S128x128, .f32⟩
  | 85 => ⟨S1x1x128, .f32⟩
  | 86 => ⟨S128, .f32⟩
  | 87 => ⟨S1x1x128x128, .f32⟩
  | 88 => ⟨S128x128, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x128, .f32⟩
  | 98 => ⟨S_, .f32⟩
  | 99 => ⟨S100000x128, .f32⟩
  | 100 => ⟨S1000000x1, .i32⟩
  | 101 => ⟨S100000x128, .f32⟩
  | 102 => ⟨S_, .f32⟩
  | 103 => ⟨S1000000, .f32⟩
  | 104 => ⟨S_, .f32⟩
  | 105 => ⟨S100000, .f32⟩
  | 106 => ⟨S1000000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S100000x128, .f32⟩
  | 120 => ⟨S1x1x128x128, .f32⟩
  | 121 => ⟨S128x128, .f32⟩
  | 122 => ⟨S1x1x128, .f32⟩
  | 123 => ⟨S128, .f32⟩
  | 124 => ⟨S1x1x128x128, .f32⟩
  | 125 => ⟨S128x128, .f32⟩
  | 126 => ⟨S100000x128, .f32⟩
  | 127 => ⟨S1x128, .f32⟩
  | _ => ⟨S50000x256, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S50000x128, .f32⟩
  | 13 => ⟨S50000x128, .f32⟩
  | 14 => ⟨S1x1000000, .i32⟩
  | 15 => ⟨S1000000, .i32⟩
  | 16 => ⟨S1x1000000, .i32⟩
  | 17 => ⟨S1000000, .i32⟩
  | 18 => ⟨S1x1x128x128, .f32⟩
  | 19 => ⟨S128x128, .f32⟩
  | 20 => ⟨S1x1x128, .f32⟩
  | 21 => ⟨S128, .f32⟩
  | 22 => ⟨S1x1x128x128, .f32⟩
  | 23 => ⟨S128x128, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x128, .f32⟩
  | 33 => ⟨S_, .f32⟩
  | 34 => ⟨S50000x128, .f32⟩
  | 35 => ⟨S1000000x1, .i32⟩
  | 36 => ⟨S50000x128, .f32⟩
  | 37 => ⟨S_, .f32⟩
  | 38 => ⟨S1000000, .f32⟩
  | 39 => ⟨S_, .f32⟩
  | 40 => ⟨S50000, .f32⟩
  | 41 => ⟨S1000000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S1x1x128x128, .f32⟩
  | 56 => ⟨S128x128, .f32⟩
  | 57 => ⟨S1x1x128, .f32⟩
  | 58 => ⟨S128, .f32⟩
  | 59 => ⟨S1x1x128x128, .f32⟩
  | 60 => ⟨S128x128, .f32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x1000000, .i32⟩
  | 72 => ⟨S1000000, .i32⟩
  | 73 => ⟨S1x1000000, .i32⟩
  | 74 => ⟨S1000000, .i32⟩
  | 75 => ⟨S1x1x128x128, .f32⟩
  | 76 => ⟨S128x128, .f32⟩
  | 77 => ⟨S1x1x128, .f32⟩
  | 78 => ⟨S128, .f32⟩
  | 79 => ⟨S1x1x128x128, .f32⟩
  | 80 => ⟨S128x128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S_, .f32⟩
  | 95 => ⟨S1000000, .f32⟩
  | 96 => ⟨S_, .f32⟩
  | 97 => ⟨S100000, .f32⟩
  | 98 => ⟨S1000000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S100000x128, .f32⟩
  | 112 => ⟨S1x1x128x128, .f32⟩
  | 113 => ⟨S128x128, .f32⟩
  | 114 => ⟨S1x1x128, .f32⟩
  | 115 => ⟨S128, .f32⟩
  | 116 => ⟨S1x1x128x128, .f32⟩
  | 117 => ⟨S128x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S50000x256, .f32⟩

abbrev hbmTy0_2 (i : Nat) : BufTy := match i % 128 with
  | 0 => ⟨S_, .f32⟩
  | 1 => ⟨S100000x128, .f32⟩
  | 2 => ⟨S100000x128, .f32⟩
  | 3 => ⟨S_, .f32⟩
  | 4 => ⟨S50000x128, .f32⟩
  | 5 => ⟨S50000x128, .f32⟩
  | 6 => ⟨S1x500000, .i32⟩
  | 7 => ⟨S500000, .i32⟩
  | 8 => ⟨S1x500000, .i32⟩
  | 9 => ⟨S500000, .i32⟩
  | 10 => ⟨S1x1x128x128, .f32⟩
  | 11 => ⟨S128x128, .f32⟩
  | 12 => ⟨S1x1x128, .f32⟩
  | 13 => ⟨S128, .f32⟩
  | 14 => ⟨S1x1x128x128, .f32⟩
  | 15 => ⟨S128x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S_, .f32⟩
  | 26 => ⟨S50000x128, .f32⟩
  | 27 => ⟨S500000x1, .i32⟩
  | 28 => ⟨S50000x128, .f32⟩
  | 29 => ⟨S_, .f32⟩
  | 30 => ⟨S500000, .f32⟩
  | 31 => ⟨S_, .f32⟩
  | 32 => ⟨S50000, .f32⟩
  | 33 => ⟨S500000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S1x1x128x128, .f32⟩
  | 48 => ⟨S128x128, .f32⟩
  | 49 => ⟨S1x1x128, .f32⟩
  | 50 => ⟨S128, .f32⟩
  | 51 => ⟨S1x1x128x128, .f32⟩
  | 52 => ⟨S128x128, .f32⟩
  | 53 => ⟨S50000x128, .f32⟩
  | 54 => ⟨S1x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x500000, .i32⟩
  | 67 => ⟨S500000, .i32⟩
  | 68 => ⟨S1x500000, .i32⟩
  | 69 => ⟨S500000, .i32⟩
  | 70 => ⟨S1x1x128x128, .f32⟩
  | 71 => ⟨S128x128, .f32⟩
  | 72 => ⟨S1x1x128, .f32⟩
  | 73 => ⟨S128, .f32⟩
  | 74 => ⟨S1x1x128x128, .f32⟩
  | 75 => ⟨S128x128, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S50000x128, .f32⟩
  | 87 => ⟨S500000x1, .i32⟩
  | 88 => ⟨S50000x128, .f32⟩
  | 89 => ⟨S_, .f32⟩
  | 90 => ⟨S500000, .f32⟩
  | 91 => ⟨S_, .f32⟩
  | 92 => ⟨S50000, .f32⟩
  | 93 => ⟨S500000x1, .i32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S50000x128, .f32⟩
  | 107 => ⟨S1x1x128x128, .f32⟩
  | 108 => ⟨S128x128, .f32⟩
  | 109 => ⟨S1x1x128, .f32⟩
  | 110 => ⟨S128, .f32⟩
  | 111 => ⟨S1x1x128x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x250000, .i32⟩
  | 127 => ⟨S250000, .i32⟩
  | _ => ⟨S50000x256, .f32⟩

abbrev hbmTy0_3 (i : Nat) : BufTy := match i % 128 with
  | 0 => ⟨S1x250000, .i32⟩
  | 1 => ⟨S250000, .i32⟩
  | 2 => ⟨S1x1x128x128, .f32⟩
  | 3 => ⟨S128x128, .f32⟩
  | 4 => ⟨S1x1x128, .f32⟩
  | 5 => ⟨S128, .f32⟩
  | 6 => ⟨S1x1x128x128, .f32⟩
  | 7 => ⟨S128x128, .f32⟩
  | 8 => ⟨S_, .i32⟩
  | 9 => ⟨S250000, .i32⟩
  | 10 => ⟨S250000, .i1⟩
  | 11 => ⟨S_, .i32⟩
  | 12 => ⟨S250000, .i32⟩
  | 13 => ⟨S250000, .i32⟩
  | 14 => ⟨S250000, .i32⟩
  | 15 => ⟨S250000x1, .i32⟩
  | 16 => ⟨S250000x128, .f32⟩
  | 17 => ⟨S_, .f32⟩
  | 18 => ⟨S5000x128, .f32⟩
  | 19 => ⟨S250000x1, .i32⟩
  | 20 => ⟨S5000x128, .f32⟩
  | 21 => ⟨S_, .f32⟩
  | 22 => ⟨S250000, .f32⟩
  | 23 => ⟨S_, .f32⟩
  | 24 => ⟨S5000, .f32⟩
  | 25 => ⟨S250000x1, .i32⟩
  | 26 => ⟨S5000, .f32⟩
  | 27 => ⟨S_, .f32⟩
  | 28 => ⟨S5000, .f32⟩
  | 29 => ⟨S5000, .f32⟩
  | 30 => ⟨S5000x1, .f32⟩
  | 31 => ⟨S5000x128, .f32⟩
  | 32 => ⟨S5000x128, .f32⟩
  | 33 => ⟨S5000x128, .f32⟩
  | 34 => ⟨S1x128, .f32⟩
  | 35 => ⟨S5000x128, .f32⟩
  | 36 => ⟨S5000x128, .f32⟩
  | 37 => ⟨S5000x128, .f32⟩
  | 38 => ⟨S5000x128, .f32⟩
  | 39 => ⟨S1x1x128x128, .f32⟩
  | 40 => ⟨S128x128, .f32⟩
  | 41 => ⟨S1x1x128, .f32⟩
  | 42 => ⟨S128, .f32⟩
  | 43 => ⟨S1x1x128x128, .f32⟩
  | 44 => ⟨S128x128, .f32⟩
  | 45 => ⟨S5000x128, .f32⟩
  | 46 => ⟨S1x128, .f32⟩
  | 47 => ⟨S5000x128, .f32⟩
  | 48 => ⟨S5000x128, .f32⟩
  | 49 => ⟨S5000x128, .f32⟩
  | 50 => ⟨S5000x128, .f32⟩
  | 51 => ⟨S5000x128, .f32⟩
  | 52 => ⟨S_, .f32⟩
  | 53 => ⟨S5000x128, .f32⟩
  | 54 => ⟨S5000x128, .f32⟩
  | 55 => ⟨S1x250000, .i32⟩
  | 56 => ⟨S250000, .i32⟩
  | 57 => ⟨S1x250000, .i32⟩
  | 58 => ⟨S250000, .i32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S_, .i32⟩
  | 66 => ⟨S250000, .i32⟩
  | 67 => ⟨S250000, .i1⟩
  | 68 => ⟨S_, .i32⟩
  | 69 => ⟨S250000, .i32⟩
  | 70 => ⟨S250000, .i32⟩
  | 71 => ⟨S250000, .i32⟩
  | 72 => ⟨S250000x1, .i32⟩
  | 73 => ⟨S250000x128, .f32⟩
  | 74 => ⟨S_, .f32⟩
  | 75 => ⟨S50000x128, .f32⟩
  | 76 => ⟨S250000x1, .i32⟩
  | 77 => ⟨S50000x128, .f32⟩
  | 78 => ⟨S_, .f32⟩
  | 79 => ⟨S250000, .f32⟩
  | 80 => ⟨S_, .f32⟩
  | 81 => ⟨S50000, .f32⟩
  | 82 => ⟨S250000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S1x1x128x128, .f32⟩
  | 97 => ⟨S128x128, .f32⟩
  | 98 => ⟨S1x1x128, .f32⟩
  | 99 => ⟨S128, .f32⟩
  | 100 => ⟨S1x1x128x128, .f32⟩
  | 101 => ⟨S128x128, .f32⟩
  | 102 => ⟨S50000x128, .f32⟩
  | 103 => ⟨S1x128, .f32⟩
  | 104 => ⟨S50000x128, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S5000x128, .f32⟩
  | 117 => ⟨S5000x128, .f32⟩
  | 118 => ⟨S1x250000, .i32⟩
  | 119 => ⟨S250000, .i32⟩
  | 120 => ⟨S1x250000, .i32⟩
  | 121 => ⟨S250000, .i32⟩
  | 122 => ⟨S1x1x128x128, .f32⟩
  | 123 => ⟨S128x128, .f32⟩
  | 124 => ⟨S1x1x128, .f32⟩
  | 125 => ⟨S128, .f32⟩
  | 126 => ⟨S1x1x128x128, .f32⟩
  | 127 => ⟨S128x128, .f32⟩
  | _ => ⟨S50000x256, .f32⟩

abbrev hbmTy0_4 (i : Nat) : BufTy := match i % 128 with
  | 0 => ⟨S_, .i32⟩
  | 1 => ⟨S250000, .i32⟩
  | 2 => ⟨S250000, .i1⟩
  | 3 => ⟨S_, .i32⟩
  | 4 => ⟨S250000, .i32⟩
  | 5 => ⟨S250000, .i32⟩
  | 6 => ⟨S250000, .i32⟩
  | 7 => ⟨S250000x1, .i32⟩
  | 8 => ⟨S250000x128, .f32⟩
  | 9 => ⟨S_, .f32⟩
  | 10 => ⟨S5000x128, .f32⟩
  | 11 => ⟨S250000x1, .i32⟩
  | 12 => ⟨S5000x128, .f32⟩
  | 13 => ⟨S_, .f32⟩
  | 14 => ⟨S250000, .f32⟩
  | 15 => ⟨S_, .f32⟩
  | 16 => ⟨S5000, .f32⟩
  | 17 => ⟨S250000x1, .i32⟩
  | 18 => ⟨S5000, .f32⟩
  | 19 => ⟨S_, .f32⟩
  | 20 => ⟨S5000, .f32⟩
  | 21 => ⟨S5000, .f32⟩
  | 22 => ⟨S5000x1, .f32⟩
  | 23 => ⟨S5000x128, .f32⟩
  | 24 => ⟨S5000x128, .f32⟩
  | 25 => ⟨S5000x128, .f32⟩
  | 26 => ⟨S1x128, .f32⟩
  | 27 => ⟨S5000x128, .f32⟩
  | 28 => ⟨S5000x128, .f32⟩
  | 29 => ⟨S5000x128, .f32⟩
  | 30 => ⟨S5000x128, .f32⟩
  | 31 => ⟨S1x1x128x128, .f32⟩
  | 32 => ⟨S128x128, .f32⟩
  | 33 => ⟨S1x1x128, .f32⟩
  | 34 => ⟨S128, .f32⟩
  | 35 => ⟨S1x1x128x128, .f32⟩
  | 36 => ⟨S128x128, .f32⟩
  | 37 => ⟨S5000x128, .f32⟩
  | 38 => ⟨S1x128, .f32⟩
  | 39 => ⟨S5000x128, .f32⟩
  | 40 => ⟨S5000x128, .f32⟩
  | 41 => ⟨S5000x128, .f32⟩
  | 42 => ⟨S5000x128, .f32⟩
  | 43 => ⟨S5000x128, .f32⟩
  | 44 => ⟨S_, .f32⟩
  | 45 => ⟨S5000x128, .f32⟩
  | 46 => ⟨S5000x128, .f32⟩
  | 47 => ⟨S1x250000, .i32⟩
  | 48 => ⟨S250000, .i32⟩
  | 49 => ⟨S1x250000, .i32⟩
  | 50 => ⟨S250000, .i32⟩
  | 51 => ⟨S1x1x128x128, .f32⟩
  | 52 => ⟨S128x128, .f32⟩
  | 53 => ⟨S1x1x128, .f32⟩
  | 54 => ⟨S128, .f32⟩
  | 55 => ⟨S1x1x128x128, .f32⟩
  | 56 => ⟨S128x128, .f32⟩
  | 57 => ⟨S_, .i32⟩
  | 58 => ⟨S250000, .i32⟩
  | 59 => ⟨S250000, .i1⟩
  | 60 => ⟨S_, .i32⟩
  | 61 => ⟨S250000, .i32⟩
  | 62 => ⟨S250000, .i32⟩
  | 63 => ⟨S250000, .i32⟩
  | 64 => ⟨S250000x1, .i32⟩
  | 65 => ⟨S250000x128, .f32⟩
  | 66 => ⟨S_, .f32⟩
  | 67 => ⟨S50000x128, .f32⟩
  | 68 => ⟨S250000x1, .i32⟩
  | 69 => ⟨S50000x128, .f32⟩
  | 70 => ⟨S_, .f32⟩
  | 71 => ⟨S250000, .f32⟩
  | 72 => ⟨S_, .f32⟩
  | 73 => ⟨S50000, .f32⟩
  | 74 => ⟨S250000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S50000x128, .f32⟩
  | 88 => ⟨S1x1x128x128, .f32⟩
  | 89 => ⟨S128x128, .f32⟩
  | 90 => ⟨S1x1x128, .f32⟩
  | 91 => ⟨S128, .f32⟩
  | 92 => ⟨S1x1x128x128, .f32⟩
  | 93 => ⟨S128x128, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S5000x128, .f32⟩
  | 109 => ⟨S5000x128, .f32⟩
  | 110 => ⟨S_, .f32⟩
  | 111 => ⟨S_, .f32⟩
  | 112 => ⟨S_, .f32⟩
  | 113 => ⟨S_, .f32⟩
  | 114 => ⟨S1, .f32⟩
  | 115 => ⟨S3, .f32⟩
  | 116 => ⟨S3, .f32⟩
  | 117 => ⟨S3, .f32⟩
  | 118 => ⟨S_, .f32⟩
  | 119 => ⟨S_, .f32⟩
  | 120 => ⟨S1, .f32⟩
  | 121 => ⟨S3, .f32⟩
  | 122 => ⟨S3, .f32⟩
  | 123 => ⟨S1, .f32⟩
  | 124 => ⟨S_, .f32⟩
  | 125 => ⟨S50000x128, .f32⟩
  | 126 => ⟨S50000x128, .f32⟩
  | 127 => ⟨S1, .f32⟩
  | _ => ⟨S50000x256, .f32⟩

abbrev hbmTy0_5 (i : Nat) : BufTy := match i % 128 with
  | 0 => ⟨S_, .f32⟩
  | 1 => ⟨S50000x128, .f32⟩
  | 2 => ⟨S50000x128, .f32⟩
  | 3 => ⟨S50000x128, .f32⟩
  | 4 => ⟨S1, .f32⟩
  | 5 => ⟨S_, .f32⟩
  | 6 => ⟨S50000x128, .f32⟩
  | 7 => ⟨S50000x128, .f32⟩
  | 8 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_5 : Ref sig .tc := ⟨.hbm, 89, rfl⟩
abbrev main_v64 : Ref sig .tc := ⟨.hbm, 90, rfl⟩
abbrev main_v65 : Ref sig .tc := ⟨.hbm, 91, rfl⟩
abbrev main_c_6 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_8 : Ref sig .tc := ⟨.hbm, 102, rfl⟩
abbrev main_v74 : Ref sig .tc := ⟨.hbm, 103, rfl⟩
abbrev main_cst_9 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_10 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_11 : Ref sig .tc := ⟨.hbm, 133, rfl⟩
abbrev main_v102 : Ref sig .tc := ⟨.hbm, 134, rfl⟩
abbrev main_v103 : Ref sig .tc := ⟨.hbm, 135, rfl⟩
abbrev main_call0_cst : Ref sig .tc := ⟨.hbm, 136, rfl⟩
abbrev main_call0_v0 : Ref sig .tc := ⟨.hbm, 137, rfl⟩
abbrev main_v104 : Ref sig .tc := ⟨.hbm, 138, rfl⟩
abbrev main_call1_cst : Ref sig .tc := ⟨.hbm, 139, rfl⟩
abbrev main_call1_v0 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_12 : Ref sig .tc := ⟨.hbm, 152, rfl⟩
abbrev main_v116 : Ref sig .tc := ⟨.hbm, 153, rfl⟩
abbrev main_v117 : Ref sig .tc := ⟨.hbm, 154, rfl⟩
abbrev main_c_13 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_14 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_15 : Ref sig .tc := ⟨.hbm, 165, rfl⟩
abbrev main_v126 : Ref sig .tc := ⟨.hbm, 166, rfl⟩
abbrev main_cst_16 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_17 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_18 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_c_19 : Ref sig .tc := ⟨.hbm, 209, rfl⟩
abbrev main_v166 : Ref sig .tc := ⟨.hbm, 210, rfl⟩
abbrev main_v167 : Ref sig .tc := ⟨.hbm, 211, rfl⟩
abbrev main_c_20 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_21 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_22 : Ref sig .tc := ⟨.hbm, 222, rfl⟩
abbrev main_v176 : Ref sig .tc := ⟨.hbm, 223, rfl⟩
abbrev main_cst_23 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_24 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_25 : Ref sig .tc := ⟨.hbm, 253, rfl⟩
abbrev main_v204 : Ref sig .tc := ⟨.hbm, 254, rfl⟩
abbrev main_v205 : Ref sig .tc := ⟨.hbm, 255, rfl⟩
abbrev main_call2_cst : Ref sig .tc := ⟨.hbm, 256, rfl⟩
abbrev main_call2_v0 : Ref sig .tc := ⟨.hbm, 257, rfl⟩
abbrev main_v206 : Ref sig .tc := ⟨.hbm, 258, rfl⟩
abbrev main_call3_cst : Ref sig .tc := ⟨.hbm, 259, rfl⟩
abbrev main_call3_v0 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_c_26 : Ref sig .tc := ⟨.hbm, 272, rfl⟩
abbrev main_v218 : Ref sig .tc := ⟨.hbm, 273, rfl⟩
abbrev main_v219 : Ref sig .tc := ⟨.hbm, 274, rfl⟩
abbrev main_c_27 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_28 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_cst_29 : Ref sig .tc := ⟨.hbm, 285, rfl⟩
abbrev main_v228 : Ref sig .tc := ⟨.hbm, 286, rfl⟩
abbrev main_cst_30 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_cst_31 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_cst_32 : Ref sig .tc := ⟨.hbm, 316, rfl⟩
abbrev main_v256 : Ref sig .tc := ⟨.hbm, 317, rfl⟩
abbrev main_v257 : Ref sig .tc := ⟨.hbm, 318, rfl⟩
abbrev main_call4_cst : Ref sig .tc := ⟨.hbm, 319, rfl⟩
abbrev main_call4_v0 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_c_33 : Ref sig .tc := ⟨.hbm, 332, rfl⟩
abbrev main_v269 : Ref sig .tc := ⟨.hbm, 333, rfl⟩
abbrev main_v270 : Ref sig .tc := ⟨.hbm, 334, rfl⟩
abbrev main_c_34 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_cst_35 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_cst_36 : Ref sig .tc := ⟨.hbm, 345, rfl⟩
abbrev main_v279 : Ref sig .tc := ⟨.hbm, 346, rfl⟩
abbrev main_cst_37 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_cst_38 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_cst_39 : Ref sig .tc := ⟨.hbm, 376, rfl⟩
abbrev main_v307 : Ref sig .tc := ⟨.hbm, 377, rfl⟩
abbrev main_v308 : Ref sig .tc := ⟨.hbm, 378, rfl⟩
abbrev main_call5_cst : Ref sig .tc := ⟨.hbm, 379, rfl⟩
abbrev main_call5_v0 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_c_40 : Ref sig .tc := ⟨.hbm, 392, rfl⟩
abbrev main_v320 : Ref sig .tc := ⟨.hbm, 393, rfl⟩
abbrev main_v321 : Ref sig .tc := ⟨.hbm, 394, rfl⟩
abbrev main_c_41 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_cst_42 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_cst_43 : Ref sig .tc := ⟨.hbm, 405, rfl⟩
abbrev main_v330 : Ref sig .tc := ⟨.hbm, 406, rfl⟩
abbrev main_cst_44 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_cst_45 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_cst_46 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_c_47 : Ref sig .tc := ⟨.hbm, 449, rfl⟩
abbrev main_v370 : Ref sig .tc := ⟨.hbm, 450, rfl⟩
abbrev main_v371 : Ref sig .tc := ⟨.hbm, 451, rfl⟩
abbrev main_c_48 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_cst_49 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_cst_50 : Ref sig .tc := ⟨.hbm, 462, rfl⟩
abbrev main_v380 : Ref sig .tc := ⟨.hbm, 463, rfl⟩
abbrev main_cst_51 : Ref sig .tc := ⟨.hbm, 464, rfl⟩
abbrev main_v381 : Ref sig .tc := ⟨.hbm, 465, rfl⟩
abbrev main_v382 : Ref sig .tc := ⟨.hbm, 466, rfl⟩
abbrev main_v383 : Ref sig .tc := ⟨.hbm, 467, rfl⟩
abbrev main_cst_52 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_cst_53 : Ref sig .tc := ⟨.hbm, 493, rfl⟩
abbrev main_v408 : Ref sig .tc := ⟨.hbm, 494, rfl⟩
abbrev main_v409 : Ref sig .tc := ⟨.hbm, 495, rfl⟩
abbrev main_call6_cst : Ref sig .tc := ⟨.hbm, 496, rfl⟩
abbrev main_call6_v0 : Ref sig .tc := ⟨.hbm, 497, rfl⟩
abbrev main_v410 : Ref sig .tc := ⟨.hbm, 498, rfl⟩
abbrev main_call7_cst : Ref sig .tc := ⟨.hbm, 499, rfl⟩
abbrev main_call7_v0 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_c_54 : Ref sig .tc := ⟨.hbm, 512, rfl⟩
abbrev main_v422 : Ref sig .tc := ⟨.hbm, 513, rfl⟩
abbrev main_v423 : Ref sig .tc := ⟨.hbm, 514, rfl⟩
abbrev main_c_55 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_cst_56 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_cst_57 : Ref sig .tc := ⟨.hbm, 525, rfl⟩
abbrev main_v432 : Ref sig .tc := ⟨.hbm, 526, rfl⟩
abbrev main_cst_58 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_cst_59 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_v458 : Ref sig .tc := ⟨.hbm, 554, rfl⟩
abbrev main_v459 : Ref sig .tc := ⟨.hbm, 555, rfl⟩
abbrev main_cst_60 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_v463 : Ref sig .tc := ⟨.hbm, 560, rfl⟩
abbrev main_v464 : Ref sig .tc := ⟨.hbm, 561, rfl⟩
abbrev main_v465 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_c_61 : Ref sig .tc := ⟨.hbm, 569, rfl⟩
abbrev main_v472 : Ref sig .tc := ⟨.hbm, 570, rfl⟩
abbrev main_v473 : Ref sig .tc := ⟨.hbm, 571, rfl⟩
abbrev main_c_62 : Ref sig .tc := ⟨.hbm, 572, rfl⟩
abbrev main_v474 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_63 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_cst_64 : Ref sig .tc := ⟨.hbm, 582, rfl⟩
abbrev main_v482 : Ref sig .tc := ⟨.hbm, 583, rfl⟩
abbrev main_cst_65 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_66 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_v490 : Ref sig .tc := ⟨.hbm, 593, rfl⟩
abbrev main_v491 : Ref sig .tc := ⟨.hbm, 594, rfl⟩
abbrev main_v492 : Ref sig .tc := ⟨.hbm, 595, rfl⟩
abbrev main_v493 : Ref sig .tc := ⟨.hbm, 596, rfl⟩
abbrev main_v494 : Ref sig .tc := ⟨.hbm, 597, rfl⟩
abbrev main_v495 : Ref sig .tc := ⟨.hbm, 598, rfl⟩
abbrev main_v496 : Ref sig .tc := ⟨.hbm, 599, rfl⟩
abbrev main_v497 : Ref sig .tc := ⟨.hbm, 600, rfl⟩
abbrev main_v498 : Ref sig .tc := ⟨.hbm, 601, rfl⟩
abbrev main_v499 : Ref sig .tc := ⟨.hbm, 602, rfl⟩
abbrev main_v500 : Ref sig .tc := ⟨.hbm, 603, rfl⟩
abbrev main_v501 : Ref sig .tc := ⟨.hbm, 604, rfl⟩
abbrev main_v502 : Ref sig .tc := ⟨.hbm, 605, rfl⟩
abbrev main_v503 : Ref sig .tc := ⟨.hbm, 606, rfl⟩
abbrev main_v504 : Ref sig .tc := ⟨.hbm, 607, rfl⟩
abbrev main_v505 : Ref sig .tc := ⟨.hbm, 608, rfl⟩
abbrev main_v506 : Ref sig .tc := ⟨.hbm, 609, rfl⟩
abbrev main_v507 : Ref sig .tc := ⟨.hbm, 610, rfl⟩
abbrev main_v508 : Ref sig .tc := ⟨.hbm, 611, rfl⟩
abbrev main_v509 : Ref sig .tc := ⟨.hbm, 612, rfl⟩
abbrev main_cst_67 : Ref sig .tc := ⟨.hbm, 613, rfl⟩
abbrev main_v510 : Ref sig .tc := ⟨.hbm, 614, rfl⟩
abbrev main_v511 : Ref sig .tc := ⟨.hbm, 615, rfl⟩
abbrev main_call8_cst : Ref sig .tc := ⟨.hbm, 616, rfl⟩
abbrev main_call8_v0 : Ref sig .tc := ⟨.hbm, 617, rfl⟩
abbrev main_v512 : Ref sig .tc := ⟨.hbm, 618, rfl⟩
abbrev main_call9_cst : Ref sig .tc := ⟨.hbm, 619, rfl⟩
abbrev main_call9_v0 : Ref sig .tc := ⟨.hbm, 620, rfl⟩
abbrev main_v513 : Ref sig .tc := ⟨.hbm, 621, rfl⟩
abbrev main_cst_68 : Ref sig .tc := ⟨.hbm, 622, rfl⟩
abbrev main_v514 : Ref sig .tc := ⟨.hbm, 623, rfl⟩
abbrev main_cst_69 : Ref sig .tc := ⟨.hbm, 624, rfl⟩
abbrev main_v515 : Ref sig .tc := ⟨.hbm, 625, rfl⟩
abbrev main_v516 : Ref sig .tc := ⟨.hbm, 626, rfl⟩
abbrev main_v517 : Ref sig .tc := ⟨.hbm, 627, rfl⟩
abbrev main_v518 : Ref sig .tc := ⟨.hbm, 628, rfl⟩
abbrev main_v519 : Ref sig .tc := ⟨.hbm, 629, rfl⟩
abbrev main_cst_70 : Ref sig .tc := ⟨.hbm, 630, rfl⟩
abbrev main_v520 : Ref sig .tc := ⟨.hbm, 631, rfl⟩
abbrev main_v521 : Ref sig .tc := ⟨.hbm, 632, rfl⟩
abbrev main_v522 : Ref sig .tc := ⟨.hbm, 633, rfl⟩
abbrev main_v523 : Ref sig .tc := ⟨.hbm, 634, rfl⟩
abbrev main_v524 : Ref sig .tc := ⟨.hbm, 635, rfl⟩
abbrev main_v525 : Ref sig .tc := ⟨.hbm, 636, rfl⟩
abbrev main_v526 : Ref sig .tc := ⟨.hbm, 637, rfl⟩
abbrev main_v527 : Ref sig .tc := ⟨.hbm, 638, rfl⟩
abbrev main_v528 : Ref sig .tc := ⟨.hbm, 639, rfl⟩
abbrev main_v529 : Ref sig .tc := ⟨.hbm, 640, rfl⟩
abbrev main_v530 : Ref sig .tc := ⟨.hbm, 641, rfl⟩
abbrev main_v531 : Ref sig .tc := ⟨.hbm, 642, rfl⟩
abbrev main_v532 : Ref sig .tc := ⟨.hbm, 643, rfl⟩
abbrev main_v533 : Ref sig .tc := ⟨.hbm, 644, rfl⟩
abbrev main_v534 : Ref sig .tc := ⟨.hbm, 645, rfl⟩
abbrev main_v535 : Ref sig .tc := ⟨.hbm, 646, rfl⟩
abbrev main_v536 : Ref sig .tc := ⟨.hbm, 647, rfl⟩
abbrev main_v537 : Ref sig .tc := ⟨.hbm, 648, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x4x128x128_S1x1x128x128_0_3_0_0 : S2x4x128x128.Slices ![0, 3, 0, 0] S1x1x128x128
  slices_S2x4x128_S1x1x128_0_3_0 : S2x4x128.Slices ![0, 3, 0] S1x1x128
  slices_S2x4x128x128_S1x1x128x128_0_1_0_0 : S2x4x128x128.Slices ![0, 1, 0, 0] S1x1x128x128
  slices_S2x4x128_S1x1x128_0_1_0 : S2x4x128.Slices ![0, 1, 0] S1x1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x2x128x128_S1x1x128x128_0_0_0_0 : S2x2x128x128.Slices ![0, 0, 0, 0] S1x1x128x128
  slices_S2x2x128_S1x1x128_0_0_0 : S2x2x128.Slices ![0, 0, 0] S1x1x128
  bcast_S_S500000 : S_.BroadcastsInDim S500000 (![] : Fin 0 → Fin S500000.rank)
  bcast_S500000_S500000x1_0 : S500000.BroadcastsInDim S500000x1 (![0] : Fin 1 → Fin S500000x1.rank)
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  slices_S3_S1_1 : S3.Slices ![1] S1
  slices_S3_S1_2 : S3.Slices ![2] S1
  dot_S50000x256_S256x128_S50000x128_1_0_0_1_n_n_wf : DotDims.WF S50000x256 S256x128 S50000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S250000x1_S250000x128_1_0_n_n_0_1_1128_wf : GatherDims.WF S50000x128 S250000x1 S250000x128 [1] [0] [] [0] [] 1 ![1, 128]
  scatter_S5000x128_S250000x1_S250000x128_1_0_0_1_wf : ScatterDims.WF S5000x128 S250000x1 S250000x128 [1] [0] [0] 1
  scatter_S5000_S250000x1_S250000_n_0_0_1_wf : ScatterDims.WF S5000 S250000x1 S250000 [] [0] [0] 1
  dot_S5000x128_S128x128_S5000x128_1_0_0_1_n_n_wf : DotDims.WF S5000x128 S128x128 S5000x128 [1] [0] [0] [1] [] []
  gather_S5000x128_S250000x1_S250000x128_1_0_n_n_0_1_1128_wf : GatherDims.WF S5000x128 S250000x1 S250000x128 [1] [0] [] [0] [] 1 ![1, 128]
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf

class Facts : Prop extends Facts₀ where

variable [Facts]
-- ==== Proof.RefInv.lean ====
/-
  The reference's run, stretch by stretch: what the buffers hold at each cut.

  The reference program is a line of host operations; cut into consecutive stretches, its run is the composition of the
  stretches' runs.  `St j W x0 … x17` says of buffer contents `W` that the eighteen arguments hold `x0 … x17` and that every
  buffer written before cut `j` and read after it (or returned) holds its stage's value of the arguments.  A stretch
  leaves a buffer it does not write as it was (`sub_of_mem` turns "the operation writes a reference of the list" into the
  inclusion the library's lemma asks for).
-/
import proofs.«128317_j60687887892780_2_alg».proof.Proof.RefStages

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- An operation whose one written buffer is a reference of the list writes inside the list. -/
theorem sub_of_mem {Wl : List (Ref sig .tc)} (y : Ref sig .tc) (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem hy))

/-- What the buffers hold at launch: the arguments, and the stages later stretches read. -/
structure St0 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17

/-- What the buffers hold before stretch 1: the arguments, and the stages later stretches read. -/
structure St1 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v3 : W (Proc.devRef .tc main_v3) = val_main_v3 (F := Ideal) x0 x3 x4
  main_v53 : W (Proc.devRef .tc main_v53) = val_main_v53 (F := Ideal) x0 x1 x3 x4 x5 x6 x7 x15

/-- What the buffers hold before stretch 2: the arguments, and the stages later stretches read. -/
structure St2 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v104 : W (Proc.devRef .tc main_v104) = val_main_v104 (F := Ideal) x0 x1 x3 x4 x5 x6 x7 x15
  main_v105 : W (Proc.devRef .tc main_v105) = val_main_v105 (F := Ideal) x0 x1 x3 x4 x5 x6 x7 x15
  main_v3 : W (Proc.devRef .tc main_v3) = val_main_v3 (F := Ideal) x0 x3 x4

/-- What the buffers hold before stretch 3: the arguments, and the stages later stretches read. -/
structure St3 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v105 : W (Proc.devRef .tc main_v105) = val_main_v105 (F := Ideal) x0 x1 x3 x4 x5 x6 x7 x15
  main_v104 : W (Proc.devRef .tc main_v104) = val_main_v104 (F := Ideal) x0 x1 x3 x4 x5 x6 x7 x15
  main_v155 : W (Proc.devRef .tc main_v155) = val_main_v155 (F := Ideal) x0 x1 x3 x4 x5 x6 x7 x15
  main_v3 : W (Proc.devRef .tc main_v3) = val_main_v3 (F := Ideal) x0 x3 x4

/-- What the buffers hold before stretch 4: the arguments, and the stages later stretches read. -/
structure St4 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v3 : W (Proc.devRef .tc main_v3) = val_main_v3 (F := Ideal) x0 x3 x4
  main_v207 : W (Proc.devRef .tc main_v207) = val_main_v207 (F := Ideal) x0 x1 x3 x4 x5 x6 x7 x15

/-- What the buffers hold before stretch 5: the arguments, and the stages later stretches read. -/
structure St5 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v258 : W (Proc.devRef .tc main_v258) = val_main_v258 (F := Ideal) x0 x3 x4 x8 x9 x10 x16
  main_v3 : W (Proc.devRef .tc main_v3) = val_main_v3 (F := Ideal) x0 x3 x4
  main_v207 : W (Proc.devRef .tc main_v207) = val_main_v207 (F := Ideal) x0 x1 x3 x4 x5 x6 x7 x15

/-- What the buffers hold before stretch 6: the arguments, and the stages later stretches read. -/
structure St6 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v3 : W (Proc.devRef .tc main_v3) = val_main_v3 (F := Ideal) x0 x3 x4
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16

/-- What the buffers hold before stretch 7: the arguments, and the stages later stretches read. -/
structure St7 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v3 : W (Proc.devRef .tc main_v3) = val_main_v3 (F := Ideal) x0 x3 x4
  main_v359 : W (Proc.devRef .tc main_v359) = val_main_v359 (F := Ideal) x0 x2 x3 x4 x11 x12 x13 x17
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16

/-- What the buffers hold before stretch 8: the arguments, and the stages later stretches read. -/
structure St8 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v410 : W (Proc.devRef .tc main_v410) = val_main_v410 (F := Ideal) x0 x2 x3 x4 x11 x12 x13 x17
  main_v411 : W (Proc.devRef .tc main_v411) = val_main_v411 (F := Ideal) x0 x2 x3 x4 x11 x12 x13 x17
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16

/-- What the buffers hold before stretch 9: the arguments, and the stages later stretches read. -/
structure St9 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v411 : W (Proc.devRef .tc main_v411) = val_main_v411 (F := Ideal) x0 x2 x3 x4 x11 x12 x13 x17
  main_v410 : W (Proc.devRef .tc main_v410) = val_main_v410 (F := Ideal) x0 x2 x3 x4 x11 x12 x13 x17
  main_v461 : W (Proc.devRef .tc main_v461) = val_main_v461 (F := Ideal) x0 x2 x3 x4 x11 x12 x13 x17
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16

/-- What the buffers hold before stretch 10: the arguments, and the stages later stretches read. -/
structure St10 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16
  main_v512 : W (Proc.devRef .tc main_v512) = val_main_v512 (F := Ideal) x0 x2 x3 x4 x11 x12 x13 x17

/-- What the buffers hold after the last stretch: the arguments, and the stages later stretches read. -/
structure St11 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13
  a14 : W (Proc.devRef .tc main_arg14) = x14
  a15 : W (Proc.devRef .tc main_arg15) = x15
  a16 : W (Proc.devRef .tc main_arg16) = x16
  a17 : W (Proc.devRef .tc main_arg17) = x17
  main_v537 : W (Proc.devRef .tc main_v537) = val_main_v537 (F := Ideal) x0 x1 x2 x3 x4 x5 x6 x7 x8 x9 x10 x11 x12 x13 x14 x15 x16 x17
  main_v207 : W (Proc.devRef .tc main_v207) = val_main_v207 (F := Ideal) x0 x1 x3 x4 x5 x6 x7 x15
  main_v309 : W (Proc.devRef .tc main_v309) = val_main_v309 (F := Ideal) x0 x3 x4 x8 x9 x10 x16
  main_v512 : W (Proc.devRef .tc main_v512) = val_main_v512 (F := Ideal) x0 x2 x3 x4 x11 x12 x13 x17
  main_v523 : W (Proc.devRef .tc main_v523) = val_main_v523 (F := Ideal) x14

end Cert.ReferenceIdeal.Value

end
-- ==== Proof.RefChunk0.lean ====
/-
  Stretch 0 of the reference's run (operations 0 … 60): from the facts before it to the facts after it.

  The stretch writes the references listed in `written0`; any other buffer keeps its contents (`keep0`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 0 writes, in order. -/
noncomputable def written0 : List (Ref sig .tc) :=
  [main_v0, main_v1, main_v2, main_v3, main_v4, main_v5, main_v6, main_v7, main_v8, main_v9, main_v10, main_v11, main_v12, main_v13, main_c, main_v14, main_v15, main_c_0, main_v16, main_v17, main_v18, main_v19, main_v20, main_cst, main_v21, main_v22, main_v23, main_cst_1, main_v24, main_cst_2, main_v25, main_v26, main_v27, main_cst_3, main_v28, main_v29, main_v30, main_v31, main_v32, main_v33, main_v34, main_v35, main_v36, main_v37, main_v38, main_v39, main_v40, main_v41, main_v42, main_v43, main_v44, main_v45, main_v46, main_v47, main_v48, main_v49, main_v50, main_v51, main_cst_4, main_v52, main_v53]

set_option maxRecDepth 8192 in
theorem chunk0_writes : (chunk0 (F := Ideal)).Forall fun op =>
    op.writes ⊆ (written0.map (Proc.devRef (τ := τ) .tc)).toFinset :=
  ⟨sub_of_mem main_v0 (by decide), sub_of_mem main_v1 (by decide), sub_of_mem main_v2 (by decide), sub_of_mem main_v3 (by decide), sub_of_mem main_v4 (by decide), sub_of_mem main_v5 (by decide), sub_of_mem main_v6 (by decide), sub_of_mem main_v7 (by decide), sub_of_mem main_v8 (by decide), sub_of_mem main_v9 (by decide), sub_of_mem main_v10 (by decide), sub_of_mem main_v11 (by decide), sub_of_mem main_v12 (by decide), sub_of_mem main_v13 (by decide), sub_of_mem main_c (by decide), sub_of_mem main_v14 (by decide), sub_of_mem main_v15 (by decide), sub_of_mem main_c_0 (by decide), sub_of_mem main_v16 (by decide), sub_of_mem main_v17 (by decide), sub_of_mem main_v18 (by decide), sub_of_mem main_v19 (by decide), sub_of_mem main_v20 (by decide), sub_of_mem main_cst (by decide), sub_of_mem main_v21 (by decide), sub_of_mem main_v22 (by decide), sub_of_mem main_v23 (by decide), sub_of_mem main_cst_1 (by decide), sub_of_mem main_v24 (by decide), sub_of_mem main_cst_2 (by decide), sub_of_mem main_v25 (by decide), sub_of_mem main_v26 (by decide), sub_of_mem main_v27 (by decide), sub_of_mem main_cst_3 (by decide), sub_of_mem main_v28 (by decide), sub_of_mem main_v29 (by decide), sub_of_mem main_v30 (by decide), sub_of_mem main_v31 (by decide), sub_of_mem main_v32 (by decide), sub_of_mem main_v33 (by decide), sub_of_mem main_v34 (by decide), sub_of_mem main_v35 (by decide), sub_of_mem main_v36 (by decide), sub_of_mem main_v37 (by decide), sub_of_mem main_v38 (by decide), sub_of_mem main_v39 (by decide), sub_of_mem main_v40 (by decide), sub_of_mem main_v41 (by decide), sub_of_mem main_v42 (by decide), sub_of_mem main_v43 (by decide), sub_of_mem main_v44 (by decide), sub_of_mem main_v45 (by decide), sub_of_mem main_v46 (by decide), sub_of_mem main_v47 (by decide), sub_of_mem main_v48 (by decide), sub_of_mem main_v49 (by decide), sub_of_mem main_v50 (by decide), sub_of_mem main_v51 (by decide), sub_of_mem main_cst_4 (by decide), sub_of_mem main_v52 (by decide), sub_of_mem main_v53 (by decide)⟩

/-- A buffer stretch 0 does not write keeps its contents. -/
theorem keep0 (W : Valuation τ sig (Elt Ideal)) (r : Ref sig .tc) (hr : r ∉ written0) :
    after (chunk0 (F := Ideal)) W (Proc.devRef .tc r) = W (Proc.devRef .tc r) :=
  after_of_writes_sub _ W chunk0_writes hr

/-- Stage `main_v3` after stretch 0. -/
theorem step0_main_v3 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St0 W x0 x1 x2 x3 x4 x5 x6 x7 x8 x9 x10 x11 x12 x13 x14 x15 x16 x17) :
    after (chunk0 (F := Ideal)) W (Proc.devRef .tc main_v3) = val_main_v3 (F := Ideal) x0 x3 x4 := by
  after_results_simp
  simp only [h.a0, h.a1, h.a2, h.a3, h.a4, h.a5, h.a6, h.a7, h.a8, h.a9, h.a10, h.a11, h.a12, h.a13, h.a14, h.a15, h.a16, h.a17]
  rfl

/-- Stage `main_v53` after stretch 0. -/
theorem step0_main_v53 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St0 W x0 x1 x2 x3 x4 x5 x6 x7 x8 x9 x10 x11 x12 x13 x14 x15 x16 x17) :
    after (chunk0 (F := Ideal)) W (Proc.devRef .tc main_v53) = val_main_v53 (F := Ideal) x0 x1 x3 x4 x5 x6 x7 x15 := by
  after_results_simp
  simp only [h.a0, h.a1, h.a2, h.a3, h.a4, h.a5, h.a6, h.a7, h.a8, h.a9, h.a10, h.a11, h.a12, h.a13, h.a14, h.a15, h.a16, h.a17]
  rfl

/-- The facts after stretch 0 from the facts before it. -/
theorem chunk0_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St0 W x0 x1 x2 x3 x4 x5 x6 x7 x8 x9 x10 x11 x12 x13 x14 x15 x16 x17) : St1 (after (chunk0 (F := Ideal)) W) x0 x1 x2 x3 x4 x5 x6 x7 x8 x9 x10 x11 x12 x13 x14 x15 x16 x17 :=
  {
    a0 := (keep0 W main_arg0 (by decide)).trans h.a0
    a1 := (keep0 W main_arg1 (by decide)).trans h.a1
    a2 := (keep0 W main_arg2 (by decide)).trans h.a2
    a3 := (keep0 W main_arg3 (by decide)).trans h.a3
    a4 := (keep0 W main_arg4 (by decide)).trans h.a4
    a5 := (keep0 W main_arg5 (by decide)).trans h.a5
    a6 := (keep0 W main_arg6 (by decide)).trans h.a6
    a7 := (keep0 W main_arg7 (by decide)).trans h.a7
    a8 := (keep0 W main_arg8 (by decide)).trans h.a8
    a9 := (keep0 W main_arg9 (by decide)).trans h.a9
    a10 := (keep0 W main_arg10 (by decide)).trans h.a10
    a11 := (keep0 W main_arg11 (by decide)).trans h.a11
    a12 := (keep0 W main_arg12 (by decide)).trans h.a12
    a13 := (keep0 W main_arg13 (by decide)).trans h.a13
    a14 := (keep0 W main_arg14 (by decide)).trans h.a14
    a15 := (keep0 W main_arg15 (by decide)).trans h.a15
    a16 := (keep0 W main_arg16 (by decide)).trans h.a16
    a17 := (keep0 W main_arg17 (by decide)).trans h.a17
    main_v3 := step0_main_v3 W x0 x1 x2 x3 x4 x5 x6 x7 x8 x9 x10 x11 x12 x13 x14 x15 x16 x17 h
    main_v53 := step0_main_v53 W x0 x1 x2 x3 x4 x5 x6 x7 x8 x9 x10 x11 x12 x13 x14 x15 x16 x17 h }

end Cert.ReferenceIdeal.Value

end
-- ==== Proof.RefChunk1.lean ====
/-
  Stretch 1 of the reference's run (operations 61 … 123): from the facts before it to the facts after it.

  The stretch writes the references listed in `written1`; any other buffer keeps its contents (`keep1`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 1 writes, in order. -/
noncomputable def written1 : List (Ref sig .tc) :=
  [main_v54, main_v55, main_v56, main_v57, main_v58, main_v59, main_v60, main_v61, main_v62, main_v63, main_c_5, main_v64, main_v65, main_c_6, main_v66, main_v67, main_v68, main_v69, main_v70, main_cst_7, main_v71, main_v72, main_v73, main_cst_8, main_v74, main_cst_9, main_v75, main_v76, main_v77, main_cst_10, main_v78, main_v79, main_v80, main_v81, main_v82, main_v83, main_v84, main_v85, main_v86, main_v87, main_v88, main_v89, main_v90, main_v91, main_v92, main_v93, main_v94, main_v95, main_v96, main_v97, main_v98, main_v99, main_v100, main_v101, main_cst_11, main_v102, main_v103, main_call0_cst, main_call0_v0, main_v104, main_call1_cst, main_call1_v0, main_v105]

set_option maxRecDepth 8192 in
theorem chunk1_writes : (chunk1 (F := Ideal)).Forall fun op =>
    op.writes ⊆ (written1.map (Proc.devRef (τ := τ) .tc)).toFinset :=
  ⟨sub_of_mem main_v54 (by decide), sub_of_mem main_v55 (by decide), sub_of_mem main_v56 (by decide), sub_of_mem main_v57 (by decide), sub_of_mem main_v58 (by decide), sub_of_mem main_v59 (by decide), sub_of_mem main_v60 (by decide), sub_of_mem main_v61 (by decide), sub_of_mem main_v62 (by decide), sub_of_mem main_v63 (by decide), sub_of_mem main_c_5 (by decide), sub_of_mem main_v64 (by decide), sub_of_mem main_v65 (by decide), sub_of_mem main_c_6 (by decide), sub_of_mem main_v66 (by decide), sub_of_mem main_v67 (by decide), sub_of_mem main_v68 (by decide), sub_of_mem main_v69 (by decide), sub_of_mem main_v70 (by decide), sub_of_mem main_cst_7 (by decide), sub_of_mem main_v71 (by decide), sub_of_mem main_v72 (by decide), sub_of_mem main_v73 (by decide), sub_of_mem main_cst_8 (by decide), sub_of_mem main_v74 (by decide), sub_of_mem main_cst_9 (by decide), sub_of_mem main_v75 (by decide), sub_of_mem main_v76 (by decide), sub_of_mem main_v77 (by decide), sub_of_mem main_cst_10 (by decide), sub_of_mem main_v78 (by decide), sub_of_mem main_v79 (by decide), sub_of_mem main_v80 (by decide), sub_of_mem main_v81 (by decide), sub_of_mem main_v82 (by decide), sub_of_mem main_v83 (by decide), sub_of_mem main_v84 (by decide), sub_of_mem main_v85 (by decide), sub_of_mem main_v86 (by decide), sub_of_mem main_v87 (by decide), sub_of_mem main_v88 (by decide), sub_of_mem main_v89 (by decide), sub_of_mem main_v90 (by decide), sub_of_mem main_v91 (by decide), sub_of_mem main_v92 (by decide), sub_of_mem main_v93 (by decide), sub_of_mem main_v94 (by decide), sub_of_mem main_v95 (by decide), sub_of_mem main_v96 (by decide), sub_of_mem main_v97 (by decide), sub_of_mem main_v98 (by decide), sub_of_mem main_v99 (by decide), sub_of_mem main_v100 (by decide), sub_of_mem main_v101 (by decide), sub_of_mem main_cst_11 (by decide), sub_of_mem main_v102 (by decide), sub_of_mem main_v103 (by decide), sub_of_mem main_call0_cst (by decide), sub_of_mem main_call0_v0 (by decide), sub_of_mem main_v104 (by decide), sub_of_mem main_call1_cst (by decide), sub_of_mem main_call1_v0 (by decide), sub_of_mem main_v105 (by decide)⟩

/-- A buffer stretch 1 does not write keeps its contents. -/
theorem keep1 (W : Valuation τ sig (Elt Ideal)) (r : Ref sig .tc) (hr : r ∉ written1) :
    after (chunk1 (F := Ideal)) W (Proc.devRef .tc r) = W (Proc.devRef .tc r) :=
  after_of_writes_sub _ W chunk1_writes hr

/-- The rectified half of a 100000-row array as the called function's operations leave it: each operation reads and
    writes its buffers through transports along equations between buffer types that hold by computation, and those
    transports are the identity. -/
theorem relu_casts_call0 (v : (⟨S100000x128, .f32⟩ : BufTy).Contents (Elt Ideal)) :
    (TRef.of (sig := sig) (T := ⟨S100000x128, .f32⟩) main_v104).toBuf (Val := Elt Ideal)
      (maximumf (F := Ideal) (φ := .f32) ((TRef.of (sig := sig) (T := ⟨S100000x128, .f32⟩) main_v103).ofBuf (Val := Elt Ideal) v)
        ((TRef.of (sig := sig) (T := ⟨S100000x128, .f32⟩) main_call0_v0).ofBuf (Val := Elt Ideal)
          ((TRef.of (sig := sig) (T := ⟨S100000x128, .f32⟩) main_call0_v0).toBuf (Val := Elt Ideal)
            (broadcastInDim S100000x128 ![] bcast_S_S100000x128
              ((TRef.of (sig := sig) (T := ⟨S_, .f32⟩) main_call0_cst).ofBuf (Val := Elt Ideal)
                ((TRef.of (sig := sig) (T := ⟨S_, .f32⟩) main_call0_cst).toBuf (Val := Elt Ideal) (constant (F := Ideal) S_ .f32 0x00000000#32)))))))
      = maximumf (F := Ideal) (φ := .f32) v (broadcastInDim S100000x128 ![] bcast_S_S100000x128 (constant (F := Ideal) S_ .f32 0x00000000#32)) := rfl

/-- The rectified half of a 50000-row array as the called function's operations leave it: each operation reads and
    writes its buffers through transports along equations between buffer types that hold by computation, and those
    transports are the identity. -/
theorem relu_casts_call1 (v : (⟨S50000x128, .f32⟩ : BufTy).Contents (Elt Ideal)) :
    (TRef.of (sig := sig) (T := ⟨S50000x128, .f32⟩) main_v105).toBuf (Val := Elt Ideal)
      (maximumf (F := Ideal) (φ := .f32) ((TRef.of (sig := sig) (T := ⟨S50000x128, .f32⟩) main_v53).ofBuf (Val := Elt Ideal) v)
        ((TRef.of (sig := sig) (T := ⟨S50000x128, .f32⟩) main_call1_v0).ofBuf (Val := Elt Ideal)
          ((TRef.of (sig := sig) (T := ⟨S50000x128, .f32⟩) main_call1_v0).toBuf (Val := Elt Ideal)
            (broadcastInDim S50000x128 ![] bcast_S_S50000x128
              ((TRef.of (sig := sig) (T := ⟨S_, .f32⟩) main_call1_cst).ofBuf (Val := Elt Ideal)
                ((TRef.of (sig := sig) (T := ⟨S_, .f32⟩) main_call1_cst).toBuf (Val := Elt Ideal) (constant (F := Ideal) S_ .f32 0x00000000#32)))))))
      = maximumf (F := Ideal) (φ := .f32) v (broadcastInDim S50000x128 ![] bcast_S_S50000x128 (constant (F := Ideal) S_ .f32 0x00000000#32)) := rfl

/-- Stage `main_v104` after stretch 1. -/
theorem step1_main_v104 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St1 W x0 x1 x2 x3 x4 x5 x6 x7 x8 x9 x10 x11 x12 x13 x14 x15 x16 x17) :
    after (chunk1 (F := Ideal)) W (Proc.devRef .tc main_v104) = val_main_v104 (F := Ideal) x0 x1 x3 x4 x5 x6 x7 x15 := by
  after_results_simp
  refine (relu_casts_call0 _).trans ?_
  simp only [h.a0, h.a1, h.a2, h.a3, h.a4, h.a5, h.a6, h.a7, h.a8, h.a9, h.a10, h.a11, h.a12, h.a13, h.a14, h.a15, h.a16, h.a17, h.main_v3, h.main_v53]
  rfl

/-- Stage `main_v105` after stretch 1. -/
theorem step1_main_v105 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St1 W x0 x1 x2 x3 x4 x5 x6 x7 x8 x9 x10 x11 x12 x13 x14 x15 x16 x17) :
    after (chunk1 (F := Ideal)) W (Proc.devRef .tc main_v105) = val_main_v105 (F := Ideal) x0 x1 x3 x4 x5 x6 x7 x15 := by
  after_results_simp
  refine (relu_casts_call1 _).trans ?_
  simp only [h.a0, h.a1, h.a2, h.a3, h.a4, h.a5, h.a6, h.a7, h.a8, h.a9, h.a10, h.a11, h.a12, h.a13, h.a14, h.a15, h.a16, h.a17, h.main_v3, h.main_v53]
  rfl

/-- The facts after stretch 1 from the facts before it. -/
theorem chunk1_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St1 W x0 x1 x2 x3 x4 x5 x6 x7 x8 x9 x10 x11 x12 x13 x14 x15 x16 x17) : St2 (after (chunk1 (F := Ideal)) W) x0 x1 x2 x3 x4 x5 x6 x7 x8 x9 x10 x11 x12 x13 x14 x15 x16 x17 :=
  {
    a0 := (keep1 W main_arg0 (by decide)).trans h.a0
    a1 := (keep1 W main_arg1 (by decide)).trans h.a1
    a2 := (keep1 W main_arg2 (by decide)).trans h.a2
    a3 := (keep1 W main_arg3 (by decide)).trans h.a3
    a4 := (keep1 W main_arg4 (by decide)).trans h.a4
    a5 := (keep1 W main_arg5 (by decide)).trans h.a5
    a6 := (keep1 W main_arg6 (by decide)).trans h.a6
    a7 := (keep1 W main_arg7 (by decide)).trans h.a7
    a8 := (keep1 W main_arg8 (by decide)).trans h.a8
    a9 := (keep1 W main_arg9 (by decide)).trans h.a9
    a10 := (keep1 W main_arg10 (by decide)).trans h.a10
    a11 := (keep1 W main_arg11 (by decide)).trans h.a11
    a12 := (keep1 W main_arg12 (by decide)).trans h.a12
    a13 := (keep1 W main_arg13 (by decide)).trans h.a13
    a14 := (keep1 W main_arg14 (by decide)).trans h.a14
    a15 := (keep1 W main_arg15 (by decide)).trans h.a15
    a16 := (keep1 W main_arg16 (by decide)).trans h.a16
    a17 := (keep1 W main_arg17 (by decide)).trans h.a17
    main_v104 := step1_main_v104 W x0 x1 x2 x3 x4 x5 x6 x7 x8 x9 x10 x11 x12 x13 x14 x15 x16 x17 h
    main_v105 := step1_main_v105 W x0 x1 x2 x3 x4 x5 x6 x7 x8 x9 x10 x11 x12 x13 x14 x15 x16 x17 h
    main_v3 := (keep1 W main_v3 (by decide)).trans h.main_v3 }

end Cert.ReferenceIdeal.Value

end
-- ==== Proof.RefChunk2.lean ====
/-
  Stretch 2 of the reference's run (operations 124 … 180): from the facts before it to the facts after it.

  The stretch writes the references listed in `written2`; any other buffer keeps its contents (`keep2`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 2 writes, in order. -/
noncomputable def written2 : List (Ref sig .tc) :=
  [main_v106, main_v107, main_v108, main_v109, main_v110, main_v111, main_v112, main_v113, main_v114, main_v115, main_c_12, main_v116, main_v117, main_c_13, main_v118, main_v119, main_v120, main_v121, main_v122, main_cst_14, main_v123, main_v124, main_v125, main_cst_15, main_v126, main_cst_16, main_v127, main_v128, main_v129, main_cst_17, main_v130, main_v131, main_v132, main_v133, main_v134, main_v135, main_v136, main_v137, main_v138, main_v139, main_v140, main_v141, main_v142, main_v143, main_v144, main_v145, main_v146, main_v147, main_v148, main_v149, main_v150, main_v151, main_v152, main_v153, main_cst_18, main_v154, main_v155]

set_option maxRecDepth 8192 in
theorem chunk2_writes : (chunk2 (F := Ideal)).Forall fun op =>
    op.writes ⊆ (written2.map (Proc.devRef (τ := τ) .tc)).toFinset :=
  ⟨sub_of_mem main_v106 (by decide), sub_of_mem main_v107 (by decide), sub_of_mem main_v108 (by decide), sub_of_mem main_v109 (by decide), sub_of_mem main_v110 (by decide), sub_of_mem main_v111 (by decide), sub_of_mem main_v112 (by decide), sub_of_mem main_v113 (by decide), sub_of_mem main_v114 (by decide), sub_of_mem main_v115 (by decide), sub_of_mem main_c_12 (by decide), sub_of_mem main_v116 (by decide), sub_of_mem main_v117 (by decide), sub_of_mem main_c_13 (by decide), sub_of_mem main_v118 (by decide), sub_of_mem main_v119 (by decide), sub_of_mem main_v120 (by decide), sub_of_mem main_v121 (by decide), sub_of_mem main_v122 (by decide), sub_of_mem main_cst_14 (by decide), sub_of_mem main_v123 (by decide), sub_of_mem main_v124 (by decide), sub_of_mem main_v125 (by decide), sub_of_mem main_cst_15 (by decide), sub_of_mem main_v126 (by decide), sub_of_mem main_cst_16 (by decide), sub_of_mem main_v127 (by decide), sub_of_mem main_v128 (by decide), sub_of_mem main_v129 (by decide), sub_of_mem main_cst_17 (by decide), sub_of_mem main_v130 (by decide), sub_of_mem main_v131 (by decide), sub_of_mem main_v132 (by decide), sub_of_mem main_v133 (by decide), sub_of_mem main_v134 (by decide), sub_of_mem main_v135 (by decide), sub_of_mem main_v136 (by decide), sub_of_mem main_v137 (by decide), sub_of_mem main_v138 (by decide), sub_of_mem main_v139 (by decide), sub_of_mem main_v140 (by decide), sub_of_mem main_v141 (by decide), sub_of_mem main_v142 (by decide), sub_of_mem main_v143 (by decide), sub_of_mem main_v144 (by decide), sub_of_mem main_v145 (by decide), sub_of_mem main_v146 (by decide), sub_of_mem main_v147 (by decide), sub_of_mem main_v148 (by decide), sub_of_mem main_v149 (by decide), sub_of_mem main_v150 (by decide), sub_of_mem main_v151 (by decide), sub_of_mem main_v152 (by decide), sub_of_mem main_v153 (by decide), sub_of_mem main_cst_18 (by decide), sub_of_mem main_v154 (by decide), sub_of_mem main_v155 (by decide)⟩

/-- A buffer stretch 2 does not write keeps its contents. -/
theorem keep2 (W : Valuation τ sig (Elt Ideal)) (r : Ref sig .tc) (hr : r ∉ written2) :
    after (chunk2 (F := Ideal)) W (Proc.devRef .tc r) = W (Proc.devRef .tc r) :=
  after_of_writes_sub _ W chunk2_writes hr

/-- Stage `main_v155` after stretch 2. -/
theorem step2_main_v155 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St2 W x0 x1 x2 x3 x4 x5 x6 x7 x8 x9 x10 x11 x12 x13 x14 x15 x16 x17) :
    after (chunk2 (F := Ideal)) W (Proc.devRef .tc main_v155) = val_main_v155 (F := Ideal) x0 x1 x3 x4 x5 x6 x7 x15 := by
  after_results_simp
  simp only [h.a0, h.a1, h.a2, h.a3, h.a4, h.a5, h.a6, h.a7, h.a8, h.a9, h.a10, h.a11, h.a12, h.a13, h.a14, h.a15, h.a16, h.a17, h.main_v104, h.main_v105, h.main_v3]
  rfl

/-- The facts after stretch 2 from the facts before it. -/
theorem chunk2_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St2 W x0 x1 x2 x3 x4 x5 x6 x7 x8 x9 x10 x11 x12 x13 x14 x15 x16 x17) : St3 (after (chunk2 (F := Ideal)) W) x0 x1 x2 x3 x4 x5 x6 x7 x8 x9 x10 x11 x12 x13 x14 x15 x16 x17 :=
  {
    a0 := (keep2 W main_arg0 (by decide)).trans h.a0
    a1 := (keep2 W main_arg1 (by decide)).trans h.a1
    a2 := (keep2 W main_arg2 (by decide)).trans h.a2
    a3 := (keep2 W main_arg3 (by decide)).trans h.a3
    a4 := (keep2 W main_arg4 (by decide)).trans h.a4
    a5 := (keep2 W main_arg5 (by decide)).trans h.a5
    a6 := (keep2 W main_arg6 (by decide)).trans h.a6
    a7 := (keep2 W main_arg7 (by decide)).trans h.a7
    a8 := (keep2 W main_arg8 (by decide)).trans h.a8
    a9 := (keep2 W main_arg9 (by decide)).trans h.a9
    a10 := (keep2 W main_arg10 (by decide)).trans h.a10
    a11 := (keep2 W main_arg11 (by decide)).trans h.a11
    a12 := (keep2 W main_arg12 (by decide)).trans h.a12
    a13 := (keep2 W main_arg13 (by decide)).trans h.a13
    a14 := (keep2 W main_arg14 (by decide)).trans h.a14
    a15 := (keep2 W main_arg15 (by decide)).trans h.a15
    a16 := (keep2 W main_arg16 (by decide)).trans h.a16
    a17 := (keep2 W main_arg17 (by decide)).trans h.a17
    main_v105 := (keep2 W main_v105 (by decide)).trans h.main_v105
    main_v104 := (keep2 W main_v104 (by decide)).trans h.main_v104
    main_v155 := step2_main_v155 W x0 x1 x2 x3 x4 x5 x6 x7 x8 x9 x10 x11 x12 x13 x14 x15 x16 x17 h
    main_v3 := (keep2 W main_v3 (by decide)).trans h.main_v3 }

end Cert.ReferenceIdeal.Value

end
-- ==== Proof.RefChunk3.lean ====
/-
  Stretch 3 of the reference's run (operations 181 … 243): from the facts before it to the facts after it.

  The stretch writes the references listed in `written3`; any other buffer keeps its contents (`keep3`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 3 writes, in order. -/
noncomputable def written3 : List (Ref sig .tc) :=
  [main_v156, main_v157, main_v158, main_v159, main_v160, main_v161, main_v162, main_v163, main_v164, main_v165, main_c_19, main_v166, main_v167, main_c_20, main_v168, main_v169, main_v170, main_v171, main_v172, main_cst_21, main_v173, main_v174, main_v175, main_cst_22, main_v176, main_cst_23, main_v177, main_v178, main_v179, main_cst_24, main_v180, main_v181, main_v182, main_v183, main_v184, main_v185, main_v186, main_v187, main_v188, main_v189, main_v190, main_v191, main_v192, main_v193, main_v194, main_v195, main_v196, main_v197, main_v198, main_v199, main_v200, main_v201, main_v202, main_v203, main_cst_25, main_v204, main_v205, main_call2_cst, main_call2_v0, main_v206, main_call3_cst, main_call3_v0, main_v207]

set_option maxRecDepth 8192 in
theorem chunk3_writes : (chunk3 (F := Ideal)).Forall fun op =>
    op.writes ⊆ (written3.map (Proc.devRef (τ := τ) .tc)).toFinset :=
  ⟨sub_of_mem main_v156 (by decide), sub_of_mem main_v157 (by decide), sub_of_mem main_v158 (by decide), sub_of_mem main_v159 (by decide), sub_of_mem main_v160 (by decide), sub_of_mem main_v161 (by decide), sub_of_mem main_v162 (by decide), sub_of_mem main_v163 (by decide), sub_of_mem main_v164 (by decide), sub_of_mem main_v165 (by decide), sub_of_mem main_c_19 (by decide), sub_of_mem main_v166 (by decide), sub_of_mem main_v167 (by decide), sub_of_mem main_c_20 (by decide), sub_of_mem main_v168 (by decide), sub_of_mem main_v169 (by decide), sub_of_mem main_v170 (by decide), sub_of_mem main_v171 (by decide), sub_of_mem main_v172 (by decide), sub_of_mem main_cst_21 (by decide), sub_of_mem main_v173 (by decide), sub_of_mem main_v174 (by decide), sub_of_mem main_v175 (by decide), sub_of_mem main_cst_22 (by decide), sub_of_mem main_v176 (by decide), sub_of_mem main_cst_23 (by decide), sub_of_mem main_v177 (by decide), sub_of_mem main_v178 (by decide), sub_of_mem main_v179 (by decide), sub_of_mem main_cst_24 (by decide), sub_of_mem main_v180 (by decide), sub_of_mem main_v181 (by decide), sub_of_mem main_v182 (by decide), sub_of_mem main_v183 (by decide), sub_of_mem main_v184 (by decide), sub_of_mem main_v185 (by decide), sub_of_mem main_v186 (by decide), sub_of_mem main_v187 (by decide), sub_of_mem main_v188 (by decide), sub_of_mem main_v189 (by decide), sub_of_mem main_v190 (by decide), sub_of_mem main_v191 (by decide), sub_of_mem main_v192 (by decide), sub_of_mem main_v193 (by decide), sub_of_mem main_v194 (by decide), sub_of_mem main_v195 (by decide), sub_of_mem main_v196 (by decide), sub_of_mem main_v197 (by decide), sub_of_mem main_v198 (by decide), sub_of_mem main_v199 (by decide), sub_of_mem main_v200 (by decide), sub_of_mem main_v201 (by decide), sub_of_mem main_v202 (by decide), sub_of_mem main_v203 (by decide), sub_of_mem main_cst_25 (by decide), sub_of_mem main_v204 (by decide), sub_of_mem main_v205 (by decide), sub_of_mem main_call2_cst (by decide), sub_of_mem main_call2_v0 (by decide), sub_of_mem main_v206 (by decide), sub_of_mem main_call3_cst (by decide), sub_of_mem main_call3_v0 (by decide), sub_of_mem main_v207 (by decide)⟩

/-- A buffer stretch 3 does not write keeps its contents. -/
theorem keep3 (W : Valuation τ sig (Elt Ideal)) (r : Ref sig .tc) (hr : r ∉ written3) :
    after (chunk3 (F := Ideal)) W (Proc.devRef .tc r) = W (Proc.devRef .tc r) :=
  after_of_writes_sub _ W chunk3_writes hr

/-- The rectified half of a 50000-row array as the called function's operations leave it: each operation reads and
    writes its buffers through transports along equations between buffer types that hold by computation, and those
    transports are the identity. -/
theorem relu_casts_S50000x128 (v : (⟨S50000x128, .f32⟩ : BufTy).Contents (Elt Ideal)) :
    (TRef.of (sig := sig) (T := ⟨S50000x128, .f32⟩) main_v207).toBuf (Val := Elt Ideal)
      (maximumf (F := Ideal) (φ := .f32) ((TRef.of (sig := sig) (T := ⟨S50000x128, .f32⟩) main_v155).ofBuf (Val := Elt Ideal) v)
        ((TRef.of (sig := sig) (T := ⟨S50000x128, .f32⟩) main_call3_v0).ofBuf (Val := Elt Ideal)
          ((TRef.of (sig := sig) (T := ⟨S50000x128, .f32⟩) main_call3_v0).toBuf (Val := Elt Ideal)
            (broadcastInDim S50000x128 ![] bcast_S_S50000x128
              ((TRef.of (sig := sig) (T := ⟨S_, .f32⟩) main_call3_cst).ofBuf (Val := Elt Ideal)
                ((TRef.of (sig := sig) (T := ⟨S_, .f32⟩) main_call3_cst).toBuf (Val := Elt Ideal) (constant (F := Ideal) S_ .f32 0x00000000#32)))))))
      = maximumf (F := Ideal) (φ := .f32) v (broadcastInDim S50000x128 ![] bcast_S_S50000x128 (constant (F := Ideal) S_ .f32 0x00000000#32)) := rfl

/-- Stage `main_v207` after stretch 3. -/
theorem step3_main_v207 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St3 W x0 x1 x2 x3 x4 x5 x6 x7 x8 x9 x10 x11 x12 x13 x14 x15 x16 x17) :
    after (chunk3 (F := Ideal)) W (Proc.devRef .tc main_v207) = val_main_v207 (F := Ideal) x0 x1 x3 x4 x5 x6 x7 x15 := by
  after_results_simp
  simp only [h.a0, h.a1, h.a2, h.a3, h.a4, h.a5, h.a6, h.a7, h.a8, h.a9, h.a10, h.a11, h.a12, h.a13, h.a14, h.a15, h.a16, h.a17, h.main_v105, h.main_v104, h.main_v155, h.main_v3]
  exact relu_casts_S50000x128 _

/-- The facts after stretch 3 from the facts before it. -/
theorem chunk3_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St3 W x0 x1 x2 x3 x4 x5 x6 x7 x8 x9 x10 x11 x12 x13 x14 x15 x16 x17) : St4 (after (chunk3 (F := Ideal)) W) x0 x1 x2 x3 x4 x5 x6 x7 x8 x9 x10 x11 x12 x13 x14 x15 x16 x17 :=
  {
    a0 := (keep3 W main_arg0 (by decide)).trans h.a0
    a1 := (keep3 W main_arg1 (by decide)).trans h.a1
    a2 := (keep3 W main_arg2 (by decide)).trans h.a2
    a3 := (keep3 W main_arg3 (by decide)).trans h.a3
    a4 := (keep3 W main_arg4 (by decide)).trans h.a4
    a5 := (keep3 W main_arg5 (by decide)).trans h.a5
    a6 := (keep3 W main_arg6 (by decide)).trans h.a6
    a7 := (keep3 W main_arg7 (by decide)).trans h.a7
    a8 := (keep3 W main_arg8 (by decide)).trans h.a8
    a9 := (keep3 W main_arg9 (by decide)).trans h.a9
    a10 := (keep3 W main_arg10 (by decide)).trans h.a10
    a11 := (keep3 W main_arg11 (by decide)).trans h.a11
    a12 := (keep3 W main_arg12 (by decide)).trans h.a12
    a13 := (keep3 W main_arg13 (by decide)).trans h.a13
    a14 := (keep3 W main_arg14 (by decide)).trans h.a14
    a15 := (keep3 W main_arg15 (by decide)).trans h.a15
    a16 := (keep3 W main_arg16 (by decide)).trans h.a16
    a17 := (keep3 W main_arg17 (by decide)).trans h.a17
    main_v3 := (keep3 W main_v3 (by decide)).trans h.main_v3
    main_v207 := step3_main_v207 W x0 x1 x2 x3 x4 x5 x6 x7 x8 x9 x10 x11 x12 x13 x14 x15 x16 x17 h }

end Cert.ReferenceIdeal.Value

end
-- ==== Proof.RefChunk4.lean ====
/-
  Stretch 4 of the reference's run (operations 244 … 303): from the facts before it to the facts after it.

  The stretch writes the references listed in `written4`; any other buffer keeps its contents (`keep4`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 4 writes, in order. -/
noncomputable def written4 : List (Ref sig .tc) :=
  [main_v208, main_v209, main_v210, main_v211, main_v212, main_v213, main_v214, main_v215, main_v216, main_v217, main_c_26, main_v218, main_v219, main_c_27, main_v220, main_v221, main_v222, main_v223, main_v224, main_cst_28, main_v225, main_v226, main_v227, main_cst_29, main_v228, main_cst_30, main_v229, main_v230, main_v231, main_cst_31, main_v232, main_v233, main_v234, main_v235, main_v236, main_v237, main_v238, main_v239, main_v240, main_v241, main_v242, main_v243, main_v244, main_v245, main_v246, main_v247, main_v248, main_v249, main_v250, main_v251, main_v252, main_v253, main_v254, main_v255, main_cst_32, main_v256, main_v257, main_call4_cst, main_call4_v0, main_v258]

set_option maxRecDepth 8192 in
theorem chunk4_writes : (chunk4 (F := Ideal)).Forall fun op =>
    op.writes ⊆ (written4.map (Proc.devRef (τ := τ) .tc)).toFinset :=
  ⟨sub_of_mem main_v208 (by decide), sub_of_mem main_v209 (by decide), sub_of_mem main_v210 (by decide), sub_of_mem main_v211 (by decide), sub_of_mem main_v212 (by decide), sub_of_mem main_v213 (by decide), sub_of_mem main_v214 (by decide), sub_of_mem main_v215 (by decide), sub_of_mem main_v216 (by decide), sub_of_mem main_v217 (by decide), sub_of_mem main_c_26 (by decide), sub_of_mem main_v218 (by decide), sub_of_mem main_v219 (by decide), sub_of_mem main_c_27 (by decide), sub_of_mem main_v220 (by decide), sub_of_mem main_v221 (by decide), sub_of_mem main_v222 (by decide), sub_of_mem main_v223 (by decide), sub_of_mem main_v224 (by decide), sub_of_mem main_cst_28 (by decide), sub_of_mem main_v225 (by decide), sub_of_mem main_v226 (by decide), sub_of_mem main_v227 (by decide), sub_of_mem main_cst_29 (by decide), sub_of_mem main_v228 (by decide), sub_of_mem main_cst_30 (by decide), sub_of_mem main_v229 (by decide), sub_of_mem main_v230 (by decide), sub_of_mem main_v231 (by decide), sub_of_mem main_cst_31 (by decide), sub_of_mem main_v232 (by decide), sub_of_mem main_v233 (by decide), sub_of_mem main_v234 (by decide), sub_of_mem main_v235 (by decide), sub_of_mem main_v236 (by decide), sub_of_mem main_v237 (by decide), sub_of_mem main_v238 (by decide), sub_of_mem main_v239 (by decide), sub_of_mem main_v240 (by decide), sub_of_mem main_v241 (by decide), sub_of_mem main_v242 (by decide), sub_of_mem main_v243 (by decide), sub_of_mem main_v244 (by decide), sub_of_mem main_v245 (by decide), sub_of_mem main_v246 (by decide), sub_of_mem main_v247 (by decide), sub_of_mem main_v248 (by decide), sub_of_mem main_v249 (by decide), sub_of_mem main_v250 (by decide), sub_of_mem main_v251 (by decide), sub_of_mem main_v252 (by decide), sub_of_mem main_v253 (by decide), sub_of_mem main_v254 (by decide), sub_of_mem main_v255 (by decide), sub_of_mem main_cst_32 (by decide), sub_of_mem main_v256 (by decide), sub_of_mem main_v257 (by decide), sub_of_mem main_call4_cst (by decide), sub_of_mem main_call4_v0 (by decide), sub_of_mem main_v258 (by decide)⟩

/-- A buffer stretch 4 does not write keeps its contents. -/
theorem keep4 (W : Valuation τ sig (Elt Ideal)) (r : Ref sig .tc) (hr : r ∉ written4) :
    after (chunk4 (F := Ideal)) W (Proc.devRef .tc r) = W (Proc.devRef .tc r) :=
  after_of_writes_sub _ W chunk4_writes hr

/-- The rectified array as the called function's operations leave it: each operation reads and writes its buffers
    through transports along equations between buffer types that hold by computation, and those transports are the
    identity. -/
theorem relu_casts_call4 (v : (⟨S50000x128, .f32⟩ : BufTy).Contents (Elt Ideal)) :
    (TRef.of (sig := sig) (T := ⟨S50000x128, .f32⟩) main_v258).toBuf (Val := Elt Ideal)
      (maximumf (F := Ideal) (φ := .f32) ((TRef.of (sig := sig) (T := ⟨S50000x128, .f32⟩) main_v257).ofBuf (Val := Elt Ideal) v)
        ((TRef.of (sig := sig) (T := ⟨S50000x128, .f32⟩) main_call4_v0).ofBuf (Val := Elt Ideal)
          ((TRef.of (sig := sig) (T := ⟨S50000x128, .f32⟩) main_call4_v0).toBuf (Val := Elt Ideal)
            (broadcastInDim S50000x128 ![] bcast_S_S50000x128
              ((TRef.of (sig := sig) (T := ⟨S_, .f32⟩) main_call4_cst).ofBuf (Val := Elt Ideal)
                ((TRef.of (sig := sig) (T := ⟨S_, .f32⟩) main_call4_cst).toBuf (Val := Elt Ideal) (constant (F := Ideal) S_ .f32 0x00000000#32)))))))
      = maximumf (F := Ideal) (φ := .f32) v (broadcastInDim S50000x128 ![] bcast_S_S50000x128 (constant (F := Ideal) S_ .f32 0x00000000#32)) := rfl

/-- Stage `main_v258` after stretch 4. -/
theorem step4_main_v258 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St4 W x0 x1 x2 x3 x4 x5 x6 x7 x8 x9 x10 x11 x12 x13 x14 x15 x16 x17) :
    after (chunk4 (F := Ideal)) W (Proc.devRef .tc main_v258) = val_main_v258 (F := Ideal) x0 x3 x4 x8 x9 x10 x16 := by
  after_results_simp
  refine (relu_casts_call4 _).trans ?_
  simp only [h.a0, h.a1, h.a2, h.a3, h.a4, h.a5, h.a6, h.a7, h.a8, h.a9, h.a10, h.a11, h.a12, h.a13, h.a14, h.a15, h.a16, h.a17, h.main_v3, h.main_v207]
  rfl

/-- The facts after stretch 4 from the facts before it. -/
theorem chunk4_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St4 W x0 x1 x2 x3 x4 x5 x6 x7 x8 x9 x10 x11 x12 x13 x14 x15 x16 x17) : St5 (after (chunk4 (F := Ideal)) W) x0 x1 x2 x3 x4 x5 x6 x7 x8 x9 x10 x11 x12 x13 x14 x15 x16 x17 :=
  {
    a0 := (keep4 W main_arg0 (by decide)).trans h.a0
    a1 := (keep4 W main_arg1 (by decide)).trans h.a1
    a2 := (keep4 W main_arg2 (by decide)).trans h.a2
    a3 := (keep4 W main_arg3 (by decide)).trans h.a3
    a4 := (keep4 W main_arg4 (by decide)).trans h.a4
    a5 := (keep4 W main_arg5 (by decide)).trans h.a5
    a6 := (keep4 W main_arg6 (by decide)).trans h.a6
    a7 := (keep4 W main_arg7 (by decide)).trans h.a7
    a8 := (keep4 W main_arg8 (by decide)).trans h.a8
    a9 := (keep4 W main_arg9 (by decide)).trans h.a9
    a10 := (keep4 W main_arg10 (by decide)).trans h.a10
    a11 := (keep4 W main_arg11 (by decide)).trans h.a11
    a12 := (keep4 W main_arg12 (by decide)).trans h.a12
    a13 := (keep4 W main_arg13 (by decide)).trans h.a13
    a14 := (keep4 W main_arg14 (by decide)).trans h.a14
    a15 := (keep4 W main_arg15 (by decide)).trans h.a15
    a16 := (keep4 W main_arg16 (by decide)).trans h.a16
    a17 := (keep4 W main_arg17 (by decide)).trans h.a17
    main_v258 := step4_main_v258 W x0 x1 x2 x3 x4 x5 x6 x7 x8 x9 x10 x11 x12 x13 x14 x15 x16 x17 h
    main_v3 := (keep4 W main_v3 (by decide)).trans h.main_v3
    main_v207 := (keep4 W main_v207 (by decide)).trans h.main_v207 }

end Cert.ReferenceIdeal.Value

end
-- ==== Proof.RefChunk5.lean ====
/-
  Stretch 5 of the reference's run (operations 304 … 363): from the facts before it to the facts after it.

  The stretch writes the references listed in `written5`; any other buffer keeps its contents (`keep5`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 5 writes, in order. -/
noncomputable def written5 : List (Ref sig .tc) :=
  [main_v259, main_v260, main_v261, main_v262, main_v263, main_v264, main_v265, main_v266, main_v267, main_v268, main_c_33, main_v269, main_v270, main_c_34, main_v271, main_v272, main_v273, main_v274, main_v275, main_cst_35, main_v276, main_v277, main_v278, main_cst_36, main_v279, main_cst_37, main_v280, main_v281, main_v282, main_cst_38, main_v283, main_v284, main_v285, main_v286, main_v287, main_v288, main_v289, main_v290, main_v291, main_v292, main_v293, main_v294, main_v295, main_v296, main_v297, main_v298, main_v299, main_v300, main_v301, main_v302, main_v303, main_v304, main_v305, main_v306, main_cst_39, main_v307, main_v308, main_call5_cst, main_call5_v0, main_v309]

set_option maxRecDepth 8192 in
theorem chunk5_writes : (chunk5 (F := Ideal)).Forall fun op =>
    op.writes ⊆ (written5.map (Proc.devRef (τ := τ) .tc)).toFinset :=
  ⟨sub_of_mem main_v259 (by decide), sub_of_mem main_v260 (by decide), sub_of_mem main_v261 (by decide), sub_of_mem main_v262 (by decide), sub_of_mem main_v263 (by decide), sub_of_mem main_v264 (by decide), sub_of_mem main_v265 (by decide), sub_of_mem main_v266 (by decide), sub_of_mem main_v267 (by decide), sub_of_mem main_v268 (by decide), sub_of_mem main_c_33 (by decide), sub_of_mem main_v269 (by decide), sub_of_mem main_v270 (by decide), sub_of_mem main_c_34 (by decide), sub_of_mem main_v271 (by decide), sub_of_mem main_v272 (by decide), sub_of_mem main_v273 (by decide), sub_of_mem main_v274 (by decide), sub_of_mem main_v275 (by decide), sub_of_mem main_cst_35 (by decide), sub_of_mem main_v276 (by decide), sub_of_mem main_v277 (by decide), sub_of_mem main_v278 (by decide), sub_of_mem main_cst_36 (by decide), sub_of_mem main_v279 (by decide), sub_of_mem main_cst_37 (by decide), sub_of_mem main_v280 (by decide), sub_of_mem main_v281 (by decide), sub_of_mem main_v282 (by decide), sub_of_mem main_cst_38 (by decide), sub_of_mem main_v283 (by decide), sub_of_mem main_v284 (by decide), sub_of_mem main_v285 (by decide), sub_of_mem main_v286 (by decide), sub_of_mem main_v287 (by decide), sub_of_mem main_v288 (by decide), sub_of_mem main_v289 (by decide), sub_of_mem main_v290 (by decide), sub_of_mem main_v291 (by decide), sub_of_mem main_v292 (by decide), sub_of_mem main_v293 (by decide), sub_of_mem main_v294 (by decide), sub_of_mem main_v295 (by decide), sub_of_mem main_v296 (by decide), sub_of_mem main_v297 (by decide), sub_of_mem main_v298 (by decide), sub_of_mem main_v299 (by decide), sub_of_mem main_v300 (by decide), sub_of_mem main_v301 (by decide), sub_of_mem main_v302 (by decide), sub_of_mem main_v303 (by decide), sub_of_mem main_v304 (by decide), sub_of_mem main_v305 (by decide), sub_of_mem main_v306 (by decide), sub_of_mem main_cst_39 (by decide), sub_of_mem main_v307 (by decide), sub_of_mem main_v308 (by decide), sub_of_mem main_call5_cst (by decide), sub_of_mem main_call5_v0 (by decide), sub_of_mem main_v309 (by decide)⟩

/-- A buffer stretch 5 does not write keeps its contents. -/
theorem keep5 (W : Valuation τ sig (Elt Ideal)) (r : Ref sig .tc) (hr : r ∉ written5) :
    after (chunk5 (F := Ideal)) W (Proc.devRef .tc r) = W (Proc.devRef .tc r) :=
  after_of_writes_sub _ W chunk5_writes hr

/-- The rectified array as the called function's operations leave it: each operation reads and writes its buffers
    through transports along equations between buffer types that hold by computation, and those transports are the
    identity. -/
theorem relu_casts_call5 (v : (⟨S50000x128, .f32⟩ : BufTy).Contents (Elt Ideal)) :
    (TRef.of (sig := sig) (T := ⟨S50000x128, .f32⟩) main_v309).toBuf (Val := Elt Ideal)
      (maximumf (F := Ideal) (φ := .f32) ((TRef.of (sig := sig) (T := ⟨S50000x128, .f32⟩) main_v308).ofBuf (Val := Elt Ideal) v)
        ((TRef.of (sig := sig) (T := ⟨S50000x128, .f32⟩) main_call5_v0).ofBuf (Val := Elt Ideal)
          ((TRef.of (sig := sig) (T := ⟨S50000x128, .f32⟩) main_call5_v0).toBuf (Val := Elt Ideal)
            (broadcastInDim S50000x128 ![] bcast_S_S50000x128
              ((TRef.of (sig := sig) (T := ⟨S_, .f32⟩) main_call5_cst).ofBuf (Val := Elt Ideal)
                ((TRef.of (sig := sig) (T := ⟨S_, .f32⟩) main_call5_cst).toBuf (Val := Elt Ideal) (constant (F := Ideal) S_ .f32 0x00000000#32)))))))
      = maximumf (F := Ideal) (φ := .f32) v (broadcastInDim S50000x128 ![] bcast_S_S50000x128 (constant (F := Ideal) S_ .f32 0x00000000#32)) := rfl

/-- Stage `main_v309` after stretch 5. -/
theorem step5_main_v309 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St5 W x0 x1 x2 x3 x4 x5 x6 x7 x8 x9 x10 x11 x12 x13 x14 x15 x16 x17) :
    after (chunk5 (F := Ideal)) W (Proc.devRef .tc main_v309) = val_main_v309 (F := Ideal) x0 x3 x4 x8 x9 x10 x16 := by
  after_results_simp
  refine (relu_casts_call5 _).trans ?_
  simp only [h.a0, h.a1, h.a2, h.a3, h.a4, h.a5, h.a6, h.a7, h.a8, h.a9, h.a10, h.a11, h.a12, h.a13, h.a14, h.a15, h.a16, h.a17, h.main_v258, h.main_v3, h.main_v207]
  rfl

/-- The facts after stretch 5 from the facts before it. -/
theorem chunk5_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St5 W x0 x1 x2 x3 x4 x5 x6 x7 x8 x9 x10 x11 x12 x13 x14 x15 x16 x17) : St6 (after (chunk5 (F := Ideal)) W) x0 x1 x2 x3 x4 x5 x6 x7 x8 x9 x10 x11 x12 x13 x14 x15 x16 x17 :=
  {
    a0 := (keep5 W main_arg0 (by decide)).trans h.a0
    a1 := (keep5 W main_arg1 (by decide)).trans h.a1
    a2 := (keep5 W main_arg2 (by decide)).trans h.a2
    a3 := (keep5 W main_arg3 (by decide)).trans h.a3
    a4 := (keep5 W main_arg4 (by decide)).trans h.a4
    a5 := (keep5 W main_arg5 (by decide)).trans h.a5
    a6 := (keep5 W main_arg6 (by decide)).trans h.a6
    a7 := (keep5 W main_arg7 (by decide)).trans h.a7
    a8 := (keep5 W main_arg8 (by decide)).trans h.a8
    a9 := (keep5 W main_arg9 (by decide)).trans h.a9
    a10 := (keep5 W main_arg10 (by decide)).trans h.a10
    a11 := (keep5 W main_arg11 (by decide)).trans h.a11
    a12 := (keep5 W main_arg12 (by decide)).trans h.a12
    a13 := (keep5 W main_arg13 (by decide)).trans h.a13
    a14 := (keep5 W main_arg14 (by decide)).trans h.a14
    a15 := (keep5 W main_arg15 (by decide)).trans h.a15
    a16 := (keep5 W main_arg16 (by decide)).trans h.a16
    a17 := (keep5 W main_arg17 (by decide)).trans h.a17
    main_v3 := (keep5 W main_v3 (by decide)).trans h.main_v3
    main_v207 := (keep5 W main_v207 (by decide)).trans h.main_v207
    main_v309 := step5_main_v309 W x0 x1 x2 x3 x4 x5 x6 x7 x8 x9 x10 x11 x12 x13 x14 x15 x16 x17 h }

end Cert.ReferenceIdeal.Value

end
-- ==== Proof.RefChunk6.lean ====
/-
  Stretch 6 of the reference's run (operations 364 … 420): from the facts before it to the facts after it.

  The stretch writes the references listed in `written6`; any other buffer keeps its contents (`keep6`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 6 writes, in order. -/
noncomputable def written6 : List (Ref sig .tc) :=
  [main_v310, main_v311, main_v312, main_v313, main_v314, main_v315, main_v316, main_v317, main_v318, main_v319, main_c_40, main_v320, main_v321, main_c_41, main_v322, main_v323, main_v324, main_v325, main_v326, main_cst_42, main_v327, main_v328, main_v329, main_cst_43, main_v330, main_cst_44, main_v331, main_v332, main_v333, main_cst_45, main_v334, main_v335, main_v336, main_v337, main_v338, main_v339, main_v340, main_v341, main_v342, main_v343, main_v344, main_v345, main_v346, main_v347, main_v348, main_v349, main_v350, main_v351, main_v352, main_v353, main_v354, main_v355, main_v356, main_v357, main_cst_46, main_v358, main_v359]

set_option maxRecDepth 8192 in
theorem chunk6_writes : (chunk6 (F := Ideal)).Forall fun op =>
    op.writes ⊆ (written6.map (Proc.devRef (τ := τ) .tc)).toFinset :=
  ⟨sub_of_mem main_v310 (by decide), sub_of_mem main_v311 (by decide), sub_of_mem main_v312 (by decide), sub_of_mem main_v313 (by decide), sub_of_mem main_v314 (by decide), sub_of_mem main_v315 (by decide), sub_of_mem main_v316 (by decide), sub_of_mem main_v317 (by decide), sub_of_mem main_v318 (by decide), sub_of_mem main_v319 (by decide), sub_of_mem main_c_40 (by decide), sub_of_mem main_v320 (by decide), sub_of_mem main_v321 (by decide), sub_of_mem main_c_41 (by decide), sub_of_mem main_v322 (by decide), sub_of_mem main_v323 (by decide), sub_of_mem main_v324 (by decide), sub_of_mem main_v325 (by decide), sub_of_mem main_v326 (by decide), sub_of_mem main_cst_42 (by decide), sub_of_mem main_v327 (by decide), sub_of_mem main_v328 (by decide), sub_of_mem main_v329 (by decide), sub_of_mem main_cst_43 (by decide), sub_of_mem main_v330 (by decide), sub_of_mem main_cst_44 (by decide), sub_of_mem main_v331 (by decide), sub_of_mem main_v332 (by decide), sub_of_mem main_v333 (by decide), sub_of_mem main_cst_45 (by decide), sub_of_mem main_v334 (by decide), sub_of_mem main_v335 (by decide), sub_of_mem main_v336 (by decide), sub_of_mem main_v337 (by decide), sub_of_mem main_v338 (by decide), sub_of_mem main_v339 (by decide), sub_of_mem main_v340 (by decide), sub_of_mem main_v341 (by decide), sub_of_mem main_v342 (by decide), sub_of_mem main_v343 (by decide), sub_of_mem main_v344 (by decide), sub_of_mem main_v345 (by decide), sub_of_mem main_v346 (by decide), sub_of_mem main_v347 (by decide), sub_of_mem main_v348 (by decide), sub_of_mem main_v349 (by decide), sub_of_mem main_v350 (by decide), sub_of_mem main_v351 (by decide), sub_of_mem main_v352 (by decide), sub_of_mem main_v353 (by decide), sub_of_mem main_v354 (by decide), sub_of_mem main_v355 (by decide), sub_of_mem main_v356 (by decide), sub_of_mem main_v357 (by decide), sub_of_mem main_cst_46 (by decide), sub_of_mem main_v358 (by decide), sub_of_mem main_v359 (by decide)⟩

/-- A buffer stretch 6 does not write keeps its contents. -/
theorem keep6 (W : Valuation τ sig (Elt Ideal)) (r : Ref sig .tc) (hr : r ∉ written6) :
    after (chunk6 (F := Ideal)) W (Proc.devRef .tc r) = W (Proc.devRef .tc r) :=
  after_of_writes_sub _ W chunk6_writes hr

/-- Stage `main_v359` after stretch 6. -/
theorem step6_main_v359 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St6 W x0 x1 x2 x3 x4 x5 x6 x7 x8 x9 x10 x11 x12 x13 x14 x15 x16 x17) :
    after (chunk6 (F := Ideal)) W (Proc.devRef .tc main_v359) = val_main_v359 (F := Ideal) x0 x2 x3 x4 x11 x12 x13 x17 := by
  after_results_simp
  simp only [h.a0, h.a1, h.a2, h.a3, h.a4, h.a5, h.a6, h.a7, h.a8, h.a9, h.a10, h.a11, h.a12, h.a13, h.a14, h.a15, h.a16, h.a17, h.main_v3, h.main_v207, h.main_v309]
  rfl

/-- The facts after stretch 6 from the facts before it. -/
theorem chunk6_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St6 W x0 x1 x2 x3 x4 x5 x6 x7 x8 x9 x10 x11 x12 x13 x14 x15 x16 x17) : St7 (after (chunk6 (F := Ideal)) W) x0 x1 x2 x3 x4 x5 x6 x7 x8 x9 x10 x11 x12 x13 x14 x15 x16 x17 :=
  {
    a0 := (keep6 W main_arg0 (by decide)).trans h.a0
    a1 := (keep6 W main_arg1 (by decide)).trans h.a1
    a2 := (keep6 W main_arg2 (by decide)).trans h.a2
    a3 := (keep6 W main_arg3 (by decide)).trans h.a3
    a4 := (keep6 W main_arg4 (by decide)).trans h.a4
    a5 := (keep6 W main_arg5 (by decide)).trans h.a5
    a6 := (keep6 W main_arg6 (by decide)).trans h.a6
    a7 := (keep6 W main_arg7 (by decide)).trans h.a7
    a8 := (keep6 W main_arg8 (by decide)).trans h.a8
    a9 := (keep6 W main_arg9 (by decide)).trans h.a9
    a10 := (keep6 W main_arg10 (by decide)).trans h.a10
    a11 := (keep6 W main_arg11 (by decide)).trans h.a11
    a12 := (keep6 W main_arg12 (by decide)).trans h.a12
    a13 := (keep6 W main_arg13 (by decide)).trans h.a13
    a14 := (keep6 W main_arg14 (by decide)).trans h.a14
    a15 := (keep6 W main_arg15 (by decide)).trans h.a15
    a16 := (keep6 W main_arg16 (by decide)).trans h.a16
    a17 := (keep6 W main_arg17 (by decide)).trans h.a17
    main_v3 := (keep6 W main_v3 (by decide)).trans h.main_v3
    main_v359 := step6_main_v359 W x0 x1 x2 x3 x4 x5 x6 x7 x8 x9 x10 x11 x12 x13 x14 x15 x16 x17 h
    main_v207 := (keep6 W main_v207 (by decide)).trans h.main_v207
    main_v309 := (keep6 W main_v309 (by decide)).trans h.main_v309 }

end Cert.ReferenceIdeal.Value

end
-- ==== Proof.RefChunk7.lean ====
/-
  Stretch 7 of the reference's run (operations 421 … 483): from the facts before it to the facts after it.

  The stretch writes the references listed in `written7`; any other buffer keeps its contents (`keep7`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 7 writes, in order. -/
noncomputable def written7 : List (Ref sig .tc) :=
  [main_v360, main_v361, main_v362, main_v363, main_v364, main_v365, main_v366, main_v367, main_v368, main_v369, main_c_47, main_v370, main_v371, main_c_48, main_v372, main_v373, main_v374, main_v375, main_v376, main_cst_49, main_v377, main_v378, main_v379, main_cst_50, main_v380, main_cst_51, main_v381, main_v382, main_v383, main_cst_52, main_v384, main_v385, main_v386, main_v387, main_v388, main_v389, main_v390, main_v391, main_v392, main_v393, main_v394, main_v395, main_v396, main_v397, main_v398, main_v399, main_v400, main_v401, main_v402, main_v403, main_v404, main_v405, main_v406, main_v407, main_cst_53, main_v408, main_v409, main_call6_cst, main_call6_v0, main_v410, main_call7_cst, main_call7_v0, main_v411]

set_option maxRecDepth 8192 in
theorem chunk7_writes : (chunk7 (F := Ideal)).Forall fun op =>
    op.writes ⊆ (written7.map (Proc.devRef (τ := τ) .tc)).toFinset :=
  ⟨sub_of_mem main_v360 (by decide), sub_of_mem main_v361 (by decide), sub_of_mem main_v362 (by decide), sub_of_mem main_v363 (by decide), sub_of_mem main_v364 (by decide), sub_of_mem main_v365 (by decide), sub_of_mem main_v366 (by decide), sub_of_mem main_v367 (by decide), sub_of_mem main_v368 (by decide), sub_of_mem main_v369 (by decide), sub_of_mem main_c_47 (by decide), sub_of_mem main_v370 (by decide), sub_of_mem main_v371 (by decide), sub_of_mem main_c_48 (by decide), sub_of_mem main_v372 (by decide), sub_of_mem main_v373 (by decide), sub_of_mem main_v374 (by decide), sub_of_mem main_v375 (by decide), sub_of_mem main_v376 (by decide), sub_of_mem main_cst_49 (by decide), sub_of_mem main_v377 (by decide), sub_of_mem main_v378 (by decide), sub_of_mem main_v379 (by decide), sub_of_mem main_cst_50 (by decide), sub_of_mem main_v380 (by decide), sub_of_mem main_cst_51 (by decide), sub_of_mem main_v381 (by decide), sub_of_mem main_v382 (by decide), sub_of_mem main_v383 (by decide), sub_of_mem main_cst_52 (by decide), sub_of_mem main_v384 (by decide), sub_of_mem main_v385 (by decide), sub_of_mem main_v386 (by decide), sub_of_mem main_v387 (by decide), sub_of_mem main_v388 (by decide), sub_of_mem main_v389 (by decide), sub_of_mem main_v390 (by decide), sub_of_mem main_v391 (by decide), sub_of_mem main_v392 (by decide), sub_of_mem main_v393 (by decide), sub_of_mem main_v394 (by decide), sub_of_mem main_v395 (by decide), sub_of_mem main_v396 (by decide), sub_of_mem main_v397 (by decide), sub_of_mem main_v398 (by decide), sub_of_mem main_v399 (by decide), sub_of_mem main_v400 (by decide), sub_of_mem main_v401 (by decide), sub_of_mem main_v402 (by decide), sub_of_mem main_v403 (by decide), sub_of_mem main_v404 (by decide), sub_of_mem main_v405 (by decide), sub_of_mem main_v406 (by decide), sub_of_mem main_v407 (by decide), sub_of_mem main_cst_53 (by decide), sub_of_mem main_v408 (by decide), sub_of_mem main_v409 (by decide), sub_of_mem main_call6_cst (by decide), sub_of_mem main_call6_v0 (by decide), sub_of_mem main_v410 (by decide), sub_of_mem main_call7_cst (by decide), sub_of_mem main_call7_v0 (by decide), sub_of_mem main_v411 (by decide)⟩

/-- A buffer stretch 7 does not write keeps its contents. -/
theorem keep7 (W : Valuation τ sig (Elt Ideal)) (r : Ref sig .tc) (hr : r ∉ written7) :
    after (chunk7 (F := Ideal)) W (Proc.devRef .tc r) = W (Proc.devRef .tc r) :=
  after_of_writes_sub _ W chunk7_writes hr

/-- Stage `main_v410` after stretch 7. -/
theorem step7_main_v410 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St7 W x0 x1 x2 x3 x4 x5 x6 x7 x8 x9 x10 x11 x12 x13 x14 x15 x16 x17) :
    after (chunk7 (F := Ideal)) W (Proc.devRef .tc main_v410) = val_main_v410 (F := Ideal) x0 x2 x3 x4 x11 x12 x13 x17 := by
  after_results_simp
  simp only [h.a0, h.a1, h.a2, h.a3, h.a4, h.a5, h.a6, h.a7, h.a8, h.a9, h.a10, h.a11, h.a12, h.a13, h.a14, h.a15, h.a16, h.a17, h.main_v3, h.main_v359, h.main_v207, h.main_v309]
  rfl

/-- Stage `main_v411` after stretch 7. -/
theorem step7_main_v411 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St7 W x0 x1 x2 x3 x4 x5 x6 x7 x8 x9 x10 x11 x12 x13 x14 x15 x16 x17) :
    after (chunk7 (F := Ideal)) W (Proc.devRef .tc main_v411) = val_main_v411 (F := Ideal) x0 x2 x3 x4 x11 x12 x13 x17 := by
  after_results_simp
  simp only [h.a0, h.a1, h.a2, h.a3, h.a4, h.a5, h.a6, h.a7, h.a8, h.a9, h.a10, h.a11, h.a12, h.a13, h.a14, h.a15, h.a16, h.a17, h.main_v3, h.main_v359, h.main_v207, h.main_v309]
  rfl

/-- The facts after stretch 7 from the facts before it. -/
theorem chunk7_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St7 W x0 x1 x2 x3 x4 x5 x6 x7 x8 x9 x10 x11 x12 x13 x14 x15 x16 x17) : St8 (after (chunk7 (F := Ideal)) W) x0 x1 x2 x3 x4 x5 x6 x7 x8 x9 x10 x11 x12 x13 x14 x15 x16 x17 :=
  {
    a0 := (keep7 W main_arg0 (by decide)).trans h.a0
    a1 := (keep7 W main_arg1 (by decide)).trans h.a1
    a2 := (keep7 W main_arg2 (by decide)).trans h.a2
    a3 := (keep7 W main_arg3 (by decide)).trans h.a3
    a4 := (keep7 W main_arg4 (by decide)).trans h.a4
    a5 := (keep7 W main_arg5 (by decide)).trans h.a5
    a6 := (keep7 W main_arg6 (by decide)).trans h.a6
    a7 := (keep7 W main_arg7 (by decide)).trans h.a7
    a8 := (keep7 W main_arg8 (by decide)).trans h.a8
    a9 := (keep7 W main_arg9 (by decide)).trans h.a9
    a10 := (keep7 W main_arg10 (by decide)).trans h.a10
    a11 := (keep7 W main_arg11 (by decide)).trans h.a11
    a12 := (keep7 W main_arg12 (by decide)).trans h.a12
    a13 := (keep7 W main_arg13 (by decide)).trans h.a13
    a14 := (keep7 W main_arg14 (by decide)).trans h.a14
    a15 := (keep7 W main_arg15 (by decide)).trans h.a15
    a16 := (keep7 W main_arg16 (by decide)).trans h.a16
    a17 := (keep7 W main_arg17 (by decide)).trans h.a17
    main_v410 := step7_main_v410 W x0 x1 x2 x3 x4 x5 x6 x7 x8 x9 x10 x11 x12 x13 x14 x15 x16 x17 h
    main_v411 := step7_main_v411 W x0 x1 x2 x3 x4 x5 x6 x7 x8 x9 x10 x11 x12 x13 x14 x15 x16 x17 h
    main_v207 := (keep7 W main_v207 (by decide)).trans h.main_v207
    main_v309 := (keep7 W main_v309 (by decide)).trans h.main_v309 }

end Cert.ReferenceIdeal.Value

end
-- ==== Proof.RefChunk8.lean ====
/-
  Stretch 8 of the reference's run (operations 484 … 540): from the facts before it to the facts after it.

  The stretch writes the references listed in `written8`; any other buffer keeps its contents (`keep8`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 8 writes, in order. -/
noncomputable def written8 : List (Ref sig .tc) :=
  [main_v412, main_v413, main_v414, main_v415, main_v416, main_v417, main_v418, main_v419, main_v420, main_v421, main_c_54, main_v422, main_v423, main_c_55, main_v424, main_v425, main_v426, main_v427, main_v428, main_cst_56, main_v429, main_v430, main_v431, main_cst_57, main_v432, main_cst_58, main_v433, main_v434, main_v435, main_cst_59, main_v436, main_v437, main_v438, main_v439, main_v440, main_v441, main_v442, main_v443, main_v444, main_v445, main_v446, main_v447, main_v448, main_v449, main_v450, main_v451, main_v452, main_v453, main_v454, main_v455, main_v456, main_v457, main_v458, main_v459, main_cst_60, main_v460, main_v461]

set_option maxRecDepth 8192 in
theorem chunk8_writes : (chunk8 (F := Ideal)).Forall fun op =>
    op.writes ⊆ (written8.map (Proc.devRef (τ := τ) .tc)).toFinset :=
  ⟨sub_of_mem main_v412 (by decide), sub_of_mem main_v413 (by decide), sub_of_mem main_v414 (by decide), sub_of_mem main_v415 (by decide), sub_of_mem main_v416 (by decide), sub_of_mem main_v417 (by decide), sub_of_mem main_v418 (by decide), sub_of_mem main_v419 (by decide), sub_of_mem main_v420 (by decide), sub_of_mem main_v421 (by decide), sub_of_mem main_c_54 (by decide), sub_of_mem main_v422 (by decide), sub_of_mem main_v423 (by decide), sub_of_mem main_c_55 (by decide), sub_of_mem main_v424 (by decide), sub_of_mem main_v425 (by decide), sub_of_mem main_v426 (by decide), sub_of_mem main_v427 (by decide), sub_of_mem main_v428 (by decide), sub_of_mem main_cst_56 (by decide), sub_of_mem main_v429 (by decide), sub_of_mem main_v430 (by decide), sub_of_mem main_v431 (by decide), sub_of_mem main_cst_57 (by decide), sub_of_mem main_v432 (by decide), sub_of_mem main_cst_58 (by decide), sub_of_mem main_v433 (by decide), sub_of_mem main_v434 (by decide), sub_of_mem main_v435 (by decide), sub_of_mem main_cst_59 (by decide), sub_of_mem main_v436 (by decide), sub_of_mem main_v437 (by decide), sub_of_mem main_v438 (by decide), sub_of_mem main_v439 (by decide), sub_of_mem main_v440 (by decide), sub_of_mem main_v441 (by decide), sub_of_mem main_v442 (by decide), sub_of_mem main_v443 (by decide), sub_of_mem main_v444 (by decide), sub_of_mem main_v445 (by decide), sub_of_mem main_v446 (by decide), sub_of_mem main_v447 (by decide), sub_of_mem main_v448 (by decide), sub_of_mem main_v449 (by decide), sub_of_mem main_v450 (by decide), sub_of_mem main_v451 (by decide), sub_of_mem main_v452 (by decide), sub_of_mem main_v453 (by decide), sub_of_mem main_v454 (by decide), sub_of_mem main_v455 (by decide), sub_of_mem main_v456 (by decide), sub_of_mem main_v457 (by decide), sub_of_mem main_v458 (by decide), sub_of_mem main_v459 (by decide), sub_of_mem main_cst_60 (by decide), sub_of_mem main_v460 (by decide), sub_of_mem main_v461 (by decide)⟩

/-- A buffer stretch 8 does not write keeps its contents. -/
theorem keep8 (W : Valuation τ sig (Elt Ideal)) (r : Ref sig .tc) (hr : r ∉ written8) :
    after (chunk8 (F := Ideal)) W (Proc.devRef .tc r) = W (Proc.devRef .tc r) :=
  after_of_writes_sub _ W chunk8_writes hr

/-- Stage `main_v461` after stretch 8. -/
theorem step8_main_v461 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St8 W x0 x1 x2 x3 x4 x5 x6 x7 x8 x9 x10 x11 x12 x13 x14 x15 x16 x17) :
    after (chunk8 (F := Ideal)) W (Proc.devRef .tc main_v461) = val_main_v461 (F := Ideal) x0 x2 x3 x4 x11 x12 x13 x17 := by
  after_results_simp
  simp only [h.a0, h.a1, h.a2, h.a3, h.a4, h.a5, h.a6, h.a7, h.a8, h.a9, h.a10, h.a11, h.a12, h.a13, h.a14, h.a15, h.a16, h.a17, h.main_v410, h.main_v411, h.main_v207, h.main_v309]
  rfl

/-- The facts after stretch 8 from the facts before it. -/
theorem chunk8_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St8 W x0 x1 x2 x3 x4 x5 x6 x7 x8 x9 x10 x11 x12 x13 x14 x15 x16 x17) : St9 (after (chunk8 (F := Ideal)) W) x0 x1 x2 x3 x4 x5 x6 x7 x8 x9 x10 x11 x12 x13 x14 x15 x16 x17 :=
  {
    a0 := (keep8 W main_arg0 (by decide)).trans h.a0
    a1 := (keep8 W main_arg1 (by decide)).trans h.a1
    a2 := (keep8 W main_arg2 (by decide)).trans h.a2
    a3 := (keep8 W main_arg3 (by decide)).trans h.a3
    a4 := (keep8 W main_arg4 (by decide)).trans h.a4
    a5 := (keep8 W main_arg5 (by decide)).trans h.a5
    a6 := (keep8 W main_arg6 (by decide)).trans h.a6
    a7 := (keep8 W main_arg7 (by decide)).trans h.a7
    a8 := (keep8 W main_arg8 (by decide)).trans h.a8
    a9 := (keep8 W main_arg9 (by decide)).trans h.a9
    a10 := (keep8 W main_arg10 (by decide)).trans h.a10
    a11 := (keep8 W main_arg11 (by decide)).trans h.a11
    a12 := (keep8 W main_arg12 (by decide)).trans h.a12
    a13 := (keep8 W main_arg13 (by decide)).trans h.a13
    a14 := (keep8 W main_arg14 (by decide)).trans h.a14
    a15 := (keep8 W main_arg15 (by decide)).trans h.a15
    a16 := (keep8 W main_arg16 (by decide)).trans h.a16
    a17 := (keep8 W main_arg17 (by decide)).trans h.a17
    main_v411 := (keep8 W main_v411 (by decide)).trans h.main_v411
    main_v410 := (keep8 W main_v410 (by decide)).trans h.main_v410
    main_v461 := step8_main_v461 W x0 x1 x2 x3 x4 x5 x6 x7 x8 x9 x10 x11 x12 x13 x14 x15 x16 x17 h
    main_v207 := (keep8 W main_v207 (by decide)).trans h.main_v207
    main_v309 := (keep8 W main_v309 (by decide)).trans h.main_v309 }

end Cert.ReferenceIdeal.Value

end
-- ==== Proof.RefChunk9.lean ====
/-
  Stretch 9 of the reference's run (operations 541 … 603): from the facts before it to the facts after it.

  The stretch writes the references listed in `written9`; any other buffer keeps its contents (`keep9`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 9 writes, in order. -/
noncomputable def written9 : List (Ref sig .tc) :=
  [main_v462, main_v463, main_v464, main_v465, main_v466, main_v467, main_v468, main_v469, main_v470, main_v471, main_c_61, main_v472, main_v473, main_c_62, main_v474, main_v475, main_v476, main_v477, main_v478, main_cst_63, main_v479, main_v480, main_v481, main_cst_64, main_v482, main_cst_65, main_v483, main_v484, main_v485, main_cst_66, main_v486, main_v487, main_v488, main_v489, main_v490, main_v491, main_v492, main_v493, main_v494, main_v495, main_v496, main_v497, main_v498, main_v499, main_v500, main_v501, main_v502, main_v503, main_v504, main_v505, main_v506, main_v507, main_v508, main_v509, main_cst_67, main_v510, main_v511, main_call8_cst, main_call8_v0, main_v512, main_call9_cst, main_call9_v0, main_v513]

set_option maxRecDepth 8192 in
theorem chunk9_writes : (chunk9 (F := Ideal)).Forall fun op =>
    op.writes ⊆ (written9.map (Proc.devRef (τ := τ) .tc)).toFinset :=
  ⟨sub_of_mem main_v462 (by decide), sub_of_mem main_v463 (by decide), sub_of_mem main_v464 (by decide), sub_of_mem main_v465 (by decide), sub_of_mem main_v466 (by decide), sub_of_mem main_v467 (by decide), sub_of_mem main_v468 (by decide), sub_of_mem main_v469 (by decide), sub_of_mem main_v470 (by decide), sub_of_mem main_v471 (by decide), sub_of_mem main_c_61 (by decide), sub_of_mem main_v472 (by decide), sub_of_mem main_v473 (by decide), sub_of_mem main_c_62 (by decide), sub_of_mem main_v474 (by decide), sub_of_mem main_v475 (by decide), sub_of_mem main_v476 (by decide), sub_of_mem main_v477 (by decide), sub_of_mem main_v478 (by decide), sub_of_mem main_cst_63 (by decide), sub_of_mem main_v479 (by decide), sub_of_mem main_v480 (by decide), sub_of_mem main_v481 (by decide), sub_of_mem main_cst_64 (by decide), sub_of_mem main_v482 (by decide), sub_of_mem main_cst_65 (by decide), sub_of_mem main_v483 (by decide), sub_of_mem main_v484 (by decide), sub_of_mem main_v485 (by decide), sub_of_mem main_cst_66 (by decide), sub_of_mem main_v486 (by decide), sub_of_mem main_v487 (by decide), sub_of_mem main_v488 (by decide), sub_of_mem main_v489 (by decide), sub_of_mem main_v490 (by decide), sub_of_mem main_v491 (by decide), sub_of_mem main_v492 (by decide), sub_of_mem main_v493 (by decide), sub_of_mem main_v494 (by decide), sub_of_mem main_v495 (by decide), sub_of_mem main_v496 (by decide), sub_of_mem main_v497 (by decide), sub_of_mem main_v498 (by decide), sub_of_mem main_v499 (by decide), sub_of_mem main_v500 (by decide), sub_of_mem main_v501 (by decide), sub_of_mem main_v502 (by decide), sub_of_mem main_v503 (by decide), sub_of_mem main_v504 (by decide), sub_of_mem main_v505 (by decide), sub_of_mem main_v506 (by decide), sub_of_mem main_v507 (by decide), sub_of_mem main_v508 (by decide), sub_of_mem main_v509 (by decide), sub_of_mem main_cst_67 (by decide), sub_of_mem main_v510 (by decide), sub_of_mem main_v511 (by decide), sub_of_mem main_call8_cst (by decide), sub_of_mem main_call8_v0 (by decide), sub_of_mem main_v512 (by decide), sub_of_mem main_call9_cst (by decide), sub_of_mem main_call9_v0 (by decide), sub_of_mem main_v513 (by decide)⟩

/-- A buffer stretch 9 does not write keeps its contents. -/
theorem keep9 (W : Valuation τ sig (Elt Ideal)) (r : Ref sig .tc) (hr : r ∉ written9) :
    after (chunk9 (F := Ideal)) W (Proc.devRef .tc r) = W (Proc.devRef .tc r) :=
  after_of_writes_sub _ W chunk9_writes hr

/-- Stage `main_v512` after stretch 9. -/
theorem step9_main_v512 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St9 W x0 x1 x2 x3 x4 x5 x6 x7 x8 x9 x10 x11 x12 x13 x14 x15 x16 x17) :
    after (chunk9 (F := Ideal)) W (Proc.devRef .tc main_v512) = val_main_v512 (F := Ideal) x0 x2 x3 x4 x11 x12 x13 x17 := by
  after_results_simp
  simp only [h.a0, h.a1, h.a2, h.a3, h.a4, h.a5, h.a6, h.a7, h.a8, h.a9, h.a10, h.a11, h.a12, h.a13, h.a14, h.a15, h.a16, h.a17, h.main_v411, h.main_v410, h.main_v461, h.main_v207, h.main_v309]
  rfl

/-- The facts after stretch 9 from the facts before it. -/
theorem chunk9_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St9 W x0 x1 x2 x3 x4 x5 x6 x7 x8 x9 x10 x11 x12 x13 x14 x15 x16 x17) : St10 (after (chunk9 (F := Ideal)) W) x0 x1 x2 x3 x4 x5 x6 x7 x8 x9 x10 x11 x12 x13 x14 x15 x16 x17 :=
  {
    a0 := (keep9 W main_arg0 (by decide)).trans h.a0
    a1 := (keep9 W main_arg1 (by decide)).trans h.a1
    a2 := (keep9 W main_arg2 (by decide)).trans h.a2
    a3 := (keep9 W main_arg3 (by decide)).trans h.a3
    a4 := (keep9 W main_arg4 (by decide)).trans h.a4
    a5 := (keep9 W main_arg5 (by decide)).trans h.a5
    a6 := (keep9 W main_arg6 (by decide)).trans h.a6
    a7 := (keep9 W main_arg7 (by decide)).trans h.a7
    a8 := (keep9 W main_arg8 (by decide)).trans h.a8
    a9 := (keep9 W main_arg9 (by decide)).trans h.a9
    a10 := (keep9 W main_arg10 (by decide)).trans h.a10
    a11 := (keep9 W main_arg11 (by decide)).trans h.a11
    a12 := (keep9 W main_arg12 (by decide)).trans h.a12
    a13 := (keep9 W main_arg13 (by decide)).trans h.a13
    a14 := (keep9 W main_arg14 (by decide)).trans h.a14
    a15 := (keep9 W main_arg15 (by decide)).trans h.a15
    a16 := (keep9 W main_arg16 (by decide)).trans h.a16
    a17 := (keep9 W main_arg17 (by decide)).trans h.a17
    main_v207 := (keep9 W main_v207 (by decide)).trans h.main_v207
    main_v309 := (keep9 W main_v309 (by decide)).trans h.main_v309
    main_v512 := step9_main_v512 W x0 x1 x2 x3 x4 x5 x6 x7 x8 x9 x10 x11 x12 x13 x14 x15 x16 x17 h }

end Cert.ReferenceIdeal.Value

end
-- ==== Proof.RefChunk10.lean ====
/-
  Stretch 10 of the reference's run (operations 604 … 630): from the facts before it to the facts after it.

  The stretch writes the references listed in `written10`; any other buffer keeps its contents (`keep10`).  A stage the
  stretch writes and a later stretch reads is, after the stretch, the stage's value of the arguments: the operations'
  results are read off the fold one by one, the buffers read from earlier stretches are replaced by their stages, and
  what is left is the stage definitions unfolded.
-/
import proofs.«128317_j60687887892780_2_alg».proof.Proof.RefChunks
import proofs.«128317_j60687887892780_2_alg».proof.Proof.RefInv

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- The references stretch 10 writes, in order. -/
noncomputable def written10 : List (Ref sig .tc) :=
  [main_cst_68, main_v514, main_cst_69, main_v515, main_v516, main_v517, main_v518, main_v519, main_cst_70, main_v520, main_v521, main_v522, main_v523, main_v524, main_v525, main_v526, main_v527, main_v528, main_v529, main_v530, main_v531, main_v532, main_v533, main_v534, main_v535, main_v536, main_v537]

set_option maxRecDepth 8192 in
theorem chunk10_writes : (chunk10 (F := Ideal)).Forall fun op =>
    op.writes ⊆ (written10.map (Proc.devRef (τ := τ) .tc)).toFinset :=
  ⟨sub_of_mem main_cst_68 (by decide), sub_of_mem main_v514 (by decide), sub_of_mem main_cst_69 (by decide), sub_of_mem main_v515 (by decide), sub_of_mem main_v516 (by decide), sub_of_mem main_v517 (by decide), sub_of_mem main_v518 (by decide), sub_of_mem main_v519 (by decide), sub_of_mem main_cst_70 (by decide), sub_of_mem main_v520 (by decide), sub_of_mem main_v521 (by decide), sub_of_mem main_v522 (by decide), sub_of_mem main_v523 (by decide), sub_of_mem main_v524 (by decide), sub_of_mem main_v525 (by decide), sub_of_mem main_v526 (by decide), sub_of_mem main_v527 (by decide), sub_of_mem main_v528 (by decide), sub_of_mem main_v529 (by decide), sub_of_mem main_v530 (by decide), sub_of_mem main_v531 (by decide), sub_of_mem main_v532 (by decide), sub_of_mem main_v533 (by decide), sub_of_mem main_v534 (by decide), sub_of_mem main_v535 (by decide), sub_of_mem main_v536 (by decide), sub_of_mem main_v537 (by decide)⟩

/-- A buffer stretch 10 does not write keeps its contents. -/
theorem keep10 (W : Valuation τ sig (Elt Ideal)) (r : Ref sig .tc) (hr : r ∉ written10) :
    after (chunk10 (F := Ideal)) W (Proc.devRef .tc r) = W (Proc.devRef .tc r) :=
  after_of_writes_sub _ W chunk10_writes hr

/-- Stage `main_v537` after stretch 10. -/
theorem step10_main_v537 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St10 W x0 x1 x2 x3 x4 x5 x6 x7 x8 x9 x10 x11 x12 x13 x14 x15 x16 x17) :
    after (chunk10 (F := Ideal)) W (Proc.devRef .tc main_v537) = val_main_v537 (F := Ideal) x0 x1 x2 x3 x4 x5 x6 x7 x8 x9 x10 x11 x12 x13 x14 x15 x16 x17 := by
  after_results_simp
  simp only [h.a0, h.a1, h.a2, h.a3, h.a4, h.a5, h.a6, h.a7, h.a8, h.a9, h.a10, h.a11, h.a12, h.a13, h.a14, h.a15, h.a16, h.a17, h.main_v207, h.main_v309, h.main_v512]
  rfl

/-- Stage `main_v523` after stretch 10. -/
theorem step10_main_v523 (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St10 W x0 x1 x2 x3 x4 x5 x6 x7 x8 x9 x10 x11 x12 x13 x14 x15 x16 x17) :
    after (chunk10 (F := Ideal)) W (Proc.devRef .tc main_v523) = val_main_v523 (F := Ideal) x14 := by
  after_results_simp
  simp only [h.a0, h.a1, h.a2, h.a3, h.a4, h.a5, h.a6, h.a7, h.a8, h.a9, h.a10, h.a11, h.a12, h.a13, h.a14, h.a15, h.a16, h.a17, h.main_v207, h.main_v309, h.main_v512]
  rfl

/-- The facts after stretch 10 from the facts before it. -/
theorem chunk10_step (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St10 W x0 x1 x2 x3 x4 x5 x6 x7 x8 x9 x10 x11 x12 x13 x14 x15 x16 x17) : St11 (after (chunk10 (F := Ideal)) W) x0 x1 x2 x3 x4 x5 x6 x7 x8 x9 x10 x11 x12 x13 x14 x15 x16 x17 :=
  {
    a0 := (keep10 W main_arg0 (by decide)).trans h.a0
    a1 := (keep10 W main_arg1 (by decide)).trans h.a1
    a2 := (keep10 W main_arg2 (by decide)).trans h.a2
    a3 := (keep10 W main_arg3 (by decide)).trans h.a3
    a4 := (keep10 W main_arg4 (by decide)).trans h.a4
    a5 := (keep10 W main_arg5 (by decide)).trans h.a5
    a6 := (keep10 W main_arg6 (by decide)).trans h.a6
    a7 := (keep10 W main_arg7 (by decide)).trans h.a7
    a8 := (keep10 W main_arg8 (by decide)).trans h.a8
    a9 := (keep10 W main_arg9 (by decide)).trans h.a9
    a10 := (keep10 W main_arg10 (by decide)).trans h.a10
    a11 := (keep10 W main_arg11 (by decide)).trans h.a11
    a12 := (keep10 W main_arg12 (by decide)).trans h.a12
    a13 := (keep10 W main_arg13 (by decide)).trans h.a13
    a14 := (keep10 W main_arg14 (by decide)).trans h.a14
    a15 := (keep10 W main_arg15 (by decide)).trans h.a15
    a16 := (keep10 W main_arg16 (by decide)).trans h.a16
    a17 := (keep10 W main_arg17 (by decide)).trans h.a17
    main_v537 := step10_main_v537 W x0 x1 x2 x3 x4 x5 x6 x7 x8 x9 x10 x11 x12 x13 x14 x15 x16 x17 h
    main_v207 := (keep10 W main_v207 (by decide)).trans h.main_v207
    main_v309 := (keep10 W main_v309 (by decide)).trans h.main_v309
    main_v512 := (keep10 W main_v512 (by decide)).trans h.main_v512
    main_v523 := step10_main_v523 W x0 x1 x2 x3 x4 x5 x6 x7 x8 x9 x10 x11 x12 x13 x14 x15 x16 x17 h }

end Cert.ReferenceIdeal.Value

end
-- ==== Proof.RefRunC.lean ====
/-
  The reference's run, assembled from its stretches.

  The buffers after the whole line of operations are the buffers after the last stretch from the buffers after the one
  before, and so on down to the launch contents (`after_append`); each stretch carries the facts before it to the facts
  after it; at launch the arguments hold what the memory gives them.  So after the whole line each returned buffer holds
  its stage's value of the arguments and the arguments are unchanged, and the library's statement of a straight line's run
  (`run_seq`) turns that into the statement about every weakly fair execution.
-/
import proofs.«128317_j60687887892780_2_alg».proof.Proof.RefChunks
import proofs.«128317_j60687887892780_2_alg».proof.Proof.RefInv
import proofs.«128317_j60687887892780_2_alg».proof.Proof.RefChunk0
import proofs.«128317_j60687887892780_2_alg».proof.Proof.RefChunk1
import proofs.«128317_j60687887892780_2_alg».proof.Proof.RefChunk2
import proofs.«128317_j60687887892780_2_alg».proof.Proof.RefChunk3
import proofs.«128317_j60687887892780_2_alg».proof.Proof.RefChunk4
import proofs.«128317_j60687887892780_2_alg».proof.Proof.RefChunk5
import proofs.«128317_j60687887892780_2_alg».proof.Proof.RefChunk6
import proofs.«128317_j60687887892780_2_alg».proof.Proof.RefChunk7
import proofs.«128317_j60687887892780_2_alg».proof.Proof.RefChunk8
import proofs.«128317_j60687887892780_2_alg».proof.Proof.RefChunk9
import proofs.«128317_j60687887892780_2_alg».proof.Proof.RefChunk10

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- From the facts at launch to the facts after the whole line. -/
theorem after_ops_st (W : Valuation τ sig (Elt Ideal)) (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal))
    (h : St0 W x0 x1 x2 x3 x4 x5 x6 x7 x8 x9 x10 x11 x12 x13 x14 x15 x16 x17) : St11 (after (ops (F := Ideal)) W) x0 x1 x2 x3 x4 x5 x6 x7 x8 x9 x10 x11 x12 x13 x14 x15 x16 x17 := by
  have e : after (ops (F := Ideal)) W = after (chunk10 (F := Ideal)) (after (chunk9 (F := Ideal)) (after (chunk8 (F := Ideal)) (after (chunk7 (F := Ideal)) (after (chunk6 (F := Ideal)) (after (chunk5 (F := Ideal)) (after (chunk4 (F := Ideal)) (after (chunk3 (F := Ideal)) (after (chunk2 (F := Ideal)) (after (chunk1 (F := Ideal)) (after (chunk0 (F := Ideal)) (W))))))))))) := by
    show after (chunk0 (F := Ideal) ++ (chunk1 (F := Ideal) ++ (chunk2 (F := Ideal) ++ (chunk3 (F := Ideal) ++ (chunk4 (F := Ideal) ++ (chunk5 (F := Ideal) ++ (chunk6 (F := Ideal) ++ (chunk7 (F := Ideal) ++ (chunk8 (F := Ideal) ++ (chunk9 (F := Ideal) ++ (chunk10 (F := Ideal)))))))))))) W = _
    rw [after_append, after_append, after_append, after_append, after_append, after_append, after_append, after_append, after_append, after_append]
  rw [e]
  exact chunk10_step _ x0 x1 x2 x3 x4 x5 x6 x7 x8 x9 x10 x11 x12 x13 x14 x15 x16 x17 (chunk9_step _ x0 x1 x2 x3 x4 x5 x6 x7 x8 x9 x10 x11 x12 x13 x14 x15 x16 x17 (chunk8_step _ x0 x1 x2 x3 x4 x5 x6 x7 x8 x9 x10 x11 x12 x13 x14 x15 x16 x17 (chunk7_step _ x0 x1 x2 x3 x4 x5 x6 x7 x8 x9 x10 x11 x12 x13 x14 x15 x16 x17 (chunk6_step _ x0 x1 x2 x3 x4 x5 x6 x7 x8 x9 x10 x11 x12 x13 x14 x15 x16 x17 (chunk5_step _ x0 x1 x2 x3 x4 x5 x6 x7 x8 x9 x10 x11 x12 x13 x14 x15 x16 x17 (chunk4_step _ x0 x1 x2 x3 x4 x5 x6 x7 x8 x9 x10 x11 x12 x13 x14 x15 x16 x17 (chunk3_step _ x0 x1 x2 x3 x4 x5 x6 x7 x8 x9 x10 x11 x12 x13 x14 x15 x16 x17 (chunk2_step _ x0 x1 x2 x3 x4 x5 x6 x7 x8 x9 x10 x11 x12 x13 x14 x15 x16 x17 (chunk1_step _ x0 x1 x2 x3 x4 x5 x6 x7 x8 x9 x10 x11 x12 x13 x14 x15 x16 x17 (chunk0_step _ x0 x1 x2 x3 x4 x5 x6 x7 x8 x9 x10 x11 x12 x13 x14 x15 x16 x17 (h)))))))))))

/-- On every device, from any memory with zero counters: every weakly fair execution of @main terminates with each
    returned buffer at its stage's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v537) = Read.val_main_v537 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v207) = Read.val_main_v207 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15))
      ∧ r.2.mem ((c.tc : Thread nD τ).loc main_v309) = Read.val_main_v309 (F := Ideal) (m ((c.tc : Thread nD τ).loc main_arg0)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg16))
      ∧ r.2.mem ((c.tc : Thread nD τ).loc main_v512) = Read.val_main_v512 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg17))
      ∧ r.2.mem ((c.tc : Thread nD τ).loc main_v523) = Read.val_main_v523 (F := Ideal) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      have S := after_ops_st (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        { a0 := rfl, a1 := rfl, a2 := rfl, a3 := rfl, a4 := rfl, a5 := rfl, a6 := rfl, a7 := rfl, a8 := rfl, a9 := rfl, a10 := rfl, a11 := rfl, a12 := rfl, a13 := rfl, a14 := rfl, a15 := rfl, a16 := rfl, a17 := rfl }
      exact ⟨(h c main_v537).trans S.main_v537, (h c main_v207).trans S.main_v207, (h c main_v309).trans S.main_v309, (h c main_v512).trans S.main_v512, (h c main_v523).trans S.main_v523,
        (h c main_arg0).trans S.a0, (h c main_arg1).trans S.a1, (h c main_arg2).trans S.a2, (h c main_arg3).trans S.a3, (h c main_arg4).trans S.a4, (h c main_arg5).trans S.a5, (h c main_arg6).trans S.a6, (h c main_arg7).trans S.a7, (h c main_arg8).trans S.a8, (h c main_arg9).trans S.a9, (h c main_arg10).trans S.a10, (h c main_arg11).trans S.a11, (h c main_arg12).trans S.a12, (h c main_arg13).trans S.a13, (h c main_arg14).trans S.a14, (h c main_arg15).trans S.a15, (h c main_arg16).trans S.a16, (h c main_arg17).trans S.a17⟩)
    (run_seq scopedRefs_eq scopedSems_eq defs main (fun _ => ops) main_eq (fun _ => ops_sub) m ρ (fun _ => ops_fresh))

end Cert.ReferenceIdeal.Value

end
-- ==== Proof.KRun.lean ====
/- The run of the kernel program with its results read off: every final state holds, at each of the five
   returned buffers, the contents the fold through the segments leaves there (the generated frame's launch, its
   final read extended from the argument buffers to the result buffers). -/
import proofs.«128317_j60687887892780_2_alg».proof.Proof.Gen.KernelIdeal.Frame
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main from memory `m` terminates without fault, and in every final state each
    returned buffer holds what the fold `W24` holds there, the argument buffers what they held at launch. -/
theorem run_vals : θ_run defs (onTc (τ := τ) (main (F := Ideal))) ⟨m, fun _ => 0, ρ⟩ (fun r => ∀ c : Dev nD,
      r.2.mem ((c.tc : Thread nD τ).loc main_v358) = W24 m ρ c (Proc.devRef .tc main_v358)
      ∧ r.2.mem ((c.tc : Thread nD τ).loc main_v157) = W24 m ρ c (Proc.devRef .tc main_v157)
      ∧ r.2.mem ((c.tc : Thread nD τ).loc main_v230) = W24 m ρ c (Proc.devRef .tc main_v230)
      ∧ r.2.mem ((c.tc : Thread nD τ).loc main_v346) = W24 m ρ c (Proc.devRef .tc main_v346)
      ∧ r.2.mem ((c.tc : Thread nD τ).loc main_v356) = W24 m ρ c (Proc.devRef .tc main_v356)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v358 (by decide)),
       h c _ (mem_uc main_v157 (by decide)),
       h c _ (mem_uc main_v230 (by decide)),
       h c _ (mem_uc main_v346 (by decide)),
       h c _ (mem_uc main_v356 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c)⟩)

end Cert.KernelIdeal.Val

end
-- ==== Proof.KKeep.lean ====
/- What each stretch of host operations and each region leaves untouched: a buffer no operation of a stretch
   writes holds after the stretch what it held before; a buffer other than a region's output holds at the region's
   exit what it held at its entry; and a region's output buffer holds at the exit what the write-backs leave. -/
import proofs.«128317_j60687887892780_2_alg».proof.Proof.Gen.KernelIdeal.Frame
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem

/-- An operation whose only written buffer is the reference `y`, a member of the list `W`, writes inside `W`. -/
theorem writes_sub {W : List (Ref sig .tc)} {op : HloOp τ sig (Elt Ideal)} {y : Ref sig .tc}
    (hw : op.writes = {Proc.devRef .tc y}) (h : y ∈ W) :
    op.writes ⊆ (W.map (Proc.devRef (τ := τ) .tc)).toFinset := by
  rw [hw]
  exact Finset.singleton_subset_iff.mpr (List.mem_toFinset.mpr (List.mem_map.mpr ⟨y, h, rfl⟩))

/-! ## The references each stretch writes (its operations' result buffers, in order) -/

noncomputable def written0 : List (Ref sig .tc) :=
  [ main_v0 ]

noncomputable def written1 : List (Ref sig .tc) :=
  [ main_v2, main_v3, main_cst, main_v4, main_cst_0, main_v5, main_v6, main_v7, main_cst_1, main_v8,
    main_v9, main_cst_2, main_v10, main_v11, main_v12, main_v13, main_v14, main_cst_3, main_v15, main_cst_4,
    main_v16, main_v17, main_v18, main_cst_5, main_v19, main_v20, main_cst_6, main_v21, main_v22, main_v23,
    main_v24, main_v25, main_cst_7, main_v26, main_cst_8, main_v27, main_v28, main_v29, main_cst_9, main_v30,
    main_v31, main_cst_10, main_v32, main_v33, main_v34, main_v35, main_v36, main_cst_11, main_v37, main_cst_12,
    main_v38, main_v39, main_v40, main_cst_13, main_v41, main_v42, main_cst_14, main_v43, main_v44, main_v45,
    main_v46, main_v47, main_cst_15, main_v48, main_cst_16, main_v49, main_v50, main_v51, main_cst_17, main_v52,
    main_v53, main_cst_18, main_v54, main_v55, main_v56, main_v57, main_v58, main_v59, main_v60, main_c,
    main_v61, main_v62, main_c_19, main_v63, main_v64, main_v65, main_v66, main_v67, main_cst_20, main_v68,
    main_v69, main_v70, main_v71, main_v72, main_v73, main_v74, main_c_21, main_v75, main_v76, main_c_22,
    main_v77, main_v78, main_v79, main_v80, main_v81, main_cst_23, main_v82, main_v83, main_v84, main_v85,
    main_v86, main_v87, main_v88, main_v89, main_v90, main_v91, main_v92, main_v93, main_v94, main_v95,
    main_v96, main_v97, main_v98 ]

noncomputable def written2 : List (Ref sig .tc) :=
  [ main_v100, main_v101, main_v102, main_v103, main_v104, main_v105, main_v106, main_v107, main_v108, main_v109,
    main_v110, main_v111, main_v112, main_v113 ]

noncomputable def written3 : List (Ref sig .tc) :=
  [ main_v115, main_v116, main_v117, main_v118, main_c_24, main_v119, main_v120, main_c_25, main_v121, main_v122,
    main_v123, main_v124, main_v125, main_cst_26, main_v126, main_v127, main_v128, main_v129, main_v130, main_v131,
    main_v132, main_c_27, main_v133, main_v134, main_c_28, main_v135, main_v136, main_v137, main_v138, main_v139,
    main_cst_29, main_v140, main_v141, main_v142, main_v143, main_v144, main_v145, main_v146, main_v147, main_v148,
    main_v149, main_v150, main_v151, main_v152, main_v153, main_v154, main_v155, main_v156 ]

noncomputable def written4 : List (Ref sig .tc) :=
  [ main_v158, main_v159, main_v160, main_v161, main_v162, main_v163, main_v164, main_v165, main_v166, main_v167,
    main_v168, main_v169, main_v170, main_v171 ]

noncomputable def written5 : List (Ref sig .tc) :=
  [ main_v173, main_v174, main_v175, main_v176, main_c_30, main_v177, main_v178, main_c_31, main_v179, main_v180,
    main_v181, main_v182, main_v183, main_cst_32, main_v184, main_v185, main_v186, main_v187, main_v188, main_v189,
    main_v190, main_v191, main_v192, main_v193, main_v194, main_v195, main_v196, main_v197, main_v198, main_v199,
    main_v200 ]

noncomputable def written6 : List (Ref sig .tc) :=
  [ main_v202, main_v203, main_v204, main_v205, main_c_33, main_v206, main_v207, main_c_34, main_v208, main_v209,
    main_v210, main_v211, main_v212, main_cst_35, main_v213, main_v214, main_v215, main_v216, main_v217, main_v218,
    main_v219, main_v220, main_v221, main_v222, main_v223, main_v224, main_v225, main_v226, main_v227, main_v228,
    main_v229 ]

noncomputable def written7 : List (Ref sig .tc) :=
  [ main_v231, main_v232, main_v233, main_v234, main_c_36, main_v235, main_v236, main_c_37, main_v237, main_v238,
    main_v239, main_v240, main_v241, main_cst_38, main_v242, main_v243, main_v244, main_v245, main_v246, main_v247,
    main_v248, main_c_39, main_v249, main_v250, main_c_40, main_v251, main_v252, main_v253, main_v254, main_v255,
    main_cst_41, main_v256, main_v257, main_v258, main_v259, main_v260, main_v261, main_v262, main_v263, main_v264,
    main_v265, main_v266, main_v267, main_v268, main_v269, main_v270, main_v271, main_v272 ]

noncomputable def written8 : List (Ref sig .tc) :=
  [ main_v274, main_v275, main_v276, main_v277, main_v278, main_v279, main_v280, main_v281, main_v282, main_v283,
    main_v284, main_v285, main_v286, main_v287 ]

noncomputable def written9 : List (Ref sig .tc) :=
  [ main_v289, main_v290, main_v291, main_v292, main_c_42, main_v293, main_v294, main_c_43, main_v295, main_v296,
    main_v297, main_v298, main_v299, main_cst_44, main_v300, main_v301, main_v302, main_v303, main_v304, main_v305,
    main_v306, main_c_45, main_v307, main_v308, main_c_46, main_v309, main_v310, main_v311, main_v312, main_v313,
    main_cst_47, main_v314, main_v315, main_v316, main_v317, main_v318, main_v319, main_v320, main_v321, main_v322,
    main_v323, main_v324, main_v325, main_v326, main_v327, main_v328, main_v329, main_v330 ]

noncomputable def written10 : List (Ref sig .tc) :=
  [ main_v332, main_v333, main_v334, main_v335, main_v336, main_v337, main_v338, main_v339, main_v340, main_v341,
    main_v342, main_v343, main_v344, main_v345 ]

noncomputable def written11 : List (Ref sig .tc) :=
  [ main_cst_48, main_v347, main_cst_49, main_v348, main_v349, main_v350, main_v351, main_v352, main_cst_50, main_v353,
    main_v354, main_v355, main_v356, main_v357 ]

/-! ## Every operation of a stretch writes inside the stretch's list -/

theorem hW0 : (hostOps0 : List (HloOp τ sig (Elt Ideal))).Forall fun op =>
    op.writes ⊆ (written0.map (Proc.devRef (τ := τ) .tc)).toFinset :=
  writes_sub (StableHlo.reshape_writes ..) (by decide)

set_option maxHeartbeats 4000000 in
theorem hW1 : (hostOps1 : List (HloOp τ sig (Elt Ideal))).Forall fun op =>
    op.writes ⊆ (written1.map (Proc.devRef (τ := τ) .tc)).toFinset :=
  ⟨writes_sub (StableHlo.unary_writes ..) (by decide),
   writes_sub (StableHlo.reshape_writes ..) (by decide),
   writes_sub (StableHlo.nullary_writes ..) (by decide),
   writes_sub (StableHlo.unary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW2 : (hostOps2 : List (HloOp τ sig (Elt Ideal))).Forall fun op =>
    op.writes ⊆ (written2.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

set_option maxHeartbeats 4000000 in
theorem hW3 : (hostOps3 : List (HloOp τ sig (Elt Ideal))).Forall fun op =>
    op.writes ⊆ (written3.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW4 : (hostOps4 : List (HloOp τ sig (Elt Ideal))).Forall fun op =>
    op.writes ⊆ (written4.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW5 : (hostOps5 : List (HloOp τ sig (Elt Ideal))).Forall fun op =>
    op.writes ⊆ (written5.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW6 : (hostOps6 : List (HloOp τ sig (Elt Ideal))).Forall fun op =>
    op.writes ⊆ (written6.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

set_option maxHeartbeats 4000000 in
theorem hW7 : (hostOps7 : List (HloOp τ sig (Elt Ideal))).Forall fun op =>
    op.writes ⊆ (written7.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW8 : (hostOps8 : List (HloOp τ sig (Elt Ideal))).Forall fun op =>
    op.writes ⊆ (written8.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

set_option maxHeartbeats 4000000 in
theorem hW9 : (hostOps9 : List (HloOp τ sig (Elt Ideal))).Forall fun op =>
    op.writes ⊆ (written9.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.nullary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.binary_writes ..) (by decide),
   writes_sub (StableHlo.ternary_writes ..) (by decide),
   writes_sub (StableHlo.unary_writes ..) (by decide),
   writes_sub (StableHlo.binary_writes ..) (by decide),
   writes_sub (StableHlo.nullary_writes ..) (by decide),
   writes_sub (StableHlo.unary_writes ..) (by decide),
   writes_sub (StableHlo.unary_writes ..) (by decide),
   writes_sub (StableHlo.ternary_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW10 : (hostOps10 : List (HloOp τ sig (Elt Ideal))).Forall fun op =>
    op.writes ⊆ (written10.map (Proc.devRef (τ := τ) .tc)).toFinset :=
  ⟨writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.unary_writes ..) (by decide),
   writes_sub (StableHlo.reshape_writes ..) (by decide),
   writes_sub (StableHlo.reshape_writes ..) (by decide),
   writes_sub (StableHlo.reshape_writes ..) (by decide)⟩

theorem hW11 : (hostOps11 : List (HloOp τ sig (Elt Ideal))).Forall fun op =>
    op.writes ⊆ (written11.map (Proc.devRef (τ := τ) .tc)).toFinset :=
  ⟨writes_sub (StableHlo.nullary_writes ..) (by decide),
   writes_sub (StableHlo.binary_writes ..) (by decide),
   writes_sub (StableHlo.nullary_writes ..) (by decide),
   writes_sub (StableHlo.binary_writes ..) (by decide),
   writes_sub (StableHlo.unary_writes ..) (by decide),
   writes_sub (StableHlo.unary_writes ..) (by decide),
   writes_sub (StableHlo.binary_writes ..) (by decide),
   writes_sub (StableHlo.unary_writes ..) (by decide),
   writes_sub (StableHlo.nullary_writes ..) (by decide),
   writes_sub (StableHlo.binary_writes ..) (by decide),
   writes_sub (StableHlo.unary_writes ..) (by decide),
   writes_sub (StableHlo.unary_writes ..) (by decide),
   writes_sub (StableHlo.binary_writes ..) (by decide),
   writes_sub (StableHlo.reshape_writes ..) (by decide)⟩

variable (m : (ℓ : Loc nD τ sig) → Buf (Elt Ideal) ℓ) (ρ : Dev nD → PrngReg)

/-! ## A stretch keeps every buffer it does not write -/

theorem hkeep0 (c : Dev nD) (b : Ref sig .tc) (hb : b ∉ written0) :
    W1 m ρ c (Proc.devRef .tc b) = W0 m ρ c (Proc.devRef .tc b) :=
  StableHlo.after_of_writes_sub hostOps0 (W0 m ρ c) hW0 hb

theorem hkeep1 (c : Dev nD) (b : Ref sig .tc) (hb : b ∉ written1) :
    W3 m ρ c (Proc.devRef .tc b) = W2 m ρ c (Proc.devRef .tc b) :=
  StableHlo.after_of_writes_sub hostOps1 (W2 m ρ c) hW1 hb

theorem hkeep2 (c : Dev nD) (b : Ref sig .tc) (hb : b ∉ written2) :
    W5 m ρ c (Proc.devRef .tc b) = W4 m ρ c (Proc.devRef .tc b) :=
  StableHlo.after_of_writes_sub hostOps2 (W4 m ρ c) hW2 hb

theorem hkeep3 (c : Dev nD) (b : Ref sig .tc) (hb : b ∉ written3) :
    W7 m ρ c (Proc.devRef .tc b) = W6 m ρ c (Proc.devRef .tc b) :=
  StableHlo.after_of_writes_sub hostOps3 (W6 m ρ c) hW3 hb

theorem hkeep4 (c : Dev nD) (b : Ref sig .tc) (hb : b ∉ written4) :
    W9 m ρ c (Proc.devRef .tc b) = W8 m ρ c (Proc.devRef .tc b) :=
  StableHlo.after_of_writes_sub hostOps4 (W8 m ρ c) hW4 hb

theorem hkeep5 (c : Dev nD) (b : Ref sig .tc) (hb : b ∉ written5) :
    W11 m ρ c (Proc.devRef .tc b) = W10 m ρ c (Proc.devRef .tc b) :=
  StableHlo.after_of_writes_sub hostOps5 (W10 m ρ c) hW5 hb

theorem hkeep6 (c : Dev nD) (b : Ref sig .tc) (hb : b ∉ written6) :
    W13 m ρ c (Proc.devRef .tc b) = W12 m ρ c (Proc.devRef .tc b) :=
  StableHlo.after_of_writes_sub hostOps6 (W12 m ρ c) hW6 hb

theorem hkeep7 (c : Dev nD) (b : Ref sig .tc) (hb : b ∉ written7) :
    W15 m ρ c (Proc.devRef .tc b) = W14 m ρ c (Proc.devRef .tc b) :=
  StableHlo.after_of_writes_sub hostOps7 (W14 m ρ c) hW7 hb

theorem hkeep8 (c : Dev nD) (b : Ref sig .tc) (hb : b ∉ written8) :
    W17 m ρ c (Proc.devRef .tc b) = W16 m ρ c (Proc.devRef .tc b) :=
  StableHlo.after_of_writes_sub hostOps8 (W16 m ρ c) hW8 hb

theorem hkeep9 (c : Dev nD) (b : Ref sig .tc) (hb : b ∉ written9) :
    W19 m ρ c (Proc.devRef .tc b) = W18 m ρ c (Proc.devRef .tc b) :=
  StableHlo.after_of_writes_sub hostOps9 (W18 m ρ c) hW9 hb

theorem hkeep10 (c : Dev nD) (b : Ref sig .tc) (hb : b ∉ written10) :
    W21 m ρ c (Proc.devRef .tc b) = W20 m ρ c (Proc.devRef .tc b) :=
  StableHlo.after_of_writes_sub hostOps10 (W20 m ρ c) hW10 hb

theorem hkeep11 (c : Dev nD) (b : Ref sig .tc) (hb : b ∉ written11) :
    W23 m ρ c (Proc.devRef .tc b) = W22 m ρ c (Proc.devRef .tc b) :=
  StableHlo.after_of_writes_sub hostOps11 (W22 m ρ c) hW11 hb

/-! ## A region keeps every buffer but its output: an input array is never written back, any other buffer is not
    among the region's arrays -/

theorem isIn0 : ∀ w : Fin cfg0.W, Pipeline.arrRef spec0 w ≠ main_v1 → (cfg0.win w).isOut = false := by decide

theorem rkeep0 (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    exact (W2_arr m ρ c w).trans
      (((dat0 (V1 m ρ) c).arrAt_in w (isIn0 w hb) _).trans (A_eq0 (V1 m ρ) c w))
  · exact W2_of_ne m ρ c b fun w e => h ⟨w, e⟩

/-- Region 0's output buffer at the exit: what the write-backs leave. -/
theorem rout0 (c : Dev nD) :
    W2 m ρ c (Proc.devRef .tc main_v1) = (dat0 (V1 m ρ) c).arrAt 3 cfg0.N :=
  W2_arr m ρ c 3

theorem isIn1 : ∀ w : Fin cfg1.W, Pipeline.arrRef spec1 w ≠ main_v99 → (cfg1.win w).isOut = false := by decide

theorem rkeep1 (c : Dev nD) (b : Ref sig .tc) (hb : b ≠ main_v99) :
    W4 m ρ c (Proc.devRef .tc b) = W3 m ρ c (Proc.devRef .tc b) := by
  by_cases h : ∃ w, Pipeline.arrRef spec1 w = b
  · obtain ⟨w, rfl⟩ := h
    exact (W4_arr m ρ c w).trans
      (((dat1 (V3 m ρ) c).arrAt_in w (isIn1 w hb) _).trans (A_eq1 (V3 m ρ) c w))
  · exact W4_of_ne m ρ c b fun w e => h ⟨w, e⟩

/-- Region 1's output buffer at the exit: what the write-backs leave. -/
theorem rout1 (c : Dev nD) :
    W4 m ρ c (Proc.devRef .tc main_v99) = (dat1 (V3 m ρ) c).arrAt 9 cfg1.N :=
  W4_arr m ρ c 9

theorem isIn2 : ∀ w : Fin cfg2.W, Pipeline.arrRef spec2 w ≠ main_v114 → (cfg2.win w).isOut = false := by decide

theorem rkeep2 (c : Dev nD) (b : Ref sig .tc) (hb : b ≠ main_v114) :
    W6 m ρ c (Proc.devRef .tc b) = W5 m ρ c (Proc.devRef .tc b) := by
  by_cases h : ∃ w, Pipeline.arrRef spec2 w = b
  · obtain ⟨w, rfl⟩ := h
    exact (W6_arr m ρ c w).trans
      (((dat2 (V5 m ρ) c).arrAt_in w (isIn2 w hb) _).trans (A_eq2 (V5 m ρ) c w))
  · exact W6_of_ne m ρ c b fun w e => h ⟨w, e⟩

/-- Region 2's output buffer at the exit: what the write-backs leave. -/
theorem rout2 (c : Dev nD) :
    W6 m ρ c (Proc.devRef .tc main_v114) = (dat2 (V5 m ρ) c).arrAt 9 cfg2.N :=
  W6_arr m ρ c 9

theorem isIn3 : ∀ w : Fin cfg3.W, Pipeline.arrRef spec3 w ≠ main_v157 → (cfg3.win w).isOut = false := by decide

theorem rkeep3 (c : Dev nD) (b : Ref sig .tc) (hb : b ≠ main_v157) :
    W8 m ρ c (Proc.devRef .tc b) = W7 m ρ c (Proc.devRef .tc b) := by
  by_cases h : ∃ w, Pipeline.arrRef spec3 w = b
  · obtain ⟨w, rfl⟩ := h
    exact (W8_arr m ρ c w).trans
      (((dat3 (V7 m ρ) c).arrAt_in w (isIn3 w hb) _).trans (A_eq3 (V7 m ρ) c w))
  · exact W8_of_ne m ρ c b fun w e => h ⟨w, e⟩

/-- Region 3's output buffer at the exit: what the write-backs leave. -/
theorem rout3 (c : Dev nD) :
    W8 m ρ c (Proc.devRef .tc main_v157) = (dat3 (V7 m ρ) c).arrAt 9 cfg3.N :=
  W8_arr m ρ c 9

theorem isIn4 : ∀ w : Fin cfg4.W, Pipeline.arrRef spec4 w ≠ main_v172 → (cfg4.win w).isOut = false := by decide

theorem rkeep4 (c : Dev nD) (b : Ref sig .tc) (hb : b ≠ main_v172) :
    W10 m ρ c (Proc.devRef .tc b) = W9 m ρ c (Proc.devRef .tc b) := by
  by_cases h : ∃ w, Pipeline.arrRef spec4 w = b
  · obtain ⟨w, rfl⟩ := h
    exact (W10_arr m ρ c w).trans
      (((dat4 (V9 m ρ) c).arrAt_in w (isIn4 w hb) _).trans (A_eq4 (V9 m ρ) c w))
  · exact W10_of_ne m ρ c b fun w e => h ⟨w, e⟩

/-- Region 4's output buffer at the exit: what the write-backs leave. -/
theorem rout4 (c : Dev nD) :
    W10 m ρ c (Proc.devRef .tc main_v172) = (dat4 (V9 m ρ) c).arrAt 9 cfg4.N :=
  W10_arr m ρ c 9

theorem isIn5 : ∀ w : Fin cfg5.W, Pipeline.arrRef spec5 w ≠ main_v201 → (cfg5.win w).isOut = false := by decide

theorem rkeep5 (c : Dev nD) (b : Ref sig .tc) (hb : b ≠ main_v201) :
    W12 m ρ c (Proc.devRef .tc b) = W11 m ρ c (Proc.devRef .tc b) := by
  by_cases h : ∃ w, Pipeline.arrRef spec5 w = b
  · obtain ⟨w, rfl⟩ := h
    exact (W12_arr m ρ c w).trans
      (((dat5 (V11 m ρ) c).arrAt_in w (isIn5 w hb) _).trans (A_eq5 (V11 m ρ) c w))
  · exact W12_of_ne m ρ c b fun w e => h ⟨w, e⟩

/-- Region 5's output buffer at the exit: what the write-backs leave. -/
theorem rout5 (c : Dev nD) :
    W12 m ρ c (Proc.devRef .tc main_v201) = (dat5 (V11 m ρ) c).arrAt 9 cfg5.N :=
  W12_arr m ρ c 9

theorem isIn6 : ∀ w : Fin cfg6.W, Pipeline.arrRef spec6 w ≠ main_v230 → (cfg6.win w).isOut = false := by decide

theorem rkeep6 (c : Dev nD) (b : Ref sig .tc) (hb : b ≠ main_v230) :
    W14 m ρ c (Proc.devRef .tc b) = W13 m ρ c (Proc.devRef .tc b) := by
  by_cases h : ∃ w, Pipeline.arrRef spec6 w = b
  · obtain ⟨w, rfl⟩ := h
    exact (W14_arr m ρ c w).trans
      (((dat6 (V13 m ρ) c).arrAt_in w (isIn6 w hb) _).trans (A_eq6 (V13 m ρ) c w))
  · exact W14_of_ne m ρ c b fun w e => h ⟨w, e⟩

/-- Region 6's output buffer at the exit: what the write-backs leave. -/
theorem rout6 (c : Dev nD) :
    W14 m ρ c (Proc.devRef .tc main_v230) = (dat6 (V13 m ρ) c).arrAt 9 cfg6.N :=
  W14_arr m ρ c 9

theorem isIn7 : ∀ w : Fin cfg7.W, Pipeline.arrRef spec7 w ≠ main_v273 → (cfg7.win w).isOut = false := by decide

theorem rkeep7 (c : Dev nD) (b : Ref sig .tc) (hb : b ≠ main_v273) :
    W16 m ρ c (Proc.devRef .tc b) = W15 m ρ c (Proc.devRef .tc b) := by
  by_cases h : ∃ w, Pipeline.arrRef spec7 w = b
  · obtain ⟨w, rfl⟩ := h
    exact (W16_arr m ρ c w).trans
      (((dat7 (V15 m ρ) c).arrAt_in w (isIn7 w hb) _).trans (A_eq7 (V15 m ρ) c w))
  · exact W16_of_ne m ρ c b fun w e => h ⟨w, e⟩

/-- Region 7's output buffer at the exit: what the write-backs leave. -/
theorem rout7 (c : Dev nD) :
    W16 m ρ c (Proc.devRef .tc main_v273) = (dat7 (V15 m ρ) c).arrAt 9 cfg7.N :=
  W16_arr m ρ c 9

theorem isIn8 : ∀ w : Fin cfg8.W, Pipeline.arrRef spec8 w ≠ main_v288 → (cfg8.win w).isOut = false := by decide

theorem rkeep8 (c : Dev nD) (b : Ref sig .tc) (hb : b ≠ main_v288) :
    W18 m ρ c (Proc.devRef .tc b) = W17 m ρ c (Proc.devRef .tc b) := by
  by_cases h : ∃ w, Pipeline.arrRef spec8 w = b
  · obtain ⟨w, rfl⟩ := h
    exact (W18_arr m ρ c w).trans
      (((dat8 (V17 m ρ) c).arrAt_in w (isIn8 w hb) _).trans (A_eq8 (V17 m ρ) c w))
  · exact W18_of_ne m ρ c b fun w e => h ⟨w, e⟩

/-- Region 8's output buffer at the exit: what the write-backs leave. -/
theorem rout8 (c : Dev nD) :
    W18 m ρ c (Proc.devRef .tc main_v288) = (dat8 (V17 m ρ) c).arrAt 9 cfg8.N :=
  W18_arr m ρ c 9

theorem isIn9 : ∀ w : Fin cfg9.W, Pipeline.arrRef spec9 w ≠ main_v331 → (cfg9.win w).isOut = false := by decide

theorem rkeep9 (c : Dev nD) (b : Ref sig .tc) (hb : b ≠ main_v331) :
    W20 m ρ c (Proc.devRef .tc b) = W19 m ρ c (Proc.devRef .tc b) := by
  by_cases h : ∃ w, Pipeline.arrRef spec9 w = b
  · obtain ⟨w, rfl⟩ := h
    exact (W20_arr m ρ c w).trans
      (((dat9 (V19 m ρ) c).arrAt_in w (isIn9 w hb) _).trans (A_eq9 (V19 m ρ) c w))
  · exact W20_of_ne m ρ c b fun w e => h ⟨w, e⟩

/-- Region 9's output buffer at the exit: what the write-backs leave. -/
theorem rout9 (c : Dev nD) :
    W20 m ρ c (Proc.devRef .tc main_v331) = (dat9 (V19 m ρ) c).arrAt 9 cfg9.N :=
  W20_arr m ρ c 9

theorem isIn10 : ∀ w : Fin cfg10.W, Pipeline.arrRef spec10 w ≠ main_v346 → (cfg10.win w).isOut = false := by decide

theorem rkeep10 (c : Dev nD) (b : Ref sig .tc) (hb : b ≠ main_v346) :
    W22 m ρ c (Proc.devRef .tc b) = W21 m ρ c (Proc.devRef .tc b) := by
  by_cases h : ∃ w, Pipeline.arrRef spec10 w = b
  · obtain ⟨w, rfl⟩ := h
    exact (W22_arr m ρ c w).trans
      (((dat10 (V21 m ρ) c).arrAt_in w (isIn10 w hb) _).trans (A_eq10 (V21 m ρ) c w))
  · exact W22_of_ne m ρ c b fun w e => h ⟨w, e⟩

/-- Region 10's output buffer at the exit: what the write-backs leave. -/
theorem rout10 (c : Dev nD) :
    W22 m ρ c (Proc.devRef .tc main_v346) = (dat10 (V21 m ρ) c).arrAt 9 cfg10.N :=
  W22_arr m ρ c 9

theorem isIn11 : ∀ w : Fin cfg11.W, Pipeline.arrRef spec11 w ≠ main_v358 → (cfg11.win w).isOut = false := by decide

theorem rkeep11 (c : Dev nD) (b : Ref sig .tc) (hb : b ≠ main_v358) :
    W24 m ρ c (Proc.devRef .tc b) = W23 m ρ c (Proc.devRef .tc b) := by
  by_cases h : ∃ w, Pipeline.arrRef spec11 w = b
  · obtain ⟨w, rfl⟩ := h
    exact (W24_arr m ρ c w).trans
      (((dat11 (V23 m ρ) c).arrAt_in w (isIn11 w hb) _).trans (A_eq11 (V23 m ρ) c w))
  · exact W24_of_ne m ρ c b fun w e => h ⟨w, e⟩

/-- Region 11's output buffer at the exit: what the write-backs leave. -/
theorem rout11 (c : Dev nD) :
    W24 m ρ c (Proc.devRef .tc main_v358) = (dat11 (V23 m ρ) c).arrAt 4 cfg11.N :=
  W24_arr m ρ c 4

end Cert.KernelIdeal.Val

end
-- ==== Proof.KStage0.lean ====
/-
  What region 0's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KKeep
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- A vector laid out as a one-row array. -/
def kv0 (x4 : (⟨S128, .f32⟩ : BufTy).Contents (Elt Ideal)) :
    (⟨S1x128, .f32⟩ : BufTy).Contents (Elt Ideal) :=
  shapeCast S1x128 (x4) shapeCasts_S128_S1x128

/-! ## The arrays the host operations write before region 0 is entered -/

set_option maxHeartbeats 4000000 in
theorem at1_v0 (c : Dev nD) :
    W1 m ρ c (Proc.devRef .tc main_v0) = kv0 (m ((c.tc : Thread nD τ).loc main_arg4)) := by
  show StableHlo.after (hostOps0 (F := Ideal)) (W0 m ρ c) (Proc.devRef .tc main_v0) = _
  after_results_simp
  first | rfl | (unfold kv0; rfl)

/-! ## Region 0's input windows at its entry -/

theorem in0_0 (c : Dev nD) :
    W1 m ρ c (Proc.devRef .tc main_arg0) = m ((c.tc : Thread nD τ).loc main_arg0) :=
  (hkeep0 m ρ c main_arg0 (by decide)).trans (rfl)

theorem in0_1 (c : Dev nD) :
    W1 m ρ c (Proc.devRef .tc main_arg3) = m ((c.tc : Thread nD τ).loc main_arg3) :=
  (hkeep0 m ρ c main_arg3 (by decide)).trans (rfl)

theorem in0_2 (c : Dev nD) :
    W1 m ρ c (Proc.devRef .tc main_v0) = kv0 (m ((c.tc : Thread nD τ).loc main_arg4)) :=
  at1_v0 m ρ c

end Cert.KernelIdeal.Val

end
-- ==== Proof.KStage1.lean ====
/-
  What region 1's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KKeep
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- The neighbour sum: rows of the feature array gathered at the source row of the edge array (a negative index wrapped by the number of source rows), added into a zero array at the rows the destination row of the edge array names. -/
def kv70 (x15 : (⟨S2x1000000, .i32⟩ : BufTy).Contents (Elt Ideal)) (x1 : (⟨S100000x128, .f32⟩ : BufTy).Contents (Elt Ideal)) :
    (⟨S50000x128, .f32⟩ : BufTy).Contents (Elt Ideal) :=
  Host.scatterAdd (F := Ideal) scatter_S50000x128_S1000000x1_S1000000x128_1_0_0_1 (broadcastInDim S50000x128 ![] bcast_S_S50000x128 (constant (F := Ideal) S_ .f32 0x00000000#32)) (broadcastInDim S1000000x1 ![0] bcast_S1000000_S1000000x1_0 (shapeCast S1000000 (extractStridedSlice S1x1000000 ![1, 0] (x15) slices_S2x1000000_S1x1000000_1_0) shapeCasts_S1x1000000_S1000000)) (Host.gather gather_S100000x128_S1000000x1_S1000000x128_1_0_n_n_0_1_1128 (x1) (broadcastInDim S1000000x1 ![0] bcast_S1000000_S1000000x1_0 (select (cmpi .slt (shapeCast S1000000 (extractStridedSlice S1x1000000 ![0, 0] (x15) slices_S2x1000000_S1x1000000_0_0) shapeCasts_S1x1000000_S1000000) (broadcastInDim S1000000 ![] bcast_S_S1000000 (constantI S_ 32 0#32))) (addi (shapeCast S1000000 (extractStridedSlice S1x1000000 ![0, 0] (x15) slices_S2x1000000_S1x1000000_0_0) shapeCasts_S1x1000000_S1000000) (broadcastInDim S1000000 ![] bcast_S_S1000000 (constantI S_ 32 100000#32))) (shapeCast S1000000 (extractStridedSlice S1x1000000 ![0, 0] (x15) slices_S2x1000000_S1x1000000_0_0) shapeCasts_S1x1000000_S1000000))))

/-- The reciprocal of the in-degree clamped below by one, as a one-column array: ones added into a zero vector at the entries one row of the edge array names, the maximum of that with one, and one divided by it. -/
def kv12 (x15 : (⟨S2x1000000, .i32⟩ : BufTy).Contents (Elt Ideal)) :
    (⟨S50000x1, .f32⟩ : BufTy).Contents (Elt Ideal) :=
  shapeCast S50000x1 (Host.divf (F := Ideal) (broadcastInDim S50000 ![] bcast_S_S50000 (constant (F := Ideal) S_ .f32 0x3F800000#32)) (maximumf (F := Ideal) (Host.scatterAdd (F := Ideal) scatter_S50000_S1000000x1_S1000000_n_0_0_1 (broadcastInDim S50000 ![] bcast_S_S50000 (constant (F := Ideal) S_ .f32 0x00000000#32)) (broadcastInDim S1000000x1 ![0] bcast_S1000000_S1000000x1_0 (shapeCast S1000000 (extractStridedSlice S1x1000000 ![1, 0] (x15) slices_S2x1000000_S1x1000000_1_0) shapeCasts_S1x1000000_S1000000)) (broadcastInDim S1000000 ![] bcast_S_S1000000 (constant (F := Ideal) S_ .f32 0x3F800000#32))) (broadcastInDim S50000 ![] bcast_S_S50000 (constant (F := Ideal) S_ .f32 0x3F800000#32)))) shapeCasts_S50000_S50000x1

/-- One matrix of a stack of weight matrices. -/
def kv86 (x5 : (⟨S2x4x128x128, .f32⟩ : BufTy).Contents (Elt Ideal)) :
    (⟨S128x128, .f32⟩ : BufTy).Contents (Elt Ideal) :=
  shapeCast S128x128 (extractStridedSlice S1x1x128x128 ![0, 0, 0, 0] (x5) slices_S2x4x128x128_S1x1x128x128_0_0_0_0) shapeCasts_S1x1x128x128_S128x128

/-- One vector of a stack of bias vectors, laid out as a one-row array. -/
def kv97 (x6 : (⟨S2x4x128, .f32⟩ : BufTy).Contents (Elt Ideal)) :
    (⟨S1x128, .f32⟩ : BufTy).Contents (Elt Ideal) :=
  shapeCast S1x128 (shapeCast S128 (extractStridedSlice S1x1x128 ![0, 0, 0] (x6) slices_S2x4x128_S1x1x128_0_0_0) shapeCasts_S1x1x128_S128) shapeCasts_S128_S1x128

/-- One matrix of a stack of weight matrices. -/
def kv92 (x5 : (⟨S2x4x128x128, .f32⟩ : BufTy).Contents (Elt Ideal)) :
    (⟨S128x128, .f32⟩ : BufTy).Contents (Elt Ideal) :=
  shapeCast S128x128 (extractStridedSlice S1x1x128x128 ![0, 3, 0, 0] (x5) slices_S2x4x128x128_S1x1x128x128_0_3_0_0) shapeCasts_S1x1x128x128_S128x128

/-- One vector of a stack of bias vectors, laid out as a one-row array. -/
def kv98 (x6 : (⟨S2x4x128, .f32⟩ : BufTy).Contents (Elt Ideal)) :
    (⟨S1x128, .f32⟩ : BufTy).Contents (Elt Ideal) :=
  shapeCast S1x128 (shapeCast S128 (extractStridedSlice S1x1x128 ![0, 3, 0] (x6) slices_S2x4x128_S1x1x128_0_3_0) shapeCasts_S1x1x128_S128) shapeCasts_S128_S1x128

/-- The reciprocal of the in-degree clamped below by one, as a one-column array: ones added into a zero vector at the entries one row of the edge array names, the maximum of that with one, and one divided by it. -/
def kv23 (x15 : (⟨S2x1000000, .i32⟩ : BufTy).Contents (Elt Ideal)) :
    (⟨S100000x1, .f32⟩ : BufTy).Contents (Elt Ideal) :=
  shapeCast S100000x1 (Host.divf (F := Ideal) (broadcastInDim S100000 ![] bcast_S_S100000 (constant (F := Ideal) S_ .f32 0x3F800000#32)) (maximumf (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 (shapeCast S1000000 (extractStridedSlice S1x1000000 ![0, 0] (x15) slices_S2x1000000_S1x1000000_0_0) shapeCasts_S1x1000000_S1000000)) (broadcastInDim S1000000 ![] bcast_S_S1000000 (constant (F := Ideal) S_ .f32 0x3F800000#32))) (broadcastInDim S100000 ![] bcast_S_S100000 (constant (F := Ideal) S_ .f32 0x3F800000#32)))) shapeCasts_S100000_S100000x1

/-- The reciprocal of the in-degree clamped below by one, as a one-column array: ones added into a zero vector at the entries one row of the edge array names, the maximum of that with one, and one divided by it. -/
def kv34 (x16 : (⟨S2x500000, .i32⟩ : BufTy).Contents (Elt Ideal)) :
    (⟨S50000x1, .f32⟩ : BufTy).Contents (Elt Ideal) :=
  shapeCast S50000x1 (Host.divf (F := Ideal) (broadcastInDim S50000 ![] bcast_S_S50000 (constant (F := Ideal) S_ .f32 0x3F800000#32)) (maximumf (F := Ideal) (Host.scatterAdd (F := Ideal) scatter_S50000_S500000x1_S500000_n_0_0_1 (broadcastInDim S50000 ![] bcast_S_S50000 (constant (F := Ideal) S_ .f32 0x00000000#32)) (broadcastInDim S500000x1 ![0] bcast_S500000_S500000x1_0 (shapeCast S500000 (extractStridedSlice S1x500000 ![1, 0] (x16) slices_S2x500000_S1x500000_1_0) shapeCasts_S1x500000_S500000)) (broadcastInDim S500000 ![] bcast_S_S500000 (constant (F := Ideal) S_ .f32 0x3F800000#32))) (broadcastInDim S50000 ![] bcast_S_S50000 (constant (F := Ideal) S_ .f32 0x3F800000#32)))) shapeCasts_S50000_S50000x1

/-- The reciprocal of the in-degree clamped below by one, as a one-column array: ones added into a zero vector at the entries one row of the edge array names, the maximum of that with one, and one divided by it. -/
def kv45 (x17 : (⟨S2x250000, .i32⟩ : BufTy).Contents (Elt Ideal)) :
    (⟨S5000x1, .f32⟩ : BufTy).Contents (Elt Ideal) :=
  shapeCast S5000x1 (Host.divf (F := Ideal) (broadcastInDim S5000 ![] bcast_S_S5000 (constant (F := Ideal) S_ .f32 0x3F800000#32)) (maximumf (F := Ideal) (Host.scatterAdd (F := Ideal) scatter_S5000_S250000x1_S250000_n_0_0_1 (broadcastInDim S5000 ![] bcast_S_S5000 (constant (F := Ideal) S_ .f32 0x00000000#32)) (broadcastInDim S250000x1 ![0] bcast_S250000_S250000x1_0 (shapeCast S250000 (extractStridedSlice S1x250000 ![1, 0] (x17) slices_S2x250000_S1x250000_1_0) shapeCasts_S1x250000_S250000)) (broadcastInDim S250000 ![] bcast_S_S250000 (constant (F := Ideal) S_ .f32 0x3F800000#32))) (broadcastInDim S5000 ![] bcast_S_S5000 (constant (F := Ideal) S_ .f32 0x3F800000#32)))) shapeCasts_S5000_S5000x1

/-- The reciprocal of the in-degree clamped below by one, as a one-column array: ones added into a zero vector at the entries one row of the edge array names, the maximum of that with one, and one divided by it. -/
def kv56 (x17 : (⟨S2x250000, .i32⟩ : BufTy).Contents (Elt Ideal)) :
    (⟨S50000x1, .f32⟩ : BufTy).Contents (Elt Ideal) :=
  shapeCast S50000x1 (Host.divf (F := Ideal) (broadcastInDim S50000 ![] bcast_S_S50000 (constant (F := Ideal) S_ .f32 0x3F800000#32)) (maximumf (F := Ideal) (Host.scatterAdd (F := Ideal) scatter_S50000_S250000x1_S250000_n_0_0_1 (broadcastInDim S50000 ![] bcast_S_S50000 (constant (F := Ideal) S_ .f32 0x00000000#32)) (broadcastInDim S250000x1 ![0] bcast_S250000_S250000x1_0 (shapeCast S250000 (extractStridedSlice S1x250000 ![0, 0] (x17) slices_S2x250000_S1x250000_0_0) shapeCasts_S1x250000_S250000)) (broadcastInDim S250000 ![] bcast_S_S250000 (constant (F := Ideal) S_ .f32 0x3F800000#32))) (broadcastInDim S50000 ![] bcast_S_S50000 (constant (F := Ideal) S_ .f32 0x3F800000#32)))) shapeCasts_S50000_S50000x1

/-- The neighbour sum: rows of the feature array gathered at the source row of the edge array (a negative index wrapped by the number of source rows), added into a zero array at the rows the destination row of the edge array names. -/
def kv84 (x15 : (⟨S2x1000000, .i32⟩ : BufTy).Contents (Elt Ideal)) (y1 : (⟨S50000x128, .f32⟩ : BufTy).Contents (Elt Ideal)) :
    (⟨S100000x128, .f32⟩ : BufTy).Contents (Elt Ideal) :=
  Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 (shapeCast S1000000 (extractStridedSlice S1x1000000 ![0, 0] (x15) slices_S2x1000000_S1x1000000_0_0) shapeCasts_S1x1000000_S1000000)) (Host.gather gather_S50000x128_S1000000x1_S1000000x128_1_0_n_n_0_1_1128 (y1) (broadcastInDim S1000000x1 ![0] bcast_S1000000_S1000000x1_0 (select (cmpi .slt (shapeCast S1000000 (extractStridedSlice S1x1000000 ![1, 0] (x15) slices_S2x1000000_S1x1000000_1_0) shapeCasts_S1x1000000_S1000000) (broadcastInDim S1000000 ![] bcast_S_S1000000 (constantI S_ 32 0#32))) (addi (shapeCast S1000000 (extractStridedSlice S1x1000000 ![1, 0] (x15) slices_S2x1000000_S1x1000000_1_0) shapeCasts_S1x1000000_S1000000) (broadcastInDim S1000000 ![] bcast_S_S1000000 (constantI S_ 32 50000#32))) (shapeCast S1000000 (extractStridedSlice S1x1000000 ![1, 0] (x15) slices_S2x1000000_S1x1000000_1_0) shapeCasts_S1x1000000_S1000000))))

/-! ## The arrays the host operations write before region 1 is entered -/

set_option maxHeartbeats 4000000 in
theorem at3_v70 (c : Dev nD) :
    W3 m ρ c (Proc.devRef .tc main_v70) = kv70 (m ((c.tc : Thread nD τ).loc main_arg15)) (m ((c.tc : Thread nD τ).loc main_arg1)) := by
  show StableHlo.after (hostOps1 (F := Ideal)) (W2 m ρ c) (Proc.devRef .tc main_v70) = _
  after_results_simp
  have h_x15 : W2 m ρ c (Proc.devRef .tc main_arg15) = m ((c.tc : Thread nD τ).loc main_arg15) :=
    (rkeep0 m ρ c main_arg15 (by decide)).trans ((hkeep0 m ρ c main_arg15 (by decide)).trans (rfl))
  have h_x1 : W2 m ρ c (Proc.devRef .tc main_arg1) = m ((c.tc : Thread nD τ).loc main_arg1) :=
    (rkeep0 m ρ c main_arg1 (by decide)).trans ((hkeep0 m ρ c main_arg1 (by decide)).trans (rfl))
  rw [h_x15, h_x1]
  first | rfl | (unfold kv70; rfl)

set_option maxHeartbeats 4000000 in
theorem at3_v12 (c : Dev nD) :
    W3 m ρ c (Proc.devRef .tc main_v12) = kv12 (m ((c.tc : Thread nD τ).loc main_arg15)) := by
  show StableHlo.after (hostOps1 (F := Ideal)) (W2 m ρ c) (Proc.devRef .tc main_v12) = _
  after_results_simp
  have h_x15 : W2 m ρ c (Proc.devRef .tc main_arg15) = m ((c.tc : Thread nD τ).loc main_arg15) :=
    (rkeep0 m ρ c main_arg15 (by decide)).trans ((hkeep0 m ρ c main_arg15 (by decide)).trans (rfl))
  rw [h_x15]
  first | rfl | (unfold kv12; rfl)

set_option maxHeartbeats 4000000 in
theorem at3_v86 (c : Dev nD) :
    W3 m ρ c (Proc.devRef .tc main_v86) = kv86 (m ((c.tc : Thread nD τ).loc main_arg5)) := by
  show StableHlo.after (hostOps1 (F := Ideal)) (W2 m ρ c) (Proc.devRef .tc main_v86) = _
  after_results_simp
  have h_x5 : W2 m ρ c (Proc.devRef .tc main_arg5) = m ((c.tc : Thread nD τ).loc main_arg5) :=
    (rkeep0 m ρ c main_arg5 (by decide)).trans ((hkeep0 m ρ c main_arg5 (by decide)).trans (rfl))
  rw [h_x5]
  first | rfl | (unfold kv86; rfl)

set_option maxHeartbeats 4000000 in
theorem at3_v97 (c : Dev nD) :
    W3 m ρ c (Proc.devRef .tc main_v97) = kv97 (m ((c.tc : Thread nD τ).loc main_arg6)) := by
  show StableHlo.after (hostOps1 (F := Ideal)) (W2 m ρ c) (Proc.devRef .tc main_v97) = _
  after_results_simp
  have h_x6 : W2 m ρ c (Proc.devRef .tc main_arg6) = m ((c.tc : Thread nD τ).loc main_arg6) :=
    (rkeep0 m ρ c main_arg6 (by decide)).trans ((hkeep0 m ρ c main_arg6 (by decide)).trans (rfl))
  rw [h_x6]
  first | rfl | (unfold kv97; rfl)

set_option maxHeartbeats 4000000 in
theorem at3_v90 (c : Dev nD) :
    W3 m ρ c (Proc.devRef .tc main_v90) = kv86 (m ((c.tc : Thread nD τ).loc main_arg7)) := by
  show StableHlo.after (hostOps1 (F := Ideal)) (W2 m ρ c) (Proc.devRef .tc main_v90) = _
  after_results_simp
  have h_x7 : W2 m ρ c (Proc.devRef .tc main_arg7) = m ((c.tc : Thread nD τ).loc main_arg7) :=
    (rkeep0 m ρ c main_arg7 (by decide)).trans ((hkeep0 m ρ c main_arg7 (by decide)).trans (rfl))
  rw [h_x7]
  first | rfl | (unfold kv86; rfl)

set_option maxHeartbeats 4000000 in
theorem at3_v92 (c : Dev nD) :
    W3 m ρ c (Proc.devRef .tc main_v92) = kv92 (m ((c.tc : Thread nD τ).loc main_arg5)) := by
  show StableHlo.after (hostOps1 (F := Ideal)) (W2 m ρ c) (Proc.devRef .tc main_v92) = _
  after_results_simp
  have h_x5 : W2 m ρ c (Proc.devRef .tc main_arg5) = m ((c.tc : Thread nD τ).loc main_arg5) :=
    (rkeep0 m ρ c main_arg5 (by decide)).trans ((hkeep0 m ρ c main_arg5 (by decide)).trans (rfl))
  rw [h_x5]
  first | rfl | (unfold kv92; rfl)

set_option maxHeartbeats 4000000 in
theorem at3_v98 (c : Dev nD) :
    W3 m ρ c (Proc.devRef .tc main_v98) = kv98 (m ((c.tc : Thread nD τ).loc main_arg6)) := by
  show StableHlo.after (hostOps1 (F := Ideal)) (W2 m ρ c) (Proc.devRef .tc main_v98) = _
  after_results_simp
  have h_x6 : W2 m ρ c (Proc.devRef .tc main_arg6) = m ((c.tc : Thread nD τ).loc main_arg6) :=
    (rkeep0 m ρ c main_arg6 (by decide)).trans ((hkeep0 m ρ c main_arg6 (by decide)).trans (rfl))
  rw [h_x6]
  first | rfl | (unfold kv98; rfl)

set_option maxHeartbeats 4000000 in
theorem at3_v96 (c : Dev nD) :
    W3 m ρ c (Proc.devRef .tc main_v96) = kv92 (m ((c.tc : Thread nD τ).loc main_arg7)) := by
  show StableHlo.after (hostOps1 (F := Ideal)) (W2 m ρ c) (Proc.devRef .tc main_v96) = _
  after_results_simp
  have h_x7 : W2 m ρ c (Proc.devRef .tc main_arg7) = m ((c.tc : Thread nD τ).loc main_arg7) :=
    (rkeep0 m ρ c main_arg7 (by decide)).trans ((hkeep0 m ρ c main_arg7 (by decide)).trans (rfl))
  rw [h_x7]
  first | rfl | (unfold kv92; rfl)

set_option maxHeartbeats 4000000 in
theorem at3_v23 (c : Dev nD) :
    W3 m ρ c (Proc.devRef .tc main_v23) = kv23 (m ((c.tc : Thread nD τ).loc main_arg15)) := by
  show StableHlo.after (hostOps1 (F := Ideal)) (W2 m ρ c) (Proc.devRef .tc main_v23) = _
  after_results_simp
  have h_x15 : W2 m ρ c (Proc.devRef .tc main_arg15) = m ((c.tc : Thread nD τ).loc main_arg15) :=
    (rkeep0 m ρ c main_arg15 (by decide)).trans ((hkeep0 m ρ c main_arg15 (by decide)).trans (rfl))
  rw [h_x15]
  first | rfl | (unfold kv23; rfl)

set_option maxHeartbeats 4000000 in
theorem at3_v34 (c : Dev nD) :
    W3 m ρ c (Proc.devRef .tc main_v34) = kv34 (m ((c.tc : Thread nD τ).loc main_arg16)) := by
  show StableHlo.after (hostOps1 (F := Ideal)) (W2 m ρ c) (Proc.devRef .tc main_v34) = _
  after_results_simp
  have h_x16 : W2 m ρ c (Proc.devRef .tc main_arg16) = m ((c.tc : Thread nD τ).loc main_arg16) :=
    (rkeep0 m ρ c main_arg16 (by decide)).trans ((hkeep0 m ρ c main_arg16 (by decide)).trans (rfl))
  rw [h_x16]
  first | rfl | (unfold kv34; rfl)

set_option maxHeartbeats 4000000 in
theorem at3_v45 (c : Dev nD) :
    W3 m ρ c (Proc.devRef .tc main_v45) = kv45 (m ((c.tc : Thread nD τ).loc main_arg17)) := by
  show StableHlo.after (hostOps1 (F := Ideal)) (W2 m ρ c) (Proc.devRef .tc main_v45) = _
  after_results_simp
  have h_x17 : W2 m ρ c (Proc.devRef .tc main_arg17) = m ((c.tc : Thread nD τ).loc main_arg17) :=
    (rkeep0 m ρ c main_arg17 (by decide)).trans ((hkeep0 m ρ c main_arg17 (by decide)).trans (rfl))
  rw [h_x17]
  first | rfl | (unfold kv45; rfl)

set_option maxHeartbeats 4000000 in
theorem at3_v56 (c : Dev nD) :
    W3 m ρ c (Proc.devRef .tc main_v56) = kv56 (m ((c.tc : Thread nD τ).loc main_arg17)) := by
  show StableHlo.after (hostOps1 (F := Ideal)) (W2 m ρ c) (Proc.devRef .tc main_v56) = _
  after_results_simp
  have h_x17 : W2 m ρ c (Proc.devRef .tc main_arg17) = m ((c.tc : Thread nD τ).loc main_arg17) :=
    (rkeep0 m ρ c main_arg17 (by decide)).trans ((hkeep0 m ρ c main_arg17 (by decide)).trans (rfl))
  rw [h_x17]
  first | rfl | (unfold kv56; rfl)

set_option maxHeartbeats 4000000 in
theorem at3_v84 (c : Dev nD) :
    W3 m ρ c (Proc.devRef .tc main_v84) = kv84 (m ((c.tc : Thread nD τ).loc main_arg15)) (W2 m ρ c (Proc.devRef .tc main_v1)) := by
  show StableHlo.after (hostOps1 (F := Ideal)) (W2 m ρ c) (Proc.devRef .tc main_v84) = _
  after_results_simp
  have h_x15 : W2 m ρ c (Proc.devRef .tc main_arg15) = m ((c.tc : Thread nD τ).loc main_arg15) :=
    (rkeep0 m ρ c main_arg15 (by decide)).trans ((hkeep0 m ρ c main_arg15 (by decide)).trans (rfl))
  rw [h_x15]
  first | rfl | (unfold kv84; rfl)

/-! ## Region 1's input windows at its entry -/

theorem in1_0 (c : Dev nD) :
    W3 m ρ c (Proc.devRef .tc main_v70) = kv70 (m ((c.tc : Thread nD τ).loc main_arg15)) (m ((c.tc : Thread nD τ).loc main_arg1)) :=
  at3_v70 m ρ c

theorem in1_1 (c : Dev nD) :
    W3 m ρ c (Proc.devRef .tc main_v12) = kv12 (m ((c.tc : Thread nD τ).loc main_arg15)) :=
  at3_v12 m ρ c

theorem in1_2 (c : Dev nD) :
    W3 m ρ c (Proc.devRef .tc main_v1) = W2 m ρ c (Proc.devRef .tc main_v1) :=
  (hkeep1 m ρ c main_v1 (by decide))

theorem in1_3 (c : Dev nD) :
    W3 m ρ c (Proc.devRef .tc main_v86) = kv86 (m ((c.tc : Thread nD τ).loc main_arg5)) :=
  at3_v86 m ρ c

theorem in1_4 (c : Dev nD) :
    W3 m ρ c (Proc.devRef .tc main_v97) = kv97 (m ((c.tc : Thread nD τ).loc main_arg6)) :=
  at3_v97 m ρ c

theorem in1_5 (c : Dev nD) :
    W3 m ρ c (Proc.devRef .tc main_v90) = kv86 (m ((c.tc : Thread nD τ).loc main_arg7)) :=
  at3_v90 m ρ c

theorem in1_6 (c : Dev nD) :
    W3 m ρ c (Proc.devRef .tc main_v92) = kv92 (m ((c.tc : Thread nD τ).loc main_arg5)) :=
  at3_v92 m ρ c

theorem in1_7 (c : Dev nD) :
    W3 m ρ c (Proc.devRef .tc main_v98) = kv98 (m ((c.tc : Thread nD τ).loc main_arg6)) :=
  at3_v98 m ρ c

theorem in1_8 (c : Dev nD) :
    W3 m ρ c (Proc.devRef .tc main_v96) = kv92 (m ((c.tc : Thread nD τ).loc main_arg7)) :=
  at3_v96 m ρ c

end Cert.KernelIdeal.Val

end
-- ==== Proof.KStage2.lean ====
/-
  What region 2's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KStage1
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- One matrix of a stack of weight matrices. -/
def kv101 (x5 : (⟨S2x4x128x128, .f32⟩ : BufTy).Contents (Elt Ideal)) :
    (⟨S128x128, .f32⟩ : BufTy).Contents (Elt Ideal) :=
  shapeCast S128x128 (extractStridedSlice S1x1x128x128 ![0, 1, 0, 0] (x5) slices_S2x4x128x128_S1x1x128x128_0_1_0_0) shapeCasts_S1x1x128x128_S128x128

/-- One vector of a stack of bias vectors, laid out as a one-row array. -/
def kv112 (x6 : (⟨S2x4x128, .f32⟩ : BufTy).Contents (Elt Ideal)) :
    (⟨S1x128, .f32⟩ : BufTy).Contents (Elt Ideal) :=
  shapeCast S1x128 (shapeCast S128 (extractStridedSlice S1x1x128 ![0, 1, 0] (x6) slices_S2x4x128_S1x1x128_0_1_0) shapeCasts_S1x1x128_S128) shapeCasts_S128_S1x128

/-- One matrix of a stack of weight matrices. -/
def kv107 (x5 : (⟨S2x4x128x128, .f32⟩ : BufTy).Contents (Elt Ideal)) :
    (⟨S128x128, .f32⟩ : BufTy).Contents (Elt Ideal) :=
  shapeCast S128x128 (extractStridedSlice S1x1x128x128 ![0, 2, 0, 0] (x5) slices_S2x4x128x128_S1x1x128x128_0_2_0_0) shapeCasts_S1x1x128x128_S128x128

/-- One vector of a stack of bias vectors, laid out as a one-row array. -/
def kv113 (x6 : (⟨S2x4x128, .f32⟩ : BufTy).Contents (Elt Ideal)) :
    (⟨S1x128, .f32⟩ : BufTy).Contents (Elt Ideal) :=
  shapeCast S1x128 (shapeCast S128 (extractStridedSlice S1x1x128 ![0, 2, 0] (x6) slices_S2x4x128_S1x1x128_0_2_0) shapeCasts_S1x1x128_S128) shapeCasts_S128_S1x128

/-! ## The arrays the host operations write before region 2 is entered -/

set_option maxHeartbeats 4000000 in
theorem at5_v101 (c : Dev nD) :
    W5 m ρ c (Proc.devRef .tc main_v101) = kv101 (m ((c.tc : Thread nD τ).loc main_arg5)) := by
  show StableHlo.after (hostOps2 (F := Ideal)) (W4 m ρ c) (Proc.devRef .tc main_v101) = _
  after_results_simp
  have h_x5 : W4 m ρ c (Proc.devRef .tc main_arg5) = m ((c.tc : Thread nD τ).loc main_arg5) :=
    (rkeep1 m ρ c main_arg5 (by decide)).trans ((hkeep1 m ρ c main_arg5 (by decide)).trans ((rkeep0 m ρ c main_arg5 (by decide)).trans ((hkeep0 m ρ c main_arg5 (by decide)).trans (rfl))))
  rw [h_x5]
  first | rfl | (unfold kv101; rfl)

set_option maxHeartbeats 4000000 in
theorem at5_v112 (c : Dev nD) :
    W5 m ρ c (Proc.devRef .tc main_v112) = kv112 (m ((c.tc : Thread nD τ).loc main_arg6)) := by
  show StableHlo.after (hostOps2 (F := Ideal)) (W4 m ρ c) (Proc.devRef .tc main_v112) = _
  after_results_simp
  have h_x6 : W4 m ρ c (Proc.devRef .tc main_arg6) = m ((c.tc : Thread nD τ).loc main_arg6) :=
    (rkeep1 m ρ c main_arg6 (by decide)).trans ((hkeep1 m ρ c main_arg6 (by decide)).trans ((rkeep0 m ρ c main_arg6 (by decide)).trans ((hkeep0 m ρ c main_arg6 (by decide)).trans (rfl))))
  rw [h_x6]
  first | rfl | (unfold kv112; rfl)

set_option maxHeartbeats 4000000 in
theorem at5_v105 (c : Dev nD) :
    W5 m ρ c (Proc.devRef .tc main_v105) = kv101 (m ((c.tc : Thread nD τ).loc main_arg7)) := by
  show StableHlo.after (hostOps2 (F := Ideal)) (W4 m ρ c) (Proc.devRef .tc main_v105) = _
  after_results_simp
  have h_x7 : W4 m ρ c (Proc.devRef .tc main_arg7) = m ((c.tc : Thread nD τ).loc main_arg7) :=
    (rkeep1 m ρ c main_arg7 (by decide)).trans ((hkeep1 m ρ c main_arg7 (by decide)).trans ((rkeep0 m ρ c main_arg7 (by decide)).trans ((hkeep0 m ρ c main_arg7 (by decide)).trans (rfl))))
  rw [h_x7]
  first | rfl | (unfold kv101; rfl)

set_option maxHeartbeats 4000000 in
theorem at5_v107 (c : Dev nD) :
    W5 m ρ c (Proc.devRef .tc main_v107) = kv107 (m ((c.tc : Thread nD τ).loc main_arg5)) := by
  show StableHlo.after (hostOps2 (F := Ideal)) (W4 m ρ c) (Proc.devRef .tc main_v107) = _
  after_results_simp
  have h_x5 : W4 m ρ c (Proc.devRef .tc main_arg5) = m ((c.tc : Thread nD τ).loc main_arg5) :=
    (rkeep1 m ρ c main_arg5 (by decide)).trans ((hkeep1 m ρ c main_arg5 (by decide)).trans ((rkeep0 m ρ c main_arg5 (by decide)).trans ((hkeep0 m ρ c main_arg5 (by decide)).trans (rfl))))
  rw [h_x5]
  first | rfl | (unfold kv107; rfl)

set_option maxHeartbeats 4000000 in
theorem at5_v113 (c : Dev nD) :
    W5 m ρ c (Proc.devRef .tc main_v113) = kv113 (m ((c.tc : Thread nD τ).loc main_arg6)) := by
  show StableHlo.after (hostOps2 (F := Ideal)) (W4 m ρ c) (Proc.devRef .tc main_v113) = _
  after_results_simp
  have h_x6 : W4 m ρ c (Proc.devRef .tc main_arg6) = m ((c.tc : Thread nD τ).loc main_arg6) :=
    (rkeep1 m ρ c main_arg6 (by decide)).trans ((hkeep1 m ρ c main_arg6 (by decide)).trans ((rkeep0 m ρ c main_arg6 (by decide)).trans ((hkeep0 m ρ c main_arg6 (by decide)).trans (rfl))))
  rw [h_x6]
  first | rfl | (unfold kv113; rfl)

set_option maxHeartbeats 4000000 in
theorem at5_v111 (c : Dev nD) :
    W5 m ρ c (Proc.devRef .tc main_v111) = kv107 (m ((c.tc : Thread nD τ).loc main_arg7)) := by
  show StableHlo.after (hostOps2 (F := Ideal)) (W4 m ρ c) (Proc.devRef .tc main_v111) = _
  after_results_simp
  have h_x7 : W4 m ρ c (Proc.devRef .tc main_arg7) = m ((c.tc : Thread nD τ).loc main_arg7) :=
    (rkeep1 m ρ c main_arg7 (by decide)).trans ((hkeep1 m ρ c main_arg7 (by decide)).trans ((rkeep0 m ρ c main_arg7 (by decide)).trans ((hkeep0 m ρ c main_arg7 (by decide)).trans (rfl))))
  rw [h_x7]
  first | rfl | (unfold kv107; rfl)

/-! ## Region 2's input windows at its entry -/

theorem in2_0 (c : Dev nD) :
    W5 m ρ c (Proc.devRef .tc main_v84) = kv84 (m ((c.tc : Thread nD τ).loc main_arg15)) (W2 m ρ c (Proc.devRef .tc main_v1)) :=
  (hkeep2 m ρ c main_v84 (by decide)).trans ((rkeep1 m ρ c main_v84 (by decide)).trans (at3_v84 m ρ c))

theorem in2_1 (c : Dev nD) :
    W5 m ρ c (Proc.devRef .tc main_v23) = kv23 (m ((c.tc : Thread nD τ).loc main_arg15)) :=
  (hkeep2 m ρ c main_v23 (by decide)).trans ((rkeep1 m ρ c main_v23 (by decide)).trans (at3_v23 m ρ c))

theorem in2_2 (c : Dev nD) :
    W5 m ρ c (Proc.devRef .tc main_arg1) = m ((c.tc : Thread nD τ).loc main_arg1) :=
  (hkeep2 m ρ c main_arg1 (by decide)).trans ((rkeep1 m ρ c main_arg1 (by decide)).trans ((hkeep1 m ρ c main_arg1 (by decide)).trans ((rkeep0 m ρ c main_arg1 (by decide)).trans ((hkeep0 m ρ c main_arg1 (by decide)).trans (rfl)))))

theorem in2_3 (c : Dev nD) :
    W5 m ρ c (Proc.devRef .tc main_v101) = kv101 (m ((c.tc : Thread nD τ).loc main_arg5)) :=
  at5_v101 m ρ c

theorem in2_4 (c : Dev nD) :
    W5 m ρ c (Proc.devRef .tc main_v112) = kv112 (m ((c.tc : Thread nD τ).loc main_arg6)) :=
  at5_v112 m ρ c

theorem in2_5 (c : Dev nD) :
    W5 m ρ c (Proc.devRef .tc main_v105) = kv101 (m ((c.tc : Thread nD τ).loc main_arg7)) :=
  at5_v105 m ρ c

theorem in2_6 (c : Dev nD) :
    W5 m ρ c (Proc.devRef .tc main_v107) = kv107 (m ((c.tc : Thread nD τ).loc main_arg5)) :=
  at5_v107 m ρ c

theorem in2_7 (c : Dev nD) :
    W5 m ρ c (Proc.devRef .tc main_v113) = kv113 (m ((c.tc : Thread nD τ).loc main_arg6)) :=
  at5_v113 m ρ c

theorem in2_8 (c : Dev nD) :
    W5 m ρ c (Proc.devRef .tc main_v111) = kv107 (m ((c.tc : Thread nD τ).loc main_arg7)) :=
  at5_v111 m ρ c

end Cert.KernelIdeal.Val

end
-- ==== Proof.KStage3.lean ====
/-
  What region 3's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KStage1
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- One matrix of a stack of weight matrices. -/
def kv144 (x5 : (⟨S2x4x128x128, .f32⟩ : BufTy).Contents (Elt Ideal)) :
    (⟨S128x128, .f32⟩ : BufTy).Contents (Elt Ideal) :=
  shapeCast S128x128 (extractStridedSlice S1x1x128x128 ![1, 0, 0, 0] (x5) slices_S2x4x128x128_S1x1x128x128_1_0_0_0) shapeCasts_S1x1x128x128_S128x128

/-- One vector of a stack of bias vectors, laid out as a one-row array. -/
def kv155 (x6 : (⟨S2x4x128, .f32⟩ : BufTy).Contents (Elt Ideal)) :
    (⟨S1x128, .f32⟩ : BufTy).Contents (Elt Ideal) :=
  shapeCast S1x128 (shapeCast S128 (extractStridedSlice S1x1x128 ![1, 0, 0] (x6) slices_S2x4x128_S1x1x128_1_0_0) shapeCasts_S1x1x128_S128) shapeCasts_S128_S1x128

/-- One matrix of a stack of weight matrices. -/
def kv150 (x5 : (⟨S2x4x128x128, .f32⟩ : BufTy).Contents (Elt Ideal)) :
    (⟨S128x128, .f32⟩ : BufTy).Contents (Elt Ideal) :=
  shapeCast S128x128 (extractStridedSlice S1x1x128x128 ![1, 3, 0, 0] (x5) slices_S2x4x128x128_S1x1x128x128_1_3_0_0) shapeCasts_S1x1x128x128_S128x128

/-- One vector of a stack of bias vectors, laid out as a one-row array. -/
def kv156 (x6 : (⟨S2x4x128, .f32⟩ : BufTy).Contents (Elt Ideal)) :
    (⟨S1x128, .f32⟩ : BufTy).Contents (Elt Ideal) :=
  shapeCast S1x128 (shapeCast S128 (extractStridedSlice S1x1x128 ![1, 3, 0] (x6) slices_S2x4x128_S1x1x128_1_3_0) shapeCasts_S1x1x128_S128) shapeCasts_S128_S1x128

/-! ## The arrays the host operations write before region 3 is entered -/

set_option maxHeartbeats 4000000 in
theorem at7_v128 (c : Dev nD) :
    W7 m ρ c (Proc.devRef .tc main_v128) = kv70 (m ((c.tc : Thread nD τ).loc main_arg15)) (W6 m ρ c (Proc.devRef .tc main_v114)) := by
  show StableHlo.after (hostOps3 (F := Ideal)) (W6 m ρ c) (Proc.devRef .tc main_v128) = _
  after_results_simp
  have h_x15 : W6 m ρ c (Proc.devRef .tc main_arg15) = m ((c.tc : Thread nD τ).loc main_arg15) :=
    (rkeep2 m ρ c main_arg15 (by decide)).trans ((hkeep2 m ρ c main_arg15 (by decide)).trans ((rkeep1 m ρ c main_arg15 (by decide)).trans ((hkeep1 m ρ c main_arg15 (by decide)).trans ((rkeep0 m ρ c main_arg15 (by decide)).trans ((hkeep0 m ρ c main_arg15 (by decide)).trans (rfl))))))
  rw [h_x15]
  first | rfl | (unfold kv70; rfl)

set_option maxHeartbeats 4000000 in
theorem at7_v144 (c : Dev nD) :
    W7 m ρ c (Proc.devRef .tc main_v144) = kv144 (m ((c.tc : Thread nD τ).loc main_arg5)) := by
  show StableHlo.after (hostOps3 (F := Ideal)) (W6 m ρ c) (Proc.devRef .tc main_v144) = _
  after_results_simp
  have h_x5 : W6 m ρ c (Proc.devRef .tc main_arg5) = m ((c.tc : Thread nD τ).loc main_arg5) :=
    (rkeep2 m ρ c main_arg5 (by decide)).trans ((hkeep2 m ρ c main_arg5 (by decide)).trans ((rkeep1 m ρ c main_arg5 (by decide)).trans ((hkeep1 m ρ c main_arg5 (by decide)).trans ((rkeep0 m ρ c main_arg5 (by decide)).trans ((hkeep0 m ρ c main_arg5 (by decide)).trans (rfl))))))
  rw [h_x5]
  first | rfl | (unfold kv144; rfl)

set_option maxHeartbeats 4000000 in
theorem at7_v155 (c : Dev nD) :
    W7 m ρ c (Proc.devRef .tc main_v155) = kv155 (m ((c.tc : Thread nD τ).loc main_arg6)) := by
  show StableHlo.after (hostOps3 (F := Ideal)) (W6 m ρ c) (Proc.devRef .tc main_v155) = _
  after_results_simp
  have h_x6 : W6 m ρ c (Proc.devRef .tc main_arg6) = m ((c.tc : Thread nD τ).loc main_arg6) :=
    (rkeep2 m ρ c main_arg6 (by decide)).trans ((hkeep2 m ρ c main_arg6 (by decide)).trans ((rkeep1 m ρ c main_arg6 (by decide)).trans ((hkeep1 m ρ c main_arg6 (by decide)).trans ((rkeep0 m ρ c main_arg6 (by decide)).trans ((hkeep0 m ρ c main_arg6 (by decide)).trans (rfl))))))
  rw [h_x6]
  first | rfl | (unfold kv155; rfl)

set_option maxHeartbeats 4000000 in
theorem at7_v148 (c : Dev nD) :
    W7 m ρ c (Proc.devRef .tc main_v148) = kv144 (m ((c.tc : Thread nD τ).loc main_arg7)) := by
  show StableHlo.after (hostOps3 (F := Ideal)) (W6 m ρ c) (Proc.devRef .tc main_v148) = _
  after_results_simp
  have h_x7 : W6 m ρ c (Proc.devRef .tc main_arg7) = m ((c.tc : Thread nD τ).loc main_arg7) :=
    (rkeep2 m ρ c main_arg7 (by decide)).trans ((hkeep2 m ρ c main_arg7 (by decide)).trans ((rkeep1 m ρ c main_arg7 (by decide)).trans ((hkeep1 m ρ c main_arg7 (by decide)).trans ((rkeep0 m ρ c main_arg7 (by decide)).trans ((hkeep0 m ρ c main_arg7 (by decide)).trans (rfl))))))
  rw [h_x7]
  first | rfl | (unfold kv144; rfl)

set_option maxHeartbeats 4000000 in
theorem at7_v150 (c : Dev nD) :
    W7 m ρ c (Proc.devRef .tc main_v150) = kv150 (m ((c.tc : Thread nD τ).loc main_arg5)) := by
  show StableHlo.after (hostOps3 (F := Ideal)) (W6 m ρ c) (Proc.devRef .tc main_v150) = _
  after_results_simp
  have h_x5 : W6 m ρ c (Proc.devRef .tc main_arg5) = m ((c.tc : Thread nD τ).loc main_arg5) :=
    (rkeep2 m ρ c main_arg5 (by decide)).trans ((hkeep2 m ρ c main_arg5 (by decide)).trans ((rkeep1 m ρ c main_arg5 (by decide)).trans ((hkeep1 m ρ c main_arg5 (by decide)).trans ((rkeep0 m ρ c main_arg5 (by decide)).trans ((hkeep0 m ρ c main_arg5 (by decide)).trans (rfl))))))
  rw [h_x5]
  first | rfl | (unfold kv150; rfl)

set_option maxHeartbeats 4000000 in
theorem at7_v156 (c : Dev nD) :
    W7 m ρ c (Proc.devRef .tc main_v156) = kv156 (m ((c.tc : Thread nD τ).loc main_arg6)) := by
  show StableHlo.after (hostOps3 (F := Ideal)) (W6 m ρ c) (Proc.devRef .tc main_v156) = _
  after_results_simp
  have h_x6 : W6 m ρ c (Proc.devRef .tc main_arg6) = m ((c.tc : Thread nD τ).loc main_arg6) :=
    (rkeep2 m ρ c main_arg6 (by decide)).trans ((hkeep2 m ρ c main_arg6 (by decide)).trans ((rkeep1 m ρ c main_arg6 (by decide)).trans ((hkeep1 m ρ c main_arg6 (by decide)).trans ((rkeep0 m ρ c main_arg6 (by decide)).trans ((hkeep0 m ρ c main_arg6 (by decide)).trans (rfl))))))
  rw [h_x6]
  first | rfl | (unfold kv156; rfl)

set_option maxHeartbeats 4000000 in
theorem at7_v154 (c : Dev nD) :
    W7 m ρ c (Proc.devRef .tc main_v154) = kv150 (m ((c.tc : Thread nD τ).loc main_arg7)) := by
  show StableHlo.after (hostOps3 (F := Ideal)) (W6 m ρ c) (Proc.devRef .tc main_v154) = _
  after_results_simp
  have h_x7 : W6 m ρ c (Proc.devRef .tc main_arg7) = m ((c.tc : Thread nD τ).loc main_arg7) :=
    (rkeep2 m ρ c main_arg7 (by decide)).trans ((hkeep2 m ρ c main_arg7 (by decide)).trans ((rkeep1 m ρ c main_arg7 (by decide)).trans ((hkeep1 m ρ c main_arg7 (by decide)).trans ((rkeep0 m ρ c main_arg7 (by decide)).trans ((hkeep0 m ρ c main_arg7 (by decide)).trans (rfl))))))
  rw [h_x7]
  first | rfl | (unfold kv150; rfl)

/-! ## Region 3's input windows at its entry -/

theorem in3_0 (c : Dev nD) :
    W7 m ρ c (Proc.devRef .tc main_v128) = kv70 (m ((c.tc : Thread nD τ).loc main_arg15)) (W6 m ρ c (Proc.devRef .tc main_v114)) :=
  at7_v128 m ρ c

theorem in3_1 (c : Dev nD) :
    W7 m ρ c (Proc.devRef .tc main_v12) = kv12 (m ((c.tc : Thread nD τ).loc main_arg15)) :=
  (hkeep3 m ρ c main_v12 (by decide)).trans ((rkeep2 m ρ c main_v12 (by decide)).trans ((hkeep2 m ρ c main_v12 (by decide)).trans ((rkeep1 m ρ c main_v12 (by decide)).trans (at3_v12 m ρ c))))

theorem in3_2 (c : Dev nD) :
    W7 m ρ c (Proc.devRef .tc main_v99) = W4 m ρ c (Proc.devRef .tc main_v99) :=
  (hkeep3 m ρ c main_v99 (by decide)).trans ((rkeep2 m ρ c main_v99 (by decide)).trans ((hkeep2 m ρ c main_v99 (by decide))))

theorem in3_3 (c : Dev nD) :
    W7 m ρ c (Proc.devRef .tc main_v144) = kv144 (m ((c.tc : Thread nD τ).loc main_arg5)) :=
  at7_v144 m ρ c

theorem in3_4 (c : Dev nD) :
    W7 m ρ c (Proc.devRef .tc main_v155) = kv155 (m ((c.tc : Thread nD τ).loc main_arg6)) :=
  at7_v155 m ρ c

theorem in3_5 (c : Dev nD) :
    W7 m ρ c (Proc.devRef .tc main_v148) = kv144 (m ((c.tc : Thread nD τ).loc main_arg7)) :=
  at7_v148 m ρ c

theorem in3_6 (c : Dev nD) :
    W7 m ρ c (Proc.devRef .tc main_v150) = kv150 (m ((c.tc : Thread nD τ).loc main_arg5)) :=
  at7_v150 m ρ c

theorem in3_7 (c : Dev nD) :
    W7 m ρ c (Proc.devRef .tc main_v156) = kv156 (m ((c.tc : Thread nD τ).loc main_arg6)) :=
  at7_v156 m ρ c

theorem in3_8 (c : Dev nD) :
    W7 m ρ c (Proc.devRef .tc main_v154) = kv150 (m ((c.tc : Thread nD τ).loc main_arg7)) :=
  at7_v154 m ρ c

end Cert.KernelIdeal.Val

end
-- ==== Proof.KStage5.lean ====
/-
  What region 5's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KStage1
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- The neighbour sum: rows of the feature array gathered at the source row of the edge array (a negative index wrapped by the number of source rows), added into a zero array at the rows the destination row of the edge array names. -/
def kv186 (x16 : (⟨S2x500000, .i32⟩ : BufTy).Contents (Elt Ideal)) (y1 : (⟨S50000x128, .f32⟩ : BufTy).Contents (Elt Ideal)) :
    (⟨S50000x128, .f32⟩ : BufTy).Contents (Elt Ideal) :=
  Host.scatterAdd (F := Ideal) scatter_S50000x128_S500000x1_S500000x128_1_0_0_1 (broadcastInDim S50000x128 ![] bcast_S_S50000x128 (constant (F := Ideal) S_ .f32 0x00000000#32)) (broadcastInDim S500000x1 ![0] bcast_S500000_S500000x1_0 (shapeCast S500000 (extractStridedSlice S1x500000 ![1, 0] (x16) slices_S2x500000_S1x500000_1_0) shapeCasts_S1x500000_S500000)) (Host.gather gather_S50000x128_S500000x1_S500000x128_1_0_n_n_0_1_1128 (y1) (broadcastInDim S500000x1 ![0] bcast_S500000_S500000x1_0 (select (cmpi .slt (shapeCast S500000 (extractStridedSlice S1x500000 ![0, 0] (x16) slices_S2x500000_S1x500000_0_0) shapeCasts_S1x500000_S500000) (broadcastInDim S500000 ![] bcast_S_S500000 (constantI S_ 32 0#32))) (addi (shapeCast S500000 (extractStridedSlice S1x500000 ![0, 0] (x16) slices_S2x500000_S1x500000_0_0) shapeCasts_S1x500000_S500000) (broadcastInDim S500000 ![] bcast_S_S500000 (constantI S_ 32 50000#32))) (shapeCast S500000 (extractStridedSlice S1x500000 ![0, 0] (x16) slices_S2x500000_S1x500000_0_0) shapeCasts_S1x500000_S500000))))

/-- One matrix of a stack of weight matrices. -/
def kv188 (x8 : (⟨S2x2x128x128, .f32⟩ : BufTy).Contents (Elt Ideal)) :
    (⟨S128x128, .f32⟩ : BufTy).Contents (Elt Ideal) :=
  shapeCast S128x128 (extractStridedSlice S1x1x128x128 ![0, 0, 0, 0] (x8) slices_S2x2x128x128_S1x1x128x128_0_0_0_0) shapeCasts_S1x1x128x128_S128x128

/-- One vector of a stack of bias vectors, laid out as a one-row array. -/
def kv199 (x9 : (⟨S2x2x128, .f32⟩ : BufTy).Contents (Elt Ideal)) :
    (⟨S1x128, .f32⟩ : BufTy).Contents (Elt Ideal) :=
  shapeCast S1x128 (shapeCast S128 (extractStridedSlice S1x1x128 ![0, 0, 0] (x9) slices_S2x2x128_S1x1x128_0_0_0) shapeCasts_S1x1x128_S128) shapeCasts_S128_S1x128

/-- One matrix of a stack of weight matrices. -/
def kv194 (x8 : (⟨S2x2x128x128, .f32⟩ : BufTy).Contents (Elt Ideal)) :
    (⟨S128x128, .f32⟩ : BufTy).Contents (Elt Ideal) :=
  shapeCast S128x128 (extractStridedSlice S1x1x128x128 ![0, 1, 0, 0] (x8) slices_S2x2x128x128_S1x1x128x128_0_1_0_0) shapeCasts_S1x1x128x128_S128x128

/-- One vector of a stack of bias vectors, laid out as a one-row array. -/
def kv200 (x9 : (⟨S2x2x128, .f32⟩ : BufTy).Contents (Elt Ideal)) :
    (⟨S1x128, .f32⟩ : BufTy).Contents (Elt Ideal) :=
  shapeCast S1x128 (shapeCast S128 (extractStridedSlice S1x1x128 ![0, 1, 0] (x9) slices_S2x2x128_S1x1x128_0_1_0) shapeCasts_S1x1x128_S128) shapeCasts_S128_S1x128

/-! ## The arrays the host operations write before region 5 is entered -/

set_option maxHeartbeats 4000000 in
theorem at11_v186 (c : Dev nD) :
    W11 m ρ c (Proc.devRef .tc main_v186) = kv186 (m ((c.tc : Thread nD τ).loc main_arg16)) (W2 m ρ c (Proc.devRef .tc main_v1)) := by
  show StableHlo.after (hostOps5 (F := Ideal)) (W10 m ρ c) (Proc.devRef .tc main_v186) = _
  after_results_simp
  have h_x16 : W10 m ρ c (Proc.devRef .tc main_arg16) = m ((c.tc : Thread nD τ).loc main_arg16) :=
    (rkeep4 m ρ c main_arg16 (by decide)).trans ((hkeep4 m ρ c main_arg16 (by decide)).trans ((rkeep3 m ρ c main_arg16 (by decide)).trans ((hkeep3 m ρ c main_arg16 (by decide)).trans ((rkeep2 m ρ c main_arg16 (by decide)).trans ((hkeep2 m ρ c main_arg16 (by decide)).trans ((rkeep1 m ρ c main_arg16 (by decide)).trans ((hkeep1 m ρ c main_arg16 (by decide)).trans ((rkeep0 m ρ c main_arg16 (by decide)).trans ((hkeep0 m ρ c main_arg16 (by decide)).trans (rfl))))))))))
  have h_y1 : W10 m ρ c (Proc.devRef .tc main_v1) = W2 m ρ c (Proc.devRef .tc main_v1) :=
    (rkeep4 m ρ c main_v1 (by decide)).trans ((hkeep4 m ρ c main_v1 (by decide)).trans ((rkeep3 m ρ c main_v1 (by decide)).trans ((hkeep3 m ρ c main_v1 (by decide)).trans ((rkeep2 m ρ c main_v1 (by decide)).trans ((hkeep2 m ρ c main_v1 (by decide)).trans ((rkeep1 m ρ c main_v1 (by decide)).trans ((hkeep1 m ρ c main_v1 (by decide)))))))))
  rw [h_x16, h_y1]
  first | rfl | (unfold kv186; rfl)

set_option maxHeartbeats 4000000 in
theorem at11_v188 (c : Dev nD) :
    W11 m ρ c (Proc.devRef .tc main_v188) = kv188 (m ((c.tc : Thread nD τ).loc main_arg8)) := by
  show StableHlo.after (hostOps5 (F := Ideal)) (W10 m ρ c) (Proc.devRef .tc main_v188) = _
  after_results_simp
  have h_x8 : W10 m ρ c (Proc.devRef .tc main_arg8) = m ((c.tc : Thread nD τ).loc main_arg8) :=
    (rkeep4 m ρ c main_arg8 (by decide)).trans ((hkeep4 m ρ c main_arg8 (by decide)).trans ((rkeep3 m ρ c main_arg8 (by decide)).trans ((hkeep3 m ρ c main_arg8 (by decide)).trans ((rkeep2 m ρ c main_arg8 (by decide)).trans ((hkeep2 m ρ c main_arg8 (by decide)).trans ((rkeep1 m ρ c main_arg8 (by decide)).trans ((hkeep1 m ρ c main_arg8 (by decide)).trans ((rkeep0 m ρ c main_arg8 (by decide)).trans ((hkeep0 m ρ c main_arg8 (by decide)).trans (rfl))))))))))
  rw [h_x8]
  first | rfl | (unfold kv188; rfl)

set_option maxHeartbeats 4000000 in
theorem at11_v199 (c : Dev nD) :
    W11 m ρ c (Proc.devRef .tc main_v199) = kv199 (m ((c.tc : Thread nD τ).loc main_arg9)) := by
  show StableHlo.after (hostOps5 (F := Ideal)) (W10 m ρ c) (Proc.devRef .tc main_v199) = _
  after_results_simp
  have h_x9 : W10 m ρ c (Proc.devRef .tc main_arg9) = m ((c.tc : Thread nD τ).loc main_arg9) :=
    (rkeep4 m ρ c main_arg9 (by decide)).trans ((hkeep4 m ρ c main_arg9 (by decide)).trans ((rkeep3 m ρ c main_arg9 (by decide)).trans ((hkeep3 m ρ c main_arg9 (by decide)).trans ((rkeep2 m ρ c main_arg9 (by decide)).trans ((hkeep2 m ρ c main_arg9 (by decide)).trans ((rkeep1 m ρ c main_arg9 (by decide)).trans ((hkeep1 m ρ c main_arg9 (by decide)).trans ((rkeep0 m ρ c main_arg9 (by decide)).trans ((hkeep0 m ρ c main_arg9 (by decide)).trans (rfl))))))))))
  rw [h_x9]
  first | rfl | (unfold kv199; rfl)

set_option maxHeartbeats 4000000 in
theorem at11_v192 (c : Dev nD) :
    W11 m ρ c (Proc.devRef .tc main_v192) = kv188 (m ((c.tc : Thread nD τ).loc main_arg10)) := by
  show StableHlo.after (hostOps5 (F := Ideal)) (W10 m ρ c) (Proc.devRef .tc main_v192) = _
  after_results_simp
  have h_x10 : W10 m ρ c (Proc.devRef .tc main_arg10) = m ((c.tc : Thread nD τ).loc main_arg10) :=
    (rkeep4 m ρ c main_arg10 (by decide)).trans ((hkeep4 m ρ c main_arg10 (by decide)).trans ((rkeep3 m ρ c main_arg10 (by decide)).trans ((hkeep3 m ρ c main_arg10 (by decide)).trans ((rkeep2 m ρ c main_arg10 (by decide)).trans ((hkeep2 m ρ c main_arg10 (by decide)).trans ((rkeep1 m ρ c main_arg10 (by decide)).trans ((hkeep1 m ρ c main_arg10 (by decide)).trans ((rkeep0 m ρ c main_arg10 (by decide)).trans ((hkeep0 m ρ c main_arg10 (by decide)).trans (rfl))))))))))
  rw [h_x10]
  first | rfl | (unfold kv188; rfl)

set_option maxHeartbeats 4000000 in
theorem at11_v194 (c : Dev nD) :
    W11 m ρ c (Proc.devRef .tc main_v194) = kv194 (m ((c.tc : Thread nD τ).loc main_arg8)) := by
  show StableHlo.after (hostOps5 (F := Ideal)) (W10 m ρ c) (Proc.devRef .tc main_v194) = _
  after_results_simp
  have h_x8 : W10 m ρ c (Proc.devRef .tc main_arg8) = m ((c.tc : Thread nD τ).loc main_arg8) :=
    (rkeep4 m ρ c main_arg8 (by decide)).trans ((hkeep4 m ρ c main_arg8 (by decide)).trans ((rkeep3 m ρ c main_arg8 (by decide)).trans ((hkeep3 m ρ c main_arg8 (by decide)).trans ((rkeep2 m ρ c main_arg8 (by decide)).trans ((hkeep2 m ρ c main_arg8 (by decide)).trans ((rkeep1 m ρ c main_arg8 (by decide)).trans ((hkeep1 m ρ c main_arg8 (by decide)).trans ((rkeep0 m ρ c main_arg8 (by decide)).trans ((hkeep0 m ρ c main_arg8 (by decide)).trans (rfl))))))))))
  rw [h_x8]
  first | rfl | (unfold kv194; rfl)

set_option maxHeartbeats 4000000 in
theorem at11_v200 (c : Dev nD) :
    W11 m ρ c (Proc.devRef .tc main_v200) = kv200 (m ((c.tc : Thread nD τ).loc main_arg9)) := by
  show StableHlo.after (hostOps5 (F := Ideal)) (W10 m ρ c) (Proc.devRef .tc main_v200) = _
  after_results_simp
  have h_x9 : W10 m ρ c (Proc.devRef .tc main_arg9) = m ((c.tc : Thread nD τ).loc main_arg9) :=
    (rkeep4 m ρ c main_arg9 (by decide)).trans ((hkeep4 m ρ c main_arg9 (by decide)).trans ((rkeep3 m ρ c main_arg9 (by decide)).trans ((hkeep3 m ρ c main_arg9 (by decide)).trans ((rkeep2 m ρ c main_arg9 (by decide)).trans ((hkeep2 m ρ c main_arg9 (by decide)).trans ((rkeep1 m ρ c main_arg9 (by decide)).trans ((hkeep1 m ρ c main_arg9 (by decide)).trans ((rkeep0 m ρ c main_arg9 (by decide)).trans ((hkeep0 m ρ c main_arg9 (by decide)).trans (rfl))))))))))
  rw [h_x9]
  first | rfl | (unfold kv200; rfl)

set_option maxHeartbeats 4000000 in
theorem at11_v198 (c : Dev nD) :
    W11 m ρ c (Proc.devRef .tc main_v198) = kv194 (m ((c.tc : Thread nD τ).loc main_arg10)) := by
  show StableHlo.after (hostOps5 (F := Ideal)) (W10 m ρ c) (Proc.devRef .tc main_v198) = _
  after_results_simp
  have h_x10 : W10 m ρ c (Proc.devRef .tc main_arg10) = m ((c.tc : Thread nD τ).loc main_arg10) :=
    (rkeep4 m ρ c main_arg10 (by decide)).trans ((hkeep4 m ρ c main_arg10 (by decide)).trans ((rkeep3 m ρ c main_arg10 (by decide)).trans ((hkeep3 m ρ c main_arg10 (by decide)).trans ((rkeep2 m ρ c main_arg10 (by decide)).trans ((hkeep2 m ρ c main_arg10 (by decide)).trans ((rkeep1 m ρ c main_arg10 (by decide)).trans ((hkeep1 m ρ c main_arg10 (by decide)).trans ((rkeep0 m ρ c main_arg10 (by decide)).trans ((hkeep0 m ρ c main_arg10 (by decide)).trans (rfl))))))))))
  rw [h_x10]
  first | rfl | (unfold kv194; rfl)

/-! ## Region 5's input windows at its entry -/

theorem in5_0 (c : Dev nD) :
    W11 m ρ c (Proc.devRef .tc main_v186) = kv186 (m ((c.tc : Thread nD τ).loc main_arg16)) (W2 m ρ c (Proc.devRef .tc main_v1)) :=
  at11_v186 m ρ c

theorem in5_1 (c : Dev nD) :
    W11 m ρ c (Proc.devRef .tc main_v34) = kv34 (m ((c.tc : Thread nD τ).loc main_arg16)) :=
  (hkeep5 m ρ c main_v34 (by decide)).trans ((rkeep4 m ρ c main_v34 (by decide)).trans ((hkeep4 m ρ c main_v34 (by decide)).trans ((rkeep3 m ρ c main_v34 (by decide)).trans ((hkeep3 m ρ c main_v34 (by decide)).trans ((rkeep2 m ρ c main_v34 (by decide)).trans ((hkeep2 m ρ c main_v34 (by decide)).trans ((rkeep1 m ρ c main_v34 (by decide)).trans (at3_v34 m ρ c))))))))

theorem in5_2 (c : Dev nD) :
    W11 m ρ c (Proc.devRef .tc main_v1) = W2 m ρ c (Proc.devRef .tc main_v1) :=
  (hkeep5 m ρ c main_v1 (by decide)).trans ((rkeep4 m ρ c main_v1 (by decide)).trans ((hkeep4 m ρ c main_v1 (by decide)).trans ((rkeep3 m ρ c main_v1 (by decide)).trans ((hkeep3 m ρ c main_v1 (by decide)).trans ((rkeep2 m ρ c main_v1 (by decide)).trans ((hkeep2 m ρ c main_v1 (by decide)).trans ((rkeep1 m ρ c main_v1 (by decide)).trans ((hkeep1 m ρ c main_v1 (by decide))))))))))

theorem in5_3 (c : Dev nD) :
    W11 m ρ c (Proc.devRef .tc main_v188) = kv188 (m ((c.tc : Thread nD τ).loc main_arg8)) :=
  at11_v188 m ρ c

theorem in5_4 (c : Dev nD) :
    W11 m ρ c (Proc.devRef .tc main_v199) = kv199 (m ((c.tc : Thread nD τ).loc main_arg9)) :=
  at11_v199 m ρ c

theorem in5_5 (c : Dev nD) :
    W11 m ρ c (Proc.devRef .tc main_v192) = kv188 (m ((c.tc : Thread nD τ).loc main_arg10)) :=
  at11_v192 m ρ c

theorem in5_6 (c : Dev nD) :
    W11 m ρ c (Proc.devRef .tc main_v194) = kv194 (m ((c.tc : Thread nD τ).loc main_arg8)) :=
  at11_v194 m ρ c

theorem in5_7 (c : Dev nD) :
    W11 m ρ c (Proc.devRef .tc main_v200) = kv200 (m ((c.tc : Thread nD τ).loc main_arg9)) :=
  at11_v200 m ρ c

theorem in5_8 (c : Dev nD) :
    W11 m ρ c (Proc.devRef .tc main_v198) = kv194 (m ((c.tc : Thread nD τ).loc main_arg10)) :=
  at11_v198 m ρ c

end Cert.KernelIdeal.Val

end
-- ==== Proof.KStage6.lean ====
/-
  What region 6's input arrays hold when the region is entered, as functions of the launch contents of the
  program's arguments and of what earlier regions left in their output arrays: each array the preceding host
  operations write is their composition applied to the arrays they read, and every array they do not write is
  carried unchanged from where it was produced.
-/
import proofs.«128317_j60687887892780_2_alg».proof.Proof.KStage1
import proofs.«128317_j60687887892780_2_alg».proof.Proof.KStage5
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The host operations' results as functions of what they read -/

/-- One matrix of a stack of weight matrices. -/
def kv217 (x8 : (⟨S2x2x128x128, .f32⟩ : BufTy).Contents (Elt Ideal)) :
    (⟨S128x128, .f32⟩ : BufTy).Contents (Elt Ideal) :=
  shapeCast S128x128 (extractStridedSlice S1x1x128x128 ![1, 0, 0, 0] (x8) slices_S2x2x128x128_S1x1x128x128_1_0_0_0) shapeCasts_S1x1x128x128_S128x128

/-- One vector of a stack of bias vectors, laid out as a one-row array. -/
def kv228 (x9 : (⟨S2x2x128, .f32⟩ : BufTy).Contents (Elt Ideal)) :
    (⟨S1x128, .f32⟩ : BufTy).Contents (Elt Ideal) :=
  shapeCast S1x128 (shapeCast S128 (extractStridedSlice S1x1x128 ![1, 0, 0] (x9) slices_S2x2x128_S1x1x128_1_0_0) shapeCasts_S1x1x128_S128) shapeCasts_S128_S1x128

/-- One matrix of a stack of weight matrices. -/
def kv223 (x8 : (⟨S2x2x128x128, .f32⟩ : BufTy).Contents (Elt Ideal)) :
    (⟨S128x128, .f32⟩ : BufTy).Contents (Elt Ideal) :=
  shapeCast S128x128 (extractStridedSlice S1x1x128x128 ![1, 1, 0, 0] (x8) slices_S2x2x128x128_S1x1x128x128_1_1_0_0) shapeCasts_S1x1x128x128_S128x128

/-- One vector of a stack of bias vectors, laid out as a one-row array. -/
def kv229 (x9 : (⟨S2x2x128, .f32⟩ : BufTy).Contents (Elt Ideal)) :
    (⟨S1x128, .f32⟩ : BufTy).Contents (Elt Ideal) :=
  shapeCast S1x128 (shapeCast S128 (extractStridedSlice S1x1x128 ![1, 1, 0] (x9) slices_S2x2x128_S1x1x128_1_1_0) shapeCasts_S1x1x128_S128) shapeCasts_S128_S1x128

/-! ## The arrays the host operations write before region 6 is entered -/

set_option maxHeartbeats 4000000 in
theorem at13_v215 (c : Dev nD) :
    W13 m ρ c (Proc.devRef .tc main_v215) = kv186 (m ((c.tc : Thread nD τ).loc main_arg16)) (W12 m ρ c (Proc.devRef .tc main_v201)) := by
  show StableHlo.after (hostOps6 (F := Ideal)) (W12 m ρ c) (Proc.devRef .tc main_v215) = _
  after_results_simp
  have h_x16 : W12 m ρ c (Proc.devRef .tc main_arg16) = m ((c.tc : Thread nD τ).loc main_arg16) :=
    (rkeep5 m ρ c main_arg16 (by decide)).trans ((hkeep5 m ρ c main_arg16 (by decide)).trans ((rkeep4 m ρ c main_arg16 (by decide)).trans ((hkeep4 m ρ c main_arg16 (by decide)).trans ((rkeep3 m ρ c main_arg16 (by decide)).trans ((hkeep3 m ρ c main_arg16 (by decide)).trans ((rkeep2 m ρ c main_arg16 (by decide)).trans ((hkeep2 m ρ c main_arg16 (by decide)).trans ((rkeep1 m ρ c main_arg16 (by decide)).trans ((hkeep1 m ρ c main_arg16 (by decide)).trans ((rkeep0 m ρ c main_arg16 (by decide)).trans ((hkeep0 m ρ c main_arg16 (by decide)).trans (rfl))))))))))))
  rw [h_x16]
  first | rfl | (unfold kv186; rfl)

set_option maxHeartbeats 4000000 in
theorem at13_v217 (c : Dev nD) :
    W13 m ρ c (Proc.devRef .tc main_v217) = kv217 (m ((c.tc : Thread nD τ).loc main_arg8)) := by
  show StableHlo.after (hostOps6 (F := Ideal)) (W12 m ρ c) (Proc.devRef .tc main_v217) = _
  after_results_simp
  have h_x8 : W12 m ρ c (Proc.devRef .tc main_arg8) = m ((c.tc : Thread nD τ).loc main_arg8) :=
    (rkeep5 m ρ c main_arg8 (by decide)).trans ((hkeep5 m ρ c main_arg8 (by decide)).trans ((rkeep4 m ρ c main_arg8 (by decide)).trans ((hkeep4 m ρ c main_arg8 (by decide)).trans ((rkeep3 m ρ c main_arg8 (by decide)).trans ((hkeep3 m ρ c main_arg8 (by decide)).trans ((rkeep2 m ρ c main_arg8 (by decide)).trans ((hkeep2 m ρ c main_arg8 (by decide)).trans ((rkeep1 m ρ c main_arg8 (by decide)).trans ((hkeep1 m ρ c main_arg8 (by decide)).trans ((rkeep0 m ρ c main_arg8 (by decide)).trans ((hkeep0 m ρ c main_arg8 (by decide)).trans (rfl))))))))))))
  rw [h_x8]
  first | rfl | (unfold kv217; rfl)

set_option maxHeartbeats 4000000 in
theorem at13_v228 (c : Dev nD) :
    W13 m ρ c (Proc.devRef .tc main_v228) = kv228 (m ((c.tc : Thread nD τ).loc main_arg9)) := by
  show StableHlo.after (hostOps6 (F := Ideal)) (W12 m ρ c) (Proc.devRef .tc main_v228) = _
  after_results_simp
  have h_x9 : W12 m ρ c (Proc.devRef .tc main_arg9) = m ((c.tc : Thread nD τ).loc main_arg9) :=
    (rkeep5 m ρ c main_arg9 (by decide)).trans ((hkeep5 m ρ c main_arg9 (by decide)).trans ((rkeep4 m ρ c main_arg9 (by decide)).trans ((hkeep4 m ρ c main_arg9 (by decide)).trans ((rkeep3 m ρ c main_arg9 (by decide)).trans ((hkeep3 m ρ c main_arg9 (by decide)).trans ((rkeep2 m ρ c main_arg9 (by decide)).trans ((hkeep2 m ρ c main_arg9 (by decide)).trans ((rkeep1 m ρ c main_arg9 (by decide)).trans ((hkeep1 m ρ c main_arg9 (by decide)).trans ((rkeep0 m ρ c main_arg9 (by decide)).trans ((hkeep0 m ρ c main_arg9 (by decide)).trans (rfl))))))))))))
  rw [h_x9]
  first | rfl | (unfold kv228; rfl)

set_option maxHeartbeats 4000000 in
theorem at13_v221 (c : Dev nD) :
    W13 m ρ c (Proc.devRef .tc main_v221) = kv217 (m ((c.tc : Thread nD τ).loc main_arg10)) := by
  show StableHlo.after (hostOps6 (F := Ideal)) (W12 m ρ c) (Proc.devRef .tc main_v221) = _
  after_results_simp
  have h_x10 : W12 m ρ c (Proc.devRef .tc main_arg10) = m ((c.tc : Thread nD τ).loc main_arg10) :=
    (rkeep5 m ρ c main_arg10 (by decide)).trans ((hkeep5 m ρ c main_arg10 (by decide)).trans ((rkeep4 m ρ c main_arg10 (by decide)).trans ((hkeep4 m ρ c main_arg10 (by decide)).trans ((rkeep3 m ρ c main_arg10 (by decide)).trans ((hkeep3 m ρ c main_arg10 (by decide)).trans ((rkeep2 m ρ c main_arg10 (by decide)).trans ((hkeep2 m ρ c main_arg10 (by decide)).trans ((rkeep1 m ρ c main_arg10 (by decide)).trans ((hkeep1 m ρ c main_arg10 (by decide)).trans ((rkeep0 m ρ c main_arg10 (by decide)).trans ((hkeep0 m ρ c main_arg10 (by decide)).trans (rfl))))))))))))
  rw [h_x10]
  first | rfl | (unfold kv217; rfl)

set_option maxHeartbeats 4000000 in
theorem at13_v223 (c : Dev nD) :
    W13 m ρ c (Proc.devRef .tc main_v223) = kv223 (m ((c.tc : Thread nD τ).loc main_arg8)) := by
  show StableHlo.after (hostOps6 (F := Ideal)) (W12 m ρ c) (Proc.devRef .tc main_v223) = _
  after_results_simp
  have h_x8 : W12 m ρ c (Proc.devRef .tc main_arg8) = m ((c.tc : Thread nD τ).loc main_arg8) :=
    (rkeep5 m ρ c main_arg8 (by decide)).trans ((hkeep5 m ρ c main_arg8 (by decide)).trans ((rkeep4 m ρ c main_arg8 (by decide)).trans ((hkeep4 m ρ c main_arg8 (by decide)).trans ((rkeep3 m ρ c main_arg8 (by decide)).trans ((hkeep3 m ρ c main_arg8 (by decide)).trans ((rkeep2 m ρ c main_arg8 (by decide)).trans ((hkeep2 m ρ c main_arg8 (by decide)).trans ((rkeep1 m ρ c main_arg8 (by decide)).trans ((hkeep1 m ρ c main_arg8 (by decide)).trans ((rkeep0 m ρ c main_arg8 (by decide)).trans ((hkeep0 m ρ c main_arg8 (by decide)).trans (rfl))))))))))))
  rw [h_x8]
  first | rfl | (unfold kv223; rfl)

set_option maxHeartbeats 4000000 in
theorem at13_v229 (c : Dev nD) :
    W13 m ρ c (Proc.devRef .tc main_v229) = kv229 (m ((c.tc : Thread nD τ).loc main_arg9)) := by
  show StableHlo.after (hostOps6 (F := Ideal)) (W12 m ρ c) (Proc.devRef .tc main_v229) = _
  after_results_simp
  have h_x9 : W12 m ρ c (Proc.devRef .tc main_arg9) = m ((c.tc : Thread nD τ).loc main_arg9) :=
    (rkeep5 m ρ c main_arg9 (by decide)).trans ((hkeep5 m ρ c main_arg9 (by decide)).trans ((rkeep4 m ρ c main_arg9 (by decide)).trans ((hkeep4 m ρ c main_arg9 (by decide)).trans ((rkeep3 m ρ c main_arg9 (by decide)).trans ((hkeep3 m ρ c main_arg9 (by decide)).trans ((rkeep2 m ρ c main_arg9 (by decide)).trans ((hkeep2 m ρ c main_arg9 (by decide)).trans ((rkeep1 m ρ c main_arg9 (by decide)).trans ((hkeep1 m ρ c main_arg9 (by decide)).trans ((rkeep0 m ρ c main_arg9 (by decide)).trans ((hkeep0 m ρ c main_arg9 (by decide)).trans (rfl))))))))))))
  rw [h_x9]
  first | rfl | (unfold kv229; rfl)

set_option maxHeartbeats 4000000 in
theorem at13_v227 (c : Dev nD) :
    W13 m ρ c (Proc.devRef .tc main_v227) = kv223 (m ((c.tc : Thread nD τ).loc main_arg10)) := by
  show StableHlo.after (hostOps6 (F := Ideal)) (W12 m ρ c) (Proc.devRef .tc main_v227) = _
  after_results_simp
  have h_x10 : W12 m ρ c (Proc.devRef .tc main_arg10) = m ((c.tc : Thread nD τ).loc main_arg10) :=
    (rkeep5 m ρ c main_arg10 (by decide)).trans ((hkeep5 m ρ c main_arg10 (by decide)).trans ((rkeep4 m ρ c main_arg10 (by decide)).trans ((hkeep4 m ρ c main_arg10 (by decide)).trans ((rkeep3 m ρ c main_arg10 (by decide)).trans ((hkeep3 m ρ c main_arg10 (by decide)).trans ((rkeep2 m ρ c main_arg10 (by decide)).trans ((hkeep2 m ρ c main_arg10 (by decide)).trans ((rkeep1 m ρ c main_arg10 (by decide)).trans ((hkeep1 m ρ c main_arg10 (by decide)).trans ((rkeep0 m ρ c main_arg10 (by decide)).trans ((hkeep0 m ρ c main_arg10 (by decide)).trans (rfl))))))))))))
  rw [h_x10]
  first | rfl | (unfold kv223; rfl)

/-! ## Region 6's input windows at its entry -/

theorem in6_0 (c : Dev nD) :
    W13 m ρ c (Proc.devRef .tc main_v215) = kv186 (m ((c.tc : Thread nD τ).loc main_arg16)) (W12 m ρ c (Proc.devRef .tc main_v201)) :=
  at13_v215 m ρ c

theorem in6_1 (c : Dev nD) :
    W13 m ρ c (Proc.devRef .tc main_v34) = kv34 (m ((c.tc : Thread nD τ).loc main_arg16)) :=
  (hkeep6 m ρ c main_v34 (by decide)).trans ((rkeep5 m ρ c main_v34 (by decide)).trans ((hkeep5 m ρ c main_v34 (by decide)).trans ((rkeep4 m ρ c main_v34 (by decide)).trans ((hkeep4 m ρ c main_v34 (by decide)).trans ((rkeep3 m ρ c main_v34 (by decide)).trans ((hkeep3 m ρ c main_v34 (by decide)).trans ((rkeep2 m ρ c main_v34 (by decide)).trans ((hkeep2 m ρ c main_v34 (by decide)).trans ((rkeep1 m ρ c main_v34 (by decide)).trans (at3_v34 m ρ c))))))))))

theorem in6_2 (c : Dev nD) :
    W13 m ρ c (Proc.devRef .tc main_v201) = W12 m ρ c (Proc.devRef .tc main_v201) :=
  (hkeep6 m ρ c main_v201 (by decide))

theorem in6_3 (c : Dev nD) :
    W13 m ρ c (Proc.devRef .tc main_v217) = kv217 (m ((c.tc : Thread nD τ).loc main_arg8)) :=
  at13_v217 m ρ c

theorem in6_4 (c : Dev nD) :
    W13 m ρ c (Proc.devRef .tc main_v228) = kv228 (m ((c.tc : Thread nD τ).loc main_arg9)) :=
  at13_v228 m ρ c

theorem in6_5 (c : Dev nD) :
    W13 m ρ c (Proc.devRef .tc main_v221) = kv217 (m ((c.tc : Thread nD τ).loc main_arg10)) :=
  at13_v221 m ρ c

theorem in6_6 (c : Dev nD) :
    W13 m ρ c (Proc.devRef .tc main_v223) = kv223 (m ((c.tc : Thread nD τ).loc main_arg8)) :=
  at13_v223 m ρ c

theorem in6_7 (c : Dev nD) :
    W13 m ρ c (Proc.devRef .tc main_v229) = kv229 (m ((c.tc : Thread nD τ).loc main_arg9)) :=
  at13_v229 m ρ c

theorem in6_8 (c : Dev nD) :
    W13 m ρ c (Proc.devRef .tc main_v227) = kv223 (m ((c.tc : Thread nD τ).loc main_arg10)) :=
  at13_v227 m ρ c

end Cert.KernelIdeal.Val

end
-- ==== Proof.KStage7.lean ====
/- What region 7 (the attributes' first layer) finds in its nine input buffers, and the item–attribute relation's
   host computations as functions of what they read. -/
import proofs.«128317_j60687887892780_2_alg».proof.Proof.KKeep

set_option maxRecDepth 16384

noncomputable section

namespace Cert.KernelIdeal.Val

open Cert.KernelIdeal Cert.KernelIdeal.Gen Idealize.ShloMosaic Idealize.ShloMosaic.TcCoe Idealize.SL.Sem

/-! ## The item–attribute relation's host computations, as functions of what they read

The edge array has the item of each edge in row 0 and its attribute in row 1. -/

namespace IA

/-- The edges' items, as a vector. -/
def items (e : IVec S2x250000 32) : IVec S250000 32 :=
  shapeCast S250000 (extractStridedSlice S1x250000 ![0, 0] e slices_S2x250000_S1x250000_0_0) shapeCasts_S1x250000_S250000

/-- The edges' attributes, as a vector. -/
def attrs (e : IVec S2x250000 32) : IVec S250000 32 :=
  shapeCast S250000 (extractStridedSlice S1x250000 ![1, 0] e slices_S2x250000_S1x250000_1_0) shapeCasts_S1x250000_S250000

/-- An index vector as the gather takes it: a negative entry moved up by `n`, then one column. -/
def wrap (n : BitVec 32) (v : IVec S250000 32) : IVec S250000x1 32 :=
  broadcastInDim S250000x1 ![0] bcast_S250000_S250000x1_0
    (select (cmpi .slt v (broadcastInDim S250000 ![] bcast_S_S250000 (constantI S_ 32 0#32)))
      (addi v (broadcastInDim S250000 ![] bcast_S_S250000 (constantI S_ 32 n))) v)

/-- Per attribute, the sum of the item rows `x` over the edges into it. -/
def aggAttr (x : FVec Ideal S50000x128 .f32) (e : IVec S2x250000 32) : FVec Ideal S5000x128 .f32 :=
  Host.scatterAdd (F := Ideal) scatter_S5000x128_S250000x1_S250000x128_1_0_0_1
    (broadcastInDim S5000x128 ![] bcast_S_S5000x128 (constant (F := Ideal) S_ .f32 0x00000000#32))
    (broadcastInDim S250000x1 ![0] bcast_S250000_S250000x1_0 (attrs e))
    (Host.gather gather_S50000x128_S250000x1_S250000x128_1_0_n_n_0_1_1128 x (wrap 50000#32 (items e)))

/-- Per item, the sum of the attribute rows `x` over the edges out of it. -/
def aggItem (x : FVec Ideal S5000x128 .f32) (e : IVec S2x250000 32) : FVec Ideal S50000x128 .f32 :=
  Host.scatterAdd (F := Ideal) scatter_S50000x128_S250000x1_S250000x128_1_0_0_1
    (broadcastInDim S50000x128 ![] bcast_S_S50000x128 (constant (F := Ideal) S_ .f32 0x00000000#32))
    (broadcastInDim S250000x1 ![0] bcast_S250000_S250000x1_0 (items e))
    (Host.gather gather_S5000x128_S250000x1_S250000x128_1_0_n_n_0_1_1128 x (wrap 5000#32 (attrs e)))

/-- Per attribute, the number of edges into it. -/
def degAttr (e : IVec S2x250000 32) : FVec Ideal S5000 .f32 :=
  Host.scatterAdd (F := Ideal) scatter_S5000_S250000x1_S250000_n_0_0_1
    (broadcastInDim S5000 ![] bcast_S_S5000 (constant (F := Ideal) S_ .f32 0x00000000#32))
    (broadcastInDim S250000x1 ![0] bcast_S250000_S250000x1_0 (attrs e))
    (broadcastInDim S250000 ![] bcast_S_S250000 (constant (F := Ideal) S_ .f32 0x3F800000#32))

/-- Per item, the number of edges out of it. -/
def degItem (e : IVec S2x250000 32) : FVec Ideal S50000 .f32 :=
  Host.scatterAdd (F := Ideal) scatter_S50000_S250000x1_S250000_n_0_0_1
    (broadcastInDim S50000 ![] bcast_S_S50000 (constant (F := Ideal) S_ .f32 0x00000000#32))
    (broadcastInDim S250000x1 ![0] bcast_S250000_S250000x1_0 (items e))
    (broadcastInDim S250000 ![] bcast_S_S250000 (constant (F := Ideal) S_ .f32 0x3F800000#32))

/-- One over the attributes' in-degrees clamped below by one, as a column. -/
def invAttr (e : IVec S2x250000 32) : FVec Ideal S5000x1 .f32 :=
  shapeCast S5000x1
    (Host.divf (F := Ideal) (broadcastInDim S5000 ![] bcast_S_S5000 (constant (F := Ideal) S_ .f32 0x3F800000#32))
      (maximumf (F := Ideal) (degAttr e) (broadcastInDim S5000 ![] bcast_S_S5000 (constant (F := Ideal) S_ .f32 0x3F800000#32))))
    shapeCasts_S5000_S5000x1

/-- One over the items' out-degrees clamped below by one, as a column. -/
def invItem (e : IVec S2x250000 32) : FVec Ideal S50000x1 .f32 :=
  shapeCast S50000x1
    (Host.divf (F := Ideal) (broadcastInDim S50000 ![] bcast_S_S50000 (constant (F := Ideal) S_ .f32 0x3F800000#32))
      (maximumf (F := Ideal) (degItem e) (broadcastInDim S50000 ![] bcast_S_S50000 (constant (F := Ideal) S_ .f32 0x3F800000#32))))
    shapeCasts_S50000_S50000x1

/-- The weight matrix at offset `off` of a stack of weight matrices. -/
def mat (off : Fin 4 → ℕ) (h : S2x4x128x128.Slices off S1x1x128x128) (a : FVec Ideal S2x4x128x128 .f32) : FVec Ideal S128x128 .f32 :=
  shapeCast S128x128 (extractStridedSlice S1x1x128x128 off a h) shapeCasts_S1x1x128x128_S128x128

/-- The bias vector at offset `off` of a stack of bias vectors, as one row. -/
def bias (off : Fin 3 → ℕ) (h : S2x4x128.Slices off S1x1x128) (a : FVec Ideal S2x4x128 .f32) : FVec Ideal S1x128 .f32 :=
  shapeCast S1x128 (shapeCast S128 (extractStridedSlice S1x1x128 off a h) shapeCasts_S1x1x128_S128) shapeCasts_S128_S1x128

end IA

/-! ## The operations of the stretches, at any contents `V` before the stretch -/

theorem ops7_v244 (V : Valuation τ sig (Elt Ideal)) :
    StableHlo.after hostOps7 V (Proc.devRef .tc main_v244) = IA.aggAttr (V (Proc.devRef .tc main_v1)) (V (Proc.devRef .tc main_arg17)) := by
  after_results_simp <;> rfl
theorem ops7_v258 (V : Valuation τ sig (Elt Ideal)) :
    StableHlo.after hostOps7 V (Proc.devRef .tc main_v258) = IA.aggItem (V (Proc.devRef .tc main_arg2)) (V (Proc.devRef .tc main_arg17)) := by
  after_results_simp <;> rfl
theorem ops7_v260 (V : Valuation τ sig (Elt Ideal)) :
    StableHlo.after hostOps7 V (Proc.devRef .tc main_v260) = IA.mat ![0, 0, 0, 0] slices_S2x4x128x128_S1x1x128x128_0_0_0_0 (V (Proc.devRef .tc main_arg11)) := by
  after_results_simp <;> rfl
theorem ops7_v271 (V : Valuation τ sig (Elt Ideal)) :
    StableHlo.after hostOps7 V (Proc.devRef .tc main_v271) = IA.bias ![0, 0, 0] slices_S2x4x128_S1x1x128_0_0_0 (V (Proc.devRef .tc main_arg12)) := by
  after_results_simp <;> rfl
theorem ops7_v264 (V : Valuation τ sig (Elt Ideal)) :
    StableHlo.after hostOps7 V (Proc.devRef .tc main_v264) = IA.mat ![0, 0, 0, 0] slices_S2x4x128x128_S1x1x128x128_0_0_0_0 (V (Proc.devRef .tc main_arg13)) := by
  after_results_simp <;> rfl
theorem ops7_v266 (V : Valuation τ sig (Elt Ideal)) :
    StableHlo.after hostOps7 V (Proc.devRef .tc main_v266) = IA.mat ![0, 3, 0, 0] slices_S2x4x128x128_S1x1x128x128_0_3_0_0 (V (Proc.devRef .tc main_arg11)) := by
  after_results_simp <;> rfl
theorem ops7_v272 (V : Valuation τ sig (Elt Ideal)) :
    StableHlo.after hostOps7 V (Proc.devRef .tc main_v272) = IA.bias ![0, 3, 0] slices_S2x4x128_S1x1x128_0_3_0 (V (Proc.devRef .tc main_arg12)) := by
  after_results_simp <;> rfl
theorem ops7_v270 (V : Valuation τ sig (Elt Ideal)) :
    StableHlo.after hostOps7 V (Proc.devRef .tc main_v270) = IA.mat ![0, 3, 0, 0] slices_S2x4x128x128_S1x1x128x128_0_3_0_0 (V (Proc.devRef .tc main_arg13)) := by
  after_results_simp <;> rfl
set_option maxHeartbeats 4000000 in
theorem ops1_v45 (V : Valuation τ sig (Elt Ideal)) :
    StableHlo.after hostOps1 V (Proc.devRef .tc main_v45) = IA.invAttr (V (Proc.devRef .tc main_arg17)) := by
  after_results_simp <;> rfl
set_option maxHeartbeats 4000000 in
theorem ops1_v56 (V : Valuation τ sig (Elt Ideal)) :
    StableHlo.after hostOps1 V (Proc.devRef .tc main_v56) = IA.invItem (V (Proc.devRef .tc main_arg17)) := by
  after_results_simp <;> rfl

variable (m : (ℓ : Loc nD τ sig) → Buf (Elt Ideal) ℓ) (ρ : Dev nD → PrngReg)

/-! ## Buffers read back through the boundaries to where they were produced -/

theorem back_main_v1_at14 (c : Dev nD) : W14 m ρ c (Proc.devRef .tc main_v1) = W2 m ρ c (Proc.devRef .tc main_v1) :=
  ((rkeep6 m ρ c main_v1 (by decide)).trans
    ((hkeep6 m ρ c main_v1 (by decide)).trans
    ((rkeep5 m ρ c main_v1 (by decide)).trans
    ((hkeep5 m ρ c main_v1 (by decide)).trans
    ((rkeep4 m ρ c main_v1 (by decide)).trans
    ((hkeep4 m ρ c main_v1 (by decide)).trans
    ((rkeep3 m ρ c main_v1 (by decide)).trans
    ((hkeep3 m ρ c main_v1 (by decide)).trans
    ((rkeep2 m ρ c main_v1 (by decide)).trans
    ((hkeep2 m ρ c main_v1 (by decide)).trans
    ((rkeep1 m ρ c main_v1 (by decide)).trans
    (hkeep1 m ρ c main_v1 (by decide)))))))))))))

theorem back_main_arg17_at14 (c : Dev nD) : W14 m ρ c (Proc.devRef .tc main_arg17) = m ((c.tc : Thread nD τ).loc main_arg17) :=
  ((rkeep6 m ρ c main_arg17 (by decide)).trans
    ((hkeep6 m ρ c main_arg17 (by decide)).trans
    ((rkeep5 m ρ c main_arg17 (by decide)).trans
    ((hkeep5 m ρ c main_arg17 (by decide)).trans
    ((rkeep4 m ρ c main_arg17 (by decide)).trans
    ((hkeep4 m ρ c main_arg17 (by decide)).trans
    ((rkeep3 m ρ c main_arg17 (by decide)).trans
    ((hkeep3 m ρ c main_arg17 (by decide)).trans
    ((rkeep2 m ρ c main_arg17 (by decide)).trans
    ((hkeep2 m ρ c main_arg17 (by decide)).trans
    ((rkeep1 m ρ c main_arg17 (by decide)).trans
    ((hkeep1 m ρ c main_arg17 (by decide)).trans
    ((rkeep0 m ρ c main_arg17 (by decide)).trans
    (hkeep0 m ρ c main_arg17 (by decide)))))))))))))))

theorem back_main_arg2_at14 (c : Dev nD) : W14 m ρ c (Proc.devRef .tc main_arg2) = m ((c.tc : Thread nD τ).loc main_arg2) :=
  ((rkeep6 m ρ c main_arg2 (by decide)).trans
    ((hkeep6 m ρ c main_arg2 (by decide)).trans
    ((rkeep5 m ρ c main_arg2 (by decide)).trans
    ((hkeep5 m ρ c main_arg2 (by decide)).trans
    ((rkeep4 m ρ c main_arg2 (by decide)).trans
    ((hkeep4 m ρ c main_arg2 (by decide)).trans
    ((rkeep3 m ρ c main_arg2 (by decide)).trans
    ((hkeep3 m ρ c main_arg2 (by decide)).trans
    ((rkeep2 m ρ c main_arg2 (by decide)).trans
    ((hkeep2 m ρ c main_arg2 (by decide)).trans
    ((rkeep1 m ρ c main_arg2 (by decide)).trans
    ((hkeep1 m ρ c main_arg2 (by decide)).trans
    ((rkeep0 m ρ c main_arg2 (by decide)).trans
    (hkeep0 m ρ c main_arg2 (by decide)))))))))))))))

theorem back_main_arg11_at14 (c : Dev nD) : W14 m ρ c (Proc.devRef .tc main_arg11) = m ((c.tc : Thread nD τ).loc main_arg11) :=
  ((rkeep6 m ρ c main_arg11 (by decide)).trans
    ((hkeep6 m ρ c main_arg11 (by decide)).trans
    ((rkeep5 m ρ c main_arg11 (by decide)).trans
    ((hkeep5 m ρ c main_arg11 (by decide)).trans
    ((rkeep4 m ρ c main_arg11 (by decide)).trans
    ((hkeep4 m ρ c main_arg11 (by decide)).trans
    ((rkeep3 m ρ c main_arg11 (by decide)).trans
    ((hkeep3 m ρ c main_arg11 (by decide)).trans
    ((rkeep2 m ρ c main_arg11 (by decide)).trans
    ((hkeep2 m ρ c main_arg11 (by decide)).trans
    ((rkeep1 m ρ c main_arg11 (by decide)).trans
    ((hkeep1 m ρ c main_arg11 (by decide)).trans
    ((rkeep0 m ρ c main_arg11 (by decide)).trans
    (hkeep0 m ρ c main_arg11 (by decide)))))))))))))))

theorem back_main_arg12_at14 (c : Dev nD) : W14 m ρ c (Proc.devRef .tc main_arg12) = m ((c.tc : Thread nD τ).loc main_arg12) :=
  ((rkeep6 m ρ c main_arg12 (by decide)).trans
    ((hkeep6 m ρ c main_arg12 (by decide)).trans
    ((rkeep5 m ρ c main_arg12 (by decide)).trans
    ((hkeep5 m ρ c main_arg12 (by decide)).trans
    ((rkeep4 m ρ c main_arg12 (by decide)).trans
    ((hkeep4 m ρ c main_arg12 (by decide)).trans
    ((rkeep3 m ρ c main_arg12 (by decide)).trans
    ((hkeep3 m ρ c main_arg12 (by decide)).trans
    ((rkeep2 m ρ c main_arg12 (by decide)).trans
    ((hkeep2 m ρ c main_arg12 (by decide)).trans
    ((rkeep1 m ρ c main_arg12 (by decide)).trans
    ((hkeep1 m ρ c main_arg12 (by decide)).trans
    ((rkeep0 m ρ c main_arg12 (by decide)).trans
    (hkeep0 m ρ c main_arg12 (by decide)))))))))))))))

theorem back_main_arg13_at14 (c : Dev nD) : W14 m ρ c (Proc.devRef .tc main_arg13) = m ((c.tc : Thread nD τ).loc main_arg13) :=
  ((rkeep6 m ρ c main_arg13 (by decide)).trans
    ((hkeep6 m ρ c main_arg13 (by decide)).trans
    ((rkeep5 m ρ c main_arg13 (by decide)).trans
    ((hkeep5 m ρ c main_arg13 (by decide)).trans
    ((rkeep4 m ρ c main_arg13 (by decide)).trans
    ((hkeep4 m ρ c main_arg13 (by decide)).trans
    ((rkeep3 m ρ c main_arg13 (by decide)).trans
    ((hkeep3 m ρ c main_arg13 (by decide)).trans
    ((rkeep2 m ρ c main_arg13 (by decide)).trans
    ((hkeep2 m ρ c main_arg13 (by decide)).trans
    ((rkeep1 m ρ c main_arg13 (by decide)).trans
    ((hkeep1 m ρ c main_arg13 (by decide)).trans
    ((rkeep0 m ρ c main_arg13 (by decide)).trans
    (hkeep0 m ρ c main_arg13 (by decide)))))))))))))))

theorem back_main_arg17_at2 (c : Dev nD) : W2 m ρ c (Proc.devRef .tc main_arg17) = m ((c.tc : Thread nD τ).loc main_arg17) :=
  ((rkeep0 m ρ c main_arg17 (by decide)).trans
    (hkeep0 m ρ c main_arg17 (by decide)))

theorem back_main_v45_at15 (c : Dev nD) : W15 m ρ c (Proc.devRef .tc main_v45) = W3 m ρ c (Proc.devRef .tc main_v45) :=
  ((hkeep7 m ρ c main_v45 (by decide)).trans
    ((rkeep6 m ρ c main_v45 (by decide)).trans
    ((hkeep6 m ρ c main_v45 (by decide)).trans
    ((rkeep5 m ρ c main_v45 (by decide)).trans
    ((hkeep5 m ρ c main_v45 (by decide)).trans
    ((rkeep4 m ρ c main_v45 (by decide)).trans
    ((hkeep4 m ρ c main_v45 (by decide)).trans
    ((rkeep3 m ρ c main_v45 (by decide)).trans
    ((hkeep3 m ρ c main_v45 (by decide)).trans
    ((rkeep2 m ρ c main_v45 (by decide)).trans
    ((hkeep2 m ρ c main_v45 (by decide)).trans
    (rkeep1 m ρ c main_v45 (by decide)))))))))))))

theorem back_main_arg2_at15 (c : Dev nD) : W15 m ρ c (Proc.devRef .tc main_arg2) = m ((c.tc : Thread nD τ).loc main_arg2) :=
  ((hkeep7 m ρ c main_arg2 (by decide)).trans
    ((rkeep6 m ρ c main_arg2 (by decide)).trans
    ((hkeep6 m ρ c main_arg2 (by decide)).trans
    ((rkeep5 m ρ c main_arg2 (by decide)).trans
    ((hkeep5 m ρ c main_arg2 (by decide)).trans
    ((rkeep4 m ρ c main_arg2 (by decide)).trans
    ((hkeep4 m ρ c main_arg2 (by decide)).trans
    ((rkeep3 m ρ c main_arg2 (by decide)).trans
    ((hkeep3 m ρ c main_arg2 (by decide)).trans
    ((rkeep2 m ρ c main_arg2 (by decide)).trans
    ((hkeep2 m ρ c main_arg2 (by decide)).trans
    ((rkeep1 m ρ c main_arg2 (by decide)).trans
    ((hkeep1 m ρ c main_arg2 (by decide)).trans
    ((rkeep0 m ρ c main_arg2 (by decide)).trans
    (hkeep0 m ρ c main_arg2 (by decide))))))))))))))))

theorem back_main_v56_at17 (c : Dev nD) : W17 m ρ c (Proc.devRef .tc main_v56) = W3 m ρ c (Proc.devRef .tc main_v56) :=
  ((hkeep8 m ρ c main_v56 (by decide)).trans
    ((rkeep7 m ρ c main_v56 (by decide)).trans
    ((hkeep7 m ρ c main_v56 (by decide)).trans
    ((rkeep6 m ρ c main_v56 (by decide)).trans
    ((hkeep6 m ρ c main_v56 (by decide)).trans
    ((rkeep5 m ρ c main_v56 (by decide)).trans
    ((hkeep5 m ρ c main_v56 (by decide)).trans
    ((rkeep4 m ρ c main_v56 (by decide)).trans
    ((hkeep4 m ρ c main_v56 (by decide)).trans
    ((rkeep3 m ρ c main_v56 (by decide)).trans
    ((hkeep3 m ρ c main_v56 (by decide)).trans
    ((rkeep2 m ρ c main_v56 (by decide)).trans
    ((hkeep2 m ρ c main_v56 (by decide)).trans
    (rkeep1 m ρ c main_v56 (by decide)))))))))))))))

/-- The attributes' degree reciprocals, computed in the second stretch, as every later boundary finds them. -/
theorem back_main_v45_at3 (c : Dev nD) : W3 m ρ c (Proc.devRef .tc main_v45) = IA.invAttr (m ((c.tc : Thread nD τ).loc main_arg17)) :=
  (ops1_v45 (W2 m ρ c)).trans (by rw [back_main_arg17_at2 m ρ c])

/-- The items' degree reciprocals in the item–attribute relation, likewise. -/
theorem back_main_v56_at3 (c : Dev nD) : W3 m ρ c (Proc.devRef .tc main_v56) = IA.invItem (m ((c.tc : Thread nD τ).loc main_arg17)) :=
  (ops1_v56 (W2 m ρ c)).trans (by rw [back_main_arg17_at2 m ρ c])

/-! ## Region 7's inputs at its entry -/

theorem in7_0 (c : Dev nD) : W15 m ρ c (Proc.devRef .tc main_v244)
    = IA.aggAttr (W2 m ρ c (Proc.devRef .tc main_v1)) (m ((c.tc : Thread nD τ).loc main_arg17)) :=
  (ops7_v244 (W14 m ρ c)).trans (by rw [back_main_v1_at14 m ρ c, back_main_arg17_at14 m ρ c])

theorem in7_1 (c : Dev nD) : W15 m ρ c (Proc.devRef .tc main_v45) = IA.invAttr (m ((c.tc : Thread nD τ).loc main_arg17)) :=
  (back_main_v45_at15 m ρ c).trans (back_main_v45_at3 m ρ c)

theorem in7_2 (c : Dev nD) : W15 m ρ c (Proc.devRef .tc main_arg2) = m ((c.tc : Thread nD τ).loc main_arg2) :=
  back_main_arg2_at15 m ρ c

theorem in7_3 (c : Dev nD) : W15 m ρ c (Proc.devRef .tc main_v260) = IA.mat ![0, 0, 0, 0] slices_S2x4x128x128_S1x1x128x128_0_0_0_0 (m ((c.tc : Thread nD τ).loc main_arg11)) :=
  (ops7_v260 (W14 m ρ c)).trans (by rw [back_main_arg11_at14 m ρ c])

theorem in7_4 (c : Dev nD) : W15 m ρ c (Proc.devRef .tc main_v271) = IA.bias ![0, 0, 0] slices_S2x4x128_S1x1x128_0_0_0 (m ((c.tc : Thread nD τ).loc main_arg12)) :=
  (ops7_v271 (W14 m ρ c)).trans (by rw [back_main_arg12_at14 m ρ c])

theorem in7_5 (c : Dev nD) : W15 m ρ c (Proc.devRef .tc main_v264) = IA.mat ![0, 0, 0, 0] slices_S2x4x128x128_S1x1x128x128_0_0_0_0 (m ((c.tc : Thread nD τ).loc main_arg13)) :=
  (ops7_v264 (W14 m ρ c)).trans (by rw [back_main_arg13_at14 m ρ c])

theorem in7_6 (c : Dev nD) : W15 m ρ c (Proc.devRef .tc main_v266) = IA.mat ![0, 3, 0, 0] slices_S2x4x128x128_S1x1x128x128_0_3_0_0 (m ((c.tc : Thread nD τ).loc main_arg11)) :=
  (ops7_v266 (W14 m ρ c)).trans (by rw [back_main_arg11_at14 m ρ c])

theorem in7_7 (c : Dev nD) : W15 m ρ c (Proc.devRef .tc main_v272) = IA.bias ![0, 3, 0] slices_S2x4x128_S1x1x128_0_3_0 (m ((c.tc : Thread nD τ).loc main_arg12)) :=
  (ops7_v272 (W14 m ρ c)).trans (by rw [back_main_arg12_at14 m ρ c])

theorem in7_8 (c : Dev nD) : W15 m ρ c (Proc.devRef .tc main_v270) = IA.mat ![0, 3, 0, 0] slices_S2x4x128x128_S1x1x128x128_0_3_0_0 (m ((c.tc : Thread nD τ).loc main_arg13)) :=
  (ops7_v270 (W14 m ρ c)).trans (by rw [back_main_arg13_at14 m ρ c])

end Cert.KernelIdeal.Val

end
-- ==== Proof.KStage8.lean ====
/- What region 8 (the items' first layer in the item–attribute relation) finds in its nine input buffers. -/
import proofs.«128317_j60687887892780_2_alg».proof.Proof.KStage7

set_option maxRecDepth 16384

noncomputable section

namespace Cert.KernelIdeal.Val

open Cert.KernelIdeal Cert.KernelIdeal.Gen Idealize.ShloMosaic Idealize.ShloMosaic.TcCoe Idealize.SL.Sem

/-! ## The weights' stretch, at any contents `V` before it -/

theorem ops8_v275 (V : Valuation τ sig (Elt Ideal)) :
    StableHlo.after hostOps8 V (Proc.devRef .tc main_v275) = IA.mat ![0, 1, 0, 0] slices_S2x4x128x128_S1x1x128x128_0_1_0_0 (V (Proc.devRef .tc main_arg11)) := by
  after_results <;> rfl
theorem ops8_v286 (V : Valuation τ sig (Elt Ideal)) :
    StableHlo.after hostOps8 V (Proc.devRef .tc main_v286) = IA.bias ![0, 1, 0] slices_S2x4x128_S1x1x128_0_1_0 (V (Proc.devRef .tc main_arg12)) := by
  after_results <;> rfl
theorem ops8_v279 (V : Valuation τ sig (Elt Ideal)) :
    StableHlo.after hostOps8 V (Proc.devRef .tc main_v279) = IA.mat ![0, 1, 0, 0] slices_S2x4x128x128_S1x1x128x128_0_1_0_0 (V (Proc.devRef .tc main_arg13)) := by
  after_results <;> rfl
theorem ops8_v281 (V : Valuation τ sig (Elt Ideal)) :
    StableHlo.after hostOps8 V (Proc.devRef .tc main_v281) = IA.mat ![0, 2, 0, 0] slices_S2x4x128x128_S1x1x128x128_0_2_0_0 (V (Proc.devRef .tc main_arg11)) := by
  after_results <;> rfl
theorem ops8_v287 (V : Valuation τ sig (Elt Ideal)) :
    StableHlo.after hostOps8 V (Proc.devRef .tc main_v287) = IA.bias ![0, 2, 0] slices_S2x4x128_S1x1x128_0_2_0 (V (Proc.devRef .tc main_arg12)) := by
  after_results <;> rfl
theorem ops8_v285 (V : Valuation τ sig (Elt Ideal)) :
    StableHlo.after hostOps8 V (Proc.devRef .tc main_v285) = IA.mat ![0, 2, 0, 0] slices_S2x4x128x128_S1x1x128x128_0_2_0_0 (V (Proc.devRef .tc main_arg13)) := by
  after_results <;> rfl

variable (m : (ℓ : Loc nD τ sig) → Buf (Elt Ideal) ℓ) (ρ : Dev nD → PrngReg)

/-! ## Buffers read back through the boundaries to where they were produced -/

theorem back_main_v258_at17 (c : Dev nD) : W17 m ρ c (Proc.devRef .tc main_v258) = W15 m ρ c (Proc.devRef .tc main_v258) :=
  ((hkeep8 m ρ c main_v258 (by decide)).trans
    (rkeep7 m ρ c main_v258 (by decide)))

theorem back_main_v1_at17 (c : Dev nD) : W17 m ρ c (Proc.devRef .tc main_v1) = W2 m ρ c (Proc.devRef .tc main_v1) :=
  ((hkeep8 m ρ c main_v1 (by decide)).trans
    ((rkeep7 m ρ c main_v1 (by decide)).trans
    ((hkeep7 m ρ c main_v1 (by decide)).trans
    ((rkeep6 m ρ c main_v1 (by decide)).trans
    ((hkeep6 m ρ c main_v1 (by decide)).trans
    ((rkeep5 m ρ c main_v1 (by decide)).trans
    ((hkeep5 m ρ c main_v1 (by decide)).trans
    ((rkeep4 m ρ c main_v1 (by decide)).trans
    ((hkeep4 m ρ c main_v1 (by decide)).trans
    ((rkeep3 m ρ c main_v1 (by decide)).trans
    ((hkeep3 m ρ c main_v1 (by decide)).trans
    ((rkeep2 m ρ c main_v1 (by decide)).trans
    ((hkeep2 m ρ c main_v1 (by decide)).trans
    ((rkeep1 m ρ c main_v1 (by decide)).trans
    (hkeep1 m ρ c main_v1 (by decide))))))))))))))))

theorem back_main_arg11_at16 (c : Dev nD) : W16 m ρ c (Proc.devRef .tc main_arg11) = m ((c.tc : Thread nD τ).loc main_arg11) :=
  ((rkeep7 m ρ c main_arg11 (by decide)).trans
    ((hkeep7 m ρ c main_arg11 (by decide)).trans
    ((rkeep6 m ρ c main_arg11 (by decide)).trans
    ((hkeep6 m ρ c main_arg11 (by decide)).trans
    ((rkeep5 m ρ c main_arg11 (by decide)).trans
    ((hkeep5 m ρ c main_arg11 (by decide)).trans
    ((rkeep4 m ρ c main_arg11 (by decide)).trans
    ((hkeep4 m ρ c main_arg11 (by decide)).trans
    ((rkeep3 m ρ c main_arg11 (by decide)).trans
    ((hkeep3 m ρ c main_arg11 (by decide)).trans
    ((rkeep2 m ρ c main_arg11 (by decide)).trans
    ((hkeep2 m ρ c main_arg11 (by decide)).trans
    ((rkeep1 m ρ c main_arg11 (by decide)).trans
    ((hkeep1 m ρ c main_arg11 (by decide)).trans
    ((rkeep0 m ρ c main_arg11 (by decide)).trans
    (hkeep0 m ρ c main_arg11 (by decide)))))))))))))))))

theorem back_main_arg12_at16 (c : Dev nD) : W16 m ρ c (Proc.devRef .tc main_arg12) = m ((c.tc : Thread nD τ).loc main_arg12) :=
  ((rkeep7 m ρ c main_arg12 (by decide)).trans
    ((hkeep7 m ρ c main_arg12 (by decide)).trans
    ((rkeep6 m ρ c main_arg12 (by decide)).trans
    ((hkeep6 m ρ c main_arg12 (by decide)).trans
    ((rkeep5 m ρ c main_arg12 (by decide)).trans
    ((hkeep5 m ρ c main_arg12 (by decide)).trans
    ((rkeep4 m ρ c main_arg12 (by decide)).trans
    ((hkeep4 m ρ c main_arg12 (by decide)).trans
    ((rkeep3 m ρ c main_arg12 (by decide)).trans
    ((hkeep3 m ρ c main_arg12 (by decide)).trans
    ((rkeep2 m ρ c main_arg12 (by decide)).trans
    ((hkeep2 m ρ c main_arg12 (by decide)).trans
    ((rkeep1 m ρ c main_arg12 (by decide)).trans
    ((hkeep1 m ρ c main_arg12 (by decide)).trans
    ((rkeep0 m ρ c main_arg12 (by decide)).trans
    (hkeep0 m ρ c main_arg12 (by decide)))))))))))))))))

theorem back_main_arg13_at16 (c : Dev nD) : W16 m ρ c (Proc.devRef .tc main_arg13) = m ((c.tc : Thread nD τ).loc main_arg13) :=
  ((rkeep7 m ρ c main_arg13 (by decide)).trans
    ((hkeep7 m ρ c main_arg13 (by decide)).trans
    ((rkeep6 m ρ c main_arg13 (by decide)).trans
    ((hkeep6 m ρ c main_arg13 (by decide)).trans
    ((rkeep5 m ρ c main_arg13 (by decide)).trans
    ((hkeep5 m ρ c main_arg13 (by decide)).trans
    ((rkeep4 m ρ c main_arg13 (by decide)).trans
    ((hkeep4 m ρ c main_arg13 (by decide)).trans
    ((rkeep3 m ρ c main_arg13 (by decide)).trans
    ((hkeep3 m ρ c main_arg13 (by decide)).trans
    ((rkeep2 m ρ c main_arg13 (by decide)).trans
    ((hkeep2 m ρ c main_arg13 (by decide)).trans
    ((rkeep1 m ρ c main_arg13 (by decide)).trans
    ((hkeep1 m ρ c main_arg13 (by decide)).trans
    ((rkeep0 m ρ c main_arg13 (by decide)).trans
    (hkeep0 m ρ c main_arg13 (by decide)))))))))))))))))

/-! ## Region 8's inputs at its entry -/

theorem in8_0 (c : Dev nD) : W17 m ρ c (Proc.devRef .tc main_v258)
    = IA.aggItem (m ((c.tc : Thread nD τ).loc main_arg2)) (m ((c.tc : Thread nD τ).loc main_arg17)) :=
  (back_main_v258_at17 m ρ c).trans ((ops7_v258 (W14 m ρ c)).trans (by rw [back_main_arg2_at14 m ρ c, back_main_arg17_at14 m ρ c]))

theorem in8_1 (c : Dev nD) : W17 m ρ c (Proc.devRef .tc main_v56) = IA.invItem (m ((c.tc : Thread nD τ).loc main_arg17)) :=
  (back_main_v56_at17 m ρ c).trans (back_main_v56_at3 m ρ c)

theorem in8_2 (c : Dev nD) : W17 m ρ c (Proc.devRef .tc main_v1) = W2 m ρ c (Proc.devRef .tc main_v1) :=
  back_main_v1_at17 m ρ c

theorem in8_3 (c : Dev nD) : W17 m ρ c (Proc.devRef .tc main_v275) = IA.mat ![0, 1, 0, 0] slices_S2x4x128x128_S1x1x128x128_0_1_0_0 (m ((c.tc : Thread nD τ).loc main_arg11)) :=
  (ops8_v275 (W16 m ρ c)).trans (by rw [back_main_arg11_at16 m ρ c])

theorem in8_4 (c : Dev nD) : W17 m ρ c (Proc.devRef .tc main_v286) = IA.bias ![0, 1, 0] slices_S2x4x128_S1x1x128_0_1_0 (m ((c.tc : Thread nD τ).loc main_arg12)) :=
  (ops8_v286 (W16 m ρ c)).trans (by rw [back_main_arg12_at16 m ρ c])

theorem in8_5 (c : Dev nD) : W17 m ρ c (Proc.devRef .tc main_v279) = IA.mat ![0, 1, 0, 0] slices_S2x4x128x128_S1x1x128x128_0_1_0_0 (m ((c.tc : Thread nD τ).loc main_arg13)) :=
  (ops8_v279 (W16 m ρ c)).trans (by rw [back_main_arg13_at16 m ρ c])

theorem in8_6 (c : Dev nD) : W17 m ρ c (Proc.devRef .tc main_v281) = IA.mat ![0, 2, 0, 0] slices_S2x4x128x128_S1x1x128x128_0_2_0_0 (m ((c.tc : Thread nD τ).loc main_arg11)) :=
  (ops8_v281 (W16 m ρ c)).trans (by rw [back_main_arg11_at16 m ρ c])

theorem in8_7 (c : Dev nD) : W17 m ρ c (Proc.devRef .tc main_v287) = IA.bias ![0, 2, 0] slices_S2x4x128_S1x1x128_0_2_0 (m ((c.tc : Thread nD τ).loc main_arg12)) :=
  (ops8_v287 (W16 m ρ c)).trans (by rw [back_main_arg12_at16 m ρ c])

theorem in8_8 (c : Dev nD) : W17 m ρ c (Proc.devRef .tc main_v285) = IA.mat ![0, 2, 0, 0] slices_S2x4x128x128_S1x1x128x128_0_2_0_0 (m ((c.tc : Thread nD τ).loc main_arg13)) :=
  (ops8_v285 (W16 m ρ c)).trans (by rw [back_main_arg13_at16 m ρ c])

end Cert.KernelIdeal.Val

end
-- ==== Proof.KStage10.lean ====
/- What region 10 (the items' second layer in the item–attribute relation) finds in its nine input buffers. -/
import proofs.«128317_j60687887892780_2_alg».proof.Proof.KStage7

set_option maxRecDepth 16384

noncomputable section

namespace Cert.KernelIdeal.Val

open Cert.KernelIdeal Cert.KernelIdeal.Gen Idealize.ShloMosaic Idealize.ShloMosaic.TcCoe Idealize.SL.Sem

/-! ## The stretches' operations, at any contents `V` before them -/

theorem ops9_v316 (V : Valuation τ sig (Elt Ideal)) :
    StableHlo.after hostOps9 V (Proc.devRef .tc main_v316) = IA.aggItem (V (Proc.devRef .tc main_v273)) (V (Proc.devRef .tc main_arg17)) := by
  after_results_simp <;> rfl
theorem ops10_v333 (V : Valuation τ sig (Elt Ideal)) :
    StableHlo.after hostOps10 V (Proc.devRef .tc main_v333) = IA.mat ![1, 1, 0, 0] slices_S2x4x128x128_S1x1x128x128_1_1_0_0 (V (Proc.devRef .tc main_arg11)) := by
  after_results <;> rfl
theorem ops10_v344 (V : Valuation τ sig (Elt Ideal)) :
    StableHlo.after hostOps10 V (Proc.devRef .tc main_v344) = IA.bias ![1, 1, 0] slices_S2x4x128_S1x1x128_1_1_0 (V (Proc.devRef .tc main_arg12)) := by
  after_results <;> rfl
theorem ops10_v337 (V : Valuation τ sig (Elt Ideal)) :
    StableHlo.after hostOps10 V (Proc.devRef .tc main_v337) = IA.mat ![1, 1, 0, 0] slices_S2x4x128x128_S1x1x128x128_1_1_0_0 (V (Proc.devRef .tc main_arg13)) := by
  after_results <;> rfl
theorem ops10_v339 (V : Valuation τ sig (Elt Ideal)) :
    StableHlo.after hostOps10 V (Proc.devRef .tc main_v339) = IA.mat ![1, 2, 0, 0] slices_S2x4x128x128_S1x1x128x128_1_2_0_0 (V (Proc.devRef .tc main_arg11)) := by
  after_results <;> rfl
theorem ops10_v345 (V : Valuation τ sig (Elt Ideal)) :
    StableHlo.after hostOps10 V (Proc.devRef .tc main_v345) = IA.bias ![1, 2, 0] slices_S2x4x128_S1x1x128_1_2_0 (V (Proc.devRef .tc main_arg12)) := by
  after_results <;> rfl
theorem ops10_v343 (V : Valuation τ sig (Elt Ideal)) :
    StableHlo.after hostOps10 V (Proc.devRef .tc main_v343) = IA.mat ![1, 2, 0, 0] slices_S2x4x128x128_S1x1x128x128_1_2_0_0 (V (Proc.devRef .tc main_arg13)) := by
  after_results <;> rfl

variable (m : (ℓ : Loc nD τ sig) → Buf (Elt Ideal) ℓ) (ρ : Dev nD → PrngReg)

/-! ## Buffers read back through the boundaries to where they were produced -/

theorem back_main_v316_at21 (c : Dev nD) : W21 m ρ c (Proc.devRef .tc main_v316) = W19 m ρ c (Proc.devRef .tc main_v316) :=
  ((hkeep10 m ρ c main_v316 (by decide)).trans
    (rkeep9 m ρ c main_v316 (by decide)))

theorem back_main_v273_at18 (c : Dev nD) : W18 m ρ c (Proc.devRef .tc main_v273) = W16 m ρ c (Proc.devRef .tc main_v273) :=
  ((rkeep8 m ρ c main_v273 (by decide)).trans
    (hkeep8 m ρ c main_v273 (by decide)))

theorem back_main_arg17_at18 (c : Dev nD) : W18 m ρ c (Proc.devRef .tc main_arg17) = m ((c.tc : Thread nD τ).loc main_arg17) :=
  ((rkeep8 m ρ c main_arg17 (by decide)).trans
    ((hkeep8 m ρ c main_arg17 (by decide)).trans
    ((rkeep7 m ρ c main_arg17 (by decide)).trans
    ((hkeep7 m ρ c main_arg17 (by decide)).trans
    ((rkeep6 m ρ c main_arg17 (by decide)).trans
    ((hkeep6 m ρ c main_arg17 (by decide)).trans
    ((rkeep5 m ρ c main_arg17 (by decide)).trans
    ((hkeep5 m ρ c main_arg17 (by decide)).trans
    ((rkeep4 m ρ c main_arg17 (by decide)).trans
    ((hkeep4 m ρ c main_arg17 (by decide)).trans
    ((rkeep3 m ρ c main_arg17 (by decide)).trans
    ((hkeep3 m ρ c main_arg17 (by decide)).trans
    ((rkeep2 m ρ c main_arg17 (by decide)).trans
    ((hkeep2 m ρ c main_arg17 (by decide)).trans
    ((rkeep1 m ρ c main_arg17 (by decide)).trans
    ((hkeep1 m ρ c main_arg17 (by decide)).trans
    ((rkeep0 m ρ c main_arg17 (by decide)).trans
    (hkeep0 m ρ c main_arg17 (by decide)))))))))))))))))))

theorem back_main_v56_at21 (c : Dev nD) : W21 m ρ c (Proc.devRef .tc main_v56) = W3 m ρ c (Proc.devRef .tc main_v56) :=
  ((hkeep10 m ρ c main_v56 (by decide)).trans
    ((rkeep9 m ρ c main_v56 (by decide)).trans
    ((hkeep9 m ρ c main_v56 (by decide)).trans
    ((rkeep8 m ρ c main_v56 (by decide)).trans
    ((hkeep8 m ρ c main_v56 (by decide)).trans
    ((rkeep7 m ρ c main_v56 (by decide)).trans
    ((hkeep7 m ρ c main_v56 (by decide)).trans
    ((rkeep6 m ρ c main_v56 (by decide)).trans
    ((hkeep6 m ρ c main_v56 (by decide)).trans
    ((rkeep5 m ρ c main_v56 (by decide)).trans
    ((hkeep5 m ρ c main_v56 (by decide)).trans
    ((rkeep4 m ρ c main_v56 (by decide)).trans
    ((hkeep4 m ρ c main_v56 (by decide)).trans
    ((rkeep3 m ρ c main_v56 (by decide)).trans
    ((hkeep3 m ρ c main_v56 (by decide)).trans
    ((rkeep2 m ρ c main_v56 (by decide)).trans
    ((hkeep2 m ρ c main_v56 (by decide)).trans
    (rkeep1 m ρ c main_v56 (by decide)))))))))))))))))))

theorem back_main_v288_at21 (c : Dev nD) : W21 m ρ c (Proc.devRef .tc main_v288) = W18 m ρ c (Proc.devRef .tc main_v288) :=
  ((hkeep10 m ρ c main_v288 (by decide)).trans
    ((rkeep9 m ρ c main_v288 (by decide)).trans
    (hkeep9 m ρ c main_v288 (by decide))))

theorem back_main_arg11_at20 (c : Dev nD) : W20 m ρ c (Proc.devRef .tc main_arg11) = m ((c.tc : Thread nD τ).loc main_arg11) :=
  ((rkeep9 m ρ c main_arg11 (by decide)).trans
    ((hkeep9 m ρ c main_arg11 (by decide)).trans
    ((rkeep8 m ρ c main_arg11 (by decide)).trans
    ((hkeep8 m ρ c main_arg11 (by decide)).trans
    ((rkeep7 m ρ c main_arg11 (by decide)).trans
    ((hkeep7 m ρ c main_arg11 (by decide)).trans
    ((rkeep6 m ρ c main_arg11 (by decide)).trans
    ((hkeep6 m ρ c main_arg11 (by decide)).trans
    ((rkeep5 m ρ c main_arg11 (by decide)).trans
    ((hkeep5 m ρ c main_arg11 (by decide)).trans
    ((rkeep4 m ρ c main_arg11 (by decide)).trans
    ((hkeep4 m ρ c main_arg11 (by decide)).trans
    ((rkeep3 m ρ c main_arg11 (by decide)).trans
    ((hkeep3 m ρ c main_arg11 (by decide)).trans
    ((rkeep2 m ρ c main_arg11 (by decide)).trans
    ((hkeep2 m ρ c main_arg11 (by decide)).trans
    ((rkeep1 m ρ c main_arg11 (by decide)).trans
    ((hkeep1 m ρ c main_arg11 (by decide)).trans
    ((rkeep0 m ρ c main_arg11 (by decide)).trans
    (hkeep0 m ρ c main_arg11 (by decide)))))))))))))))))))))

theorem back_main_arg12_at20 (c : Dev nD) : W20 m ρ c (Proc.devRef .tc main_arg12) = m ((c.tc : Thread nD τ).loc main_arg12) :=
  ((rkeep9 m ρ c main_arg12 (by decide)).trans
    ((hkeep9 m ρ c main_arg12 (by decide)).trans
    ((rkeep8 m ρ c main_arg12 (by decide)).trans
    ((hkeep8 m ρ c main_arg12 (by decide)).trans
    ((rkeep7 m ρ c main_arg12 (by decide)).trans
    ((hkeep7 m ρ c main_arg12 (by decide)).trans
    ((rkeep6 m ρ c main_arg12 (by decide)).trans
    ((hkeep6 m ρ c main_arg12 (by decide)).trans
    ((rkeep5 m ρ c main_arg12 (by decide)).trans
    ((hkeep5 m ρ c main_arg12 (by decide)).trans
    ((rkeep4 m ρ c main_arg12 (by decide)).trans
    ((hkeep4 m ρ c main_arg12 (by decide)).trans
    ((rkeep3 m ρ c main_arg12 (by decide)).trans
    ((hkeep3 m ρ c main_arg12 (by decide)).trans
    ((rkeep2 m ρ c main_arg12 (by decide)).trans
    ((hkeep2 m ρ c main_arg12 (by decide)).trans
    ((rkeep1 m ρ c main_arg12 (by decide)).trans
    ((hkeep1 m ρ c main_arg12 (by decide)).trans
    ((rkeep0 m ρ c main_arg12 (by decide)).trans
    (hkeep0 m ρ c main_arg12 (by decide)))))))))))))))))))))

theorem back_main_arg13_at20 (c : Dev nD) : W20 m ρ c (Proc.devRef .tc main_arg13) = m ((c.tc : Thread nD τ).loc main_arg13) :=
  ((rkeep9 m ρ c main_arg13 (by decide)).trans
    ((hkeep9 m ρ c main_arg13 (by decide)).trans
    ((rkeep8 m ρ c main_arg13 (by decide)).trans
    ((hkeep8 m ρ c main_arg13 (by decide)).trans
    ((rkeep7 m ρ c main_arg13 (by decide)).trans
    ((hkeep7 m ρ c main_arg13 (by decide)).trans
    ((rkeep6 m ρ c main_arg13 (by decide)).trans
    ((hkeep6 m ρ c main_arg13 (by decide)).trans
    ((rkeep5 m ρ c main_arg13 (by decide)).trans
    ((hkeep5 m ρ c main_arg13 (by decide)).trans
    ((rkeep4 m ρ c main_arg13 (by decide)).trans
    ((hkeep4 m ρ c main_arg13 (by decide)).trans
    ((rkeep3 m ρ c main_arg13 (by decide)).trans
    ((hkeep3 m ρ c main_arg13 (by decide)).trans
    ((rkeep2 m ρ c main_arg13 (by decide)).trans
    ((hkeep2 m ρ c main_arg13 (by decide)).trans
    ((rkeep1 m ρ c main_arg13 (by decide)).trans
    ((hkeep1 m ρ c main_arg13 (by decide)).trans
    ((rkeep0 m ρ c main_arg13 (by decide)).trans
    (hkeep0 m ρ c main_arg13 (by decide)))))))))))))))))))))

/-! ## Region 10's inputs at its entry -/

theorem in10_0 (c : Dev nD) : W21 m ρ c (Proc.devRef .tc main_v316)
    = IA.aggItem (W16 m ρ c (Proc.devRef .tc main_v273)) (m ((c.tc : Thread nD τ).loc main_arg17)) :=
  (back_main_v316_at21 m ρ c).trans ((ops9_v316 (W18 m ρ c)).trans (by rw [back_main_v273_at18 m ρ c, back_main_arg17_at18 m ρ c]))

theorem in10_1 (c : Dev nD) : W21 m ρ c (Proc.devRef .tc main_v56) = IA.invItem (m ((c.tc : Thread nD τ).loc main_arg17)) :=
  (back_main_v56_at21 m ρ c).trans (back_main_v56_at3 m ρ c)

theorem in10_2 (c : Dev nD) : W21 m ρ c (Proc.devRef .tc main_v288) = W18 m ρ c (Proc.devRef .tc main_v288) :=
  back_main_v288_at21 m ρ c

theorem in10_3 (c : Dev nD) : W21 m ρ c (Proc.devRef .tc main_v333) = IA.mat ![1, 1, 0, 0] slices_S2x4x128x128_S1x1x128x128_1_1_0_0 (m ((c.tc : Thread nD τ).loc main_arg11)) :=
  (ops10_v333 (W20 m ρ c)).trans (by rw [back_main_arg11_at20 m ρ c])

theorem in10_4 (c : Dev nD) : W21 m ρ c (Proc.devRef .tc main_v344) = IA.bias ![1, 1, 0] slices_S2x4x128_S1x1x128_1_1_0 (m ((c.tc : Thread nD τ).loc main_arg12)) :=
  (ops10_v344 (W20 m ρ c)).trans (by rw [back_main_arg12_at20 m ρ c])

theorem in10_5 (c : Dev nD) : W21 m ρ c (Proc.devRef .tc main_v337) = IA.mat ![1, 1, 0, 0] slices_S2x4x128x128_S1x1x128x128_1_1_0_0 (m ((c.tc : Thread nD τ).loc main_arg13)) :=
  (ops10_v337 (W20 m ρ c)).trans (by rw [back_main_arg13_at20 m ρ c])

theorem in10_6 (c : Dev nD) : W21 m ρ c (Proc.devRef .tc main_v339) = IA.mat ![1, 2, 0, 0] slices_S2x4x128x128_S1x1x128x128_1_2_0_0 (m ((c.tc : Thread nD τ).loc main_arg11)) :=
  (ops10_v339 (W20 m ρ c)).trans (by rw [back_main_arg11_at20 m ρ c])

theorem in10_7 (c : Dev nD) : W21 m ρ c (Proc.devRef .tc main_v345) = IA.bias ![1, 2, 0] slices_S2x4x128_S1x1x128_1_2_0 (m ((c.tc : Thread nD τ).loc main_arg12)) :=
  (ops10_v345 (W20 m ρ c)).trans (by rw [back_main_arg12_at20 m ρ c])

theorem in10_8 (c : Dev nD) : W21 m ρ c (Proc.devRef .tc main_v343) = IA.mat ![1, 2, 0, 0] slices_S2x4x128x128_S1x1x128x128_1_2_0_0 (m ((c.tc : Thread nD τ).loc main_arg13)) :=
  (ops10_v343 (W20 m ρ c)).trans (by rw [back_main_arg13_at20 m ρ c])

end Cert.KernelIdeal.Val

end
-- ==== Proof.KStage11.lean ====
/- What region 11 (the weighted sum of the three branches) finds in its four input buffers, the softmax weights the
   program returns, and the three branch results as the last boundary holds them. -/
import proofs.«128317_j60687887892780_2_alg».proof.Proof.KKeep

set_option maxRecDepth 16384

noncomputable section

namespace Cert.KernelIdeal.Val

open Cert.KernelIdeal Cert.KernelIdeal.Gen Idealize.ShloMosaic Idealize.ShloMosaic.TcCoe Idealize.SL.Sem

/-! ## The softmax of the three mixing logits, in the host's spelling -/

namespace Fuse

/-- The logits less their maximum (the maximum taken from minus infinity twice, as the program does). -/
def shifted (a : FVec Ideal S3 .f32) : FVec Ideal S3 .f32 :=
  subf (F := Ideal) a (broadcastInDim S3 ![0] bcast_S1_S3_0 (broadcastInDim S1 ![] bcast_S_S1
    (maximumf (F := Ideal) (constant (F := Ideal) S_ .f32 0xFF800000#32)
      (Host.reduce (FloatOps.maximumf (F := Ideal) (φ := .f32)) a (constant (F := Ideal) S_ .f32 0xFF800000#32) reducesTo_S3_S_d0 h_S_))))

/-- Their exponentials over the exponentials' sum. -/
def softmax (a : FVec Ideal S3 .f32) : FVec Ideal S3 .f32 :=
  Host.divf (F := Ideal) (Host.exp (F := Ideal) (shifted a))
    (broadcastInDim S3 ![0] bcast_S1_S3_0 (broadcastInDim S1 ![] bcast_S_S1
      (Host.reduceAdd (F := Ideal) (Host.exp (F := Ideal) (shifted a)) (constant (F := Ideal) S_ .f32 0x00000000#32)
        reducesTo_S3_S_d0 h_S_)))

end Fuse

/-! ## The last stretch's operations, at any contents `V` before it -/

theorem ops11_v356 (V : Valuation τ sig (Elt Ideal)) :
    StableHlo.after hostOps11 V (Proc.devRef .tc main_v356) = Fuse.softmax (V (Proc.devRef .tc main_arg14)) := by
  after_results <;> rfl

theorem ops11_v357 (V : Valuation τ sig (Elt Ideal)) :
    StableHlo.after hostOps11 V (Proc.devRef .tc main_v357)
      = shapeCast S1x3 (Fuse.softmax (V (Proc.devRef .tc main_arg14))) shapeCasts_S3_S1x3 := by
  after_results <;> rfl

variable (m : (ℓ : Loc nD τ sig) → Buf (Elt Ideal) ℓ) (ρ : Dev nD → PrngReg)

/-! ## Buffers read back through the boundaries to where they were produced -/

theorem back_main_arg14_at22 (c : Dev nD) : W22 m ρ c (Proc.devRef .tc main_arg14) = m ((c.tc : Thread nD τ).loc main_arg14) :=
  ((rkeep10 m ρ c main_arg14 (by decide)).trans
    ((hkeep10 m ρ c main_arg14 (by decide)).trans
    ((rkeep9 m ρ c main_arg14 (by decide)).trans
    ((hkeep9 m ρ c main_arg14 (by decide)).trans
    ((rkeep8 m ρ c main_arg14 (by decide)).trans
    ((hkeep8 m ρ c main_arg14 (by decide)).trans
    ((rkeep7 m ρ c main_arg14 (by decide)).trans
    ((hkeep7 m ρ c main_arg14 (by decide)).trans
    ((rkeep6 m ρ c main_arg14 (by decide)).trans
    ((hkeep6 m ρ c main_arg14 (by decide)).trans
    ((rkeep5 m ρ c main_arg14 (by decide)).trans
    ((hkeep5 m ρ c main_arg14 (by decide)).trans
    ((rkeep4 m ρ c main_arg14 (by decide)).trans
    ((hkeep4 m ρ c main_arg14 (by decide)).trans
    ((rkeep3 m ρ c main_arg14 (by decide)).trans
    ((hkeep3 m ρ c main_arg14 (by decide)).trans
    ((rkeep2 m ρ c main_arg14 (by decide)).trans
    ((hkeep2 m ρ c main_arg14 (by decide)).trans
    ((rkeep1 m ρ c main_arg14 (by decide)).trans
    ((hkeep1 m ρ c main_arg14 (by decide)).trans
    ((rkeep0 m ρ c main_arg14 (by decide)).trans
    (hkeep0 m ρ c main_arg14 (by decide)))))))))))))))))))))))

theorem back_main_v157_at23 (c : Dev nD) : W23 m ρ c (Proc.devRef .tc main_v157) = W8 m ρ c (Proc.devRef .tc main_v157) :=
  ((hkeep11 m ρ c main_v157 (by decide)).trans
    ((rkeep10 m ρ c main_v157 (by decide)).trans
    ((hkeep10 m ρ c main_v157 (by decide)).trans
    ((rkeep9 m ρ c main_v157 (by decide)).trans
    ((hkeep9 m ρ c main_v157 (by decide)).trans
    ((rkeep8 m ρ c main_v157 (by decide)).trans
    ((hkeep8 m ρ c main_v157 (by decide)).trans
    ((rkeep7 m ρ c main_v157 (by decide)).trans
    ((hkeep7 m ρ c main_v157 (by decide)).trans
    ((rkeep6 m ρ c main_v157 (by decide)).trans
    ((hkeep6 m ρ c main_v157 (by decide)).trans
    ((rkeep5 m ρ c main_v157 (by decide)).trans
    ((hkeep5 m ρ c main_v157 (by decide)).trans
    ((rkeep4 m ρ c main_v157 (by decide)).trans
    (hkeep4 m ρ c main_v157 (by decide))))))))))))))))

theorem back_main_v230_at23 (c : Dev nD) : W23 m ρ c (Proc.devRef .tc main_v230) = W14 m ρ c (Proc.devRef .tc main_v230) :=
  ((hkeep11 m ρ c main_v230 (by decide)).trans
    ((rkeep10 m ρ c main_v230 (by decide)).trans
    ((hkeep10 m ρ c main_v230 (by decide)).trans
    ((rkeep9 m ρ c main_v230 (by decide)).trans
    ((hkeep9 m ρ c main_v230 (by decide)).trans
    ((rkeep8 m ρ c main_v230 (by decide)).trans
    ((hkeep8 m ρ c main_v230 (by decide)).trans
    ((rkeep7 m ρ c main_v230 (by decide)).trans
    (hkeep7 m ρ c main_v230 (by decide))))))))))

theorem back_main_v346_at23 (c : Dev nD) : W23 m ρ c (Proc.devRef .tc main_v346) = W22 m ρ c (Proc.devRef .tc main_v346) :=
  (hkeep11 m ρ c main_v346 (by decide))

/-! ## Region 11's inputs at its entry -/

theorem in11_0 (c : Dev nD) : W23 m ρ c (Proc.devRef .tc main_v357)
    = shapeCast S1x3 (Fuse.softmax (m ((c.tc : Thread nD τ).loc main_arg14))) shapeCasts_S3_S1x3 :=
  (ops11_v357 (W22 m ρ c)).trans (by rw [back_main_arg14_at22 m ρ c])

theorem in11_1 (c : Dev nD) : W23 m ρ c (Proc.devRef .tc main_v157) = W8 m ρ c (Proc.devRef .tc main_v157) :=
  back_main_v157_at23 m ρ c

theorem in11_2 (c : Dev nD) : W23 m ρ c (Proc.devRef .tc main_v230) = W14 m ρ c (Proc.devRef .tc main_v230) :=
  back_main_v230_at23 m ρ c

theorem in11_3 (c : Dev nD) : W23 m ρ c (Proc.devRef .tc main_v346) = W22 m ρ c (Proc.devRef .tc main_v346) :=
  back_main_v346_at23 m ρ c

/-! ## The returned buffers other than the region's output, at the last boundary -/

/-- The mixing weights the program returns: the softmax of the logits as launched. -/
theorem res_w (c : Dev nD) : W24 m ρ c (Proc.devRef .tc main_v356) = Fuse.softmax (m ((c.tc : Thread nD τ).loc main_arg14)) :=
  (rkeep11 m ρ c main_v356 (by decide)).trans ((ops11_v356 (W22 m ρ c)).trans (by rw [back_main_arg14_at22 m ρ c]))

theorem res_v157 (c : Dev nD) : W24 m ρ c (Proc.devRef .tc main_v157) = W8 m ρ c (Proc.devRef .tc main_v157) :=
  (rkeep11 m ρ c main_v157 (by decide)).trans (back_main_v157_at23 m ρ c)

theorem res_v230 (c : Dev nD) : W24 m ρ c (Proc.devRef .tc main_v230) = W14 m ρ c (Proc.devRef .tc main_v230) :=
  (rkeep11 m ρ c main_v230 (by decide)).trans (back_main_v230_at23 m ρ c)

theorem res_v346 (c : Dev nD) : W24 m ρ c (Proc.devRef .tc main_v346) = W22 m ρ c (Proc.devRef .tc main_v346) :=
  (rkeep11 m ρ c main_v346 (by decide)).trans (back_main_v346_at23 m ρ c)

end Cert.KernelIdeal.Val

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«128317_j60687887892780_2_alg».proof.Proof.LibDense
import proofs.«128317_j60687887892780_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«128317_j60687887892780_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«128317_j60687887892780_2_alg».proof.Proof.LibRowScale
import proofs.«128317_j60687887892780_2_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«128317_j60687887892780_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibHeteroLayer.lean ====
/-
  One destination type's update in a two-relation heterogeneous mean-aggregating layer, on the extended reals, at any
  extents.

  For every destination node (a row): `a` is the sum of its in-neighbours' feature rows, `s` the reciprocal of its
  in-degree clamped below by one (a one-column array), `x` its own feature row.  The edge relation contributes
  `(a scaled row by row by s) · wl + bl + x · wr`, the self relation `x · wls + bls + x · wrs`; the layer is the
  rectified half of their sum.  `lin` is a dense layer with a one-row bias and `fuse` a combination of three arrays by
  three weights held in a one-row array.  Each is given in the vector unit's spelling and in the host's, and each is
  row-local: an entry depends on the same row of the row-indexed operands only, which is what reading a block of rows
  against the whole arrays needs.  The host divides the aggregate by the clamped degree where the vector unit multiplies
  by its reciprocal; a degree clamped below by one is never zero, and off zero the quotient is the product with the
  reciprocal at every extended real, infinite ones included.
-/
import proofs.«128317_j60687887892780_2_alg».proof.Proof.LibDense
import proofs.«128317_j60687887892780_2_alg».proof.Proof.LibRowBlocks
import proofs.«128317_j60687887892780_2_alg».proof.Proof.LibRowScale
import proofs.«128317_j60687887892780_2_alg».proof.Proof.LibBiasRow
import proofs.«128317_j60687887892780_2_alg».proof.Proof.LibSageLayer
import proofs.«128317_j60687887892780_2_alg».proof.Proof.LibHostLayout

noncomputable section

open scoped BigOperators

namespace Cert.Hetero

open Idealize.ShloMosaic Idealize.ShloMosaic.ValueIdx Cert.Dense Cert.RowScale Cert.BiasRow

/-- The rectified half-sum of the edge relation's and the self relation's contributions. -/
def layer {M K N : ℕ} (a : Mat M K) (s : Mat M 1) (x : Mat M K) (wl : Mat K N) (bl : Mat 1 N) (wr wls : Mat K N)
    (bls : Mat 1 N) (wrs : Mat K N) : Mat M N :=
  fun i => max (Ideal.ofBits .f32 0x3F000000#32
    * ((addRow (mm (scaleRows a s) wl) bl i + mm x wr i) + (addRow (mm x wls) bls i + mm x wrs i))) 0

theorem layer_apply {M K N : ℕ} (a : Mat M K) (s : Mat M 1) (x : Mat M K) (wl : Mat K N) (bl : Mat 1 N) (wr wls : Mat K N)
    (bls : Mat 1 N) (wrs : Mat K N) (p : Fin M) (q : Fin N) :
    layer a s x wl bl wr wls bls wrs (ix2 p q) = max (Ideal.ofBits .f32 0x3F000000#32
      * ((((∑ k : Fin K, (a (ix2 p k) * s (ix2 p (0 : Fin 1))) * wl (ix2 k q)) + bl (ix2 (0 : Fin 1) q))
          + ∑ k : Fin K, x (ix2 p k) * wr (ix2 k q))
        + (((∑ k : Fin K, x (ix2 p k) * wls (ix2 k q)) + bls (ix2 (0 : Fin 1) q))
          + ∑ k : Fin K, x (ix2 p k) * wrs (ix2 k q)))) 0 := rfl

/-- A row of the layer's result depends on the same row of the aggregate, of the factor and of the features. -/
theorem layer_rows {M M' K N : ℕ} (a : Mat M K) (s : Mat M 1) (x : Mat M K) (a' : Mat M' K) (s' : Mat M' 1) (x' : Mat M' K)
    (wl : Mat K N) (bl : Mat 1 N) (wr wls : Mat K N) (bls : Mat 1 N) (wrs : Mat K N) (p' : Fin M') (p : Fin M) (q : Fin N)
    (ha : ∀ k : Fin K, a' (ix2 p' k) = a (ix2 p k)) (hs : s' (ix2 p' (0 : Fin 1)) = s (ix2 p (0 : Fin 1)))
    (hx : ∀ k : Fin K, x' (ix2 p' k) = x (ix2 p k)) :
    layer a' s' x' wl bl wr wls bls wrs (ix2 p' q) = layer a s x wl bl wr wls bls wrs (ix2 p q) := by
  simp only [layer_apply, ha, hs, hx]

/-- The same at two indices of arrays of two heights: the entry depends on the column and on one row of the aggregate,
    of the factor and of the features. -/
theorem layer_at {M M' K N : ℕ} (a : Mat M K) (s : Mat M 1) (x : Mat M K) (a' : Mat M' K) (s' : Mat M' 1) (x' : Mat M' K)
    (wl : Mat K N) (bl : Mat 1 N) (wr wls : Mat K N) (bls : Mat 1 N) (wrs : Mat K N)
    (j : (⟨2, ![M', N]⟩ : Shape).Idx) (i : (⟨2, ![M, N]⟩ : Shape).Idx) (hq : (j 1).val = (i 1).val)
    (ha : ∀ k : Fin K, a' (ix2 (c0 j) k) = a (ix2 (c0 i) k))
    (hs : s' (ix2 (c0 j) (0 : Fin 1)) = s (ix2 (c0 i) (0 : Fin 1)))
    (hx : ∀ k : Fin K, x' (ix2 (c0 j) k) = x (ix2 (c0 i) k)) :
    layer a' s' x' wl bl wr wls bls wrs j = layer a s x wl bl wr wls bls wrs i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  obtain rfl : q' = q := Fin.ext hq
  exact layer_rows a s x a' s' x' wl bl wr wls bls wrs p' p q' ha hs hx

/-- The vector unit's spelling: same-shape casts, the factor column broadcast along the rows and multiplied in, every
    matrix-unit operand narrowed to bf16 (the identity on the extended reals), four products into zero accumulators,
    the bias rows broadcast along the rows, the half as a splat, the maximum with a zero splat. -/
theorem vecLayer {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (cA : (⟨2, ![M, K]⟩ : Shape).ShapeCasts ⟨2, ![M, K]⟩) (cS : (⟨2, ![M, 1]⟩ : Shape).ShapeCasts ⟨2, ![M, 1]⟩)
    (bS : (⟨2, ![M, 1]⟩ : Shape).Broadcasts ⟨2, ![M, K]⟩)
    (cW : (⟨2, ![K, N]⟩ : Shape).ShapeCasts ⟨2, ![K, N]⟩) (cB : (⟨2, ![1, N]⟩ : Shape).ShapeCasts ⟨2, ![1, N]⟩)
    (bB : (⟨2, ![1, N]⟩ : Shape).Broadcasts ⟨2, ![M, N]⟩) (hb : FTy.bf16.bits < FTy.f32.bits)
    (v0 : FVec Ideal ⟨2, ![M, K]⟩ .f32) (v2 : FVec Ideal ⟨2, ![M, 1]⟩ .f32) (v7 : FVec Ideal ⟨2, ![M, K]⟩ .f32)
    (v10 v13 v16 v19 : FVec Ideal ⟨2, ![K, N]⟩ .f32) (v23 v30 : FVec Ideal ⟨2, ![1, N]⟩ .f32) :
    maximumf (mulf (broadcast ⟨2, ![M, N]⟩ (Scalar.ofBits (F := Ideal) .f32 0x3F000000#32))
        (addf
          (addf
            (addf (matmul (F := Ideal) D none
                (truncf .bf16 (mulf (shapeCast ⟨2, ![M, K]⟩ v0 cA) (broadcastTo ⟨2, ![M, K]⟩ (shapeCast ⟨2, ![M, 1]⟩ v2 cS) bS)) hb)
                (truncf .bf16 (shapeCast ⟨2, ![K, N]⟩ v10 cW) hb) (constant ⟨2, ![M, N]⟩ .f32 0x00000000#32))
              (broadcastTo ⟨2, ![M, N]⟩ (shapeCast ⟨2, ![1, N]⟩ v23 cB) bB))
            (matmul (F := Ideal) D none (truncf .bf16 (shapeCast ⟨2, ![M, K]⟩ v7 cA) hb)
              (truncf .bf16 (shapeCast ⟨2, ![K, N]⟩ v13 cW) hb) (constant ⟨2, ![M, N]⟩ .f32 0x00000000#32)))
          (addf
            (addf (matmul (F := Ideal) D none (truncf .bf16 (shapeCast ⟨2, ![M, K]⟩ v7 cA) hb)
                (truncf .bf16 (shapeCast ⟨2, ![K, N]⟩ v16 cW) hb) (constant ⟨2, ![M, N]⟩ .f32 0x00000000#32))
              (broadcastTo ⟨2, ![M, N]⟩ (shapeCast ⟨2, ![1, N]⟩ v30 cB) bB))
            (matmul (F := Ideal) D none (truncf .bf16 (shapeCast ⟨2, ![M, K]⟩ v7 cA) hb)
              (truncf .bf16 (shapeCast ⟨2, ![K, N]⟩ v19 cW) hb) (constant ⟨2, ![M, N]⟩ .f32 0x00000000#32)))))
        (broadcast ⟨2, ![M, N]⟩ (Scalar.ofBits (F := Ideal) .f32 0x00000000#32))
      = layer v0 v2 v7 v10 v23 v13 v16 v30 v19 := by
  simp only [shapeCast_self]
  rw [matmul_zero_eq_mm D h1 h2 h3 h4 h5 h6, matmul_zero_eq_mm D h1 h2 h3 h4 h5 h6,
    matmul_zero_eq_mm D h1 h2 h3 h4 h5 h6, matmul_zero_eq_mm D h1 h2 h3 h4 h5 h6]
  funext i
  obtain ⟨p, q, rfl⟩ : ∃ (p : Fin M) (q : Fin N), i = ix2 p q := ⟨i 0, i 1, eq_ix2 i⟩
  show max (Ideal.ofBits .f32 0x3F000000#32
      * (((mm (fun j => v0 j * broadcastTo ⟨2, ![M, K]⟩ v2 bS j) v10 (ix2 p q) + broadcastTo ⟨2, ![M, N]⟩ v23 bB (ix2 p q))
          + mm v7 v13 (ix2 p q))
        + ((mm v7 v16 (ix2 p q) + broadcastTo ⟨2, ![M, N]⟩ v30 bB (ix2 p q)) + mm v7 v19 (ix2 p q))))
      (Ideal.ofBits .f32 0x00000000#32) = _
  rw [broadcastTo_1b_ab_apply, broadcastTo_1b_ab_apply, Ideal.ofBits_zero_f32, layer_apply, mm_apply, mm_apply, mm_apply,
    mm_apply]
  simp only [Cert.RowBlocks.broadcastTo_col_apply]

/-- The same spelling with the feature block used as loaded, without its same-shape cast: same-shape casts, the factor column broadcast along the rows and multiplied in, every
    matrix-unit operand narrowed to bf16 (the identity on the extended reals), four products into zero accumulators,
    the bias rows broadcast along the rows, the half as a splat, the maximum with a zero splat. -/
theorem vecLayer' {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (cA : (⟨2, ![M, K]⟩ : Shape).ShapeCasts ⟨2, ![M, K]⟩) (cS : (⟨2, ![M, 1]⟩ : Shape).ShapeCasts ⟨2, ![M, 1]⟩)
    (bS : (⟨2, ![M, 1]⟩ : Shape).Broadcasts ⟨2, ![M, K]⟩)
    (cW : (⟨2, ![K, N]⟩ : Shape).ShapeCasts ⟨2, ![K, N]⟩) (cB : (⟨2, ![1, N]⟩ : Shape).ShapeCasts ⟨2, ![1, N]⟩)
    (bB : (⟨2, ![1, N]⟩ : Shape).Broadcasts ⟨2, ![M, N]⟩) (hb : FTy.bf16.bits < FTy.f32.bits)
    (v0 : FVec Ideal ⟨2, ![M, K]⟩ .f32) (v2 : FVec Ideal ⟨2, ![M, 1]⟩ .f32) (v7 : FVec Ideal ⟨2, ![M, K]⟩ .f32)
    (v10 v13 v16 v19 : FVec Ideal ⟨2, ![K, N]⟩ .f32) (v23 v30 : FVec Ideal ⟨2, ![1, N]⟩ .f32) :
    maximumf (mulf (broadcast ⟨2, ![M, N]⟩ (Scalar.ofBits (F := Ideal) .f32 0x3F000000#32))
        (addf
          (addf
            (addf (matmul (F := Ideal) D none
                (truncf .bf16 (mulf (shapeCast ⟨2, ![M, K]⟩ v0 cA) (broadcastTo ⟨2, ![M, K]⟩ (shapeCast ⟨2, ![M, 1]⟩ v2 cS) bS)) hb)
                (truncf .bf16 (shapeCast ⟨2, ![K, N]⟩ v10 cW) hb) (constant ⟨2, ![M, N]⟩ .f32 0x00000000#32))
              (broadcastTo ⟨2, ![M, N]⟩ (shapeCast ⟨2, ![1, N]⟩ v23 cB) bB))
            (matmul (F := Ideal) D none (truncf .bf16 v7 hb)
              (truncf .bf16 (shapeCast ⟨2, ![K, N]⟩ v13 cW) hb) (constant ⟨2, ![M, N]⟩ .f32 0x00000000#32)))
          (addf
            (addf (matmul (F := Ideal) D none (truncf .bf16 v7 hb)
                (truncf .bf16 (shapeCast ⟨2, ![K, N]⟩ v16 cW) hb) (constant ⟨2, ![M, N]⟩ .f32 0x00000000#32))
              (broadcastTo ⟨2, ![M, N]⟩ (shapeCast ⟨2, ![1, N]⟩ v30 cB) bB))
            (matmul (F := Ideal) D none (truncf .bf16 v7 hb)
              (truncf .bf16 (shapeCast ⟨2, ![K, N]⟩ v19 cW) hb) (constant ⟨2, ![M, N]⟩ .f32 0x00000000#32)))))
        (broadcast ⟨2, ![M, N]⟩ (Scalar.ofBits (F := Ideal) .f32 0x00000000#32))
      = layer v0 v2 v7 v10 v23 v13 v16 v30 v19 := by
  simp only [shapeCast_self]
  rw [matmul_zero_eq_mm D h1 h2 h3 h4 h5 h6, matmul_zero_eq_mm D h1 h2 h3 h4 h5 h6,
    matmul_zero_eq_mm D h1 h2 h3 h4 h5 h6, matmul_zero_eq_mm D h1 h2 h3 h4 h5 h6]
  funext i
  obtain ⟨p, q, rfl⟩ : ∃ (p : Fin M) (q : Fin N), i = ix2 p q := ⟨i 0, i 1, eq_ix2 i⟩
  show max (Ideal.ofBits .f32 0x3F000000#32
      * (((mm (fun j => v0 j * broadcastTo ⟨2, ![M, K]⟩ v2 bS j) v10 (ix2 p q) + broadcastTo ⟨2, ![M, N]⟩ v23 bB (ix2 p q))
          + mm v7 v13 (ix2 p q))
        + ((mm v7 v16 (ix2 p q) + broadcastTo ⟨2, ![M, N]⟩ v30 bB (ix2 p q)) + mm v7 v19 (ix2 p q))))
      (Ideal.ofBits .f32 0x00000000#32) = _
  rw [broadcastTo_1b_ab_apply, broadcastTo_1b_ab_apply, Ideal.ofBits_zero_f32, layer_apply, mm_apply, mm_apply, mm_apply,
    mm_apply]
  simp only [Cert.RowBlocks.broadcastTo_col_apply]

/-- The host's spelling: the aggregate divided by the degree vector clamped below by one, broadcast to a column and
    along the rows; four dot products; each bias vector broadcast to one row and along the rows; the half and the zero
    as broadcast scalars. -/
theorem hostLayer {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (bz bz' : (⟨0, ![]⟩ : Shape).BroadcastsInDim ⟨2, ![M, N]⟩ ![])
    (bc1 : (⟨1, ![M]⟩ : Shape).BroadcastsInDim ⟨2, ![M, 1]⟩ ![0])
    (bc2 : (⟨2, ![M, 1]⟩ : Shape).BroadcastsInDim ⟨2, ![M, K]⟩ ![0, 1])
    (bb1 : (⟨1, ![N]⟩ : Shape).BroadcastsInDim ⟨2, ![1, N]⟩ ![1])
    (bb2 : (⟨2, ![1, N]⟩ : Shape).BroadcastsInDim ⟨2, ![M, N]⟩ ![0, 1])
    (bo : (⟨0, ![]⟩ : Shape).BroadcastsInDim ⟨1, ![M]⟩ ![])
    (A : FVec Ideal ⟨2, ![M, K]⟩ .f32) (cnt : FVec Ideal ⟨1, ![M]⟩ .f32) (X : FVec Ideal ⟨2, ![M, K]⟩ .f32)
    (wl wr wls wrs : FVec Ideal ⟨2, ![K, N]⟩ .f32) (bl bls : FVec Ideal ⟨1, ![N]⟩ .f32) :
    maximumf (mulf (broadcastInDim ⟨2, ![M, N]⟩ ![] bz (constant (F := Ideal) ⟨0, ![]⟩ .f32 0x3F000000#32))
        (addf
          (addf
            (addf (Host.dotGeneral (F := Ideal) D none
                (Host.divf (F := Ideal) A (broadcastInDim ⟨2, ![M, K]⟩ ![0, 1] bc2 (broadcastInDim ⟨2, ![M, 1]⟩ ![0] bc1
                  (maximumf cnt (broadcastInDim ⟨1, ![M]⟩ ![] bo (constant (F := Ideal) ⟨0, ![]⟩ .f32 0x3F800000#32))))))
                wl)
              (broadcastInDim ⟨2, ![M, N]⟩ ![0, 1] bb2 (broadcastInDim ⟨2, ![1, N]⟩ ![1] bb1 bl)))
            (Host.dotGeneral (F := Ideal) D none X wr))
          (addf
            (addf (Host.dotGeneral (F := Ideal) D none X wls)
              (broadcastInDim ⟨2, ![M, N]⟩ ![0, 1] bb2 (broadcastInDim ⟨2, ![1, N]⟩ ![1] bb1 bls)))
            (Host.dotGeneral (F := Ideal) D none X wrs))))
        (broadcastInDim ⟨2, ![M, N]⟩ ![] bz' (constant (F := Ideal) ⟨0, ![]⟩ .f32 0x00000000#32))
      = layer A (col (Host.divf (F := Ideal) (broadcastInDim ⟨1, ![M]⟩ ![] bo (constant (F := Ideal) ⟨0, ![]⟩ .f32 0x3F800000#32))
          (maximumf cnt (broadcastInDim ⟨1, ![M]⟩ ![] bo (constant (F := Ideal) ⟨0, ![]⟩ .f32 0x3F800000#32)))))
        X wl (row bl) wr wls (row bls) wrs := by
  have hone : ∀ i, broadcastInDim ⟨1, ![M]⟩ ![] bo (constant (F := Ideal) ⟨0, ![]⟩ .f32 0x3F800000#32) i = 1 := fun i => by
    rw [broadcastInDim_apply ![] bo _ i ix0 (fun a => a.elim0)]
    show Ideal.ofBits .f32 0x3F800000#32 = 1
    exact Ideal.ofBits_one_f32
  rw [Cert.Sage.hostDivRows A _ _ bc1 bc2 (fun i => by
        show max (cnt i) (broadcastInDim ⟨1, ![M]⟩ ![] bo (constant (F := Ideal) ⟨0, ![]⟩ .f32 0x3F800000#32) i) ≠ 0
        rw [hone]; exact Cert.Sage.max_one_ne_zero _) hone]
  rw [hostDot_eq_mm D h1 h2 h3 h4 h5 h6, hostDot_eq_mm D h1 h2 h3 h4 h5 h6, hostDot_eq_mm D h1 h2 h3 h4 h5 h6,
    hostDot_eq_mm D h1 h2 h3 h4 h5 h6, hostAddRow _ bl bb1 bb2, hostAddRow _ bls bb1 bb2]
  funext i
  show max (broadcastInDim ⟨2, ![M, N]⟩ ![] bz (constant (F := Ideal) ⟨0, ![]⟩ .f32 0x3F000000#32) i * _)
      (broadcastInDim ⟨2, ![M, N]⟩ ![] bz' (constant (F := Ideal) ⟨0, ![]⟩ .f32 0x00000000#32) i) = _
  rw [broadcastInDim_apply ![] bz _ i ix0 (fun a => a.elim0), broadcastInDim_apply ![] bz' _ i ix0 (fun a => a.elim0)]
  show max (Ideal.ofBits .f32 0x3F000000#32 * _) (Ideal.ofBits .f32 0x00000000#32) = _
  rw [Ideal.ofBits_zero_f32]
  rfl

/-- A dense layer with a one-row bias. -/
def lin {M K N : ℕ} (x : Mat M K) (w : Mat K N) (b : Mat 1 N) : Mat M N := addRow (mm x w) b

theorem lin_rows {M M' K N : ℕ} (x : Mat M K) (x' : Mat M' K) (w : Mat K N) (b : Mat 1 N) (p' : Fin M') (p : Fin M) (q : Fin N)
    (hx : ∀ k : Fin K, x' (ix2 p' k) = x (ix2 p k)) : lin x' w b (ix2 p' q) = lin x w b (ix2 p q) := by
  show mm x' w (ix2 p' q) + b (ix2 (0 : Fin 1) q) = mm x w (ix2 p q) + b (ix2 (0 : Fin 1) q)
  simp only [mm_apply, hx]

theorem lin_at {M M' K N : ℕ} (x : Mat M K) (x' : Mat M' K) (w : Mat K N) (b : Mat 1 N)
    (j : (⟨2, ![M', N]⟩ : Shape).Idx) (i : (⟨2, ![M, N]⟩ : Shape).Idx) (hq : (j 1).val = (i 1).val)
    (hx : ∀ k : Fin K, x' (ix2 (c0 j) k) = x (ix2 (c0 i) k)) : lin x' w b j = lin x w b i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  obtain rfl : q' = q := Fin.ext hq
  exact lin_rows x x' w b p' p q' hx

/-- The vector unit's spelling of the dense layer. -/
theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (cB : (⟨2, ![1, N]⟩ : Shape).ShapeCasts ⟨2, ![1, N]⟩) (bB : (⟨2, ![1, N]⟩ : Shape).Broadcasts ⟨2, ![M, N]⟩)
    (hb : FTy.bf16.bits < FTy.f32.bits)
    (v0 : FVec Ideal ⟨2, ![M, K]⟩ .f32) (v2 : FVec Ideal ⟨2, ![K, N]⟩ .f32) (v5 : FVec Ideal ⟨2, ![1, N]⟩ .f32) :
    addf (matmul (F := Ideal) D none (truncf .bf16 v0 hb) (truncf .bf16 v2 hb) (constant ⟨2, ![M, N]⟩ .f32 0x00000000#32))
        (broadcastTo ⟨2, ![M, N]⟩ (shapeCast ⟨2, ![1, N]⟩ v5 cB) bB) = lin v0 v2 v5 := by
  rw [shapeCast_self, matmul_zero_eq_mm D h1 h2 h3 h4 h5 h6, vecAddRow]
  rfl

/-- The host's spelling of the dense layer. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (bb1 : (⟨1, ![N]⟩ : Shape).BroadcastsInDim ⟨2, ![1, N]⟩ ![1])
    (bb2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) :
    addf (Host.dotGeneral (F := Ideal) D none x w)
        (broadcastInDim ⟨2, ![M, N]⟩ ![0, 1] bb2 (broadcastInDim ⟨2, ![1, N]⟩ ![1] bb1 b)) = lin x w (row b) := by
  rw [hostDot_eq_mm D h1 h2 h3 h4 h5 h6, hostAddRow _ b bb1 bb2]
  rfl

end Cert.Hetero

end
-- ==== Proof.Reg0.lean ====
/-
  Region 0 of the kernel program read as one whole-array function: the item features times the projection weights plus
  a one-row bias.

  The feature array is cut into blocks of 10000 rows that move with the grid point; the weights and the bias row are one
  block each.  An entry of the dense layer depends on one row of the features, so what a point writes back is the block
  of rows of the dense layer of the WHOLE arrays, and the five written blocks tile the result array.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz0 : (![0, 0] : Fin 2 → Nat) = fun _ => 0 := funext fun a => by fin_cases a <;> rfl

/-- The body's result block is the dense layer of its three input blocks. -/
theorem body0 (x0 : Vec Ideal S10000x256 .f32) (x1 : Vec Ideal S256x128 .f32) (x2 : Vec Ideal S1x128 .f32) :
    out0_3 (F := Ideal) x0 x1 x2 = Cert.Hetero.lin (M := 10000) (K := 256) (N := 128) x0 x1 x2 := by
  unfold out0_3
  rw [View.canon_unit_zero hz0]
  simp only [View.ld_unit_zero (S := S10000x256) hz0, View.ld_unit_zero (S := S256x128) hz0, View.ld_unit_zero (S := S1x128) hz0]
  unfold k0_pay1
  exact Cert.Hetero.vecLin (M := 10000) (K := 256) (N := 128) dot_S10000x256_S256x128_S10000x128_1_0_0_1_n_n rfl rfl rfl rfl rfl rfl _ _ _ x0 x1 x2

theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) < 5 :=
  (by decide +kernel : ∀ t : Fin grid0.N, _)

theorem onto0 : ∀ q0 : Fin 5, ∃ t : Fin cfg0.N, win0_3.index t (0 : Fin 2) = q0.val :=
  (by decide +kernel : ∀ q0 : Fin 5, ∃ t : Fin grid0.N, win0_3.index t (0 : Fin 2) = q0.val)

theorem wblk0 (c : Dev nD) (t : Fin cfg0.N) :
    (iblk0 V c 1 t : S256x128.Idx → EReal) = (V c main_arg3 : S256x128.Idx → EReal)
    ∧ (iblk0 V c 2 t : S1x128.Idx → EReal) = (V c main_v0 : S1x128.Idx → EReal) := by
  obtain ⟨-, -, e10, e11, e20, e21, -, -⟩ := idx0 t
  refine ⟨?_, ?_⟩ <;> funext y <;> unfold iblk0 <;> rw [View.read_apply]
  · show V c main_arg3 _ = V c main_arg3 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · show V c main_v0 _ = V c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

theorem rblk0 (c : Dev nD) (t : Fin cfg0.N) (r : Fin 10000) (i0 : Fin 50000)
    (hi : i0.val = win0_3.index t (0 : Fin 2) * 10000 + r.val) :
    ∀ k : Fin 256, (iblk0 V c 0 t : S10000x256.Idx → EReal) (ix2 r k) = (V c main_arg0 : S50000x256.Idx → EReal) (ix2 i0 k) := by
  obtain ⟨e00, e01, -, -, -, -, -, -⟩ := idx0 t
  intro k
  unfold iblk0
  rw [View.read_apply]
  show V c main_arg0 _ = V c main_arg0 (ix2 i0 k)
  refine congrArg _ (funext fun a => Fin.ext ?_)
  match a with
  | ⟨0, _⟩ => show win0_0.index t (0 : Fin 2) * 10000 + 1 * r.val = i0.val; omega
  | ⟨1, _⟩ => show win0_0.index t (1 : Fin 2) * 256 + 1 * k.val = k.val; omega

/-- What point `t` writes back is block `t` of the dense layer of the arrays the region found. -/
theorem flushed0 (c : Dev nD) (t : Fin cfg0.N) :
    (dat0 V c).flushed 3 t = ((cfg0.win 3).blk t).view.read (Elt Ideal)
      (Cert.Hetero.lin (M := 50000) (K := 256) (N := 128) (V c main_arg0) (V c main_arg3) (V c main_v0)) := by
  show (cfg0.win 3).cut (grid0.coords t) ((dat0 V c).after 3 t) = _
  rw [after0_3, body0]
  obtain ⟨w1, w2⟩ := wblk0 V c t
  rw [w1, w2]
  obtain ⟨-, -, -, -, -, -, e31, e3lt⟩ := idx0 t
  funext j
  rw [View.read_apply]
  have hj0 : (j 0).val < 10000 := (j 0).isLt
  have hj1 : (j 1).val < 128 := (j 1).isLt
  have hi0 : win0_3.index t (0 : Fin 2) * 10000 + (j 0).val < 50000 := by omega
  have hx := rblk0 V c t ⟨(j 0).val, hj0⟩ ⟨win0_3.index t (0 : Fin 2) * 10000 + (j 0).val, hi0⟩ rfl
  have hemb0 : ((((cfg0.win 3).blk t).view.emb j) 0).val = win0_3.index t (0 : Fin 2) * 10000 + (j 0).val := by
    show win0_3.index t (0 : Fin 2) * 10000 + 1 * (j 0).val = _; omega
  have hemb1 : ((((cfg0.win 3).blk t).view.emb j) 1).val = (j 1).val := by
    show win0_3.index t (1 : Fin 2) * 128 + 1 * (j 1).val = _; omega
  refine Cert.Hetero.lin_at (M := 50000) (M' := 10000) (K := 256) (N := 128) (V c main_arg0) (iblk0 V c 0 t) (V c main_arg3) (V c main_v0) j (((cfg0.win 3).blk t).view.emb j) hemb1.symm ?_
  intro k
  refine (hx k).trans (congrArg _ (funext fun a => Fin.ext ?_))
  match a with
  | ⟨0, _⟩ => exact hemb0.symm
  | ⟨1, _⟩ => rfl

theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- THE ARRAY after the region: the dense layer of the arrays the region found. -/
theorem final0 (c : Dev nD) : (dat0 V c).arrAt 3 cfg0.N = Cert.Hetero.lin (M := 50000) (K := 256) (N := 128) (V c main_arg0) (V c main_arg3) (V c main_v0) :=
  (dat0 V c).arrAt_eq_of_cover 3 _ (fun t _ => flushed0 V c t) fun i => by
    have hi0 : (i 0).val < 50000 := (i 0).isLt
    have hi1 : (i 1).val < 128 := (i 1).isLt
    obtain ⟨t, ht⟩ := onto0 ⟨(i 0).val / 10000, by omega⟩
    have ht' : win0_3.index t (0 : Fin 2) = (i 0).val / 10000 := ht
    obtain ⟨-, -, -, -, -, -, e31, -⟩ := idx0 t
    refine ⟨t, flush0_3 t, ?_⟩
    rw [mem_blk0]
    intro a
    match a with
    | ⟨0, _⟩ => show win0_3.index t (0 : Fin 2) * 10000 ≤ (i 0).val ∧ (i 0).val < win0_3.index t (0 : Fin 2) * 10000 + 10000; omega
    | ⟨1, _⟩ => show win0_3.index t (1 : Fin 2) * 128 ≤ (i 1).val ∧ (i 1).val < win0_3.index t (1 : Fin 2) * 128 + 128; omega

end Cert.KernelIdeal.Val

end
-- ==== Proof.Reg1.lean ====
/-
  Region 1 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz1 : (![0, 0] : Fin 2 → Nat) = fun _ => 0 := funext fun a => by fin_cases a <;> rfl

/-- The body's result block is the layer of its nine input blocks. -/
theorem body1 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out1_9 (F := Ideal) x0 x1 x2 x3 x4 x5 x6 x7 x8 = Cert.Hetero.layer (M := 10000) (K := 128) (N := 128) x0 x1 x2 x3 x4 x5 x6 x7 x8 := by
  unfold out1_9
  rw [View.canon_unit_zero hz1]
  simp only [View.ld_unit_zero (S := S10000x128) hz1, View.ld_unit_zero (S := S10000x1) hz1,
    View.ld_unit_zero (S := S128x128) hz1, View.ld_unit_zero (S := S1x128) hz1]
  unfold k1_pay1 k1_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx1 : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 2) = 0 ∧ win1_9.index t (0 : Fin 2) < 5 :=
  (by decide +kernel : ∀ t : Fin grid1.N, _)

/-- Every block of rows is some point's. -/
theorem onto1 : ∀ q0 : Fin 5, ∃ t : Fin cfg1.N, win1_9.index t (0 : Fin 2) = q0.val :=
  (by decide +kernel : ∀ q0 : Fin 5, ∃ t : Fin grid1.N, win1_9.index t (0 : Fin 2) = q0.val)

/-- A whole-array window's block at any point is the array itself. -/
theorem wblk1 (c : Dev nD) (t : Fin cfg1.N) :
    (iblk1 V c 3 t : S128x128.Idx → EReal) = (V c main_v86 : S128x128.Idx → EReal)
    ∧ (iblk1 V c 4 t : S1x128.Idx → EReal) = (V c main_v97 : S1x128.Idx → EReal)
    ∧ (iblk1 V c 5 t : S128x128.Idx → EReal) = (V c main_v90 : S128x128.Idx → EReal)
    ∧ (iblk1 V c 6 t : S128x128.Idx → EReal) = (V c main_v92 : S128x128.Idx → EReal)
    ∧ (iblk1 V c 7 t : S1x128.Idx → EReal) = (V c main_v98 : S1x128.Idx → EReal)
    ∧ (iblk1 V c 8 t : S128x128.Idx → EReal) = (V c main_v96 : S128x128.Idx → EReal) := by
  obtain ⟨-, -, -, -, -, -, e30, e31, e40, e41, e50, e51, e60, e61, e70, e71, e80, e81, -, -⟩ := idx1 t
  refine ⟨?_, ?_, ?_, ?_, ?_, ?_⟩ <;> funext y <;> unfold iblk1 <;> rw [View.read_apply]
  · show V c main_v86 _ = V c main_v86 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show V c main_v97 _ = V c main_v97 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show V c main_v90 _ = V c main_v90 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  · show V c main_v92 _ = V c main_v92 y
    refine congrArg _ (funext fun a => Fin.ext ?_)
    match a with
    | ⟨0, _⟩ => show win1_6.index t (0 : Fin 2) * 128 + 1 * (y 0).val = (y 0).val; omega
    | ⟨1, _⟩ => show win1_6.index t (1 : Fin 2) * 128 + 1 * (y 1).val = (y 1).val; omega
  · show V c main_v98 _ = V c main_v98 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 128 + 1 * (y 1).val = (y 1).val; omega
  · show V c main_v96 _ = V c main_v96 y
    refine congrArg _ (funext fun a => Fin.ext ?_)
    match a with
    | ⟨0, _⟩ => show win1_8.index t (0 : Fin 2) * 128 + 1 * (y 0).val = (y 0).val; omega
    | ⟨1, _⟩ => show win1_8.index t (1 : Fin 2) * 128 + 1 * (y 1).val = (y 1).val; omega

/-- A row-blocked window's block at point `t`, read at row `r` of the block, is the array at row
    `(block index of t) · 10000 + r`. -/
theorem rblk1 (c : Dev nD) (t : Fin cfg1.N) (r : Fin 10000) (i0 : Fin 50000)
    (hi : i0.val = win1_9.index t (0 : Fin 2) * 10000 + r.val) :
    (∀ k : Fin 128, (iblk1 V c 0 t : S10000x128.Idx → EReal) (ix2 r k) = (V c main_v70 : S50000x128.Idx → EReal) (ix2 i0 k))
    ∧ (iblk1 V c 1 t : S10000x1.Idx → EReal) (ix2 r (0 : Fin 1)) = (V c main_v12 : S50000x1.Idx → EReal) (ix2 i0 (0 : Fin 1))
    ∧ (∀ k : Fin 128, (iblk1 V c 2 t : S10000x128.Idx → EReal) (ix2 r k) = (V c main_v1 : S50000x128.Idx → EReal) (ix2 i0 k)) := by
  obtain ⟨e00, e01, e10, e11, e20, e21, -, -, -, -, -, -, -, -, -, -, -, -, -, -⟩ := idx1 t
  refine ⟨fun k => ?_, ?_, fun k => ?_⟩ <;> unfold iblk1 <;> rw [View.read_apply]
  · show V c main_v70 _ = V c main_v70 (ix2 i0 k)
    refine congrArg _ (funext fun a => Fin.ext ?_)
    match a with
    | ⟨0, _⟩ => show win1_0.index t (0 : Fin 2) * 10000 + 1 * r.val = i0.val; omega
    | ⟨1, _⟩ => show win1_0.index t (1 : Fin 2) * 128 + 1 * k.val = k.val; omega
  · show V c main_v12 _ = V c main_v12 (ix2 i0 (0 : Fin 1))
    refine congrArg _ (funext fun a => Fin.ext ?_)
    match a with
    | ⟨0, _⟩ => show win1_1.index t (0 : Fin 2) * 10000 + 1 * r.val = i0.val; omega
    | ⟨1, _⟩ => show win1_1.index t (1 : Fin 2) * 1 + 1 * 0 = 0; omega
  · show V c main_v1 _ = V c main_v1 (ix2 i0 k)
    refine congrArg _ (funext fun a => Fin.ext ?_)
    match a with
    | ⟨0, _⟩ => show win1_2.index t (0 : Fin 2) * 10000 + 1 * r.val = i0.val; omega
    | ⟨1, _⟩ => show win1_2.index t (1 : Fin 2) * 128 + 1 * k.val = k.val; omega

/-- What point `t` writes back is block `t` of the layer of the arrays the region found. -/
theorem flushed1 (c : Dev nD) (t : Fin cfg1.N) :
    (dat1 V c).flushed 9 t = ((cfg1.win 9).blk t).view.read (Elt Ideal)
      (Cert.Hetero.layer (M := 50000) (K := 128) (N := 128) (V c main_v70) (V c main_v12) (V c main_v1) (V c main_v86) (V c main_v97) (V c main_v90) (V c main_v92) (V c main_v98) (V c main_v96)) := by
  show (cfg1.win 9).cut (grid1.coords t) ((dat1 V c).after 9 t) = _
  rw [after1_9, body1]
  obtain ⟨w3, w4, w5, w6, w7, w8⟩ := wblk1 V c t
  rw [w3, w4, w5, w6, w7, w8]
  obtain ⟨-, -, -, -, -, -, -, -, -, -, -, -, -, -, -, -, -, -, e91, e9lt⟩ := idx1 t
  funext j
  rw [View.read_apply]
  have hj0 : (j 0).val < 10000 := (j 0).isLt
  have hj1 : (j 1).val < 128 := (j 1).isLt
  have hi0 : win1_9.index t (0 : Fin 2) * 10000 + (j 0).val < 50000 := by omega
  obtain ⟨ha, hs, hx⟩ := rblk1 V c t ⟨(j 0).val, hj0⟩ ⟨win1_9.index t (0 : Fin 2) * 10000 + (j 0).val, hi0⟩ rfl
  have hemb0 : ((((cfg1.win 9).blk t).view.emb j) 0).val = win1_9.index t (0 : Fin 2) * 10000 + (j 0).val := by
    show win1_9.index t (0 : Fin 2) * 10000 + 1 * (j 0).val = _; omega
  have hemb1 : ((((cfg1.win 9).blk t).view.emb j) 1).val = (j 1).val := by
    show win1_9.index t (1 : Fin 2) * 128 + 1 * (j 1).val = _; omega
  refine Cert.Hetero.layer_at (M := 50000) (M' := 10000) (K := 128) (N := 128) (V c main_v70) (V c main_v12) (V c main_v1) (iblk1 V c 0 t) (iblk1 V c 1 t) (iblk1 V c 2 t)
    (V c main_v86) (V c main_v97) (V c main_v90) (V c main_v92) (V c main_v98) (V c main_v96) j (((cfg1.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk1 (t : Fin cfg1.N) (i : S50000x128.Idx) :
    i ∈ ((cfg1.win 9).blk t).view.set ↔ ∀ a : Fin 2, win1_9.index t a * S10000x128.size a ≤ (i a).val ∧ (i a).val < win1_9.index t a * S10000x128.size a + S10000x128.size a := by
  show i ∈ ((View.whole main_v99).slice (win1_9.rect t)).set ↔ _
  rw [View.set_slice_whole, Rect.mem_set_unit]
  exact Iff.rfl

/-- THE ARRAY after the region: the layer of the arrays the region found. -/
theorem final1 (c : Dev nD) : (dat1 V c).arrAt 9 cfg1.N = Cert.Hetero.layer (M := 50000) (K := 128) (N := 128) (V c main_v70) (V c main_v12) (V c main_v1) (V c main_v86) (V c main_v97) (V c main_v90) (V c main_v92) (V c main_v98) (V c main_v96) :=
  (dat1 V c).arrAt_eq_of_cover 9 _ (fun t _ => flushed1 V c t) fun i => by
    have hi0 : (i 0).val < 50000 := (i 0).isLt
    have hi1 : (i 1).val < 128 := (i 1).isLt
    obtain ⟨t, ht⟩ := onto1 ⟨(i 0).val / 10000, by omega⟩
    have ht' : win1_9.index t (0 : Fin 2) = (i 0).val / 10000 := ht
    obtain ⟨-, -, -, -, -, -, -, -, -, -, -, -, -, -, -, -, -, -, e91, -⟩ := idx1 t
    refine ⟨t, flush1_9 t, ?_⟩
    rw [mem_blk1]
    intro a
    match a with
    | ⟨0, _⟩ => show win1_9.index t (0 : Fin 2) * 10000 ≤ (i 0).val ∧ (i 0).val < win1_9.index t (0 : Fin 2) * 10000 + 10000; omega
    | ⟨1, _⟩ => show win1_9.index t (1 : Fin 2) * 128 ≤ (i 1).val ∧ (i 1).val < win1_9.index t (1 : Fin 2) * 128 + 128; omega

end Cert.KernelIdeal.Val

end
-- ==== Proof.Reg2.lean ====
/-
  Region 2 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 10 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz2 : (![0, 0] : Fin 2 → Nat) = fun _ => 0 := funext fun a => by fin_cases a <;> rfl

/-- The body's result block is the layer of its nine input blocks. -/
theorem body2 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out2_9 (F := Ideal) x0 x1 x2 x3 x4 x5 x6 x7 x8 = Cert.Hetero.layer (M := 10000) (K := 128) (N := 128) x0 x1 x2 x3 x4 x5 x6 x7 x8 := by
  unfold out2_9
  rw [View.canon_unit_zero hz2]
  simp only [View.ld_unit_zero (S := S10000x128) hz2, View.ld_unit_zero (S := S10000x1) hz2,
    View.ld_unit_zero (S := S128x128) hz2, View.ld_unit_zero (S := S1x128) hz2]
  unfold k2_pay1 k2_pay2
  exact Cert.Hetero.vecLayer' (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx2 : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (1 : Fin 2) = 0 ∧ win2_9.index t (0 : Fin 2) < 10 :=
  (by decide +kernel : ∀ t : Fin grid2.N, _)

/-- Every block of rows is some point's. -/
theorem onto2 : ∀ q0 : Fin 10, ∃ t : Fin cfg2.N, win2_9.index t (0 : Fin 2) = q0.val :=
  (by decide +kernel : ∀ q0 : Fin 10, ∃ t : Fin grid2.N, win2_9.index t (0 : Fin 2) = q0.val)

/-- A whole-array window's block at any point is the array itself. -/
theorem wblk2 (c : Dev nD) (t : Fin cfg2.N) :
    (iblk2 V c 3 t : S128x128.Idx → EReal) = (V c main_v101 : S128x128.Idx → EReal)
    ∧ (iblk2 V c 4 t : S1x128.Idx → EReal) = (V c main_v112 : S1x128.Idx → EReal)
    ∧ (iblk2 V c 5 t : S128x128.Idx → EReal) = (V c main_v105 : S128x128.Idx → EReal)
    ∧ (iblk2 V c 6 t : S128x128.Idx → EReal) = (V c main_v107 : S128x128.Idx → EReal)
    ∧ (iblk2 V c 7 t : S1x128.Idx → EReal) = (V c main_v113 : S1x128.Idx → EReal)
    ∧ (iblk2 V c 8 t : S128x128.Idx → EReal) = (V c main_v111 : S128x128.Idx → EReal) := by
  obtain ⟨-, -, -, -, -, -, e30, e31, e40, e41, e50, e51, e60, e61, e70, e71, e80, e81, -, -⟩ := idx2 t
  refine ⟨?_, ?_, ?_, ?_, ?_, ?_⟩ <;> funext y <;> unfold iblk2 <;> rw [View.read_apply]
  · show V c main_v101 _ = V c main_v101 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · show V c main_v112 _ = V c main_v112 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · show V c main_v105 _ = V c main_v105 y
    refine congrArg _ (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  · show V c main_v107 _ = V c main_v107 y
    refine congrArg _ (funext fun a => Fin.ext ?_)
    match a with
    | ⟨0, _⟩ => show win2_6.index t (0 : Fin 2) * 128 + 1 * (y 0).val = (y 0).val; omega
    | ⟨1, _⟩ => show win2_6.index t (1 : Fin 2) * 128 + 1 * (y 1).val = (y 1).val; omega
  · show V c main_v113 _ = V c main_v113 y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 128 + 1 * (y 1).val = (y 1).val; omega
  · show V c main_v111 _ = V c main_v111 y
    refine congrArg _ (funext fun a => Fin.ext ?_)
    match a with
    | ⟨0, _⟩ => show win2_8.index t (0 : Fin 2) * 128 + 1 * (y 0).val = (y 0).val; omega
    | ⟨1, _⟩ => show win2_8.index t (1 : Fin 2) * 128 + 1 * (y 1).val = (y 1).val; omega

/-- A row-blocked window's block at point `t`, read at row `r` of the block, is the array at row
    `(block index of t) · 10000 + r`. -/
theorem rblk2 (c : Dev nD) (t : Fin cfg2.N) (r : Fin 10000) (i0 : Fin 100000)
    (hi : i0.val = win2_9.index t (0 : Fin 2) * 10000 + r.val) :
    (∀ k : Fin 128, (iblk2 V c 0 t : S10000x128.Idx → EReal) (ix2 r k) = (V c main_v84 : S100000x128.Idx → EReal) (ix2 i0 k))
    ∧ (iblk2 V c 1 t : S10000x1.Idx → EReal) (ix2 r (0 : Fin 1)) = (V c main_v23 : S100000x1.Idx → EReal) (ix2 i0 (0 : Fin 1))
    ∧ (∀ k : Fin 128, (iblk2 V c 2 t : S10000x128.Idx → EReal) (ix2 r k) = (V c main_arg1 : S100000x128.Idx → EReal) (ix2 i0 k)) := by
  obtain ⟨e00, e01, e10, e11, e20, e21, -, -, -, -, -, -, -, -, -, -, -, -, -, -⟩ := idx2 t
  refine ⟨fun k => ?_, ?_, fun k => ?_⟩ <;> unfold iblk2 <;> rw [View.read_apply]
  · show V c main_v84 _ = V c main_v84 (ix2 i0 k)
    refine congrArg _ (funext fun a => Fin.ext ?_)
    match a with
    | ⟨0, _⟩ => show win2_0.index t (0 : Fin 2) * 10000 + 1 * r.val = i0.val; omega
    | ⟨1, _⟩ => show win2_0.index t (1 : Fin 2) * 128 + 1 * k.val = k.val; omega
  · show V c main_v23 _ = V c main_v23 (ix2 i0 (0 : Fin 1))
    refine congrArg _ (funext fun a => Fin.ext ?_)
    match a with
    | ⟨0, _⟩ => show win2_1.index t (0 : Fin 2) * 10000 + 1 * r.val = i0.val; omega
    | ⟨1, _⟩ => show win2_1.index t (1 : Fin 2) * 1 + 1 * 0 = 0; omega
  · show V c main_arg1 _ = V c main_arg1 (ix2 i0 k)
    refine congrArg _ (funext fun a => Fin.ext ?_)
    match a with
    | ⟨0, _⟩ => show win2_2.index t (0 : Fin 2) * 10000 + 1 * r.val = i0.val; omega
    | ⟨1, _⟩ => show win2_2.index t (1 : Fin 2) * 128 + 1 * k.val = k.val; omega

/-- What point `t` writes back is block `t` of the layer of the arrays the region found. -/
theorem flushed2 (c : Dev nD) (t : Fin cfg2.N) :
    (dat2 V c).flushed 9 t = ((cfg2.win 9).blk t).view.read (Elt Ideal)
      (Cert.Hetero.layer (M := 100000) (K := 128) (N := 128) (V c main_v84) (V c main_v23) (V c main_arg1) (V c main_v101) (V c main_v112) (V c main_v105) (V c main_v107) (V c main_v113) (V c main_v111)) := by
  show (cfg2.win 9).cut (grid2.coords t) ((dat2 V c).after 9 t) = _
  rw [after2_9, body2]
  obtain ⟨w3, w4, w5, w6, w7, w8⟩ := wblk2 V c t
  rw [w3, w4, w5, w6, w7, w8]
  obtain ⟨-, -, -, -, -, -, -, -, -, -, -, -, -, -, -, -, -, -, e91, e9lt⟩ := idx2 t
  funext j
  rw [View.read_apply]
  have hj0 : (j 0).val < 10000 := (j 0).isLt
  have hj1 : (j 1).val < 128 := (j 1).isLt
  have hi0 : win2_9.index t (0 : Fin 2) * 10000 + (j 0).val < 100000 := by omega
  obtain ⟨ha, hs, hx⟩ := rblk2 V c t ⟨(j 0).val, hj0⟩ ⟨win2_9.index t (0 : Fin 2) * 10000 + (j 0).val, hi0⟩ rfl
  have hemb0 : ((((cfg2.win 9).blk t).view.emb j) 0).val = win2_9.index t (0 : Fin 2) * 10000 + (j 0).val := by
    show win2_9.index t (0 : Fin 2) * 10000 + 1 * (j 0).val = _; omega
  have hemb1 : ((((cfg2.win 9).blk t).view.emb j) 1).val = (j 1).val := by
    show win2_9.index t (1 : Fin 2) * 128 + 1 * (j 1).val = _; omega
  refine Cert.Hetero.layer_at (M := 100000) (M' := 10000) (K := 128) (N := 128) (V c main_v84) (V c main_v23) (V c main_arg1) (iblk2 V c 0 t) (iblk2 V c 1 t) (iblk2 V c 2 t)
    (V c main_v101) (V c main_v112) (V c main_v105) (V c main_v107) (V c main_v113) (V c main_v111) j (((cfg2.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk2 (t : Fin cfg2.N) (i : S100000x128.Idx) :
    i ∈ ((cfg2.win 9).blk t).view.set ↔ ∀ a : Fin 2, win2_9.index t a * S10000x128.size a ≤ (i a).val ∧ (i a).val < win2_9.index t a * S10000x128.size a + S10000x128.size a := by
  show i ∈ ((View.whole main_v114).slice (win2_9.rect t)).set ↔ _
  rw [View.set_slice_whole, Rect.mem_set_unit]
  exact Iff.rfl

/-- THE ARRAY after the region: the layer of the arrays the region found. -/
theorem final2 (c : Dev nD) : (dat2 V c).arrAt 9 cfg2.N = Cert.Hetero.layer (M := 100000) (K := 128) (N := 128) (V c main_v84) (V c main_v23) (V c main_arg1) (V c main_v101) (V c main_v112) (V c main_v105) (V c main_v107) (V c main_v113) (V c main_v111) :=
  (dat2 V c).arrAt_eq_of_cover 9 _ (fun t _ => flushed2 V c t) fun i => by
    have hi0 : (i 0).val < 100000 := (i 0).isLt
    have hi1 : (i 1).val < 128 := (i 1).isLt
    obtain ⟨t, ht⟩ := onto2 ⟨(i 0).val / 10000, by omega⟩
    have ht' : win2_9.index t (0 : Fin 2) = (i 0).val / 10000 := ht
    obtain ⟨-, -, -, -, -, -, -, -, -, -, -, -, -, -, -, -, -, -, e91, -⟩ := idx2 t
    refine ⟨t, flush2_9 t, ?_⟩
    rw [mem_blk2]
    intro a
    match a with
    | ⟨0, _⟩ => show win2_9.index t (0 : Fin 2) * 10000 ≤ (i 0).val ∧ (i 0).val < win2_9.index t (0 : Fin 2) * 10000 + 10000; omega
    | ⟨1, _⟩ => show win2_9.index t (1 : Fin 2) * 128 ≤ (i 1).val ∧ (i 1).val < win2_9.index t (1 : Fin 2) * 128 + 128; omega

end Cert.KernelIdeal.Val

end
-- ==== Proof.Reg3.lean ====
/-
  Region 3 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz3 : (![0, 0] : Fin 2 → Nat) = fun _ => 0 := funext fun a => by fin_cases a <;> rfl

/-- The body's result block is the layer of its nine input blocks. -/
theorem body3 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out3_9 (F := Ideal) x0 x1 x2 x3 x4 x5 x6 x7 x8 = Cert.Hetero.layer (M := 10000) (K := 128) (N := 128) x0 x1 x2 x3 x4 x5 x6 x7 x8 := by
  unfold out3_9
  rw [View.canon_unit_zero hz3]
  simp only [View.ld_unit_zero (S := S10000x128) hz3, View.ld_unit_zero (S := S10000x1) hz3,
    View.ld_unit_zero (S := S128x128) hz3, View.ld_unit_zero (S := S1x128) hz3]
  unfold k3_pay1 k3_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx3 : ∀ t : Fin cfg3.N,
    win3_0.index t (0 : Fin 2) = win3_9.index t (0 : Fin 2) ∧ win3_0.index t (1 : Fin 2) = 0
    ∧ win3_1.index t (0 : Fin 2) = win3_9.index t (0 : Fin 2) ∧ win3_1.index t (1 : Fin 2) = 0
    ∧ win3_2.index t (0 : Fin 2) = win3_9.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (1 : Fin 2) = 0 ∧ win3_9.index t (0 : Fin 2) < 5 :=
  (by decide +kernel : ∀ t : Fin grid3.N, _)

/-- Every block of rows is some point's. -/
theorem onto3 : ∀ q0 : Fin 5, ∃ t : Fin cfg3.N, win3_9.index t (0 : Fin 2) = q0.val :=
  (by decide +kernel : ∀ q0 : Fin 5, ∃ t : Fin grid3.N, win3_9.index t (0 : Fin 2) = q0.val)

/-- A whole-array window's block at any point is the array itself. -/
theorem wblk3 (c : Dev nD) (t : Fin cfg3.N) :
    (iblk3 V c 3 t : S128x128.Idx → EReal) = (V c main_v144 : S128x128.Idx → EReal)
    ∧ (iblk3 V c 4 t : S1x128.Idx → EReal) = (V c main_v155 : S1x128.Idx → EReal)
    ∧ (iblk3 V c 5 t : S128x128.Idx → EReal) = (V c main_v148 : S128x128.Idx → EReal)
    ∧ (iblk3 V c 6 t : S128x128.Idx → EReal) = (V c main_v150 : S128x128.Idx → EReal)
    ∧ (iblk3 V c 7 t : S1x128.Idx → EReal) = (V c main_v156 : S1x128.Idx → EReal)
    ∧ (iblk3 V c 8 t : S128x128.Idx → EReal) = (V c main_v154 : S128x128.Idx → EReal) := by
  obtain ⟨-, -, -, -, -, -, e30, e31, e40, e41, e50, e51, e60, e61, e70, e71, e80, e81, -, -⟩ := idx3 t
  refine ⟨?_, ?_, ?_, ?_, ?_, ?_⟩ <;> funext y <;> unfold iblk3 <;> rw [View.read_apply]
  · show V c main_v144 _ = V c main_v144 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  · show V c main_v155 _ = V c main_v155 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · show V c main_v148 _ = V c main_v148 y
    refine congrArg _ (funext fun a => Fin.ext ?_)
    match a with
    | ⟨0, _⟩ => show win3_5.index t (0 : Fin 2) * 128 + 1 * (y 0).val = (y 0).val; omega
    | ⟨1, _⟩ => show win3_5.index t (1 : Fin 2) * 128 + 1 * (y 1).val = (y 1).val; omega
  · show V c main_v150 _ = V c main_v150 y
    refine congrArg _ (funext fun a => Fin.ext ?_)
    match a with
    | ⟨0, _⟩ => show win3_6.index t (0 : Fin 2) * 128 + 1 * (y 0).val = (y 0).val; omega
    | ⟨1, _⟩ => show win3_6.index t (1 : Fin 2) * 128 + 1 * (y 1).val = (y 1).val; omega
  · show V c main_v156 _ = V c main_v156 y
    refine congrArg _ (funext fun a => Fin.ext ?_)
    match a with
    | ⟨0, _⟩ => show win3_7.index t (0 : Fin 2) * 1 + 1 * (y 0).val = (y 0).val; omega
    | ⟨1, _⟩ => show win3_7.index t (1 : Fin 2) * 128 + 1 * (y 1).val = (y 1).val; omega
  · show V c main_v154 _ = V c main_v154 y
    refine congrArg _ (funext fun a => Fin.ext ?_)
    match a with
    | ⟨0, _⟩ => show win3_8.index t (0 : Fin 2) * 128 + 1 * (y 0).val = (y 0).val; omega
    | ⟨1, _⟩ => show win3_8.index t (1 : Fin 2) * 128 + 1 * (y 1).val = (y 1).val; omega

/-- A row-blocked window's block at point `t`, read at row `r` of the block, is the array at row
    `(block index of t) · 10000 + r`. -/
theorem rblk3 (c : Dev nD) (t : Fin cfg3.N) (r : Fin 10000) (i0 : Fin 50000)
    (hi : i0.val = win3_9.index t (0 : Fin 2) * 10000 + r.val) :
    (∀ k : Fin 128, (iblk3 V c 0 t : S10000x128.Idx → EReal) (ix2 r k) = (V c main_v128 : S50000x128.Idx → EReal) (ix2 i0 k))
    ∧ (iblk3 V c 1 t : S10000x1.Idx → EReal) (ix2 r (0 : Fin 1)) = (V c main_v12 : S50000x1.Idx → EReal) (ix2 i0 (0 : Fin 1))
    ∧ (∀ k : Fin 128, (iblk3 V c 2 t : S10000x128.Idx → EReal) (ix2 r k) = (V c main_v99 : S50000x128.Idx → EReal) (ix2 i0 k)) := by
  obtain ⟨e00, e01, e10, e11, e20, e21, -, -, -, -, -, -, -, -, -, -, -, -, -, -⟩ := idx3 t
  refine ⟨fun k => ?_, ?_, fun k => ?_⟩ <;> unfold iblk3 <;> rw [View.read_apply]
  · show V c main_v128 _ = V c main_v128 (ix2 i0 k)
    refine congrArg _ (funext fun a => Fin.ext ?_)
    match a with
    | ⟨0, _⟩ => show win3_0.index t (0 : Fin 2) * 10000 + 1 * r.val = i0.val; omega
    | ⟨1, _⟩ => show win3_0.index t (1 : Fin 2) * 128 + 1 * k.val = k.val; omega
  · show V c main_v12 _ = V c main_v12 (ix2 i0 (0 : Fin 1))
    refine congrArg _ (funext fun a => Fin.ext ?_)
    match a with
    | ⟨0, _⟩ => show win3_1.index t (0 : Fin 2) * 10000 + 1 * r.val = i0.val; omega
    | ⟨1, _⟩ => show win3_1.index t (1 : Fin 2) * 1 + 1 * 0 = 0; omega
  · show V c main_v99 _ = V c main_v99 (ix2 i0 k)
    refine congrArg _ (funext fun a => Fin.ext ?_)
    match a with
    | ⟨0, _⟩ => show win3_2.index t (0 : Fin 2) * 10000 + 1 * r.val = i0.val; omega
    | ⟨1, _⟩ => show win3_2.index t (1 : Fin 2) * 128 + 1 * k.val = k.val; omega

/-- What point `t` writes back is block `t` of the layer of the arrays the region found. -/
theorem flushed3 (c : Dev nD) (t : Fin cfg3.N) :
    (dat3 V c).flushed 9 t = ((cfg3.win 9).blk t).view.read (Elt Ideal)
      (Cert.Hetero.layer (M := 50000) (K := 128) (N := 128) (V c main_v128) (V c main_v12) (V c main_v99) (V c main_v144) (V c main_v155) (V c main_v148) (V c main_v150) (V c main_v156) (V c main_v154)) := by
  show (cfg3.win 9).cut (grid3.coords t) ((dat3 V c).after 9 t) = _
  rw [after3_9, body3]
  obtain ⟨w3, w4, w5, w6, w7, w8⟩ := wblk3 V c t
  rw [w3, w4, w5, w6, w7, w8]
  obtain ⟨-, -, -, -, -, -, -, -, -, -, -, -, -, -, -, -, -, -, e91, e9lt⟩ := idx3 t
  funext j
  rw [View.read_apply]
  have hj0 : (j 0).val < 10000 := (j 0).isLt
  have hj1 : (j 1).val < 128 := (j 1).isLt
  have hi0 : win3_9.index t (0 : Fin 2) * 10000 + (j 0).val < 50000 := by omega
  obtain ⟨ha, hs, hx⟩ := rblk3 V c t ⟨(j 0).val, hj0⟩ ⟨win3_9.index t (0 : Fin 2) * 10000 + (j 0).val, hi0⟩ rfl
  have hemb0 : ((((cfg3.win 9).blk t).view.emb j) 0).val = win3_9.index t (0 : Fin 2) * 10000 + (j 0).val := by
    show win3_9.index t (0 : Fin 2) * 10000 + 1 * (j 0).val = _; omega
  have hemb1 : ((((cfg3.win 9).blk t).view.emb j) 1).val = (j 1).val := by
    show win3_9.index t (1 : Fin 2) * 128 + 1 * (j 1).val = _; omega
  refine Cert.Hetero.layer_at (M := 50000) (M' := 10000) (K := 128) (N := 128) (V c main_v128) (V c main_v12) (V c main_v99) (iblk3 V c 0 t) (iblk3 V c 1 t) (iblk3 V c 2 t)
    (V c main_v144) (V c main_v155) (V c main_v148) (V c main_v150) (V c main_v156) (V c main_v154) j (((cfg3.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk3 (t : Fin cfg3.N) (i : S50000x128.Idx) :
    i ∈ ((cfg3.win 9).blk t).view.set ↔ ∀ a : Fin 2, win3_9.index t a * S10000x128.size a ≤ (i a).val ∧ (i a).val < win3_9.index t a * S10000x128.size a + S10000x128.size a := by
  show i ∈ ((View.whole main_v157).slice (win3_9.rect t)).set ↔ _
  rw [View.set_slice_whole, Rect.mem_set_unit]
  exact Iff.rfl

/-- THE ARRAY after the region: the layer of the arrays the region found. -/
theorem final3 (c : Dev nD) : (dat3 V c).arrAt 9 cfg3.N = Cert.Hetero.layer (M := 50000) (K := 128) (N := 128) (V c main_v128) (V c main_v12) (V c main_v99) (V c main_v144) (V c main_v155) (V c main_v148) (V c main_v150) (V c main_v156) (V c main_v154) :=
  (dat3 V c).arrAt_eq_of_cover 9 _ (fun t _ => flushed3 V c t) fun i => by
    have hi0 : (i 0).val < 50000 := (i 0).isLt
    have hi1 : (i 1).val < 128 := (i 1).isLt
    obtain ⟨t, ht⟩ := onto3 ⟨(i 0).val / 10000, by omega⟩
    have ht' : win3_9.index t (0 : Fin 2) = (i 0).val / 10000 := ht
    obtain ⟨-, -, -, -, -, -, -, -, -, -, -, -, -, -, -, -, -, -, e91, -⟩ := idx3 t
    refine ⟨t, flush3_9 t, ?_⟩
    rw [mem_blk3]
    intro a
    match a with
    | ⟨0, _⟩ => show win3_9.index t (0 : Fin 2) * 10000 ≤ (i 0).val ∧ (i 0).val < win3_9.index t (0 : Fin 2) * 10000 + 10000; omega
    | ⟨1, _⟩ => show win3_9.index t (1 : Fin 2) * 128 ≤ (i 1).val ∧ (i 1).val < win3_9.index t (1 : Fin 2) * 128 + 128; omega

end Cert.KernelIdeal.Val

end
-- ==== Proof.Reg5.lean ====
/-
  Region 5 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz5 : (![0, 0] : Fin 2 → Nat) = fun _ => 0 := funext fun a => by fin_cases a <;> rfl

/-- The body's result block is the layer of its nine input blocks. -/
theorem body5 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out5_9 (F := Ideal) x0 x1 x2 x3 x4 x5 x6 x7 x8 = Cert.Hetero.layer (M := 10000) (K := 128) (N := 128) x0 x1 x2 x3 x4 x5 x6 x7 x8 := by
  unfold out5_9
  rw [View.canon_unit_zero hz5]
  simp only [View.ld_unit_zero (S := S10000x128) hz5, View.ld_unit_zero (S := S10000x1) hz5,
    View.ld_unit_zero (S := S128x128) hz5, View.ld_unit_zero (S := S1x128) hz5]
  unfold k5_pay1 k5_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx5 : ∀ t : Fin cfg5.N,
    win5_0.index t (0 : Fin 2) = win5_9.index t (0 : Fin 2) ∧ win5_0.index t (1 : Fin 2) = 0
    ∧ win5_1.index t (0 : Fin 2) = win5_9.index t (0 : Fin 2) ∧ win5_1.index t (1 : Fin 2) = 0
    ∧ win5_2.index t (0 : Fin 2) = win5_9.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (1 : Fin 2) = 0 ∧ win5_9.index t (0 : Fin 2) < 5 :=
  (by decide +kernel : ∀ t : Fin grid5.N, _)

/-- Every block of rows is some point's. -/
theorem onto5 : ∀ q0 : Fin 5, ∃ t : Fin cfg5.N, win5_9.index t (0 : Fin 2) = q0.val :=
  (by decide +kernel : ∀ q0 : Fin 5, ∃ t : Fin grid5.N, win5_9.index t (0 : Fin 2) = q0.val)

/-- A whole-array window's block at any point is the array itself. -/
theorem wblk5 (c : Dev nD) (t : Fin cfg5.N) :
    (iblk5 V c 3 t : S128x128.Idx → EReal) = (V c main_v188 : S128x128.Idx → EReal)
    ∧ (iblk5 V c 4 t : S1x128.Idx → EReal) = (V c main_v199 : S1x128.Idx → EReal)
    ∧ (iblk5 V c 5 t : S128x128.Idx → EReal) = (V c main_v192 : S128x128.Idx → EReal)
    ∧ (iblk5 V c 6 t : S128x128.Idx → EReal) = (V c main_v194 : S128x128.Idx → EReal)
    ∧ (iblk5 V c 7 t : S1x128.Idx → EReal) = (V c main_v200 : S1x128.Idx → EReal)
    ∧ (iblk5 V c 8 t : S128x128.Idx → EReal) = (V c main_v198 : S128x128.Idx → EReal) := by
  obtain ⟨-, -, -, -, -, -, e30, e31, e40, e41, e50, e51, e60, e61, e70, e71, e80, e81, -, -⟩ := idx5 t
  refine ⟨?_, ?_, ?_, ?_, ?_, ?_⟩ <;> funext y <;> unfold iblk5 <;> rw [View.read_apply]
  · show V c main_v188 _ = V c main_v188 y
    refine congrArg _ (funext fun a => Fin.ext ?_)
    match a with
    | ⟨0, _⟩ => show win5_3.index t (0 : Fin 2) * 128 + 1 * (y 0).val = (y 0).val; omega
    | ⟨1, _⟩ => show win5_3.index t (1 : Fin 2) * 128 + 1 * (y 1).val = (y 1).val; omega
  · show V c main_v199 _ = V c main_v199 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega
  · show V c main_v192 _ = V c main_v192 y
    refine congrArg _ (funext fun a => Fin.ext ?_)
    match a with
    | ⟨0, _⟩ => show win5_5.index t (0 : Fin 2) * 128 + 1 * (y 0).val = (y 0).val; omega
    | ⟨1, _⟩ => show win5_5.index t (1 : Fin 2) * 128 + 1 * (y 1).val = (y 1).val; omega
  · show V c main_v194 _ = V c main_v194 y
    refine congrArg _ (funext fun a => Fin.ext ?_)
    match a with
    | ⟨0, _⟩ => show win5_6.index t (0 : Fin 2) * 128 + 1 * (y 0).val = (y 0).val; omega
    | ⟨1, _⟩ => show win5_6.index t (1 : Fin 2) * 128 + 1 * (y 1).val = (y 1).val; omega
  · show V c main_v200 _ = V c main_v200 y
    refine congrArg _ (funext fun a => Fin.ext ?_)
    match a with
    | ⟨0, _⟩ => show win5_7.index t (0 : Fin 2) * 1 + 1 * (y 0).val = (y 0).val; omega
    | ⟨1, _⟩ => show win5_7.index t (1 : Fin 2) * 128 + 1 * (y 1).val = (y 1).val; omega
  · show V c main_v198 _ = V c main_v198 y
    refine congrArg _ (funext fun a => Fin.ext ?_)
    match a with
    | ⟨0, _⟩ => show win5_8.index t (0 : Fin 2) * 128 + 1 * (y 0).val = (y 0).val; omega
    | ⟨1, _⟩ => show win5_8.index t (1 : Fin 2) * 128 + 1 * (y 1).val = (y 1).val; omega

/-- A row-blocked window's block at point `t`, read at row `r` of the block, is the array at row
    `(block index of t) · 10000 + r`. -/
theorem rblk5 (c : Dev nD) (t : Fin cfg5.N) (r : Fin 10000) (i0 : Fin 50000)
    (hi : i0.val = win5_9.index t (0 : Fin 2) * 10000 + r.val) :
    (∀ k : Fin 128, (iblk5 V c 0 t : S10000x128.Idx → EReal) (ix2 r k) = (V c main_v186 : S50000x128.Idx → EReal) (ix2 i0 k))
    ∧ (iblk5 V c 1 t : S10000x1.Idx → EReal) (ix2 r (0 : Fin 1)) = (V c main_v34 : S50000x1.Idx → EReal) (ix2 i0 (0 : Fin 1))
    ∧ (∀ k : Fin 128, (iblk5 V c 2 t : S10000x128.Idx → EReal) (ix2 r k) = (V c main_v1 : S50000x128.Idx → EReal) (ix2 i0 k)) := by
  obtain ⟨e00, e01, e10, e11, e20, e21, -, -, -, -, -, -, -, -, -, -, -, -, -, -⟩ := idx5 t
  refine ⟨fun k => ?_, ?_, fun k => ?_⟩ <;> unfold iblk5 <;> rw [View.read_apply]
  · show V c main_v186 _ = V c main_v186 (ix2 i0 k)
    refine congrArg _ (funext fun a => Fin.ext ?_)
    match a with
    | ⟨0, _⟩ => show win5_0.index t (0 : Fin 2) * 10000 + 1 * r.val = i0.val; omega
    | ⟨1, _⟩ => show win5_0.index t (1 : Fin 2) * 128 + 1 * k.val = k.val; omega
  · show V c main_v34 _ = V c main_v34 (ix2 i0 (0 : Fin 1))
    refine congrArg _ (funext fun a => Fin.ext ?_)
    match a with
    | ⟨0, _⟩ => show win5_1.index t (0 : Fin 2) * 10000 + 1 * r.val = i0.val; omega
    | ⟨1, _⟩ => show win5_1.index t (1 : Fin 2) * 1 + 1 * 0 = 0; omega
  · show V c main_v1 _ = V c main_v1 (ix2 i0 k)
    refine congrArg _ (funext fun a => Fin.ext ?_)
    match a with
    | ⟨0, _⟩ => show win5_2.index t (0 : Fin 2) * 10000 + 1 * r.val = i0.val; omega
    | ⟨1, _⟩ => show win5_2.index t (1 : Fin 2) * 128 + 1 * k.val = k.val; omega

/-- What point `t` writes back is block `t` of the layer of the arrays the region found. -/
theorem flushed5 (c : Dev nD) (t : Fin cfg5.N) :
    (dat5 V c).flushed 9 t = ((cfg5.win 9).blk t).view.read (Elt Ideal)
      (Cert.Hetero.layer (M := 50000) (K := 128) (N := 128) (V c main_v186) (V c main_v34) (V c main_v1) (V c main_v188) (V c main_v199) (V c main_v192) (V c main_v194) (V c main_v200) (V c main_v198)) := by
  show (cfg5.win 9).cut (grid5.coords t) ((dat5 V c).after 9 t) = _
  rw [after5_9, body5]
  obtain ⟨w3, w4, w5, w6, w7, w8⟩ := wblk5 V c t
  rw [w3, w4, w5, w6, w7, w8]
  obtain ⟨-, -, -, -, -, -, -, -, -, -, -, -, -, -, -, -, -, -, e91, e9lt⟩ := idx5 t
  funext j
  rw [View.read_apply]
  have hj0 : (j 0).val < 10000 := (j 0).isLt
  have hj1 : (j 1).val < 128 := (j 1).isLt
  have hi0 : win5_9.index t (0 : Fin 2) * 10000 + (j 0).val < 50000 := by omega
  obtain ⟨ha, hs, hx⟩ := rblk5 V c t ⟨(j 0).val, hj0⟩ ⟨win5_9.index t (0 : Fin 2) * 10000 + (j 0).val, hi0⟩ rfl
  have hemb0 : ((((cfg5.win 9).blk t).view.emb j) 0).val = win5_9.index t (0 : Fin 2) * 10000 + (j 0).val := by
    show win5_9.index t (0 : Fin 2) * 10000 + 1 * (j 0).val = _; omega
  have hemb1 : ((((cfg5.win 9).blk t).view.emb j) 1).val = (j 1).val := by
    show win5_9.index t (1 : Fin 2) * 128 + 1 * (j 1).val = _; omega
  refine Cert.Hetero.layer_at (M := 50000) (M' := 10000) (K := 128) (N := 128) (V c main_v186) (V c main_v34) (V c main_v1) (iblk5 V c 0 t) (iblk5 V c 1 t) (iblk5 V c 2 t)
    (V c main_v188) (V c main_v199) (V c main_v192) (V c main_v194) (V c main_v200) (V c main_v198) j (((cfg5.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk5 (t : Fin cfg5.N) (i : S50000x128.Idx) :
    i ∈ ((cfg5.win 9).blk t).view.set ↔ ∀ a : Fin 2, win5_9.index t a * S10000x128.size a ≤ (i a).val ∧ (i a).val < win5_9.index t a * S10000x128.size a + S10000x128.size a := by
  show i ∈ ((View.whole main_v201).slice (win5_9.rect t)).set ↔ _
  rw [View.set_slice_whole, Rect.mem_set_unit]
  exact Iff.rfl

/-- THE ARRAY after the region: the layer of the arrays the region found. -/
theorem final5 (c : Dev nD) : (dat5 V c).arrAt 9 cfg5.N = Cert.Hetero.layer (M := 50000) (K := 128) (N := 128) (V c main_v186) (V c main_v34) (V c main_v1) (V c main_v188) (V c main_v199) (V c main_v192) (V c main_v194) (V c main_v200) (V c main_v198) :=
  (dat5 V c).arrAt_eq_of_cover 9 _ (fun t _ => flushed5 V c t) fun i => by
    have hi0 : (i 0).val < 50000 := (i 0).isLt
    have hi1 : (i 1).val < 128 := (i 1).isLt
    obtain ⟨t, ht⟩ := onto5 ⟨(i 0).val / 10000, by omega⟩
    have ht' : win5_9.index t (0 : Fin 2) = (i 0).val / 10000 := ht
    obtain ⟨-, -, -, -, -, -, -, -, -, -, -, -, -, -, -, -, -, -, e91, -⟩ := idx5 t
    refine ⟨t, flush5_9 t, ?_⟩
    rw [mem_blk5]
    intro a
    match a with
    | ⟨0, _⟩ => show win5_9.index t (0 : Fin 2) * 10000 ≤ (i 0).val ∧ (i 0).val < win5_9.index t (0 : Fin 2) * 10000 + 10000; omega
    | ⟨1, _⟩ => show win5_9.index t (1 : Fin 2) * 128 ≤ (i 1).val ∧ (i 1).val < win5_9.index t (1 : Fin 2) * 128 + 128; omega

end Cert.KernelIdeal.Val

end
-- ==== Proof.Reg6.lean ====
/-
  Region 6 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz6 : (![0, 0] : Fin 2 → Nat) = fun _ => 0 := funext fun a => by fin_cases a <;> rfl

/-- The body's result block is the layer of its nine input blocks. -/
theorem body6 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out6_9 (F := Ideal) x0 x1 x2 x3 x4 x5 x6 x7 x8 = Cert.Hetero.layer (M := 10000) (K := 128) (N := 128) x0 x1 x2 x3 x4 x5 x6 x7 x8 := by
  unfold out6_9
  rw [View.canon_unit_zero hz6]
  simp only [View.ld_unit_zero (S := S10000x128) hz6, View.ld_unit_zero (S := S10000x1) hz6,
    View.ld_unit_zero (S := S128x128) hz6, View.ld_unit_zero (S := S1x128) hz6]
  unfold k6_pay1 k6_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx6 : ∀ t : Fin cfg6.N,
    win6_0.index t (0 : Fin 2) = win6_9.index t (0 : Fin 2) ∧ win6_0.index t (1 : Fin 2) = 0
    ∧ win6_1.index t (0 : Fin 2) = win6_9.index t (0 : Fin 2) ∧ win6_1.index t (1 : Fin 2) = 0
    ∧ win6_2.index t (0 : Fin 2) = win6_9.index t (0 : Fin 2) ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (1 : Fin 2) = 0 ∧ win6_9.index t (0 : Fin 2) < 5 :=
  (by decide +kernel : ∀ t : Fin grid6.N, _)

/-- Every block of rows is some point's. -/
theorem onto6 : ∀ q0 : Fin 5, ∃ t : Fin cfg6.N, win6_9.index t (0 : Fin 2) = q0.val :=
  (by decide +kernel : ∀ q0 : Fin 5, ∃ t : Fin grid6.N, win6_9.index t (0 : Fin 2) = q0.val)

/-- A whole-array window's block at any point is the array itself. -/
theorem wblk6 (c : Dev nD) (t : Fin cfg6.N) :
    (iblk6 V c 3 t : S128x128.Idx → EReal) = (V c main_v217 : S128x128.Idx → EReal)
    ∧ (iblk6 V c 4 t : S1x128.Idx → EReal) = (V c main_v228 : S1x128.Idx → EReal)
    ∧ (iblk6 V c 5 t : S128x128.Idx → EReal) = (V c main_v221 : S128x128.Idx → EReal)
    ∧ (iblk6 V c 6 t : S128x128.Idx → EReal) = (V c main_v223 : S128x128.Idx → EReal)
    ∧ (iblk6 V c 7 t : S1x128.Idx → EReal) = (V c main_v229 : S1x128.Idx → EReal)
    ∧ (iblk6 V c 8 t : S128x128.Idx → EReal) = (V c main_v227 : S128x128.Idx → EReal) := by
  obtain ⟨-, -, -, -, -, -, e30, e31, e40, e41, e50, e51, e60, e61, e70, e71, e80, e81, -, -⟩ := idx6 t
  refine ⟨?_, ?_, ?_, ?_, ?_, ?_⟩ <;> funext y <;> unfold iblk6 <;> rw [View.read_apply]
  · show V c main_v217 _ = V c main_v217 y
    refine congrArg _ (funext fun a => Fin.ext ?_)
    match a with
    | ⟨0, _⟩ => show win6_3.index t (0 : Fin 2) * 128 + 1 * (y 0).val = (y 0).val; omega
    | ⟨1, _⟩ => show win6_3.index t (1 : Fin 2) * 128 + 1 * (y 1).val = (y 1).val; omega
  · show V c main_v228 _ = V c main_v228 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 128 + 1 * (y 1).val = (y 1).val; omega
  · show V c main_v221 _ = V c main_v221 y
    refine congrArg _ (funext fun a => Fin.ext ?_)
    match a with
    | ⟨0, _⟩ => show win6_5.index t (0 : Fin 2) * 128 + 1 * (y 0).val = (y 0).val; omega
    | ⟨1, _⟩ => show win6_5.index t (1 : Fin 2) * 128 + 1 * (y 1).val = (y 1).val; omega
  · show V c main_v223 _ = V c main_v223 y
    refine congrArg _ (funext fun a => Fin.ext ?_)
    match a with
    | ⟨0, _⟩ => show win6_6.index t (0 : Fin 2) * 128 + 1 * (y 0).val = (y 0).val; omega
    | ⟨1, _⟩ => show win6_6.index t (1 : Fin 2) * 128 + 1 * (y 1).val = (y 1).val; omega
  · show V c main_v229 _ = V c main_v229 y
    refine congrArg _ (funext fun a => Fin.ext ?_)
    match a with
    | ⟨0, _⟩ => show win6_7.index t (0 : Fin 2) * 1 + 1 * (y 0).val = (y 0).val; omega
    | ⟨1, _⟩ => show win6_7.index t (1 : Fin 2) * 128 + 1 * (y 1).val = (y 1).val; omega
  · show V c main_v227 _ = V c main_v227 y
    refine congrArg _ (funext fun a => Fin.ext ?_)
    match a with
    | ⟨0, _⟩ => show win6_8.index t (0 : Fin 2) * 128 + 1 * (y 0).val = (y 0).val; omega
    | ⟨1, _⟩ => show win6_8.index t (1 : Fin 2) * 128 + 1 * (y 1).val = (y 1).val; omega

/-- A row-blocked window's block at point `t`, read at row `r` of the block, is the array at row
    `(block index of t) · 10000 + r`. -/
theorem rblk6 (c : Dev nD) (t : Fin cfg6.N) (r : Fin 10000) (i0 : Fin 50000)
    (hi : i0.val = win6_9.index t (0 : Fin 2) * 10000 + r.val) :
    (∀ k : Fin 128, (iblk6 V c 0 t : S10000x128.Idx → EReal) (ix2 r k) = (V c main_v215 : S50000x128.Idx → EReal) (ix2 i0 k))
    ∧ (iblk6 V c 1 t : S10000x1.Idx → EReal) (ix2 r (0 : Fin 1)) = (V c main_v34 : S50000x1.Idx → EReal) (ix2 i0 (0 : Fin 1))
    ∧ (∀ k : Fin 128, (iblk6 V c 2 t : S10000x128.Idx → EReal) (ix2 r k) = (V c main_v201 : S50000x128.Idx → EReal) (ix2 i0 k)) := by
  obtain ⟨e00, e01, e10, e11, e20, e21, -, -, -, -, -, -, -, -, -, -, -, -, -, -⟩ := idx6 t
  refine ⟨fun k => ?_, ?_, fun k => ?_⟩ <;> unfold iblk6 <;> rw [View.read_apply]
  · show V c main_v215 _ = V c main_v215 (ix2 i0 k)
    refine congrArg _ (funext fun a => Fin.ext ?_)
    match a with
    | ⟨0, _⟩ => show win6_0.index t (0 : Fin 2) * 10000 + 1 * r.val = i0.val; omega
    | ⟨1, _⟩ => show win6_0.index t (1 : Fin 2) * 128 + 1 * k.val = k.val; omega
  · show V c main_v34 _ = V c main_v34 (ix2 i0 (0 : Fin 1))
    refine congrArg _ (funext fun a => Fin.ext ?_)
    match a with
    | ⟨0, _⟩ => show win6_1.index t (0 : Fin 2) * 10000 + 1 * r.val = i0.val; omega
    | ⟨1, _⟩ => show win6_1.index t (1 : Fin 2) * 1 + 1 * 0 = 0; omega
  · show V c main_v201 _ = V c main_v201 (ix2 i0 k)
    refine congrArg _ (funext fun a => Fin.ext ?_)
    match a with
    | ⟨0, _⟩ => show win6_2.index t (0 : Fin 2) * 10000 + 1 * r.val = i0.val; omega
    | ⟨1, _⟩ => show win6_2.index t (1 : Fin 2) * 128 + 1 * k.val = k.val; omega

/-- What point `t` writes back is block `t` of the layer of the arrays the region found. -/
theorem flushed6 (c : Dev nD) (t : Fin cfg6.N) :
    (dat6 V c).flushed 9 t = ((cfg6.win 9).blk t).view.read (Elt Ideal)
      (Cert.Hetero.layer (M := 50000) (K := 128) (N := 128) (V c main_v215) (V c main_v34) (V c main_v201) (V c main_v217) (V c main_v228) (V c main_v221) (V c main_v223) (V c main_v229) (V c main_v227)) := by
  show (cfg6.win 9).cut (grid6.coords t) ((dat6 V c).after 9 t) = _
  rw [after6_9, body6]
  obtain ⟨w3, w4, w5, w6, w7, w8⟩ := wblk6 V c t
  rw [w3, w4, w5, w6, w7, w8]
  obtain ⟨-, -, -, -, -, -, -, -, -, -, -, -, -, -, -, -, -, -, e91, e9lt⟩ := idx6 t
  funext j
  rw [View.read_apply]
  have hj0 : (j 0).val < 10000 := (j 0).isLt
  have hj1 : (j 1).val < 128 := (j 1).isLt
  have hi0 : win6_9.index t (0 : Fin 2) * 10000 + (j 0).val < 50000 := by omega
  obtain ⟨ha, hs, hx⟩ := rblk6 V c t ⟨(j 0).val, hj0⟩ ⟨win6_9.index t (0 : Fin 2) * 10000 + (j 0).val, hi0⟩ rfl
  have hemb0 : ((((cfg6.win 9).blk t).view.emb j) 0).val = win6_9.index t (0 : Fin 2) * 10000 + (j 0).val := by
    show win6_9.index t (0 : Fin 2) * 10000 + 1 * (j 0).val = _; omega
  have hemb1 : ((((cfg6.win 9).blk t).view.emb j) 1).val = (j 1).val := by
    show win6_9.index t (1 : Fin 2) * 128 + 1 * (j 1).val = _; omega
  refine Cert.Hetero.layer_at (M := 50000) (M' := 10000) (K := 128) (N := 128) (V c main_v215) (V c main_v34) (V c main_v201) (iblk6 V c 0 t) (iblk6 V c 1 t) (iblk6 V c 2 t)
    (V c main_v217) (V c main_v228) (V c main_v221) (V c main_v223) (V c main_v229) (V c main_v227) j (((cfg6.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk6 (t : Fin cfg6.N) (i : S50000x128.Idx) :
    i ∈ ((cfg6.win 9).blk t).view.set ↔ ∀ a : Fin 2, win6_9.index t a * S10000x128.size a ≤ (i a).val ∧ (i a).val < win6_9.index t a * S10000x128.size a + S10000x128.size a := by
  show i ∈ ((View.whole main_v230).slice (win6_9.rect t)).set ↔ _
  rw [View.set_slice_whole, Rect.mem_set_unit]
  exact Iff.rfl

/-- THE ARRAY after the region: the layer of the arrays the region found. -/
theorem final6 (c : Dev nD) : (dat6 V c).arrAt 9 cfg6.N = Cert.Hetero.layer (M := 50000) (K := 128) (N := 128) (V c main_v215) (V c main_v34) (V c main_v201) (V c main_v217) (V c main_v228) (V c main_v221) (V c main_v223) (V c main_v229) (V c main_v227) :=
  (dat6 V c).arrAt_eq_of_cover 9 _ (fun t _ => flushed6 V c t) fun i => by
    have hi0 : (i 0).val < 50000 := (i 0).isLt
    have hi1 : (i 1).val < 128 := (i 1).isLt
    obtain ⟨t, ht⟩ := onto6 ⟨(i 0).val / 10000, by omega⟩
    have ht' : win6_9.index t (0 : Fin 2) = (i 0).val / 10000 := ht
    obtain ⟨-, -, -, -, -, -, -, -, -, -, -, -, -, -, -, -, -, -, e91, -⟩ := idx6 t
    refine ⟨t, flush6_9 t, ?_⟩
    rw [mem_blk6]
    intro a
    match a with
    | ⟨0, _⟩ => show win6_9.index t (0 : Fin 2) * 10000 ≤ (i 0).val ∧ (i 0).val < win6_9.index t (0 : Fin 2) * 10000 + 10000; omega
    | ⟨1, _⟩ => show win6_9.index t (1 : Fin 2) * 128 ≤ (i 1).val ∧ (i 1).val < win6_9.index t (1 : Fin 2) * 128 + 128; omega

end Cert.KernelIdeal.Val

end
-- ==== Proof.Reg7.lean ====
/-
  Region 7 of the kernel program read as one whole-array function.

  The region's body maps the blocks of its nine input windows at a grid point to the layer of those blocks.  The
  aggregate, the factor column and the feature array are cut into blocks of 5000 rows that move with the grid point;
  the six weight and bias arrays are one block each, the same at every point.  An entry of the layer depends on one row
  of the three row-indexed operands, so what a point writes back is the block of rows of the layer of the WHOLE arrays,
  and the 1 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz7 : (![0, 0] : Fin 2 → Nat) = fun _ => 0 := funext fun a => by fin_cases a <;> rfl

/-- The body's result block is the layer of its nine input blocks. -/
theorem body7 (x0 : Vec Ideal S5000x128 .f32) (x1 : Vec Ideal S5000x1 .f32) (x2 : Vec Ideal S5000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out7_9 (F := Ideal) x0 x1 x2 x3 x4 x5 x6 x7 x8 = Cert.Hetero.layer (M := 5000) (K := 128) (N := 128) x0 x1 x2 x3 x4 x5 x6 x7 x8 := by
  unfold out7_9
  rw [View.canon_unit_zero hz7]
  simp only [View.ld_unit_zero (S := S5000x128) hz7, View.ld_unit_zero (S := S5000x1) hz7,
    View.ld_unit_zero (S := S128x128) hz7, View.ld_unit_zero (S := S1x128) hz7]
  unfold k7_pay1 k7_pay2
  exact Cert.Hetero.vecLayer' (M := 5000) (K := 128) (N := 128) dot_S5000x128_S128x128_S5000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx7 : ∀ t : Fin cfg7.N,
    win7_0.index t (0 : Fin 2) = win7_9.index t (0 : Fin 2) ∧ win7_0.index t (1 : Fin 2) = 0
    ∧ win7_1.index t (0 : Fin 2) = win7_9.index t (0 : Fin 2) ∧ win7_1.index t (1 : Fin 2) = 0
    ∧ win7_2.index t (0 : Fin 2) = win7_9.index t (0 : Fin 2) ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (1 : Fin 2) = 0 ∧ win7_9.index t (0 : Fin 2) < 1 :=
  (by decide +kernel : ∀ t : Fin grid7.N, _)

/-- Every block of rows is some point's. -/
theorem onto7 : ∀ q0 : Fin 1, ∃ t : Fin cfg7.N, win7_9.index t (0 : Fin 2) = q0.val :=
  (by decide +kernel : ∀ q0 : Fin 1, ∃ t : Fin grid7.N, win7_9.index t (0 : Fin 2) = q0.val)

/-- A whole-array window's block at any point is the array itself. -/
theorem wblk7 (c : Dev nD) (t : Fin cfg7.N) :
    (iblk7 V c 3 t : S128x128.Idx → EReal) = (V c main_v260 : S128x128.Idx → EReal)
    ∧ (iblk7 V c 4 t : S1x128.Idx → EReal) = (V c main_v271 : S1x128.Idx → EReal)
    ∧ (iblk7 V c 5 t : S128x128.Idx → EReal) = (V c main_v264 : S128x128.Idx → EReal)
    ∧ (iblk7 V c 6 t : S128x128.Idx → EReal) = (V c main_v266 : S128x128.Idx → EReal)
    ∧ (iblk7 V c 7 t : S1x128.Idx → EReal) = (V c main_v272 : S1x128.Idx → EReal)
    ∧ (iblk7 V c 8 t : S128x128.Idx → EReal) = (V c main_v270 : S128x128.Idx → EReal) := by
  obtain ⟨-, -, -, -, -, -, e30, e31, e40, e41, e50, e51, e60, e61, e70, e71, e80, e81, -, -⟩ := idx7 t
  refine ⟨?_, ?_, ?_, ?_, ?_, ?_⟩ <;> funext y <;> unfold iblk7 <;> rw [View.read_apply]
  · show V c main_v260 _ = V c main_v260 y
    refine congrArg _ (funext fun a => Fin.ext ?_)
    match a with
    | ⟨0, _⟩ => show win7_3.index t (0 : Fin 2) * 128 + 1 * (y 0).val = (y 0).val; omega
    | ⟨1, _⟩ => show win7_3.index t (1 : Fin 2) * 128 + 1 * (y 1).val = (y 1).val; omega
  · show V c main_v271 _ = V c main_v271 y
    refine congrArg _ (funext fun a => Fin.ext ?_)
    match a with
    | ⟨0, _⟩ => show win7_4.index t (0 : Fin 2) * 1 + 1 * (y 0).val = (y 0).val; omega
    | ⟨1, _⟩ => show win7_4.index t (1 : Fin 2) * 128 + 1 * (y 1).val = (y 1).val; omega
  · show V c main_v264 _ = V c main_v264 y
    refine congrArg _ (funext fun a => Fin.ext ?_)
    match a with
    | ⟨0, _⟩ => show win7_5.index t (0 : Fin 2) * 128 + 1 * (y 0).val = (y 0).val; omega
    | ⟨1, _⟩ => show win7_5.index t (1 : Fin 2) * 128 + 1 * (y 1).val = (y 1).val; omega
  · show V c main_v266 _ = V c main_v266 y
    refine congrArg _ (funext fun a => Fin.ext ?_)
    match a with
    | ⟨0, _⟩ => show win7_6.index t (0 : Fin 2) * 128 + 1 * (y 0).val = (y 0).val; omega
    | ⟨1, _⟩ => show win7_6.index t (1 : Fin 2) * 128 + 1 * (y 1).val = (y 1).val; omega
  · show V c main_v272 _ = V c main_v272 y
    refine congrArg _ (funext fun a => Fin.ext ?_)
    match a with
    | ⟨0, _⟩ => show win7_7.index t (0 : Fin 2) * 1 + 1 * (y 0).val = (y 0).val; omega
    | ⟨1, _⟩ => show win7_7.index t (1 : Fin 2) * 128 + 1 * (y 1).val = (y 1).val; omega
  · show V c main_v270 _ = V c main_v270 y
    refine congrArg _ (funext fun a => Fin.ext ?_)
    match a with
    | ⟨0, _⟩ => show win7_8.index t (0 : Fin 2) * 128 + 1 * (y 0).val = (y 0).val; omega
    | ⟨1, _⟩ => show win7_8.index t (1 : Fin 2) * 128 + 1 * (y 1).val = (y 1).val; omega

/-- A row-blocked window's block at point `t`, read at row `r` of the block, is the array at row
    `(block index of t) · 5000 + r`. -/
theorem rblk7 (c : Dev nD) (t : Fin cfg7.N) (r : Fin 5000) (i0 : Fin 5000)
    (hi : i0.val = win7_9.index t (0 : Fin 2) * 5000 + r.val) :
    (∀ k : Fin 128, (iblk7 V c 0 t : S5000x128.Idx → EReal) (ix2 r k) = (V c main_v244 : S5000x128.Idx → EReal) (ix2 i0 k))
    ∧ (iblk7 V c 1 t : S5000x1.Idx → EReal) (ix2 r (0 : Fin 1)) = (V c main_v45 : S5000x1.Idx → EReal) (ix2 i0 (0 : Fin 1))
    ∧ (∀ k : Fin 128, (iblk7 V c 2 t : S5000x128.Idx → EReal) (ix2 r k) = (V c main_arg2 : S5000x128.Idx → EReal) (ix2 i0 k)) := by
  obtain ⟨e00, e01, e10, e11, e20, e21, -, -, -, -, -, -, -, -, -, -, -, -, -, -⟩ := idx7 t
  refine ⟨fun k => ?_, ?_, fun k => ?_⟩ <;> unfold iblk7 <;> rw [View.read_apply]
  · show V c main_v244 _ = V c main_v244 (ix2 i0 k)
    refine congrArg _ (funext fun a => Fin.ext ?_)
    match a with
    | ⟨0, _⟩ => show win7_0.index t (0 : Fin 2) * 5000 + 1 * r.val = i0.val; omega
    | ⟨1, _⟩ => show win7_0.index t (1 : Fin 2) * 128 + 1 * k.val = k.val; omega
  · show V c main_v45 _ = V c main_v45 (ix2 i0 (0 : Fin 1))
    refine congrArg _ (funext fun a => Fin.ext ?_)
    match a with
    | ⟨0, _⟩ => show win7_1.index t (0 : Fin 2) * 5000 + 1 * r.val = i0.val; omega
    | ⟨1, _⟩ => show win7_1.index t (1 : Fin 2) * 1 + 1 * 0 = 0; omega
  · show V c main_arg2 _ = V c main_arg2 (ix2 i0 k)
    refine congrArg _ (funext fun a => Fin.ext ?_)
    match a with
    | ⟨0, _⟩ => show win7_2.index t (0 : Fin 2) * 5000 + 1 * r.val = i0.val; omega
    | ⟨1, _⟩ => show win7_2.index t (1 : Fin 2) * 128 + 1 * k.val = k.val; omega

/-- What point `t` writes back is block `t` of the layer of the arrays the region found. -/
theorem flushed7 (c : Dev nD) (t : Fin cfg7.N) :
    (dat7 V c).flushed 9 t = ((cfg7.win 9).blk t).view.read (Elt Ideal)
      (Cert.Hetero.layer (M := 5000) (K := 128) (N := 128) (V c main_v244) (V c main_v45) (V c main_arg2) (V c main_v260) (V c main_v271) (V c main_v264) (V c main_v266) (V c main_v272) (V c main_v270)) := by
  show (cfg7.win 9).cut (grid7.coords t) ((dat7 V c).after 9 t) = _
  rw [after7_9, body7]
  obtain ⟨w3, w4, w5, w6, w7, w8⟩ := wblk7 V c t
  rw [w3, w4, w5, w6, w7, w8]
  obtain ⟨-, -, -, -, -, -, -, -, -, -, -, -, -, -, -, -, -, -, e91, e9lt⟩ := idx7 t
  funext j
  rw [View.read_apply]
  have hj0 : (j 0).val < 5000 := (j 0).isLt
  have hj1 : (j 1).val < 128 := (j 1).isLt
  have hi0 : win7_9.index t (0 : Fin 2) * 5000 + (j 0).val < 5000 := by omega
  obtain ⟨ha, hs, hx⟩ := rblk7 V c t ⟨(j 0).val, hj0⟩ ⟨win7_9.index t (0 : Fin 2) * 5000 + (j 0).val, hi0⟩ rfl
  have hemb0 : ((((cfg7.win 9).blk t).view.emb j) 0).val = win7_9.index t (0 : Fin 2) * 5000 + (j 0).val := by
    show win7_9.index t (0 : Fin 2) * 5000 + 1 * (j 0).val = _; omega
  have hemb1 : ((((cfg7.win 9).blk t).view.emb j) 1).val = (j 1).val := by
    show win7_9.index t (1 : Fin 2) * 128 + 1 * (j 1).val = _; omega
  refine Cert.Hetero.layer_at (M := 5000) (M' := 5000) (K := 128) (N := 128) (V c main_v244) (V c main_v45) (V c main_arg2) (iblk7 V c 0 t) (iblk7 V c 1 t) (iblk7 V c 2 t)
    (V c main_v260) (V c main_v271) (V c main_v264) (V c main_v266) (V c main_v272) (V c main_v270) j (((cfg7.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk7 (t : Fin cfg7.N) (i : S5000x128.Idx) :
    i ∈ ((cfg7.win 9).blk t).view.set ↔ ∀ a : Fin 2, win7_9.index t a * S5000x128.size a ≤ (i a).val ∧ (i a).val < win7_9.index t a * S5000x128.size a + S5000x128.size a := by
  show i ∈ ((View.whole main_v273).slice (win7_9.rect t)).set ↔ _
  rw [View.set_slice_whole, Rect.mem_set_unit]
  exact Iff.rfl

/-- THE ARRAY after the region: the layer of the arrays the region found. -/
theorem final7 (c : Dev nD) : (dat7 V c).arrAt 9 cfg7.N = Cert.Hetero.layer (M := 5000) (K := 128) (N := 128) (V c main_v244) (V c main_v45) (V c main_arg2) (V c main_v260) (V c main_v271) (V c main_v264) (V c main_v266) (V c main_v272) (V c main_v270) :=
  (dat7 V c).arrAt_eq_of_cover 9 _ (fun t _ => flushed7 V c t) fun i => by
    have hi0 : (i 0).val < 5000 := (i 0).isLt
    have hi1 : (i 1).val < 128 := (i 1).isLt
    obtain ⟨t, ht⟩ := onto7 ⟨(i 0).val / 5000, by omega⟩
    have ht' : win7_9.index t (0 : Fin 2) = (i 0).val / 5000 := ht
    obtain ⟨-, -, -, -, -, -, -, -, -, -, -, -, -, -, -, -, -, -, e91, -⟩ := idx7 t
    refine ⟨t, flush7_9 t, ?_⟩
    rw [mem_blk7]
    intro a
    match a with
    | ⟨0, _⟩ => show win7_9.index t (0 : Fin 2) * 5000 ≤ (i 0).val ∧ (i 0).val < win7_9.index t (0 : Fin 2) * 5000 + 5000; omega
    | ⟨1, _⟩ => show win7_9.index t (1 : Fin 2) * 128 ≤ (i 1).val ∧ (i 1).val < win7_9.index t (1 : Fin 2) * 128 + 128; omega

end Cert.KernelIdeal.Val

end
-- ==== Proof.Reg8.lean ====
/-
  Region 8 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz8 : (![0, 0] : Fin 2 → Nat) = fun _ => 0 := funext fun a => by fin_cases a <;> rfl

/-- The body's result block is the layer of its nine input blocks. -/
theorem body8 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out8_9 (F := Ideal) x0 x1 x2 x3 x4 x5 x6 x7 x8 = Cert.Hetero.layer (M := 10000) (K := 128) (N := 128) x0 x1 x2 x3 x4 x5 x6 x7 x8 := by
  unfold out8_9
  rw [View.canon_unit_zero hz8]
  simp only [View.ld_unit_zero (S := S10000x128) hz8, View.ld_unit_zero (S := S10000x1) hz8,
    View.ld_unit_zero (S := S128x128) hz8, View.ld_unit_zero (S := S1x128) hz8]
  unfold k8_pay1 k8_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx8 : ∀ t : Fin cfg8.N,
    win8_0.index t (0 : Fin 2) = win8_9.index t (0 : Fin 2) ∧ win8_0.index t (1 : Fin 2) = 0
    ∧ win8_1.index t (0 : Fin 2) = win8_9.index t (0 : Fin 2) ∧ win8_1.index t (1 : Fin 2) = 0
    ∧ win8_2.index t (0 : Fin 2) = win8_9.index t (0 : Fin 2) ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (1 : Fin 2) = 0 ∧ win8_9.index t (0 : Fin 2) < 5 :=
  (by decide +kernel : ∀ t : Fin grid8.N, _)

/-- Every block of rows is some point's. -/
theorem onto8 : ∀ q0 : Fin 5, ∃ t : Fin cfg8.N, win8_9.index t (0 : Fin 2) = q0.val :=
  (by decide +kernel : ∀ q0 : Fin 5, ∃ t : Fin grid8.N, win8_9.index t (0 : Fin 2) = q0.val)

/-- A whole-array window's block at any point is the array itself. -/
theorem wblk8 (c : Dev nD) (t : Fin cfg8.N) :
    (iblk8 V c 3 t : S128x128.Idx → EReal) = (V c main_v275 : S128x128.Idx → EReal)
    ∧ (iblk8 V c 4 t : S1x128.Idx → EReal) = (V c main_v286 : S1x128.Idx → EReal)
    ∧ (iblk8 V c 5 t : S128x128.Idx → EReal) = (V c main_v279 : S128x128.Idx → EReal)
    ∧ (iblk8 V c 6 t : S128x128.Idx → EReal) = (V c main_v281 : S128x128.Idx → EReal)
    ∧ (iblk8 V c 7 t : S1x128.Idx → EReal) = (V c main_v287 : S1x128.Idx → EReal)
    ∧ (iblk8 V c 8 t : S128x128.Idx → EReal) = (V c main_v285 : S128x128.Idx → EReal) := by
  obtain ⟨-, -, -, -, -, -, e30, e31, e40, e41, e50, e51, e60, e61, e70, e71, e80, e81, -, -⟩ := idx8 t
  refine ⟨?_, ?_, ?_, ?_, ?_, ?_⟩ <;> funext y <;> unfold iblk8 <;> rw [View.read_apply]
  · show V c main_v275 _ = V c main_v275 y
    refine congrArg _ (funext fun a => Fin.ext ?_)
    match a with
    | ⟨0, _⟩ => show win8_3.index t (0 : Fin 2) * 128 + 1 * (y 0).val = (y 0).val; omega
    | ⟨1, _⟩ => show win8_3.index t (1 : Fin 2) * 128 + 1 * (y 1).val = (y 1).val; omega
  · show V c main_v286 _ = V c main_v286 y
    refine congrArg _ (funext fun a => Fin.ext ?_)
    match a with
    | ⟨0, _⟩ => show win8_4.index t (0 : Fin 2) * 1 + 1 * (y 0).val = (y 0).val; omega
    | ⟨1, _⟩ => show win8_4.index t (1 : Fin 2) * 128 + 1 * (y 1).val = (y 1).val; omega
  · show V c main_v279 _ = V c main_v279 y
    refine congrArg _ (funext fun a => Fin.ext ?_)
    match a with
    | ⟨0, _⟩ => show win8_5.index t (0 : Fin 2) * 128 + 1 * (y 0).val = (y 0).val; omega
    | ⟨1, _⟩ => show win8_5.index t (1 : Fin 2) * 128 + 1 * (y 1).val = (y 1).val; omega
  · show V c main_v281 _ = V c main_v281 y
    refine congrArg _ (funext fun a => Fin.ext ?_)
    match a with
    | ⟨0, _⟩ => show win8_6.index t (0 : Fin 2) * 128 + 1 * (y 0).val = (y 0).val; omega
    | ⟨1, _⟩ => show win8_6.index t (1 : Fin 2) * 128 + 1 * (y 1).val = (y 1).val; omega
  · show V c main_v287 _ = V c main_v287 y
    refine congrArg _ (funext fun a => Fin.ext ?_)
    match a with
    | ⟨0, _⟩ => show win8_7.index t (0 : Fin 2) * 1 + 1 * (y 0).val = (y 0).val; omega
    | ⟨1, _⟩ => show win8_7.index t (1 : Fin 2) * 128 + 1 * (y 1).val = (y 1).val; omega
  · show V c main_v285 _ = V c main_v285 y
    refine congrArg _ (funext fun a => Fin.ext ?_)
    match a with
    | ⟨0, _⟩ => show win8_8.index t (0 : Fin 2) * 128 + 1 * (y 0).val = (y 0).val; omega
    | ⟨1, _⟩ => show win8_8.index t (1 : Fin 2) * 128 + 1 * (y 1).val = (y 1).val; omega

/-- A row-blocked window's block at point `t`, read at row `r` of the block, is the array at row
    `(block index of t) · 10000 + r`. -/
theorem rblk8 (c : Dev nD) (t : Fin cfg8.N) (r : Fin 10000) (i0 : Fin 50000)
    (hi : i0.val = win8_9.index t (0 : Fin 2) * 10000 + r.val) :
    (∀ k : Fin 128, (iblk8 V c 0 t : S10000x128.Idx → EReal) (ix2 r k) = (V c main_v258 : S50000x128.Idx → EReal) (ix2 i0 k))
    ∧ (iblk8 V c 1 t : S10000x1.Idx → EReal) (ix2 r (0 : Fin 1)) = (V c main_v56 : S50000x1.Idx → EReal) (ix2 i0 (0 : Fin 1))
    ∧ (∀ k : Fin 128, (iblk8 V c 2 t : S10000x128.Idx → EReal) (ix2 r k) = (V c main_v1 : S50000x128.Idx → EReal) (ix2 i0 k)) := by
  obtain ⟨e00, e01, e10, e11, e20, e21, -, -, -, -, -, -, -, -, -, -, -, -, -, -⟩ := idx8 t
  refine ⟨fun k => ?_, ?_, fun k => ?_⟩ <;> unfold iblk8 <;> rw [View.read_apply]
  · show V c main_v258 _ = V c main_v258 (ix2 i0 k)
    refine congrArg _ (funext fun a => Fin.ext ?_)
    match a with
    | ⟨0, _⟩ => show win8_0.index t (0 : Fin 2) * 10000 + 1 * r.val = i0.val; omega
    | ⟨1, _⟩ => show win8_0.index t (1 : Fin 2) * 128 + 1 * k.val = k.val; omega
  · show V c main_v56 _ = V c main_v56 (ix2 i0 (0 : Fin 1))
    refine congrArg _ (funext fun a => Fin.ext ?_)
    match a with
    | ⟨0, _⟩ => show win8_1.index t (0 : Fin 2) * 10000 + 1 * r.val = i0.val; omega
    | ⟨1, _⟩ => show win8_1.index t (1 : Fin 2) * 1 + 1 * 0 = 0; omega
  · show V c main_v1 _ = V c main_v1 (ix2 i0 k)
    refine congrArg _ (funext fun a => Fin.ext ?_)
    match a with
    | ⟨0, _⟩ => show win8_2.index t (0 : Fin 2) * 10000 + 1 * r.val = i0.val; omega
    | ⟨1, _⟩ => show win8_2.index t (1 : Fin 2) * 128 + 1 * k.val = k.val; omega

/-- What point `t` writes back is block `t` of the layer of the arrays the region found. -/
theorem flushed8 (c : Dev nD) (t : Fin cfg8.N) :
    (dat8 V c).flushed 9 t = ((cfg8.win 9).blk t).view.read (Elt Ideal)
      (Cert.Hetero.layer (M := 50000) (K := 128) (N := 128) (V c main_v258) (V c main_v56) (V c main_v1) (V c main_v275) (V c main_v286) (V c main_v279) (V c main_v281) (V c main_v287) (V c main_v285)) := by
  show (cfg8.win 9).cut (grid8.coords t) ((dat8 V c).after 9 t) = _
  rw [after8_9, body8]
  obtain ⟨w3, w4, w5, w6, w7, w8⟩ := wblk8 V c t
  rw [w3, w4, w5, w6, w7, w8]
  obtain ⟨-, -, -, -, -, -, -, -, -, -, -, -, -, -, -, -, -, -, e91, e9lt⟩ := idx8 t
  funext j
  rw [View.read_apply]
  have hj0 : (j 0).val < 10000 := (j 0).isLt
  have hj1 : (j 1).val < 128 := (j 1).isLt
  have hi0 : win8_9.index t (0 : Fin 2) * 10000 + (j 0).val < 50000 := by omega
  obtain ⟨ha, hs, hx⟩ := rblk8 V c t ⟨(j 0).val, hj0⟩ ⟨win8_9.index t (0 : Fin 2) * 10000 + (j 0).val, hi0⟩ rfl
  have hemb0 : ((((cfg8.win 9).blk t).view.emb j) 0).val = win8_9.index t (0 : Fin 2) * 10000 + (j 0).val := by
    show win8_9.index t (0 : Fin 2) * 10000 + 1 * (j 0).val = _; omega
  have hemb1 : ((((cfg8.win 9).blk t).view.emb j) 1).val = (j 1).val := by
    show win8_9.index t (1 : Fin 2) * 128 + 1 * (j 1).val = _; omega
  refine Cert.Hetero.layer_at (M := 50000) (M' := 10000) (K := 128) (N := 128) (V c main_v258) (V c main_v56) (V c main_v1) (iblk8 V c 0 t) (iblk8 V c 1 t) (iblk8 V c 2 t)
    (V c main_v275) (V c main_v286) (V c main_v279) (V c main_v281) (V c main_v287) (V c main_v285) j (((cfg8.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk8 (t : Fin cfg8.N) (i : S50000x128.Idx) :
    i ∈ ((cfg8.win 9).blk t).view.set ↔ ∀ a : Fin 2, win8_9.index t a * S10000x128.size a ≤ (i a).val ∧ (i a).val < win8_9.index t a * S10000x128.size a + S10000x128.size a := by
  show i ∈ ((View.whole main_v288).slice (win8_9.rect t)).set ↔ _
  rw [View.set_slice_whole, Rect.mem_set_unit]
  exact Iff.rfl

/-- THE ARRAY after the region: the layer of the arrays the region found. -/
theorem final8 (c : Dev nD) : (dat8 V c).arrAt 9 cfg8.N = Cert.Hetero.layer (M := 50000) (K := 128) (N := 128) (V c main_v258) (V c main_v56) (V c main_v1) (V c main_v275) (V c main_v286) (V c main_v279) (V c main_v281) (V c main_v287) (V c main_v285) :=
  (dat8 V c).arrAt_eq_of_cover 9 _ (fun t _ => flushed8 V c t) fun i => by
    have hi0 : (i 0).val < 50000 := (i 0).isLt
    have hi1 : (i 1).val < 128 := (i 1).isLt
    obtain ⟨t, ht⟩ := onto8 ⟨(i 0).val / 10000, by omega⟩
    have ht' : win8_9.index t (0 : Fin 2) = (i 0).val / 10000 := ht
    obtain ⟨-, -, -, -, -, -, -, -, -, -, -, -, -, -, -, -, -, -, e91, -⟩ := idx8 t
    refine ⟨t, flush8_9 t, ?_⟩
    rw [mem_blk8]
    intro a
    match a with
    | ⟨0, _⟩ => show win8_9.index t (0 : Fin 2) * 10000 ≤ (i 0).val ∧ (i 0).val < win8_9.index t (0 : Fin 2) * 10000 + 10000; omega
    | ⟨1, _⟩ => show win8_9.index t (1 : Fin 2) * 128 ≤ (i 1).val ∧ (i 1).val < win8_9.index t (1 : Fin 2) * 128 + 128; omega

end Cert.KernelIdeal.Val

end
-- ==== Proof.Reg10.lean ====
/-
  Region 10 of the kernel program read as one whole-array function.

  The region's body maps the blocks of its nine input windows at a grid point to the layer of those blocks.  The
  aggregate, the factor column and the feature array are cut into blocks of 10000 rows that move with the grid point;
  the six weight and bias arrays are one block each, the same at every point.  An entry of the layer depends on one row
  of the three row-indexed operands, so what a point writes back is the block of rows of the layer of the WHOLE arrays,
  and the 5 written blocks tile the result array: after the region it holds the layer of the arrays the region found.
-/
import proofs.«128317_j60687887892780_2_alg».proof.Proof.Gen.KernelIdeal.Frame
import proofs.«128317_j60687887892780_2_alg».proof.Proof.LibHeteroLayer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz10 : (![0, 0] : Fin 2 → Nat) = fun _ => 0 := funext fun a => by fin_cases a <;> rfl

/-- The body's result block is the layer of its nine input blocks. -/
theorem body10 (x0 : Vec Ideal S10000x128 .f32) (x1 : Vec Ideal S10000x1 .f32) (x2 : Vec Ideal S10000x128 .f32) (x3 : Vec Ideal S128x128 .f32)
    (x4 : Vec Ideal S1x128 .f32) (x5 : Vec Ideal S128x128 .f32) (x6 : Vec Ideal S128x128 .f32) (x7 : Vec Ideal S1x128 .f32)
    (x8 : Vec Ideal S128x128 .f32) :
    out10_9 (F := Ideal) x0 x1 x2 x3 x4 x5 x6 x7 x8 = Cert.Hetero.layer (M := 10000) (K := 128) (N := 128) x0 x1 x2 x3 x4 x5 x6 x7 x8 := by
  unfold out10_9
  rw [View.canon_unit_zero hz10]
  simp only [View.ld_unit_zero (S := S10000x128) hz10, View.ld_unit_zero (S := S10000x1) hz10,
    View.ld_unit_zero (S := S128x128) hz10, View.ld_unit_zero (S := S1x128) hz10]
  unfold k10_pay1 k10_pay2
  exact Cert.Hetero.vecLayer (M := 10000) (K := 128) (N := 128) dot_S10000x128_S128x128_S10000x128_1_0_0_1_n_n rfl rfl rfl rfl rfl rfl _ _ _ _ _ _ _ x0 x1 x2 x3 x5 x6 x8 x4 x7

/-- The printed index maps, decided over the grid: the three row-blocked inputs move with the output's block along
    the rows, every other block index is zero. -/
theorem idx10 : ∀ t : Fin cfg10.N,
    win10_0.index t (0 : Fin 2) = win10_9.index t (0 : Fin 2) ∧ win10_0.index t (1 : Fin 2) = 0
    ∧ win10_1.index t (0 : Fin 2) = win10_9.index t (0 : Fin 2) ∧ win10_1.index t (1 : Fin 2) = 0
    ∧ win10_2.index t (0 : Fin 2) = win10_9.index t (0 : Fin 2) ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0
    ∧ win10_9.index t (1 : Fin 2) = 0 ∧ win10_9.index t (0 : Fin 2) < 5 :=
  (by decide +kernel : ∀ t : Fin grid10.N, _)

/-- Every block of rows is some point's. -/
theorem onto10 : ∀ q0 : Fin 5, ∃ t : Fin cfg10.N, win10_9.index t (0 : Fin 2) = q0.val :=
  (by decide +kernel : ∀ q0 : Fin 5, ∃ t : Fin grid10.N, win10_9.index t (0 : Fin 2) = q0.val)

/-- A whole-array window's block at any point is the array itself. -/
theorem wblk10 (c : Dev nD) (t : Fin cfg10.N) :
    (iblk10 V c 3 t : S128x128.Idx → EReal) = (V c main_v333 : S128x128.Idx → EReal)
    ∧ (iblk10 V c 4 t : S1x128.Idx → EReal) = (V c main_v344 : S1x128.Idx → EReal)
    ∧ (iblk10 V c 5 t : S128x128.Idx → EReal) = (V c main_v337 : S128x128.Idx → EReal)
    ∧ (iblk10 V c 6 t : S128x128.Idx → EReal) = (V c main_v339 : S128x128.Idx → EReal)
    ∧ (iblk10 V c 7 t : S1x128.Idx → EReal) = (V c main_v345 : S1x128.Idx → EReal)
    ∧ (iblk10 V c 8 t : S128x128.Idx → EReal) = (V c main_v343 : S128x128.Idx → EReal) := by
  obtain ⟨-, -, -, -, -, -, e30, e31, e40, e41, e50, e51, e60, e61, e70, e71, e80, e81, -, -⟩ := idx10 t
  refine ⟨?_, ?_, ?_, ?_, ?_, ?_⟩ <;> funext y <;> unfold iblk10 <;> rw [View.read_apply]
  · show V c main_v333 _ = V c main_v333 y
    refine congrArg _ (funext fun a => Fin.ext ?_)
    match a with
    | ⟨0, _⟩ => show win10_3.index t (0 : Fin 2) * 128 + 1 * (y 0).val = (y 0).val; omega
    | ⟨1, _⟩ => show win10_3.index t (1 : Fin 2) * 128 + 1 * (y 1).val = (y 1).val; omega
  · show V c main_v344 _ = V c main_v344 y
    refine congrArg _ (funext fun a => Fin.ext ?_)
    match a with
    | ⟨0, _⟩ => show win10_4.index t (0 : Fin 2) * 1 + 1 * (y 0).val = (y 0).val; omega
    | ⟨1, _⟩ => show win10_4.index t (1 : Fin 2) * 128 + 1 * (y 1).val = (y 1).val; omega
  · show V c main_v337 _ = V c main_v337 y
    refine congrArg _ (funext fun a => Fin.ext ?_)
    match a with
    | ⟨0, _⟩ => show win10_5.index t (0 : Fin 2) * 128 + 1 * (y 0).val = (y 0).val; omega
    | ⟨1, _⟩ => show win10_5.index t (1 : Fin 2) * 128 + 1 * (y 1).val = (y 1).val; omega
  · show V c main_v339 _ = V c main_v339 y
    refine congrArg _ (funext fun a => Fin.ext ?_)
    match a with
    | ⟨0, _⟩ => show win10_6.index t (0 : Fin 2) * 128 + 1 * (y 0).val = (y 0).val; omega
    | ⟨1, _⟩ => show win10_6.index t (1 : Fin 2) * 128 + 1 * (y 1).val = (y 1).val; omega
  · show V c main_v345 _ = V c main_v345 y
    refine congrArg _ (funext fun a => Fin.ext ?_)
    match a with
    | ⟨0, _⟩ => show win10_7.index t (0 : Fin 2) * 1 + 1 * (y 0).val = (y 0).val; omega
    | ⟨1, _⟩ => show win10_7.index t (1 : Fin 2) * 128 + 1 * (y 1).val = (y 1).val; omega
  · show V c main_v343 _ = V c main_v343 y
    refine congrArg _ (funext fun a => Fin.ext ?_)
    match a with
    | ⟨0, _⟩ => show win10_8.index t (0 : Fin 2) * 128 + 1 * (y 0).val = (y 0).val; omega
    | ⟨1, _⟩ => show win10_8.index t (1 : Fin 2) * 128 + 1 * (y 1).val = (y 1).val; omega

/-- A row-blocked window's block at point `t`, read at row `r` of the block, is the array at row
    `(block index of t) · 10000 + r`. -/
theorem rblk10 (c : Dev nD) (t : Fin cfg10.N) (r : Fin 10000) (i0 : Fin 50000)
    (hi : i0.val = win10_9.index t (0 : Fin 2) * 10000 + r.val) :
    (∀ k : Fin 128, (iblk10 V c 0 t : S10000x128.Idx → EReal) (ix2 r k) = (V c main_v316 : S50000x128.Idx → EReal) (ix2 i0 k))
    ∧ (iblk10 V c 1 t : S10000x1.Idx → EReal) (ix2 r (0 : Fin 1)) = (V c main_v56 : S50000x1.Idx → EReal) (ix2 i0 (0 : Fin 1))
    ∧ (∀ k : Fin 128, (iblk10 V c 2 t : S10000x128.Idx → EReal) (ix2 r k) = (V c main_v288 : S50000x128.Idx → EReal) (ix2 i0 k)) := by
  obtain ⟨e00, e01, e10, e11, e20, e21, -, -, -, -, -, -, -, -, -, -, -, -, -, -⟩ := idx10 t
  refine ⟨fun k => ?_, ?_, fun k => ?_⟩ <;> unfold iblk10 <;> rw [View.read_apply]
  · show V c main_v316 _ = V c main_v316 (ix2 i0 k)
    refine congrArg _ (funext fun a => Fin.ext ?_)
    match a with
    | ⟨0, _⟩ => show win10_0.index t (0 : Fin 2) * 10000 + 1 * r.val = i0.val; omega
    | ⟨1, _⟩ => show win10_0.index t (1 : Fin 2) * 128 + 1 * k.val = k.val; omega
  · show V c main_v56 _ = V c main_v56 (ix2 i0 (0 : Fin 1))
    refine congrArg _ (funext fun a => Fin.ext ?_)
    match a with
    | ⟨0, _⟩ => show win10_1.index t (0 : Fin 2) * 10000 + 1 * r.val = i0.val; omega
    | ⟨1, _⟩ => show win10_1.index t (1 : Fin 2) * 1 + 1 * 0 = 0; omega
  · show V c main_v288 _ = V c main_v288 (ix2 i0 k)
    refine congrArg _ (funext fun a => Fin.ext ?_)
    match a with
    | ⟨0, _⟩ => show win10_2.index t (0 : Fin 2) * 10000 + 1 * r.val = i0.val; omega
    | ⟨1, _⟩ => show win10_2.index t (1 : Fin 2) * 128 + 1 * k.val = k.val; omega

/-- What point `t` writes back is block `t` of the layer of the arrays the region found. -/
theorem flushed10 (c : Dev nD) (t : Fin cfg10.N) :
    (dat10 V c).flushed 9 t = ((cfg10.win 9).blk t).view.read (Elt Ideal)
      (Cert.Hetero.layer (M := 50000) (K := 128) (N := 128) (V c main_v316) (V c main_v56) (V c main_v288) (V c main_v333) (V c main_v344) (V c main_v337) (V c main_v339) (V c main_v345) (V c main_v343)) := by
  show (cfg10.win 9).cut (grid10.coords t) ((dat10 V c).after 9 t) = _
  rw [after10_9, body10]
  obtain ⟨w3, w4, w5, w6, w7, w8⟩ := wblk10 V c t
  rw [w3, w4, w5, w6, w7, w8]
  obtain ⟨-, -, -, -, -, -, -, -, -, -, -, -, -, -, -, -, -, -, e91, e9lt⟩ := idx10 t
  funext j
  rw [View.read_apply]
  have hj0 : (j 0).val < 10000 := (j 0).isLt
  have hj1 : (j 1).val < 128 := (j 1).isLt
  have hi0 : win10_9.index t (0 : Fin 2) * 10000 + (j 0).val < 50000 := by omega
  obtain ⟨ha, hs, hx⟩ := rblk10 V c t ⟨(j 0).val, hj0⟩ ⟨win10_9.index t (0 : Fin 2) * 10000 + (j 0).val, hi0⟩ rfl
  have hemb0 : ((((cfg10.win 9).blk t).view.emb j) 0).val = win10_9.index t (0 : Fin 2) * 10000 + (j 0).val := by
    show win10_9.index t (0 : Fin 2) * 10000 + 1 * (j 0).val = _; omega
  have hemb1 : ((((cfg10.win 9).blk t).view.emb j) 1).val = (j 1).val := by
    show win10_9.index t (1 : Fin 2) * 128 + 1 * (j 1).val = _; omega
  refine Cert.Hetero.layer_at (M := 50000) (M' := 10000) (K := 128) (N := 128) (V c main_v316) (V c main_v56) (V c main_v288) (iblk10 V c 0 t) (iblk10 V c 1 t) (iblk10 V c 2 t)
    (V c main_v333) (V c main_v344) (V c main_v337) (V c main_v339) (V c main_v345) (V c main_v343) j (((cfg10.win 9).blk t).view.emb j) hemb1.symm ?_ ?_ ?_
  · intro k
    refine (ha k).trans (congrArg _ (funext fun a => Fin.ext ?_))
    match a with
    | ⟨0, _⟩ => exact hemb0.symm
    | ⟨1, _⟩ => rfl
  · refine hs.trans (congrArg _ (funext fun a => Fin.ext ?_))
    match a with
    | ⟨0, _⟩ => exact hemb0.symm
    | ⟨1, _⟩ => rfl
  · intro k
    refine (hx k).trans (congrArg _ (funext fun a => Fin.ext ?_))
    match a with
    | ⟨0, _⟩ => exact hemb0.symm
    | ⟨1, _⟩ => rfl

/-- An index of the result array is in point `t`'s block iff its row is in the block's range of rows. -/
theorem mem_blk10 (t : Fin cfg10.N) (i : S50000x128.Idx) :
    i ∈ ((cfg10.win 9).blk t).view.set ↔ ∀ a : Fin 2, win10_9.index t a * S10000x128.size a ≤ (i a).val ∧ (i a).val < win10_9.index t a * S10000x128.size a + S10000x128.size a := by
  show i ∈ ((View.whole main_v346).slice (win10_9.rect t)).set ↔ _
  rw [View.set_slice_whole, Rect.mem_set_unit]
  exact Iff.rfl

/-- THE ARRAY after the region: the layer of the arrays the region found. -/
theorem final10 (c : Dev nD) : (dat10 V c).arrAt 9 cfg10.N = Cert.Hetero.layer (M := 50000) (K := 128) (N := 128) (V c main_v316) (V c main_v56) (V c main_v288) (V c main_v333) (V c main_v344) (V c main_v337) (V c main_v339) (V c main_v345) (V c main_v343) :=
  (dat10 V c).arrAt_eq_of_cover 9 _ (fun t _ => flushed10 V c t) fun i => by
    have hi0 : (i 0).val < 50000 := (i 0).isLt
    have hi1 : (i 1).val < 128 := (i 1).isLt
    obtain ⟨t, ht⟩ := onto10 ⟨(i 0).val / 10000, by omega⟩
    have ht' : win10_9.index t (0 : Fin 2) = (i 0).val / 10000 := ht
    obtain ⟨-, -, -, -, -, -, -, -, -, -, -, -, -, -, -, -, -, -, e91, -⟩ := idx10 t
    refine ⟨t, flush10_9 t, ?_⟩
    rw [mem_blk10]
    intro a
    match a with
    | ⟨0, _⟩ => show win10_9.index t (0 : Fin 2) * 10000 ≤ (i 0).val ∧ (i 0).val < win10_9.index t (0 : Fin 2) * 10000 + 10000; omega
    | ⟨1, _⟩ => show win10_9.index t (1 : Fin 2) * 128 ≤ (i 1).val ∧ (i 1).val < win10_9.index t (1 : Fin 2) * 128 + 128; omega

end Cert.KernelIdeal.Val

end
-- ==== Proof.LibFuse.lean ====
/-
  A weighted sum of three arrays of one shape, on the extended reals, at any extents.

  The three weights are held in a one-row array of three entries: `fuse w h1 h2 h3` has the entry
  `(w(0,0) · h1 i + w(0,1) · h2 i) + w(0,2) · h3 i` at every index `i`, the two sums taken left to right.  The entry at an
  index depends on the three entries at that index only, which is what reading a block of rows against the whole
  arrays needs (`fuse_at`).  The host spells each weight as a one-entry slice of the weight vector, reshaped to a
  scalar and broadcast to the arrays' shape; a reshape between two shapes of one element each reads the one element,
  so the broadcast reads the sliced entry everywhere (`weight_apply`), and the three products added left to right are
  `fuse` of the vector laid out as one row (`hostFuse`).
-/
import proofs.«128317_j60687887892780_2_alg».proof.Proof.LibDense
import proofs.«128317_j60687887892780_2_alg».proof.Proof.LibRowBlocks

noncomputable section

namespace Cert.Fuse

open Idealize.ShloMosaic Idealize.ShloMosaic.ValueIdx Cert.Dense

/-- The three arrays weighted by the three entries of a one-row array and added left to right. -/
def fuse {M N : ℕ} (w : Mat 1 3) (h1 h2 h3 : Mat M N) : Mat M N :=
  fun i => (w (ix2 (0 : Fin 1) (0 : Fin 3)) * h1 i + w (ix2 (0 : Fin 1) (1 : Fin 3)) * h2 i)
    + w (ix2 (0 : Fin 1) (2 : Fin 3)) * h3 i

theorem fuse_apply {M N : ℕ} (w : Mat 1 3) (h1 h2 h3 : Mat M N) (i : (⟨2, ![M, N]⟩ : Shape).Idx) :
    fuse w h1 h2 h3 i = (w (ix2 (0 : Fin 1) (0 : Fin 3)) * h1 i + w (ix2 (0 : Fin 1) (1 : Fin 3)) * h2 i)
      + w (ix2 (0 : Fin 1) (2 : Fin 3)) * h3 i := rfl

/-- The weighted sum at an index depends on the three entries at that index. -/
theorem fuse_at {M M' N : ℕ} (w : Mat 1 3) (h1 h2 h3 : Mat M N) (h1' h2' h3' : Mat M' N)
    (j : (⟨2, ![M', N]⟩ : Shape).Idx) (i : (⟨2, ![M, N]⟩ : Shape).Idx)
    (e1 : h1' j = h1 i) (e2 : h2' j = h2 i) (e3 : h3' j = h3 i) :
    fuse w h1' h2' h3' j = fuse w h1 h2 h3 i := by
  rw [fuse_apply, fuse_apply, e1, e2, e3]

/-- A reshape of a one-entry vector to a scalar reads the entry. -/
theorem shapeCast_one_scalar {α : Type} (v : (⟨1, ![1]⟩ : Shape).Idx → α)
    (hc : (⟨1, ![1]⟩ : Shape).ShapeCasts ⟨0, ![]⟩) (j : (⟨0, ![]⟩ : Shape).Idx) :
    shapeCast ⟨0, ![]⟩ v hc j = v (ix1 (0 : Fin 1)) :=
  shapeCast_apply v hc j (ix1 (0 : Fin 1)) (by
    rw [Shape.rowMajor_val_one]
    exact (Shape.rowMajorPi_zero _ _).symm)

/-- Entry `o` of a vector of three, sliced out, reshaped to a scalar and broadcast to a rank-2 shape, reads that entry
    at every index. -/
theorem weight_apply {M N : ℕ} (bz : (⟨0, ![]⟩ : Shape).BroadcastsInDim ⟨2, ![M, N]⟩ ![])
    (hc : (⟨1, ![1]⟩ : Shape).ShapeCasts ⟨0, ![]⟩) (o : ℕ) (ho : o < 3)
    (hk : (⟨1, ![3]⟩ : Shape).Slices ![o] ⟨1, ![1]⟩) (wv : FVec Ideal ⟨1, ![3]⟩ .f32)
    (i : (⟨2, ![M, N]⟩ : Shape).Idx) :
    broadcastInDim ⟨2, ![M, N]⟩ ![] bz (shapeCast ⟨0, ![]⟩ (extractStridedSlice ⟨1, ![1]⟩ ![o] wv hk) hc) i
      = wv (ix1 (⟨o, ho⟩ : Fin 3)) := by
  rw [broadcastInDim_apply ![] bz _ i ix0 (fun a => a.elim0), shapeCast_one_scalar]
  exact extractStridedSlice_apply ![o] wv hk (ix1 (0 : Fin 1)) (ix1 (⟨o, ho⟩ : Fin 3)) (fun a => by
    match a with
    | ⟨0, _⟩ => rfl)

/-- The host's spelling: each weight a one-entry slice of the weight vector reshaped to a scalar and broadcast, the
    three products added left to right. -/
theorem hostFuse {M N : ℕ} (bz : (⟨0, ![]⟩ : Shape).BroadcastsInDim ⟨2, ![M, N]⟩ ![])
    (hc : (⟨1, ![1]⟩ : Shape).ShapeCasts ⟨0, ![]⟩)
    (hk0 : (⟨1, ![3]⟩ : Shape).Slices ![0] ⟨1, ![1]⟩) (hk1 : (⟨1, ![3]⟩ : Shape).Slices ![1] ⟨1, ![1]⟩)
    (hk2 : (⟨1, ![3]⟩ : Shape).Slices ![2] ⟨1, ![1]⟩)
    (wv : FVec Ideal ⟨1, ![3]⟩ .f32) (h1 h2 h3 : FVec Ideal ⟨2, ![M, N]⟩ .f32) :
    addf
        (addf
          (mulf (broadcastInDim ⟨2, ![M, N]⟩ ![] bz (shapeCast ⟨0, ![]⟩ (extractStridedSlice ⟨1, ![1]⟩ ![0] wv hk0) hc)) h1)
          (mulf (broadcastInDim ⟨2, ![M, N]⟩ ![] bz (shapeCast ⟨0, ![]⟩ (extractStridedSlice ⟨1, ![1]⟩ ![1] wv hk1) hc)) h2))
        (mulf (broadcastInDim ⟨2, ![M, N]⟩ ![] bz (shapeCast ⟨0, ![]⟩ (extractStridedSlice ⟨1, ![1]⟩ ![2] wv hk2) hc)) h3)
      = fuse (row wv) h1 h2 h3 := by
  funext i
  show (broadcastInDim ⟨2, ![M, N]⟩ ![] bz (shapeCast ⟨0, ![]⟩ (extractStridedSlice ⟨1, ![1]⟩ ![0] wv hk0) hc) i * h1 i
      + broadcastInDim ⟨2, ![M, N]⟩ ![] bz (shapeCast ⟨0, ![]⟩ (extractStridedSlice ⟨1, ![1]⟩ ![1] wv hk1) hc) i * h2 i)
      + broadcastInDim ⟨2, ![M, N]⟩ ![] bz (shapeCast ⟨0, ![]⟩ (extractStridedSlice ⟨1, ![1]⟩ ![2] wv hk2) hc) i * h3 i = _
  rw [weight_apply bz hc 0 (by omega) hk0 wv i, weight_apply bz hc 1 (by omega) hk1 wv i,
    weight_apply bz hc 2 (by omega) hk2 wv i]
  rfl

end Cert.Fuse

end
-- ==== Proof.LibFuseVec.lean ====
/-
  The vector unit's spelling of the weighted sum of three arrays.

  The weights arrive as a one-row block of three entries; the body takes each entry as a one-by-one slice of the block
  read at its only position, splats it over the arrays' shape and multiplies it in, and adds the three products left to
  right.  A slice at offset `(0, o)` read at position `(0, 0)` is the block's entry `(0, o)`; the casts are between equal
  shapes; products and sums of arrays are entrywise on the extended reals.  So the body is `fuse` of the block and the
  three arrays.
-/
import proofs.«128317_j60687887892780_2_alg».proof.Proof.LibFuse
import proofs.«128317_j60687887892780_2_alg».proof.Proof.Gen.KernelIdeal.Skeleton

noncomputable section

namespace Cert.Fuse

open Idealize.ShloMosaic Idealize.ShloMosaic.ValueIdx Cert.Dense Cert.KernelIdeal Cert.KernelIdeal.Gen

/-- A one-by-one slice of a one-row block at offset `(0, o)`, read at its only position, is the block's entry `(0, o)`. -/
theorem slice_extract {α : Type} (v : (⟨2, ![1, 3]⟩ : Shape).Idx → α) (o : ℕ) (ho : o < 3)
    (hs : (⟨2, ![1, 3]⟩ : Shape).Slices ![0, o] ⟨2, ![1, 1]⟩)
    (hp : ∀ a, (![0, 0] : Fin 2 → ℕ) a < (⟨2, ![1, 1]⟩ : Shape).size a) :
    extractAt ![0, 0] (extractStridedSlice ⟨2, ![1, 1]⟩ ![0, o] v hs) hp = v (ix2 (0 : Fin 1) (⟨o, ho⟩ : Fin 3)) := by
  unfold extractAt extractStridedSlice
  refine congrArg v (funext fun a => Fin.ext ?_)
  match a with
  | ⟨0, _⟩ => rfl
  | ⟨1, _⟩ => rfl

/-- The vector unit's body is the weighted sum. -/
theorem vecFuse (v0 : FVec Ideal S1x3 .f32) (v8 v12 v17 : FVec Ideal S10000x128 .f32) :
    k11_pay1 (F := Ideal) v0 v8 v12 v17 = fuse v0 v8 v12 v17 := by
  funext i
  have e0 : shapeCast S1x3 v0 shapeCasts_S1x3_S1x3 = v0 := shapeCast_self _ _
  have e8 : shapeCast S10000x128 v8 shapeCasts_S10000x128_S10000x128 = v8 := shapeCast_self _ _
  have e12 : shapeCast S10000x128 v12 shapeCasts_S10000x128_S10000x128 = v12 := shapeCast_self _ _
  have e17 : shapeCast S10000x128 v17 shapeCasts_S10000x128_S10000x128 = v17 := shapeCast_self _ _
  show (extractAt ![0, 0] (extractStridedSlice S1x1 ![0, 0] (shapeCast S1x3 v0 shapeCasts_S1x3_S1x3) slices_S1x3_o0_0_S1x1)
          inpos_S1x1_p0_0 * shapeCast S10000x128 v8 shapeCasts_S10000x128_S10000x128 i
      + extractAt ![0, 0] (extractStridedSlice S1x1 ![0, 1] (shapeCast S1x3 v0 shapeCasts_S1x3_S1x3) slices_S1x3_o0_1_S1x1)
          inpos_S1x1_p0_0 * shapeCast S10000x128 v12 shapeCasts_S10000x128_S10000x128 i)
      + extractAt ![0, 0] (extractStridedSlice S1x1 ![0, 2] (shapeCast S1x3 v0 shapeCasts_S1x3_S1x3) slices_S1x3_o0_2_S1x1)
          inpos_S1x1_p0_0 * shapeCast S10000x128 v17 shapeCasts_S10000x128_S10000x128 i = _
  rw [e0, e8, e12, e17, slice_extract v0 0 (by omega), slice_extract v0 1 (by omega), slice_extract v0 2 (by omega)]
  rfl

end Cert.Fuse

end
-- ==== Proof.Reg11.lean ====
/-
  Region 11 of the kernel program read as one whole-array function: the three item representations combined by the
  three fusion weights.

  The three representations and the result are cut into blocks of 10000 rows that move with the grid point; the one-row
  array of weights is one block.  The combination is entrywise, so what a point writes back is the block of rows of the
  combination of the WHOLE arrays, and the five written blocks tile the result array.
-/
import proofs.«128317_j60687887892780_2_alg».proof.Proof.Gen.KernelIdeal.Frame
import proofs.«128317_j60687887892780_2_alg».proof.Proof.LibFuse
import proofs.«128317_j60687887892780_2_alg».proof.Proof.LibFuseVec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Dense

variable (V : (c : Dev nD) → (b : Ref sig .tc) → Buf (Elt Ideal) ((c : Thread nD τ).loc b))

theorem hz11 : (![0, 0] : Fin 2 → Nat) = fun _ => 0 := funext fun a => by fin_cases a <;> rfl

/-- The body's result block is the combination of its input blocks. -/
theorem body11 (x0 : Vec Ideal S1x3 .f32) (x1 x2 x3 : Vec Ideal S10000x128 .f32) :
    out11_4 (F := Ideal) x0 x1 x2 x3 = Cert.Fuse.fuse (M := 10000) (N := 128) x0 x1 x2 x3 := by
  unfold out11_4
  rw [View.canon_unit_zero hz11]
  simp only [View.ld_unit_zero (S := S1x3) hz11, View.ld_unit_zero (S := S10000x128) hz11]
  exact Cert.Fuse.vecFuse x0 x1 x2 x3

theorem idx11 : ∀ t : Fin cfg11.N,
    win11_0.index t (0 : Fin 2) = 0 ∧ win11_0.index t (1 : Fin 2) = 0
    ∧ win11_1.index t (0 : Fin 2) = win11_4.index t (0 : Fin 2) ∧ win11_1.index t (1 : Fin 2) = 0
    ∧ win11_2.index t (0 : Fin 2) = win11_4.index t (0 : Fin 2) ∧ win11_2.index t (1 : Fin 2) = 0
    ∧ win11_3.index t (0 : Fin 2) = win11_4.index t (0 : Fin 2) ∧ win11_3.index t (1 : Fin 2) = 0
    ∧ win11_4.index t (1 : Fin 2) = 0 ∧ win11_4.index t (0 : Fin 2) < 5 :=
  (by decide +kernel : ∀ t : Fin grid11.N, _)

theorem onto11 : ∀ q0 : Fin 5, ∃ t : Fin cfg11.N, win11_4.index t (0 : Fin 2) = q0.val :=
  (by decide +kernel : ∀ q0 : Fin 5, ∃ t : Fin grid11.N, win11_4.index t (0 : Fin 2) = q0.val)

theorem wblk11 (c : Dev nD) (t : Fin cfg11.N) :
    (iblk11 V c 0 t : S1x3.Idx → EReal) = (V c main_v357 : S1x3.Idx → EReal) := by
  obtain ⟨e00, e01, -, -, -, -, -, -, -, -⟩ := idx11 t
  funext y
  unfold iblk11
  rw [View.read_apply]
  show V c main_v357 _ = V c main_v357 y
  refine congrArg _ (funext fun a => Fin.ext ?_)
  match a with
  | ⟨0, _⟩ => show win11_0.index t (0 : Fin 2) * 1 + 1 * (y 0).val = (y 0).val; omega
  | ⟨1, _⟩ => show win11_0.index t (1 : Fin 2) * 3 + 1 * (y 1).val = (y 1).val; omega

/-- What point `t` writes back is block `t` of the combination of the arrays the region found. -/
theorem flushed11 (c : Dev nD) (t : Fin cfg11.N) :
    (dat11 V c).flushed 4 t = ((cfg11.win 4).blk t).view.read (Elt Ideal)
      (Cert.Fuse.fuse (M := 50000) (N := 128) (V c main_v357) (V c main_v157) (V c main_v230) (V c main_v346)) := by
  show (cfg11.win 4).cut (grid11.coords t) ((dat11 V c).after 4 t) = _
  rw [after11_4, body11, wblk11]
  obtain ⟨-, -, e10, e11, e20, e21, e30, e31, e41, e4lt⟩ := idx11 t
  funext j
  rw [View.read_apply]
  have hj0 : (j 0).val < 10000 := (j 0).isLt
  have hj1 : (j 1).val < 128 := (j 1).isLt
  refine Cert.Fuse.fuse_at (M := 50000) (M' := 10000) (N := 128) (V c main_v357) (V c main_v157) (V c main_v230) (V c main_v346) (iblk11 V c 1 t) (iblk11 V c 2 t) (iblk11 V c 3 t)
    j (((cfg11.win 4).blk t).view.emb j) ?_ ?_ ?_
  · unfold iblk11
    rw [View.read_apply]
    show V c main_v157 _ = V c main_v157 _
    refine congrArg _ (funext fun a => Fin.ext ?_)
    match a with
    | ⟨0, _⟩ => show win11_1.index t (0 : Fin 2) * 10000 + 1 * (j 0).val = win11_4.index t (0 : Fin 2) * 10000 + 1 * (j 0).val; omega
    | ⟨1, _⟩ => show win11_1.index t (1 : Fin 2) * 128 + 1 * (j 1).val = win11_4.index t (1 : Fin 2) * 128 + 1 * (j 1).val; omega
  · unfold iblk11
    rw [View.read_apply]
    show V c main_v230 _ = V c main_v230 _
    refine congrArg _ (funext fun a => Fin.ext ?_)
    match a with
    | ⟨0, _⟩ => show win11_2.index t (0 : Fin 2) * 10000 + 1 * (j 0).val = win11_4.index t (0 : Fin 2) * 10000 + 1 * (j 0).val; omega
    | ⟨1, _⟩ => show win11_2.index t (1 : Fin 2) * 128 + 1 * (j 1).val = win11_4.index t (1 : Fin 2) * 128 + 1 * (j 1).val; omega
  · unfold iblk11
    rw [View.read_apply]
    show V c main_v346 _ = V c main_v346 _
    refine congrArg _ (funext fun a => Fin.ext ?_)
    match a with
    | ⟨0, _⟩ => show win11_3.index t (0 : Fin 2) * 10000 + 1 * (j 0).val = win11_4.index t (0 : Fin 2) * 10000 + 1 * (j 0).val; omega
    | ⟨1, _⟩ => show win11_3.index t (1 : Fin 2) * 128 + 1 * (j 1).val = win11_4.index t (1 : Fin 2) * 128 + 1 * (j 1).val; omega

theorem mem_blk11 (t : Fin cfg11.N) (i : S50000x128.Idx) :
    i ∈ ((cfg11.win 4).blk t).view.set ↔ ∀ a : Fin 2, win11_4.index t a * S10000x128.size a ≤ (i a).val ∧ (i a).val < win11_4.index t a * S10000x128.size a + S10000x128.size a := by
  show i ∈ ((View.whole main_v358).slice (win11_4.rect t)).set ↔ _
  rw [View.set_slice_whole, Rect.mem_set_unit]
  exact Iff.rfl

/-- THE ARRAY after the region: the combination of the arrays the region found. -/
theorem final11 (c : Dev nD) : (dat11 V c).arrAt 4 cfg11.N
    = Cert.Fuse.fuse (M := 50000) (N := 128) (V c main_v357) (V c main_v157) (V c main_v230) (V c main_v346) :=
  (dat11 V c).arrAt_eq_of_cover 4 _ (fun t _ => flushed11 V c t) fun i => by
    have hi0 : (i 0).val < 50000 := (i 0).isLt
    have hi1 : (i 1).val < 128 := (i 1).isLt
    obtain ⟨t, ht⟩ := onto11 ⟨(i 0).val / 10000, by omega⟩
    have ht' : win11_4.index t (0 : Fin 2) = (i 0).val / 10000 := ht
    obtain ⟨-, -, -, -, -, -, -, -, e41, -⟩ := idx11 t
    refine ⟨t, flush11_4 t, ?_⟩
    rw [mem_blk11]
    intro a
    match a with
    | ⟨0, _⟩ => show win11_4.index t (0 : Fin 2) * 10000 ≤ (i 0).val ∧ (i 0).val < win11_4.index t (0 : Fin 2) * 10000 + 10000; omega
    | ⟨1, _⟩ => show win11_4.index t (1 : Fin 2) * 128 ≤ (i 1).val ∧ (i 1).val < win11_4.index t (1 : Fin 2) * 128 + 128; omega

end Cert.KernelIdeal.Val

end
-- ==== Proof.RefLayers.lean ====
/-
  The reference's stages read as layers, on the extended reals.

  The reference computes, per destination node type, one update of a two-relation mean-aggregating layer: the summed
  neighbour rows divided by the in-degree clamped below by one, four dense products, two one-row biases, the half of the
  sum of the edge relation's and the self relation's contributions, rectified.  Each of the eight updates is the
  library's `layer` of the stage that sums the neighbour rows, the reciprocal of the clamped degree count as a column,
  the stage holding the node features, and the six weight and bias stages; the inputs stay named stages, so that the
  statements chain.  The first stage is a dense layer with a one-row bias.
-/
import proofs.«128317_j60687887892780_2_alg».proof.Proof.RefStages
import proofs.«128317_j60687887892780_2_alg».proof.Proof.LibHeteroLayer

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Cert.Dense Cert.RowScale

/-- The reference's first stage is the dense layer of the item features with a one-row bias. -/
theorem xitem_eq (x0 : (⟨S50000x256, .f32⟩ : BufTy).Contents (Elt Ideal)) (x3 : (⟨S256x128, .f32⟩ : BufTy).Contents (Elt Ideal)) (x4 : (⟨S128, .f32⟩ : BufTy).Contents (Elt Ideal)) :
    val_main_v3 (F := Ideal) x0 x3 x4 = Cert.Hetero.lin x0 x3 (row x4) := by
  unfold val_main_v3 val_main_v0 val_main_v2 val_main_v1
  exact Cert.Hetero.hostLin (M := 50000) (K := 256) (N := 128) dot_S50000x256_S256x128_S50000x128_1_0_0_1_n_n rfl rfl rfl rfl rfl rfl
    bcast_S128_S1x128_1 bcast_S1x128_S50000x128_0_1 x0 x3 x4

/-- The update written by stage `105` as the library's layer of its input stages. -/
theorem layer_main_v105 (x0 : (⟨S50000x256, .f32⟩ : BufTy).Contents (Elt Ideal)) (x1 : (⟨S100000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x15 : (⟨S2x1000000, .i32⟩ : BufTy).Contents (Elt Ideal)) :
    val_main_v105 (F := Ideal) x0 x1 x3 x4 x5 x6 x7 x15
      = Cert.Hetero.layer (val_main_v23 x1 x15)
          (col (Host.divf (F := Ideal) (broadcastInDim ⟨1, ![50000]⟩ ![] bcast_S_S50000 (constant (F := Ideal) ⟨0, ![]⟩ .f32 0x3F800000#32))
            (maximumf (val_main_v27 x15) (broadcastInDim ⟨1, ![50000]⟩ ![] bcast_S_S50000 (constant (F := Ideal) ⟨0, ![]⟩ .f32 0x3F800000#32)))))
          (val_main_v3 x0 x3 x4) (val_main_v9 x5) (row (val_main_v11 x6)) (val_main_v13 x7) (val_main_v40 x5) (row (val_main_v42 x6)) (val_main_v44 x7) := by
  unfold val_main_v105 val_main_v53 val_main_v52 val_main_cst_4 val_main_v51 val_main_v38 val_main_v36 val_main_v33 val_main_v32 val_main_v31 val_main_v30 val_main_v29 val_main_v28 val_main_cst_3 val_main_v35 val_main_v34 val_main_v37 val_main_v50 val_main_v48 val_main_v45 val_main_v47 val_main_v46 val_main_v49 val_main_call1_v0 val_main_call1_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

/-- The update written by stage `104` as the library's layer of its input stages. -/
theorem layer_main_v104 (x0 : (⟨S50000x256, .f32⟩ : BufTy).Contents (Elt Ideal)) (x1 : (⟨S100000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x15 : (⟨S2x1000000, .i32⟩ : BufTy).Contents (Elt Ideal)) :
    val_main_v104 (F := Ideal) x0 x1 x3 x4 x5 x6 x7 x15
      = Cert.Hetero.layer (val_main_v73 x0 x3 x4 x15)
          (col (Host.divf (F := Ideal) (broadcastInDim ⟨1, ![100000]⟩ ![] bcast_S_S100000 (constant (F := Ideal) ⟨0, ![]⟩ .f32 0x3F800000#32))
            (maximumf (val_main_v77 x15) (broadcastInDim ⟨1, ![100000]⟩ ![] bcast_S_S100000 (constant (F := Ideal) ⟨0, ![]⟩ .f32 0x3F800000#32)))))
          x1 (val_main_v59 x5) (row (val_main_v61 x6)) (val_main_v63 x7) (val_main_v90 x5) (row (val_main_v92 x6)) (val_main_v94 x7) := by
  unfold val_main_v104 val_main_v103 val_main_v102 val_main_cst_11 val_main_v101 val_main_v88 val_main_v86 val_main_v83 val_main_v82 val_main_v81 val_main_v80 val_main_v79 val_main_v78 val_main_cst_10 val_main_v85 val_main_v84 val_main_v87 val_main_v100 val_main_v98 val_main_v95 val_main_v97 val_main_v96 val_main_v99 val_main_call0_v0 val_main_call0_cst
  exact Cert.Hetero.hostLayer (M := 100000) (K := 128) (N := 128) dot_S100000x128_S128x128_S100000x128_1_0_0_1_n_n rfl rfl rfl rfl rfl rfl
    bcast_S_S100000x128 bcast_S_S100000x128 bcast_S100000_S100000x1_0 bcast_S100000x1_S100000x128_0_1 bcast_S128_S1x128_1 bcast_S1x128_S100000x128_0_1 bcast_S_S100000
    _ _ _ _ _ _ _ _ _

/-- The update written by stage `207` as the library's layer of its input stages. -/
theorem layer_main_v207 (x0 : (⟨S50000x256, .f32⟩ : BufTy).Contents (Elt Ideal)) (x1 : (⟨S100000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x15 : (⟨S2x1000000, .i32⟩ : BufTy).Contents (Elt Ideal)) :
    val_main_v207 (F := Ideal) x0 x1 x3 x4 x5 x6 x7 x15
      = Cert.Hetero.layer (val_main_v125 x0 x1 x3 x4 x5 x6 x7 x15)
          (col (Host.divf (F := Ideal) (broadcastInDim ⟨1, ![50000]⟩ ![] bcast_S_S50000 (constant (F := Ideal) ⟨0, ![]⟩ .f32 0x3F800000#32))
            (maximumf (val_main_v129 x15) (broadcastInDim ⟨1, ![50000]⟩ ![] bcast_S_S50000 (constant (F := Ideal) ⟨0, ![]⟩ .f32 0x3F800000#32)))))
          (val_main_v105 x0 x1 x3 x4 x5 x6 x7 x15) (val_main_v111 x5) (row (val_main_v113 x6)) (val_main_v115 x7) (val_main_v142 x5) (row (val_main_v144 x6)) (val_main_v146 x7) := by
  unfold val_main_v207 val_main_v155 val_main_v154 val_main_cst_18 val_main_v153 val_main_v140 val_main_v138 val_main_v135 val_main_v134 val_main_v133 val_main_v132 val_main_v131 val_main_v130 val_main_cst_17 val_main_v137 val_main_v136 val_main_v139 val_main_v152 val_main_v150 val_main_v147 val_main_v149 val_main_v148 val_main_v151 val_main_call3_v0 val_main_call3_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

/-- The update written by stage `258` as the library's layer of its input stages. -/
theorem layer_main_v258 (x0 : (⟨S50000x256, .f32⟩ : BufTy).Contents (Elt Ideal)) (x3 : (⟨S256x128, .f32⟩ : BufTy).Contents (Elt Ideal)) (x4 : (⟨S128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x16 : (⟨S2x500000, .i32⟩ : BufTy).Contents (Elt Ideal)) :
    val_main_v258 (F := Ideal) x0 x3 x4 x8 x9 x10 x16
      = Cert.Hetero.layer (val_main_v227 x0 x3 x4 x16)
          (col (Host.divf (F := Ideal) (broadcastInDim ⟨1, ![50000]⟩ ![] bcast_S_S50000 (constant (F := Ideal) ⟨0, ![]⟩ .f32 0x3F800000#32))
            (maximumf (val_main_v231 x16) (broadcastInDim ⟨1, ![50000]⟩ ![] bcast_S_S50000 (constant (F := Ideal) ⟨0, ![]⟩ .f32 0x3F800000#32)))))
          (val_main_v3 x0 x3 x4) (val_main_v213 x8) (row (val_main_v215 x9)) (val_main_v217 x10) (val_main_v244 x8) (row (val_main_v246 x9)) (val_main_v248 x10) := by
  unfold val_main_v258 val_main_v257 val_main_v256 val_main_cst_32 val_main_v255 val_main_v242 val_main_v240 val_main_v237 val_main_v236 val_main_v235 val_main_v234 val_main_v233 val_main_v232 val_main_cst_31 val_main_v239 val_main_v238 val_main_v241 val_main_v254 val_main_v252 val_main_v249 val_main_v251 val_main_v250 val_main_v253 val_main_call4_v0 val_main_call4_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

/-- The update written by stage `309` as the library's layer of its input stages. -/
theorem layer_main_v309 (x0 : (⟨S50000x256, .f32⟩ : BufTy).Contents (Elt Ideal)) (x3 : (⟨S256x128, .f32⟩ : BufTy).Contents (Elt Ideal)) (x4 : (⟨S128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x16 : (⟨S2x500000, .i32⟩ : BufTy).Contents (Elt Ideal)) :
    val_main_v309 (F := Ideal) x0 x3 x4 x8 x9 x10 x16
      = Cert.Hetero.layer (val_main_v278 x0 x3 x4 x8 x9 x10 x16)
          (col (Host.divf (F := Ideal) (broadcastInDim ⟨1, ![50000]⟩ ![] bcast_S_S50000 (constant (F := Ideal) ⟨0, ![]⟩ .f32 0x3F800000#32))
            (maximumf (val_main_v282 x16) (broadcastInDim ⟨1, ![50000]⟩ ![] bcast_S_S50000 (constant (F := Ideal) ⟨0, ![]⟩ .f32 0x3F800000#32)))))
          (val_main_v258 x0 x3 x4 x8 x9 x10 x16) (val_main_v264 x8) (row (val_main_v266 x9)) (val_main_v268 x10) (val_main_v295 x8) (row (val_main_v297 x9)) (val_main_v299 x10) := by
  unfold val_main_v309 val_main_v308 val_main_v307 val_main_cst_39 val_main_v306 val_main_v293 val_main_v291 val_main_v288 val_main_v287 val_main_v286 val_main_v285 val_main_v284 val_main_v283 val_main_cst_38 val_main_v290 val_main_v289 val_main_v292 val_main_v305 val_main_v303 val_main_v300 val_main_v302 val_main_v301 val_main_v304 val_main_call5_v0 val_main_call5_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

/-- The update written by stage `411` as the library's layer of its input stages. -/
theorem layer_main_v411 (x0 : (⟨S50000x256, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x17 : (⟨S2x250000, .i32⟩ : BufTy).Contents (Elt Ideal)) :
    val_main_v411 (F := Ideal) x0 x2 x3 x4 x11 x12 x13 x17
      = Cert.Hetero.layer (val_main_v329 x0 x3 x4 x17)
          (col (Host.divf (F := Ideal) (broadcastInDim ⟨1, ![5000]⟩ ![] bcast_S_S5000 (constant (F := Ideal) ⟨0, ![]⟩ .f32 0x3F800000#32))
            (maximumf (val_main_v333 x17) (broadcastInDim ⟨1, ![5000]⟩ ![] bcast_S_S5000 (constant (F := Ideal) ⟨0, ![]⟩ .f32 0x3F800000#32)))))
          x2 (val_main_v315 x11) (row (val_main_v317 x12)) (val_main_v319 x13) (val_main_v346 x11) (row (val_main_v348 x12)) (val_main_v350 x13) := by
  unfold val_main_v411 val_main_v359 val_main_v358 val_main_cst_46 val_main_v357 val_main_v344 val_main_v342 val_main_v339 val_main_v338 val_main_v337 val_main_v336 val_main_v335 val_main_v334 val_main_cst_45 val_main_v341 val_main_v340 val_main_v343 val_main_v356 val_main_v354 val_main_v351 val_main_v353 val_main_v352 val_main_v355 val_main_call7_v0 val_main_call7_cst
  exact Cert.Hetero.hostLayer (M := 5000) (K := 128) (N := 128) dot_S5000x128_S128x128_S5000x128_1_0_0_1_n_n rfl rfl rfl rfl rfl rfl
    bcast_S_S5000x128 bcast_S_S5000x128 bcast_S5000_S5000x1_0 bcast_S5000x1_S5000x128_0_1 bcast_S128_S1x128_1 bcast_S1x128_S5000x128_0_1 bcast_S_S5000
    _ _ _ _ _ _ _ _ _

/-- The update written by stage `410` as the library's layer of its input stages. -/
theorem layer_main_v410 (x0 : (⟨S50000x256, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x17 : (⟨S2x250000, .i32⟩ : BufTy).Contents (Elt Ideal)) :
    val_main_v410 (F := Ideal) x0 x2 x3 x4 x11 x12 x13 x17
      = Cert.Hetero.layer (val_main_v379 x2 x17)
          (col (Host.divf (F := Ideal) (broadcastInDim ⟨1, ![50000]⟩ ![] bcast_S_S50000 (constant (F := Ideal) ⟨0, ![]⟩ .f32 0x3F800000#32))
            (maximumf (val_main_v383 x17) (broadcastInDim ⟨1, ![50000]⟩ ![] bcast_S_S50000 (constant (F := Ideal) ⟨0, ![]⟩ .f32 0x3F800000#32)))))
          (val_main_v3 x0 x3 x4) (val_main_v365 x11) (row (val_main_v367 x12)) (val_main_v369 x13) (val_main_v396 x11) (row (val_main_v398 x12)) (val_main_v400 x13) := by
  unfold val_main_v410 val_main_v409 val_main_v408 val_main_cst_53 val_main_v407 val_main_v394 val_main_v392 val_main_v389 val_main_v388 val_main_v387 val_main_v386 val_main_v385 val_main_v384 val_main_cst_52 val_main_v391 val_main_v390 val_main_v393 val_main_v406 val_main_v404 val_main_v401 val_main_v403 val_main_v402 val_main_v405 val_main_call6_v0 val_main_call6_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

/-- The update written by stage `512` as the library's layer of its input stages. -/
theorem layer_main_v512 (x0 : (⟨S50000x256, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x17 : (⟨S2x250000, .i32⟩ : BufTy).Contents (Elt Ideal)) :
    val_main_v512 (F := Ideal) x0 x2 x3 x4 x11 x12 x13 x17
      = Cert.Hetero.layer (val_main_v481 x0 x2 x3 x4 x11 x12 x13 x17)
          (col (Host.divf (F := Ideal) (broadcastInDim ⟨1, ![50000]⟩ ![] bcast_S_S50000 (constant (F := Ideal) ⟨0, ![]⟩ .f32 0x3F800000#32))
            (maximumf (val_main_v485 x17) (broadcastInDim ⟨1, ![50000]⟩ ![] bcast_S_S50000 (constant (F := Ideal) ⟨0, ![]⟩ .f32 0x3F800000#32)))))
          (val_main_v410 x0 x2 x3 x4 x11 x12 x13 x17) (val_main_v467 x11) (row (val_main_v469 x12)) (val_main_v471 x13) (val_main_v498 x11) (row (val_main_v500 x12)) (val_main_v502 x13) := by
  unfold val_main_v512 val_main_v511 val_main_v510 val_main_cst_67 val_main_v509 val_main_v496 val_main_v494 val_main_v491 val_main_v490 val_main_v489 val_main_v488 val_main_v487 val_main_v486 val_main_cst_66 val_main_v493 val_main_v492 val_main_v495 val_main_v508 val_main_v506 val_main_v503 val_main_v505 val_main_v504 val_main_v507 val_main_call8_v0 val_main_call8_cst
  exact Cert.Hetero.hostLayer (M := 50000) (K := 128) (N := 128) dot_S50000x128_S128x128_S50000x128_1_0_0_1_n_n rfl rfl rfl rfl rfl rfl
    bcast_S_S50000x128 bcast_S_S50000x128 bcast_S50000_S50000x1_0 bcast_S50000x1_S50000x128_0_1 bcast_S128_S1x128_1 bcast_S1x128_S50000x128_0_1 bcast_S_S50000
    _ _ _ _ _ _ _ _ _

end Cert.RefSide

end
-- ==== Proof.RefFused.lean ====
/-
  The reference's last stages read as the weighted sum of the three updated item arrays, on the extended reals.

  The three weights are the entries of the normalised weight vector; the host slices each out, reshapes it to a scalar,
  broadcasts it over the arrays' shape and multiplies it in, and adds the three products left to right.  That is the
  library's `fuse` of the weight vector laid out as one row and of the three stages holding the updated arrays, which
  stay named stages.
-/
import proofs.«128317_j60687887892780_2_alg».proof.Proof.RefStages
import proofs.«128317_j60687887892780_2_alg».proof.Proof.LibFuse

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Cert.Dense

/-- The reference's result is the weighted sum of the three updated item arrays. -/
theorem fused_eq (x0 : (⟨S50000x256, .f32⟩ : BufTy).Contents (Elt Ideal)) (x1 : (⟨S100000x128, .f32⟩ : BufTy).Contents (Elt Ideal)) (x2 : (⟨S5000x128, .f32⟩ : BufTy).Contents (Elt Ideal)) (x3 : (⟨S256x128, .f32⟩ : BufTy).Contents (Elt Ideal)) (x4 : (⟨S128, .f32⟩ : BufTy).Contents (Elt Ideal)) (x5 : (⟨S2x4x128x128, .f32⟩ : BufTy).Contents (Elt Ideal)) (x6 : (⟨S2x4x128, .f32⟩ : BufTy).Contents (Elt Ideal)) (x7 : (⟨S2x4x128x128, .f32⟩ : BufTy).Contents (Elt Ideal)) (x8 : (⟨S2x2x128x128, .f32⟩ : BufTy).Contents (Elt Ideal)) (x9 : (⟨S2x2x128, .f32⟩ : BufTy).Contents (Elt Ideal)) (x10 : (⟨S2x2x128x128, .f32⟩ : BufTy).Contents (Elt Ideal)) (x11 : (⟨S2x4x128x128, .f32⟩ : BufTy).Contents (Elt Ideal)) (x12 : (⟨S2x4x128, .f32⟩ : BufTy).Contents (Elt Ideal)) (x13 : (⟨S2x4x128x128, .f32⟩ : BufTy).Contents (Elt Ideal)) (x14 : (⟨S3, .f32⟩ : BufTy).Contents (Elt Ideal)) (x15 : (⟨S2x1000000, .i32⟩ : BufTy).Contents (Elt Ideal)) (x16 : (⟨S2x500000, .i32⟩ : BufTy).Contents (Elt Ideal)) (x17 : (⟨S2x250000, .i32⟩ : BufTy).Contents (Elt Ideal)) :
    val_main_v537 (F := Ideal) x0 x1 x2 x3 x4 x5 x6 x7 x8 x9 x10 x11 x12 x13 x14 x15 x16 x17
      = Cert.Fuse.fuse (row (val_main_v523 x14)) (val_main_v207 x0 x1 x3 x4 x5 x6 x7 x15) (val_main_v309 x0 x3 x4 x8 x9 x10 x16) (val_main_v512 x0 x2 x3 x4 x11 x12 x13 x17) := by
  unfold val_main_v537 val_main_v532 val_main_v527 val_main_v526 val_main_v525 val_main_v524 val_main_v531 val_main_v530 val_main_v529 val_main_v528 val_main_v536 val_main_v535 val_main_v534 val_main_v533
  exact Cert.Fuse.hostFuse (M := 50000) (N := 128) bcast_S_S50000x128 shapeCasts_S1_S_ slices_S3_S1_0 slices_S3_S1_1 slices_S3_S1_2
    _ _ _ _

end Cert.RefSide

end
-- ==== Proof.Bridge.lean ====
/-
  The kernel program's region results are the reference's stages, region by region.

  Each region's result array is the layer (or the dense layer, or the weighted sum) of the arrays the region finds; the
  host operations in front of the region compute those arrays from the arguments and from earlier regions' results with
  the same operations the reference applies, so every input of a region is the matching reference stage: the gathered
  and summed neighbour rows by the same gather and scatter-add of an array already identified, the weight and bias
  slices by the same slices of the same arguments, the reciprocal clamped degree as the column of the same vector.
  With the reference's layer in the same form the two results are one array.
-/
import proofs.«128317_j60687887892780_2_alg».proof.Proof.KKeep
import proofs.«128317_j60687887892780_2_alg».proof.Proof.KStage0
import proofs.«128317_j60687887892780_2_alg».proof.Proof.KStage1
import proofs.«128317_j60687887892780_2_alg».proof.Proof.KStage2
import proofs.«128317_j60687887892780_2_alg».proof.Proof.KStage3
import proofs.«128317_j60687887892780_2_alg».proof.Proof.KStage5
import proofs.«128317_j60687887892780_2_alg».proof.Proof.KStage6
import proofs.«128317_j60687887892780_2_alg».proof.Proof.KStage7
import proofs.«128317_j60687887892780_2_alg».proof.Proof.KStage8
import proofs.«128317_j60687887892780_2_alg».proof.Proof.KStage10
import proofs.«128317_j60687887892780_2_alg».proof.Proof.KStage11
import proofs.«128317_j60687887892780_2_alg».proof.Proof.Reg0
import proofs.«128317_j60687887892780_2_alg».proof.Proof.Reg1
import proofs.«128317_j60687887892780_2_alg».proof.Proof.Reg2
import proofs.«128317_j60687887892780_2_alg».proof.Proof.Reg3
import proofs.«128317_j60687887892780_2_alg».proof.Proof.Reg5
import proofs.«128317_j60687887892780_2_alg».proof.Proof.Reg6
import proofs.«128317_j60687887892780_2_alg».proof.Proof.Reg7
import proofs.«128317_j60687887892780_2_alg».proof.Proof.Reg8
import proofs.«128317_j60687887892780_2_alg».proof.Proof.Reg10
import proofs.«128317_j60687887892780_2_alg».proof.Proof.Reg11
import proofs.«128317_j60687887892780_2_alg».proof.Proof.RefLayers
import proofs.«128317_j60687887892780_2_alg».proof.Proof.RefFused

set_option maxRecDepth 16384

noncomputable section

open Idealize.ShloMosaic Idealize.ShloMosaic.TcCoe Idealize.SL.Sem

namespace Cert.KernelIdeal.Val

open Cert.KernelIdeal Cert.KernelIdeal.Gen Idealize.ShloMosaic.ValueIdx Cert.Dense

theorem layer_congr {M K N : ℕ} {a a' : Mat M K} {s s' : Mat M 1} {x x' : Mat M K} {wl wl' : Mat K N} {bl bl' : Mat 1 N}
    {wr wr' wls wls' : Mat K N} {bls bls' : Mat 1 N} {wrs wrs' : Mat K N}
    (h0 : a = a') (h1 : s = s') (h2 : x = x') (h3 : wl = wl') (h4 : bl = bl') (h5 : wr = wr') (h6 : wls = wls')
    (h7 : bls = bls') (h8 : wrs = wrs') :
    Cert.Hetero.layer a s x wl bl wr wls bls wrs = Cert.Hetero.layer a' s' x' wl' bl' wr' wls' bls' wrs' := by
  subst h0 h1 h2 h3 h4 h5 h6 h7 h8; rfl

variable (m : (ℓ : Loc nD τ sig) → Buf (Elt Ideal) ℓ) (ρ : Dev nD → PrngReg)

/-- Region 0's result array is the reference's projected item features. -/
theorem K0 (c : Dev nD) : (W2 m ρ c (Proc.devRef .tc main_v1) : S50000x128.Idx → EReal)
    = Cert.ReferenceIdeal.Read.val_main_v3 (F := Ideal) (m ((c.tc : Thread nD τ).loc main_arg0)) (m ((c.tc : Thread nD τ).loc main_arg3)) (m ((c.tc : Thread nD τ).loc main_arg4)) := by
  rw [rout0 m ρ c, final0 (V1 m ρ) c, Cert.RefSide.xitem_eq]
  have e0 := in0_0 m ρ c
  have e1 := in0_1 m ρ c
  have e2 := (in0_2 m ρ c).trans (Cert.Dense.shapeCast_row _ _)
  show Cert.Hetero.lin (W1 m ρ c (Proc.devRef .tc main_arg0)) (W1 m ρ c (Proc.devRef .tc main_arg3)) (W1 m ρ c (Proc.devRef .tc main_v0)) = _
  rw [e0, e1, e2]

/-- Region 1's result array is the reference's stage `main_v105`. -/
theorem K1 (c : Dev nD) : (W4 m ρ c (Proc.devRef .tc main_v99) : S50000x128.Idx → EReal)
    = Cert.ReferenceIdeal.Read.val_main_v105 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15)) := by
  rw [rout1 m ρ c, final1 (V3 m ρ) c, Cert.RefSide.layer_main_v105]
  refine layer_congr ?_ ?_ ?_ ?_ ?_ ?_ ?_ ?_ ?_
  · exact (in1_0 m ρ c).trans rfl
  · exact (in1_1 m ρ c).trans ((Cert.RowScale.shapeCast_col _ _).trans rfl)
  · exact (in1_2 m ρ c).trans (K0 m ρ c)
  · exact (in1_3 m ρ c).trans rfl
  · exact (in1_4 m ρ c).trans ((Cert.Dense.shapeCast_row _ _).trans rfl)
  · exact (in1_5 m ρ c).trans rfl
  · exact (in1_6 m ρ c).trans rfl
  · exact (in1_7 m ρ c).trans ((Cert.Dense.shapeCast_row _ _).trans rfl)
  · exact (in1_8 m ρ c).trans rfl

/-- Region 2's result array is the reference's stage `main_v104`. -/
theorem K2 (c : Dev nD) : (W6 m ρ c (Proc.devRef .tc main_v114) : S100000x128.Idx → EReal)
    = Cert.ReferenceIdeal.Read.val_main_v104 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15)) := by
  rw [rout2 m ρ c, final2 (V5 m ρ) c, Cert.RefSide.layer_main_v104]
  refine layer_congr ?_ ?_ ?_ ?_ ?_ ?_ ?_ ?_ ?_
  · refine (in2_0 m ρ c).trans ?_
    rw [K0 m ρ c]
    rfl
  · exact (in2_1 m ρ c).trans ((Cert.RowScale.shapeCast_col _ _).trans rfl)
  · exact in2_2 m ρ c
  · exact (in2_3 m ρ c).trans rfl
  · exact (in2_4 m ρ c).trans ((Cert.Dense.shapeCast_row _ _).trans rfl)
  · exact (in2_5 m ρ c).trans rfl
  · exact (in2_6 m ρ c).trans rfl
  · exact (in2_7 m ρ c).trans ((Cert.Dense.shapeCast_row _ _).trans rfl)
  · exact (in2_8 m ρ c).trans rfl

/-- Region 3's result array is the reference's stage `main_v207`. -/
theorem K3 (c : Dev nD) : (W8 m ρ c (Proc.devRef .tc main_v157) : S50000x128.Idx → EReal)
    = Cert.ReferenceIdeal.Read.val_main_v207 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15)) := by
  rw [rout3 m ρ c, final3 (V7 m ρ) c, Cert.RefSide.layer_main_v207]
  refine layer_congr ?_ ?_ ?_ ?_ ?_ ?_ ?_ ?_ ?_
  · refine (in3_0 m ρ c).trans ?_
    rw [K2 m ρ c]
    rfl
  · exact (in3_1 m ρ c).trans ((Cert.RowScale.shapeCast_col _ _).trans rfl)
  · exact (in3_2 m ρ c).trans (K1 m ρ c)
  · exact (in3_3 m ρ c).trans rfl
  · exact (in3_4 m ρ c).trans ((Cert.Dense.shapeCast_row _ _).trans rfl)
  · exact (in3_5 m ρ c).trans rfl
  · exact (in3_6 m ρ c).trans rfl
  · exact (in3_7 m ρ c).trans ((Cert.Dense.shapeCast_row _ _).trans rfl)
  · exact (in3_8 m ρ c).trans rfl

/-- Region 5's result array is the reference's stage `main_v258`. -/
theorem K5 (c : Dev nD) : (W12 m ρ c (Proc.devRef .tc main_v201) : S50000x128.Idx → EReal)
    = Cert.ReferenceIdeal.Read.val_main_v258 (F := Ideal) (m ((c.tc : Thread nD τ).loc main_arg0)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg16)) := by
  rw [rout5 m ρ c, final5 (V11 m ρ) c, Cert.RefSide.layer_main_v258]
  refine layer_congr ?_ ?_ ?_ ?_ ?_ ?_ ?_ ?_ ?_
  · refine (in5_0 m ρ c).trans ?_
    rw [K0 m ρ c]
    rfl
  · exact (in5_1 m ρ c).trans ((Cert.RowScale.shapeCast_col _ _).trans rfl)
  · exact (in5_2 m ρ c).trans (K0 m ρ c)
  · exact (in5_3 m ρ c).trans rfl
  · exact (in5_4 m ρ c).trans ((Cert.Dense.shapeCast_row _ _).trans rfl)
  · exact (in5_5 m ρ c).trans rfl
  · exact (in5_6 m ρ c).trans rfl
  · exact (in5_7 m ρ c).trans ((Cert.Dense.shapeCast_row _ _).trans rfl)
  · exact (in5_8 m ρ c).trans rfl

/-- Region 6's result array is the reference's stage `main_v309`. -/
theorem K6 (c : Dev nD) : (W14 m ρ c (Proc.devRef .tc main_v230) : S50000x128.Idx → EReal)
    = Cert.ReferenceIdeal.Read.val_main_v309 (F := Ideal) (m ((c.tc : Thread nD τ).loc main_arg0)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg16)) := by
  rw [rout6 m ρ c, final6 (V13 m ρ) c, Cert.RefSide.layer_main_v309]
  refine layer_congr ?_ ?_ ?_ ?_ ?_ ?_ ?_ ?_ ?_
  · refine (in6_0 m ρ c).trans ?_
    rw [K5 m ρ c]
    rfl
  · exact (in6_1 m ρ c).trans ((Cert.RowScale.shapeCast_col _ _).trans rfl)
  · exact (in6_2 m ρ c).trans (K5 m ρ c)
  · exact (in6_3 m ρ c).trans rfl
  · exact (in6_4 m ρ c).trans ((Cert.Dense.shapeCast_row _ _).trans rfl)
  · exact (in6_5 m ρ c).trans rfl
  · exact (in6_6 m ρ c).trans rfl
  · exact (in6_7 m ρ c).trans ((Cert.Dense.shapeCast_row _ _).trans rfl)
  · exact (in6_8 m ρ c).trans rfl

/-- Region 7's result array is the reference's stage `main_v411`. -/
theorem K7 (c : Dev nD) : (W16 m ρ c (Proc.devRef .tc main_v273) : S5000x128.Idx → EReal)
    = Cert.ReferenceIdeal.Read.val_main_v411 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg17)) := by
  rw [rout7 m ρ c, final7 (V15 m ρ) c, Cert.RefSide.layer_main_v411]
  refine layer_congr ?_ ?_ ?_ ?_ ?_ ?_ ?_ ?_ ?_
  · refine (in7_0 m ρ c).trans ?_
    rw [K0 m ρ c]
    rfl
  · exact (in7_1 m ρ c).trans ((Cert.RowScale.shapeCast_col _ _).trans rfl)
  · exact in7_2 m ρ c
  · exact (in7_3 m ρ c).trans rfl
  · exact (in7_4 m ρ c).trans ((Cert.Dense.shapeCast_row _ _).trans rfl)
  · exact (in7_5 m ρ c).trans rfl
  · exact (in7_6 m ρ c).trans rfl
  · exact (in7_7 m ρ c).trans ((Cert.Dense.shapeCast_row _ _).trans rfl)
  · exact (in7_8 m ρ c).trans rfl

/-- Region 8's result array is the reference's stage `main_v410`. -/
theorem K8 (c : Dev nD) : (W18 m ρ c (Proc.devRef .tc main_v288) : S50000x128.Idx → EReal)
    = Cert.ReferenceIdeal.Read.val_main_v410 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg17)) := by
  rw [rout8 m ρ c, final8 (V17 m ρ) c, Cert.RefSide.layer_main_v410]
  refine layer_congr ?_ ?_ ?_ ?_ ?_ ?_ ?_ ?_ ?_
  · exact (in8_0 m ρ c).trans rfl
  · exact (in8_1 m ρ c).trans ((Cert.RowScale.shapeCast_col _ _).trans rfl)
  · exact (in8_2 m ρ c).trans (K0 m ρ c)
  · exact (in8_3 m ρ c).trans rfl
  · exact (in8_4 m ρ c).trans ((Cert.Dense.shapeCast_row _ _).trans rfl)
  · exact (in8_5 m ρ c).trans rfl
  · exact (in8_6 m ρ c).trans rfl
  · exact (in8_7 m ρ c).trans ((Cert.Dense.shapeCast_row _ _).trans rfl)
  · exact (in8_8 m ρ c).trans rfl

/-- Region 10's result array is the reference's stage `main_v512`. -/
theorem K10 (c : Dev nD) : (W22 m ρ c (Proc.devRef .tc main_v346) : S50000x128.Idx → EReal)
    = Cert.ReferenceIdeal.Read.val_main_v512 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg17)) := by
  rw [rout10 m ρ c, final10 (V21 m ρ) c, Cert.RefSide.layer_main_v512]
  refine layer_congr ?_ ?_ ?_ ?_ ?_ ?_ ?_ ?_ ?_
  · refine (in10_0 m ρ c).trans ?_
    rw [K7 m ρ c]
    rfl
  · exact (in10_1 m ρ c).trans ((Cert.RowScale.shapeCast_col _ _).trans rfl)
  · exact (in10_2 m ρ c).trans (K8 m ρ c)
  · exact (in10_3 m ρ c).trans rfl
  · exact (in10_4 m ρ c).trans ((Cert.Dense.shapeCast_row _ _).trans rfl)
  · exact (in10_5 m ρ c).trans rfl
  · exact (in10_6 m ρ c).trans rfl
  · exact (in10_7 m ρ c).trans ((Cert.Dense.shapeCast_row _ _).trans rfl)
  · exact (in10_8 m ρ c).trans rfl

theorem fuse_congr {M N : ℕ} {w w' : Mat 1 3} {h1 h1' h2 h2' h3 h3' : Mat M N} (e0 : w = w') (e1 : h1 = h1') (e2 : h2 = h2')
    (e3 : h3 = h3') : Cert.Fuse.fuse w h1 h2 h3 = Cert.Fuse.fuse w' h1' h2' h3' := by
  subst e0 e1 e2 e3; rfl

/-- The fused result array is the reference's fused stage. -/
theorem K11 (c : Dev nD) : (W24 m ρ c (Proc.devRef .tc main_v358) : S50000x128.Idx → EReal)
    = Cert.ReferenceIdeal.Read.val_main_v537 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [rout11 m ρ c, final11 (V23 m ρ) c, Cert.RefSide.fused_eq]
  refine fuse_congr ?_ ?_ ?_ ?_
  · exact (in11_0 m ρ c).trans ((Cert.Dense.shapeCast_row _ _).trans rfl)
  · exact (in11_1 m ρ c).trans (K3 m ρ c)
  · exact (in11_2 m ρ c).trans (K6 m ρ c)
  · exact (in11_3 m ρ c).trans (K10 m ρ c)

/-- The second result: the item representation of the user–item branch. -/
theorem R1 (c : Dev nD) : (W24 m ρ c (Proc.devRef .tc main_v157) : S50000x128.Idx → EReal)
    = Cert.ReferenceIdeal.Read.val_main_v207 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15)) :=
  (res_v157 m ρ c).trans (K3 m ρ c)

/-- The third result: the item representation of the item–item branch. -/
theorem R2 (c : Dev nD) : (W24 m ρ c (Proc.devRef .tc main_v230) : S50000x128.Idx → EReal)
    = Cert.ReferenceIdeal.Read.val_main_v309 (F := Ideal) (m ((c.tc : Thread nD τ).loc main_arg0)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg16)) :=
  (res_v230 m ρ c).trans (K6 m ρ c)

/-- The fourth result: the item representation of the item–attribute branch. -/
theorem R3 (c : Dev nD) : (W24 m ρ c (Proc.devRef .tc main_v346) : S50000x128.Idx → EReal)
    = Cert.ReferenceIdeal.Read.val_main_v512 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg17)) :=
  (res_v346 m ρ c).trans (K10 m ρ c)

/-- The fifth result: the softmax of the three fusion logits, the same host operations in both programs. -/
theorem R4 (c : Dev nD) : (W24 m ρ c (Proc.devRef .tc main_v356) : S3.Idx → EReal)
    = Cert.ReferenceIdeal.Read.val_main_v523 (F := Ideal) (m ((c.tc : Thread nD τ).loc main_arg14)) :=
  (res_w m ρ c).trans rfl

end Cert.KernelIdeal.Val

end
-- ==== Proof.lean ====
/-
  A two-layer heterogeneous mean-aggregating graph network over three relation families (user–item, item–item,
  item–attribute) with a softmax-weighted fusion of the three item representations: the tiled kernel program against the
  plain reference, on the extended reals.

  Both programs gather neighbour rows and sum them per destination with the same host operations; the kernel program
  then runs each destination type's update as a tiled region — the aggregate's rows scaled by the reciprocal of the
  in-degree clamped below by one, two matrix products and a bias for the edge relation, the same for the self relation,
  the rectified half of their sum — where the reference divides the aggregate by the clamped degree and composes the same
  products on whole arrays.  A degree clamped below by one is never zero, and off zero the quotient is the product with
  the reciprocal at every extended real, so each region's result array is the reference's stage, layer after layer; the
  fused result is the same combination of the three final item arrays by the same softmax weights.  No finiteness of the
  inputs is used.  The ideal pass rewrote nothing, so the preservation conjunct is trivial; the three frames are the
  generated frame theorems and the reference's generated run with its results dropped.
-/
import proofs.«128317_j60687887892780_2_alg».proof.Defs
import proofs.«128317_j60687887892780_2_alg».proof.Proof.Gen.Kernel
import proofs.«128317_j60687887892780_2_alg».proof.Proof.Gen.Kernel.Skeleton
import proofs.«128317_j60687887892780_2_alg».proof.Proof.Gen.Kernel.Launch
import proofs.«128317_j60687887892780_2_alg».proof.Proof.Gen.Kernel.Points
import proofs.«128317_j60687887892780_2_alg».proof.Proof.Gen.Kernel.Frame
import proofs.«128317_j60687887892780_2_alg».proof.Proof.Gen.KernelIdeal
import proofs.«128317_j60687887892780_2_alg».proof.Proof.Gen.KernelIdeal.Skeleton
import proofs.«128317_j60687887892780_2_alg».proof.Proof.Gen.KernelIdeal.Launch
import proofs.«128317_j60687887892780_2_alg».proof.Proof.Gen.KernelIdeal.Points
import proofs.«128317_j60687887892780_2_alg».proof.Proof.Gen.KernelIdeal.Frame
import proofs.«128317_j60687887892780_2_alg».proof.Proof.Gen.ReferenceIdeal
import proofs.«128317_j60687887892780_2_alg».proof.Proof.Gen.Pre_finite_inputs
import proofs.«128317_j60687887892780_2_alg».proof.Proof.RefStages
import proofs.«128317_j60687887892780_2_alg».proof.Proof.RefRunC
import proofs.«128317_j60687887892780_2_alg».proof.Proof.KRun
import proofs.«128317_j60687887892780_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the five results dropped. -/
theorem frame_ri : Cert.frame_ReferenceIdeal := fun m ρ _ =>
  (θ_run Cert.ReferenceIdeal.defs _ _).mono (fun _ h c => (h c).2.2.2.2.2) (Cert.ReferenceIdeal.Value.run m ρ)

/-- Run from memories agreeing on the arguments, the two idealized programs end with equal results: the kernel program's
    five result arrays are what the last boundary of its run holds, and each of those is the reference's stage of the
    same name at the same arguments. -/
theorem algebraic : Cert.algebraic_KernelIdeal_ReferenceIdeal := by
  intro m ρ m' ρ' _ hagree
  refine ⟨fun c => Cert.KernelIdeal.Gen.W24 m ρ c (Proc.devRef .tc Cert.KernelIdeal.main_v358),
    fun c => Cert.KernelIdeal.Gen.W24 m ρ c (Proc.devRef .tc Cert.KernelIdeal.main_v157),
    fun c => Cert.KernelIdeal.Gen.W24 m ρ c (Proc.devRef .tc Cert.KernelIdeal.main_v230),
    fun c => Cert.KernelIdeal.Gen.W24 m ρ c (Proc.devRef .tc Cert.KernelIdeal.main_v346),
    fun c => Cert.KernelIdeal.Gen.W24 m ρ c (Proc.devRef .tc Cert.KernelIdeal.main_v356),
    Cert.KernelIdeal.Val.run_vals m ρ, ?_⟩
  refine (θ_run Cert.ReferenceIdeal.defs _ _).mono (fun _ h c => ?_) (Cert.ReferenceIdeal.Value.run m' ρ')
  obtain ⟨h0, h1, h2, h3, h4, hargs⟩ := h c
  obtain ⟨a0, a1, a2, a3, a4, a5, a6, a7, a8, a9, a10, a11, a12, a13, a14, a15, a16, a17⟩ := hagree c
  refine ⟨h0.trans ?_, h1.trans ?_, h2.trans ?_, h3.trans ?_, h4.trans ?_, hargs⟩
  · rw [a0, a1, a2, a3, a4, a5, a6, a7, a8, a9, a10, a11, a12, a13, a14, a15, a16, a17]
    exact (Cert.KernelIdeal.Val.K11 m ρ c).symm
  · rw [a0, a1, a3, a4, a5, a6, a7, a15]
    exact (Cert.KernelIdeal.Val.R1 m ρ c).symm
  · rw [a0, a3, a4, a8, a9, a10, a16]
    exact (Cert.KernelIdeal.Val.R2 m ρ c).symm
  · rw [a0, a2, a3, a4, a11, a12, a13, a17]
    exact (Cert.KernelIdeal.Val.R3 m ρ c).symm
  · rw [a14]
    exact (Cert.KernelIdeal.Val.R4 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
